-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S2x1600000 : Shape := ⟨2, ![2, 1600000]⟩
abbrev S64x15 : Shape := ⟨2, ![64, 15]⟩
abbrev S64 : Shape := ⟨1, ![64]⟩
abbrev S32x64 : Shape := ⟨2, ![32, 64]⟩
abbrev S32 : Shape := ⟨1, ![32]⟩
abbrev S2x32 : Shape := ⟨2, ![2, 32]⟩
abbrev S2 : Shape := ⟨1, ![2]⟩
abbrev S_ : Shape := ⟨0, ![]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S64x15 : S_.BroadcastsInDim S64x15 (![] : Fin 0 → Fin S64x15.rank)
  reducesTo_S64x15_S_d0_1 : S64x15.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S2x32 .f32) (main_arg13 : FVec F S2 .f32) (main_arg14 : FVec F S2x32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S2x32 .f32 := Host.absf main_arg12
  let main_cst_20 : FVec F S_ .f32 := constant S_ .f32 0x7F800000#32
  let main_v55 : FVec F S2x32 .f32 := broadcastInDim S2x32 ![] bcast_S_S2x32 main_cst_20
  let main_v56 : IVec S2x32 1 := cmpf .olt main_v54 main_v55
  let main_c_21 : IVec S_ 1 := constantI S_ 1 1#1
  let main_v57 : IVec S_ 1 := (fun x v => Host.reduce IntOp.andi x v reducesTo_S2x32_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S2x32 .f32 := Host.absf main_arg14
  let main_cst_24 : FVec F S_ .f32 := constant S_ .f32 0x7F800000#32
  let main_v65 : FVec F S2x32 .f32 := broadcastInDim S2x32 ![] bcast_S_S2x32 main_cst_24
  let main_v66 : IVec S2x32 1 := cmpf .olt main_v64 main_v65
  let main_c_25 : IVec S_ 1 := constantI S_ 1 1#1
  let main_v67 : IVec S_ 1 := (fun x v => Host.reduce IntOp.andi x v reducesTo_S2x32_S_d0_1 h_S_) main_v66 main_c_25
  fn_part4 (F := F) main_v63 main_v67

def fn_part2 {F : FTy → Type} [FloatOps F] (main_arg8 : FVec F S32 .f32) (main_arg9 : FVec F S32x64 .f32) (main_arg10 : FVec F S32 .f32) (main_arg11 : FVec F S32 .f32) (main_arg12 : FVec F S2x32 .f32) (main_arg13 : FVec F S2 .f32) (main_arg14 : FVec F S2x32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_v48 main_v49 main_v50

def fn_part1 {F : FTy → Type} [FloatOps F] (main_arg5 : FVec F S64 .f32) (main_arg6 : FVec F S64 .f32) (main_arg7 : FVec F S32x64 .f32) (main_arg8 : FVec F S32 .f32) (main_arg9 : FVec F S32x64 .f32) (main_arg10 : FVec F S32 .f32) (main_arg11 : FVec F S32 .f32) (main_arg12 : FVec F S2x32 .f32) (main_arg13 : FVec F S2 .f32) (main_arg14 : FVec F S2x32 .f32) (main_v13 : IVec S_ 1) (main_v16 : IVec S64x15 1) : IVec S_ 1 :=
  let main_c_5 : IVec S_ 1 := constantI S_ 1 1#1
  let main_v17 : IVec S_ 1 := (fun x v => Host.reduce IntOp.andi x v reducesTo_S64x15_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x15 .f32) (main_arg1 : IVec S2x1600000 32) (main_arg2 : FVec F S64x15 .f32) (main_arg3 : FVec F S64 .f32) (main_arg4 : FVec F S64x15 .f32) (main_arg5 : FVec F S64 .f32) (main_arg6 : FVec F S64 .f32) (main_arg7 : FVec F S32x64 .f32) (main_arg8 : FVec F S32 .f32) (main_arg9 : FVec F S32x64 .f32) (main_arg10 : FVec F S32 .f32) (main_arg11 : FVec F S32 .f32) (main_arg12 : FVec F S2x32 .f32) (main_arg13 : FVec F S2 .f32) (main_arg14 : FVec F S2x32 .f32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S64x15 .f32 := Host.absf main_arg2
  let main_cst_0 : FVec F S_ .f32 := constant S_ .f32 0x7F800000#32
  let main_v5 : FVec F S64x15 .f32 := broadcastInDim S64x15 ![] bcast_S_S64x15 main_cst_0
  let main_v6 : IVec S64x15 1 := cmpf .olt main_v4 main_v5
  let main_c_1 : IVec S_ 1 := constantI S_ 1 1#1
  let main_v7 : IVec S_ 1 := (fun x v => Host.reduce IntOp.andi x v reducesTo_S64x15_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x15 .f32 := Host.absf main_arg4
  let main_cst_4 : FVec F S_ .f32 := constant S_ .f32 0x7F800000#32
  let main_v15 : FVec F S64x15 .f32 := broadcastInDim S64x15 ![] bcast_S_S64x15 main_cst_4
  let main_v16 : IVec S64x15 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x15 : Shape := ⟨2, ![100000, 15]⟩
abbrev S2x1600000 : Shape := ⟨2, ![2, 1600000]⟩
abbrev S64x15 : Shape := ⟨2, ![64, 15]⟩
abbrev S64 : Shape := ⟨1, ![64]⟩
abbrev S32x64 : Shape := ⟨2, ![32, 64]⟩
abbrev S32 : Shape := ⟨1, ![32]⟩
abbrev S2x32 : Shape := ⟨2, ![2, 32]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x15 : Shape := ⟨2, ![1600000, 15]⟩
abbrev S1x64 : Shape := ⟨2, ![1, 64]⟩
abbrev S100000x64 : Shape := ⟨2, ![100000, 64]⟩
abbrev S5000x15 : Shape := ⟨2, ![5000, 15]⟩
abbrev S5000x1 : Shape := ⟨2, ![5000, 1]⟩
abbrev S5000x64 : Shape := ⟨2, ![5000, 64]⟩
abbrev S15x64 : Shape := ⟨2, ![15, 64]⟩
abbrev S1600000x64 : Shape := ⟨2, ![1600000, 64]⟩
abbrev S1x32 : Shape := ⟨2, ![1, 32]⟩
abbrev S100000x32 : Shape := ⟨2, ![100000, 32]⟩
abbrev S5000x32 : Shape := ⟨2, ![5000, 32]⟩
abbrev S64x32 : Shape := ⟨2, ![64, 32]⟩
abbrev S1600000x32 : Shape := ⟨2, ![1600000, 32]⟩
abbrev S1x2 : Shape := ⟨2, ![1, 2]⟩
abbrev S100000x2 : Shape := ⟨2, ![100000, 2]⟩
abbrev S5000x2 : Shape := ⟨2, ![5000, 2]⟩
abbrev S32x2 : Shape := ⟨2, ![32, 2]⟩
abbrev S5000 : Shape := ⟨1, ![5000]⟩

abbrev nBuf : Space → Nat
  | .hbm => 103
  | .vmem => 57
  | .smem => 0
  | _ => 0

abbrev bufTy : (tb : Table) → Fin (tcTables nBuf tb) → BufTy
  | .hbm, ⟨0, _⟩ => ⟨S100000x15, .f32⟩
  | .hbm, ⟨1, _⟩ => ⟨S2x1600000, .i32⟩
  | .hbm, ⟨2, _⟩ => ⟨S64x15, .f32⟩
  | .hbm, ⟨3, _⟩ => ⟨S64, .f32⟩
  | .hbm, ⟨4, _⟩ => ⟨S64x15, .f32⟩
  | .hbm, ⟨5, _⟩ => ⟨S64, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S32x64, .f32⟩
  | .hbm, ⟨10, _⟩ => ⟨S32, .f32⟩
  | .hbm, ⟨11, _⟩ => ⟨S32, .f32⟩
  | .hbm, ⟨12, _⟩ => ⟨S2x32, .f32⟩
  | .hbm, ⟨13, _⟩ => ⟨S2, .f32⟩
  | .hbm, ⟨14, _⟩ => ⟨S2x32, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x15, .f32⟩
  | .hbm, ⟨41, _⟩ => ⟨S_, .f32⟩
  | .hbm, ⟨42, _⟩ => ⟨S100000x15, .f32⟩
  | .hbm, ⟨43, _⟩ => ⟨S1600000x1, .i32⟩
  | .hbm, ⟨44, _⟩ => ⟨S100000x15, .f32⟩
  | .hbm, ⟨45, _⟩ => ⟨S1x64, .f32⟩
  | .hbm, ⟨46, _⟩ => ⟨S100000x64, .f32⟩
  | .hbm, ⟨47, _⟩ => ⟨S1x64, .f32⟩
  | .hbm, ⟨48, _⟩ => ⟨S1x64, .f32⟩
  | .hbm, ⟨49, _⟩ => ⟨S_, .f32⟩
  | .hbm, ⟨50, _⟩ => ⟨S1x64, .f32⟩
  | .hbm, ⟨51, _⟩ => ⟨S1x64, .f32⟩
  | .hbm, ⟨52, _⟩ => ⟨S_, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1x32, .f32⟩
  | .hbm, ⟨74, _⟩ => ⟨S100000x32, .f32⟩
  | .hbm, ⟨75, _⟩ => ⟨S1x32, .f32⟩
  | .hbm, ⟨76, _⟩ => ⟨S1x32, .f32⟩
  | .hbm, ⟨77, _⟩ => ⟨S_, .f32⟩
  | .hbm, ⟨78, _⟩ => ⟨S1x32, .f32⟩
  | .hbm, ⟨79, _⟩ => ⟨S1x32, .f32⟩
  | .hbm, ⟨80, _⟩ => ⟨S_, .f32⟩
  | .hbm, ⟨81, _⟩ => ⟨S1x32, .f32⟩
  | .hbm, ⟨82, _⟩ => ⟨S1x32, .f32⟩
  | .hbm, ⟨83, _⟩ => ⟨S1x32, .f32⟩
  | .hbm, ⟨84, _⟩ => ⟨S1x32, .f32⟩
  | .hbm, ⟨85, _⟩ => ⟨S1x32, .f32⟩
  | .hbm, ⟨86, _⟩ => ⟨S1x32, .f32⟩
  | .hbm, ⟨87, _⟩ => ⟨S100000x32, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x32, .f32⟩
  | .hbm, ⟨97, _⟩ => ⟨S_, .f32⟩
  | .hbm, ⟨98, _⟩ => ⟨S100000x32, .f32⟩
  | .hbm, ⟨99, _⟩ => ⟨S1600000x1, .i32⟩
  | .hbm, ⟨100, _⟩ => ⟨S100000x32, .f32⟩
  | .hbm, ⟨101, _⟩ => ⟨S1x2, .f32⟩
  | .hbm, ⟨102, _⟩ => ⟨S100000x2, .f32⟩
  | .local _ .vmem, ⟨0, _⟩ => ⟨S5000x15, .f32⟩
  | .local _ .vmem, ⟨1, _⟩ => ⟨S5000x15, .f32⟩
  | .local _ .vmem, ⟨2, _⟩ => ⟨S5000x15, .f32⟩
  | .local _ .vmem, ⟨3, _⟩ => ⟨S5000x15, .f32⟩
  | .local _ .vmem, ⟨4, _⟩ => ⟨S5000x1, .f32⟩
  | .local _ .vmem, ⟨5, _⟩ => ⟨S5000x1, .f32⟩
  | .local _ .vmem, ⟨6, _⟩ => ⟨S64x15, .f32⟩
  | .local _ .vmem, ⟨7, _⟩ => ⟨S1x64, .f32⟩
  | .local _ .vmem, ⟨8, _⟩ => ⟨S64x15, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S32x64, .f32⟩
  | .local _ .vmem, ⟨30, _⟩ => ⟨S1x32, .f32⟩
  | .local _ .vmem, ⟨31, _⟩ => ⟨S32x64, .f32⟩
  | .local _ .vmem, ⟨32, _⟩ => ⟨S5000x32, .f32⟩
  | .local _ .vmem, ⟨33, _⟩ => ⟨S5000x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S5000x32, .f32⟩
  | .local _ .vmem, ⟨39, _⟩ => ⟨S5000x32, .f32⟩
  | .local _ .vmem, ⟨40, _⟩ => ⟨S1x32, .f32⟩
  | .local _ .vmem, ⟨41, _⟩ => ⟨S1x32, .f32⟩
  | .local _ .vmem, ⟨42, _⟩ => ⟨S1x32, .f32⟩
  | .local _ .vmem, ⟨43, _⟩ => ⟨S1x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S5000x32, .f32⟩
  | .local _ .vmem, ⟨48, _⟩ => ⟨S5000x32, .f32⟩
  | .local _ .vmem, ⟨49, _⟩ => ⟨S5000x32, .f32⟩
  | .local _ .vmem, ⟨50, _⟩ => ⟨S5000x1, .f32⟩
  | .local _ .vmem, ⟨51, _⟩ => ⟨S5000x1, .f32⟩
  | .local _ .vmem, ⟨52, _⟩ => ⟨S2x32, .f32⟩
  | .local _ .vmem, ⟨53, _⟩ => ⟨S1x2, .f32⟩
  | .local _ .vmem, ⟨54, _⟩ => ⟨S2x32, .f32⟩
  | .local _ .vmem, ⟨55, _⟩ => ⟨S5000x2, .f32⟩
  | .local _ .vmem, ⟨56, _⟩ => ⟨S5000x2, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_v24_2 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45_0 : Ref sig .tc := ⟨.hbm, 74, rfl⟩
abbrev main_v45_1 : Ref sig .tc := ⟨.hbm, 75, rfl⟩
abbrev main_v45_2 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_12 : Ref sig .tc := ⟨.hbm, 88, rfl⟩
abbrev main_v55 : Ref sig .tc := ⟨.hbm, 89, rfl⟩
abbrev main_v56 : Ref sig .tc := ⟨.hbm, 90, rfl⟩
abbrev main_c_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v37 : BitVec 1 := Scalar.cmpi .eq arg0 c19_i32
  let v38 : BitVec 32 := Scalar.extui v37
  let c0_i32_25 : BitVec 32 := 0#32
  let v39 : BitVec 1 := Scalar.cmpi .ne v38 c0_i32_25
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_25 : BitVec 32 := 0#32
  let v40 : BitVec 1 := Scalar.cmpi .ne v39 c0_i32_25
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S2x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x2 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x15 : S_.BroadcastsInDim S100000x15 (![] : Fin 0 → Fin S100000x15.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x15_S5000x15_0_0 : ∀ a, (![0, 0] : Fin 2 → Nat) a + S5000x15.size a ≤ S5000x15.size a
  h_S5000x15 : 0 < S5000x15.numel
  shapeCasts_S5000x15_S5000x15 : S5000x15.ShapeCasts S5000x15
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x15 : S5000x1.Broadcasts S5000x15
  inb_S64x15_S64x15_0_0 : ∀ a, (![0, 0] : Fin 2 → Nat) a + S64x15.size a ≤ S64x15.size a
  h_S64x15 : 0 < S64x15.numel
  transposes_S64x15_p1_0_S15x64 : S64x15.Transposes [1, 0] S15x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  bcast_S_S100000x64 : S_.BroadcastsInDim S100000x64 (![] : Fin 0 → Fin S100000x64.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x64 : S5000x1.Broadcasts S5000x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  bcast_S_S1x32 : S_.BroadcastsInDim S1x32 (![] : Fin 0 → Fin S1x32.rank)
  shapeCasts_S5000x32_S5000x32 : S5000x32.ShapeCasts S5000x32
  bcast_S_S100000x32 : S_.BroadcastsInDim S100000x32 (![] : Fin 0 → Fin S100000x32.rank)
  shapeCasts_S2_S1x2 : S2.ShapeCasts S1x2
  broadcasts_S5000x1_S5000x32 : S5000x1.Broadcasts S5000x32
  inb_S2x32_S2x32_0_0 : ∀ a, (![0, 0] : Fin 2 → Nat) a + S2x32.size a ≤ S2x32.size a
  h_S2x32 : 0 < S2x32.numel
  transposes_S2x32_p1_0_S32x2 : S2x32.Transposes [1, 0] S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x15_S1600000x1_S1600000x15_1_0_n_n_0_1_115_wf : GatherDims.WF S100000x15 S1600000x1 S1600000x15 [1] [0] [] [0] [] 1 ![1, 15]
  scatter_S100000x15_S1600000x1_S1600000x15_1_0_0_1_wf : ScatterDims.WF S100000x15 S1600000x1 S1600000x15 [1] [0] [0] 1
  dot_S5000x15_S15x64_S5000x64_1_0_0_1_n_n_wf : DotDims.WF S5000x15 S15x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x15.size a ≤ S100000x15.size a
  hwx0_0 : ∀ i : grid0.Coords, EltTy.bits .f32 = 32 ∨ (Rect.block (s := S100000x15) S5000x15.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x15.size a ≤ S100000x15.size a
  hwx0_1 : ∀ i : grid0.Coords, EltTy.bits .f32 = 32 ∨ (Rect.block (s := S100000x15) S5000x15.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x15.size a ≤ S64x15.size a
  hwx0_3 : ∀ i : grid0.Coords, EltTy.bits .f32 = 32 ∨ (Rect.block (s := S64x15) S64x15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x15.size a ≤ S64x15.size a
  hwx0_5 : ∀ i : grid0.Coords, EltTy.bits .f32 = 32 ∨ (Rect.block (s := S64x15) S64x15.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .f32 = 32 ∨ (Rect.block (s := S32x64) S32x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x32.size a ≤ S100000x32.size a
  hwx2_6 : ∀ i : grid2.Coords, EltTy.bits .f32 = 32 ∨ (Rect.block (s := S100000x32) S5000x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x32.size a ≤ S100000x32.size a
  hwx4_1 : ∀ i : grid4.Coords, EltTy.bits .f32 = 32 ∨ (Rect.block (s := S100000x32) S5000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x32.size a ≤ S2x32.size a
  hwx4_3 : ∀ i : grid4.Coords, EltTy.bits .f32 = 32 ∨ (Rect.block (s := S2x32) S2x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2x32.size a ≤ S2x32.size a
  hwx4_5 : ∀ i : grid4.Coords, EltTy.bits .f32 = 32 ∨ (Rect.block (s := S2x32) S2x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x2.size a ≤ S100000x2.size a
  hwx4_6 : ∀ i : grid4.Coords, EltTy.bits .f32 = 32 ∨ (Rect.block (s := S100000x2) S5000x2.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x15_S1600000x1_S1600000x15_1_0_n_n_0_1_115 : GatherDims S100000x15 S1600000x1 S1600000x15 where
  offsetDims := [1]
  collapsedSliceDims := [0]
  operandBatchingDims := []
  startIndicesBatchingDims := []
  startIndexMap := [0]
  indexVectorDim := 1
  sliceSizes := ![1, 15]
  wf := gather_S100000x15_S1600000x1_S1600000x15_1_0_n_n_0_1_115_wf
def scatter_S100000x15_S1600000x1_S1600000x15_1_0_0_1 : ScatterDims S100000x15 S1600000x1 S1600000x15 where
  updateWindowDims := [1]
  insertedWindowDims := [0]
  scatterDimsToOperandDims := [0]
  indexVectorDim := 1
  wf := scatter_S100000x15_S1600000x1_S1600000x15_1_0_0_1_wf
def dot_S5000x15_S15x64_S5000x64_1_0_0_1_n_n : DotDims S5000x15 S15x64 S5000x64 where
  lhsContracting := [1]
  rhsContracting := [0]
  lhsNonContracting := [0]
  rhsNonContracting := [1]
  lhsBatch := []
  rhsBatch := []
  wf := dot_S5000x15_S15x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x15.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x15.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v24_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45_0) S5000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45_1) S1x32.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45_2) S1x32.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v45_0) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S2x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S2x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S5000x2.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x15 : Shape := ⟨2, ![100000, 15]⟩
abbrev S2x1600000 : Shape := ⟨2, ![2, 1600000]⟩
abbrev S64x15 : Shape := ⟨2, ![64, 15]⟩
abbrev S64 : Shape := ⟨1, ![64]⟩
abbrev S32x64 : Shape := ⟨2, ![32, 64]⟩
abbrev S32 : Shape := ⟨1, ![32]⟩
abbrev S2x32 : Shape := ⟨2, ![2, 32]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x15 : Shape := ⟨2, ![1600000, 15]⟩
abbrev S100000 : Shape := ⟨1, ![100000]⟩
abbrev S100000x1 : Shape := ⟨2, ![100000, 1]⟩
abbrev S15x64 : Shape := ⟨2, ![15, 64]⟩
abbrev S100000x64 : Shape := ⟨2, ![100000, 64]⟩
abbrev S1x64 : Shape := ⟨2, ![1, 64]⟩
abbrev S1600000x64 : Shape := ⟨2, ![1600000, 64]⟩
abbrev S64x32 : Shape := ⟨2, ![64, 32]⟩
abbrev S100000x32 : Shape := ⟨2, ![100000, 32]⟩
abbrev S1x32 : Shape := ⟨2, ![1, 32]⟩
abbrev S1600000x32 : Shape := ⟨2, ![1600000, 32]⟩
abbrev S32x2 : Shape := ⟨2, ![32, 2]⟩
abbrev S100000x2 : Shape := ⟨2, ![100000, 2]⟩
abbrev S1x2 : Shape := ⟨2, ![1, 2]⟩

abbrev nBuf : Space → Nat
  | .hbm => 227
  | .vmem => 0
  | .smem => 0
  | _ => 0

abbrev hbmTy0_0 (i : Nat) : BufTy := match i % 128 with
  | 0 => ⟨S100000x15, .f32⟩
  | 1 => ⟨S2x1600000, .i32⟩
  | 2 => ⟨S64x15, .f32⟩
  | 3 => ⟨S64, .f32⟩
  | 4 => ⟨S64x15, .f32⟩
  | 5 => ⟨S64, .f32⟩
  | 6 => ⟨S64, .f32⟩
  | 7 => ⟨S32x64, .f32⟩
  | 8 => ⟨S32, .f32⟩
  | 9 => ⟨S32x64, .f32⟩
  | 10 => ⟨S32, .f32⟩
  | 11 => ⟨S32, .f32⟩
  | 12 => ⟨S2x32, .f32⟩
  | 13 => ⟨S2, .f32⟩
  | 14 => ⟨S2x32, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x15, .f32⟩
  | 28 => ⟨S_, .f32⟩
  | 29 => ⟨S100000x15, .f32⟩
  | 30 => ⟨S1600000x1, .i32⟩
  | 31 => ⟨S100000x15, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x15, .f32⟩
  | 43 => ⟨S100000x15, .f32⟩
  | 44 => ⟨S15x64, .f32⟩
  | 45 => ⟨S100000x64, .f32⟩
  | 46 => ⟨S1x64, .f32⟩
  | 47 => ⟨S100000x64, .f32⟩
  | 48 => ⟨S100000x64, .f32⟩
  | 49 => ⟨S15x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S_, .f32⟩
  | 113 => ⟨S1600000, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x64, .f32⟩
  | 123 => ⟨S100000x64, .f32⟩
  | 124 => ⟨S64x32, .f32⟩
  | 125 => ⟨S100000x32, .f32⟩
  | 126 => ⟨S1x32, .f32⟩
  | 127 => ⟨S100000x32, .f32⟩
  | _ => ⟨S100000x15, .f32⟩

abbrev hbmTy0_1 (i : Nat) : BufTy := match i % 128 with
  | 0 => ⟨S100000x32, .f32⟩
  | 1 => ⟨S64x32, .f32⟩
  | 2 => ⟨S100000x32, .f32⟩
  | 3 => ⟨S100000x32, .f32⟩
  | 4 => ⟨S_, .f32⟩
  | 5 => ⟨S32, .f32⟩
  | 6 => ⟨S_, .f32⟩
  | 7 => ⟨S32, .f32⟩
  | 8 => ⟨S32, .f32⟩
  | 9 => ⟨S_, .i32⟩
  | 10 => ⟨S_, .f32⟩
  | 11 => ⟨S32, .f32⟩
  | 12 => ⟨S1x32, .f32⟩
  | 13 => ⟨S_, .f32⟩
  | 14 => ⟨S1x32, .f32⟩
  | 15 => ⟨S1x32, .f32⟩
  | 16 => ⟨S100000x32, .f32⟩
  | 17 => ⟨S100000x32, .f32⟩
  | 18 => ⟨S100000x32, .f32⟩
  | 19 => ⟨S_, .f32⟩
  | 20 => ⟨S_, .f32⟩
  | 21 => ⟨S_, .f32⟩
  | 22 => ⟨S_, .f32⟩
  | 23 => ⟨S32, .f32⟩
  | 24 => ⟨S32, .f32⟩
  | 25 => ⟨S32, .f32⟩
  | 26 => ⟨S_, .f32⟩
  | 27 => ⟨S_, .i1⟩
  | 28 => ⟨S_, .f32⟩
  | 29 => ⟨S_, .f32⟩
  | 30 => ⟨S32, .f32⟩
  | 31 => ⟨S32, .f32⟩
  | 32 => ⟨S1x32, .f32⟩
  | 33 => ⟨S100000x32, .f32⟩
  | 34 => ⟨S100000x32, .f32⟩
  | 35 => ⟨S_, .f32⟩
  | 36 => ⟨S32, .f32⟩
  | 37 => ⟨S32, .f32⟩
  | 38 => ⟨S32, .f32⟩
  | 39 => ⟨S1x32, .f32⟩
  | 40 => ⟨S100000x32, .f32⟩
  | 41 => ⟨S100000x32, .f32⟩
  | 42 => ⟨S1x32, .f32⟩
  | 43 => ⟨S100000x32, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S_, .f32⟩
  | 61 => ⟨S100000x32, .f32⟩
  | 62 => ⟨S1600000x1, .i32⟩
  | 63 => ⟨S100000x32, .f32⟩
  | 64 => ⟨S_, .f32⟩
  | 65 => ⟨S1600000, .f32⟩
  | 66 => ⟨S_, .f32⟩
  | 67 => ⟨S100000, .f32⟩
  | 68 => ⟨S1600000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x32, .f32⟩
  | 75 => ⟨S100000x32, .f32⟩
  | 76 => ⟨S32x2, .f32⟩
  | 77 => ⟨S100000x2, .f32⟩
  | 78 => ⟨S1x2, .f32⟩
  | 79 => ⟨S100000x2, .f32⟩
  | 80 => ⟨S100000x2, .f32⟩
  | 81 => ⟨S32x2, .f32⟩
  | 82 => ⟨S100000x2, .f32⟩
  | 83 => ⟨S100000x2, .f32⟩
  | 84 => ⟨S_, .f32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x2, .f32⟩
  | 91 => ⟨S100000x2, .f32⟩
  | 92 => ⟨S100000x2, .f32⟩
  | 93 => ⟨S_, .f32⟩
  | 94 => ⟨S100000, .f32⟩
  | 95 => ⟨S100000x1, .f32⟩
  | 96 => ⟨S100000x1, .f32⟩
  | 97 => ⟨S100000x2, .f32⟩
  | 98 => ⟨S100000x2, .f32⟩
  | _ => ⟨S100000x15, .f32⟩

abbrev hbmTy (i : Nat) : BufTy := match i / 128 with
  | 0 => hbmTy0_0 i
  | 1 => hbmTy0_1 i
  | _ => ⟨S100000x15, .f32⟩

abbrev bufTy : (tb : Table) → Fin (tcTables nBuf tb) → BufTy
  | .hbm, ⟨i, _⟩ => hbmTy i
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call1_cst : Ref sig .tc := ⟨.hbm, 96, rfl⟩
abbrev main_call1_v0 : Ref sig .tc := ⟨.hbm, 97, rfl⟩
abbrev main_v50 : Ref sig .tc := ⟨.hbm, 98, rfl⟩
abbrev main_c_8 : Ref sig .tc := ⟨.hbm, 99, rfl⟩
abbrev main_v51 : Ref sig .tc := ⟨.hbm, 100, rfl⟩
abbrev main_v52 : Ref sig .tc := ⟨.hbm, 101, rfl⟩
abbrev main_c_9 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_10 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_11 : Ref sig .tc := ⟨.hbm, 112, rfl⟩
abbrev main_v61 : Ref sig .tc := ⟨.hbm, 113, rfl⟩
abbrev main_cst_12 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_13 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_14 : Ref sig .tc := ⟨.hbm, 132, rfl⟩
abbrev main_v78 : Ref sig .tc := ⟨.hbm, 133, rfl⟩
abbrev main_cst_15 : Ref sig .tc := ⟨.hbm, 134, rfl⟩
abbrev main_v79 : Ref sig .tc := ⟨.hbm, 135, rfl⟩
abbrev main_v80 : Ref sig .tc := ⟨.hbm, 136, rfl⟩
abbrev main_c_16 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_cst_3 : Ref sig .tc := ⟨.hbm, 154, rfl⟩
abbrev main_call2_v12 : Ref sig .tc := ⟨.hbm, 155, rfl⟩
abbrev main_call2_cst_4 : Ref sig .tc := ⟨.hbm, 156, rfl⟩
abbrev main_call2_call0_v0 : Ref sig .tc := ⟨.hbm, 157, rfl⟩
abbrev main_call2_call0_v1 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_cst_17 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_call3_cst : Ref sig .tc := ⟨.hbm, 176, rfl⟩
abbrev main_call3_v0 : Ref sig .tc := ⟨.hbm, 177, rfl⟩
abbrev main_v97 : Ref sig .tc := ⟨.hbm, 178, rfl⟩
abbrev main_c_18 : Ref sig .tc := ⟨.hbm, 179, rfl⟩
abbrev main_v98 : Ref sig .tc := ⟨.hbm, 180, rfl⟩
abbrev main_v99 : Ref sig .tc := ⟨.hbm, 181, rfl⟩
abbrev main_c_19 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_cst_20 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_cst_21 : Ref sig .tc := ⟨.hbm, 192, rfl⟩
abbrev main_v108 : Ref sig .tc := ⟨.hbm, 193, rfl⟩
abbrev main_cst_22 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_23 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_call4_cst : Ref sig .tc := ⟨.hbm, 212, rfl⟩
abbrev main_call4_v0 : Ref sig .tc := ⟨.hbm, 213, rfl⟩
abbrev main_call4_cst_0 : Ref sig .tc := ⟨.hbm, 214, rfl⟩
abbrev main_call4_v1 : Ref sig .tc := ⟨.hbm, 215, rfl⟩
abbrev main_call4_v2 : Ref sig .tc := ⟨.hbm, 216, rfl⟩
abbrev main_call4_v3 : Ref sig .tc := ⟨.hbm, 217, rfl⟩
abbrev main_call4_v4 : Ref sig .tc := ⟨.hbm, 218, rfl⟩
abbrev main_call4_v5 : Ref sig .tc := ⟨.hbm, 219, rfl⟩
abbrev main_call4_v6 : Ref sig .tc := ⟨.hbm, 220, rfl⟩
abbrev main_call4_cst_1 : Ref sig .tc := ⟨.hbm, 221, rfl⟩
abbrev main_call4_v7 : Ref sig .tc := ⟨.hbm, 222, rfl⟩
abbrev main_call4_v8 : Ref sig .tc := ⟨.hbm, 223, rfl⟩
abbrev main_call4_v9 : Ref sig .tc := ⟨.hbm, 224, rfl⟩
abbrev main_call4_v10 : Ref sig .tc := ⟨.hbm, 225, rfl⟩
abbrev main_v125 : Ref sig .tc := ⟨.hbm, 226, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x15 : S_.BroadcastsInDim S100000x15 (![] : Fin 0 → Fin S100000x15.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  transposes_S64x15_S15x64_1_0 : S64x15.Transposes [1, 0] S15x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S32 : S_.BroadcastsInDim S32 (![] : Fin 0 → Fin S32.rank)
  bcast_S_S1x32 : S_.BroadcastsInDim S1x32 (![] : Fin 0 → Fin S1x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S2x32_S32x2_1_0 : S2x32.Transposes [1, 0] S32x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  gather_S100000x15_S1600000x1_S1600000x15_1_0_n_n_0_1_115_wf : GatherDims.WF S100000x15 S1600000x1 S1600000x15 [1] [0] [] [0] [] 1 ![1, 15]
  scatter_S100000x15_S1600000x1_S1600000x15_1_0_0_1_wf : ScatterDims.WF S100000x15 S1600000x1 S1600000x15 [1] [0] [0] 1
  scatter_S100000_S1600000x1_S1600000_n_0_0_1_wf : ScatterDims.WF S100000 S1600000x1 S1600000 [] [0] [0] 1
  dot_S100000x15_S15x64_S100000x64_1_0_0_1_n_n_wf : DotDims.WF S100000x15 S15x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x2_S100000x2_1_0_0_1_n_n_wf : DotDims.WF S100000x32 S32x2 S100000x2 [1] [0] [0] [1] [] []

variable [Facts₀]

def gather_S100000x15_S1600000x1_S1600000x15_1_0_n_n_0_1_115 : GatherDims S100000x15 S1600000x1 S1600000x15 where
  offsetDims := [1]
  collapsedSliceDims := [0]
  operandBatchingDims := []
  startIndicesBatchingDims := []
  startIndexMap := [0]
  indexVectorDim := 1
  sliceSizes := ![1, 15]
  wf := gather_S100000x15_S1600000x1_S1600000x15_1_0_n_n_0_1_115_wf
def scatter_S100000x15_S1600000x1_S1600000x15_1_0_0_1 : ScatterDims S100000x15 S1600000x1 S1600000x15 where
  updateWindowDims := [1]
  insertedWindowDims := [0]
  scatterDimsToOperandDims := [0]
  indexVectorDim := 1
  wf := scatter_S100000x15_S1600000x1_S1600000x15_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x15_S15x64_S100000x64_1_0_0_1_n_n : DotDims S100000x15 S15x64 S100000x64 where
  lhsContracting := [1]
  rhsContracting := [0]
  lhsNonContracting := [0]
  rhsNonContracting := [1]
  lhsBatch := []
  rhsBatch := []
  wf := dot_S100000x15_S15x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KReg0Runs.lean ====
/-
  The first node-linear call (grid of 20 row tiles of 5000 nodes): what its three control cases share.
  The body resets its two running column sums at the first tile, adds each tile's column sums of the
  layer output h and of h·h to them, and copies them to the two resident one-row outputs at the last tile.
  Here: the two branch conditions in closed form over the grid, where the two resident outputs are idle,
  the staging and scratch memrefs, and the call's scoped rest opened at its two scratch rows.
-/
import proofs.«158263_j27642409517219_1_alg».proof.Proof.Gen.Kernel.Launch
import proofs.«158263_j27642409517219_1_alg».proof.Proof.Gen.Kernel.Skeleton
import proofs.«158263_j27642409517219_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the 20 tiles -/

/-- "This is the first tile": the scalar chain the body tests before resetting the running sums. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "This is the last tile": the condition under which the running sums are copied out. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the two resident outputs are idle -/

theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S5000x15 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x15 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x15 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x15 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The two scratch rows holding the running column sums of h and of h·h. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The call's untouched-scoped-buffers invariant, opened at its two scratch rows (each owned whole at some contents),
    the remaining scoped buffers left unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Regs

end
-- ==== Proof.KReg0RunA.lean ====
/-
  The first node-linear call at its FIRST tile: the body stores zeros into both running column sums, reads its six
  input blocks, stores the tile of the layer output h whole, and then replaces each (now zero) running sum by itself
  plus the tile's column sum of h, of h·h. The two resident outputs are not touched; the scratch rows may hold
  anything on entry, since they are overwritten before any value read from them is used.
-/
import proofs.«158263_j27642409517219_1_alg».proof.Proof.KReg0Runs

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__sage_linear_kernel_eq_skeleton]; unfold cc0__sage_linear_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Regs

end
-- ==== Proof.KReg0RunB.lean ====
/-
  The first node-linear call at a MIDDLE tile (neither the first nor the last): the body reads its six input
  blocks, stores the tile of the layer output h whole, and replaces each running column sum by itself plus the
  tile's column sum (of h, of h·h). The two resident outputs are not touched. What each store leaves is found
  by running the body; the lists of stored pieces are the witness.
-/
import proofs.«158263_j27642409517219_1_alg».proof.Proof.KReg0Runs

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__sage_linear_kernel_eq_skeleton]; unfold cc0__sage_linear_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Regs

end
-- ==== Proof.KReg0RunC.lean ====
/-
  The first node-linear call at its LAST tile: as at a middle tile the body stores the tile of h and adds the tile's
  column sums to the two running sums; it then copies each finished running sum into its resident one-row output,
  which is live at this tile and written back after it.
-/
import proofs.«158263_j27642409517219_1_alg».proof.Proof.KReg0Runs

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__sage_linear_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__sage_linear_kernel_eq_skeleton]; unfold cc0__sage_linear_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Regs

end
-- ==== Proof.KReg0.lean ====
/-
  The first node-linear call: its proof data and body obligation over the 20 row tiles.
  After tile t the tile's block of the layer output h holds the layer's linear part of the tile's rows; the two scratch
  rows hold the column sums of h and of h·h over tiles 0..t (reset at tile 0, carried in the region invariant from
  tile 1 on); the two resident one-row outputs are idle until the last tile, where the finished sums are copied into
  them. Three control cases: first tile, middle tiles, last tile.
-/
import proofs.«158263_j27642409517219_1_alg».proof.Proof.KReg0RunA
import proofs.«158263_j27642409517219_1_alg».proof.Proof.KReg0RunB
import proofs.«158263_j27642409517219_1_alg».proof.Proof.KReg0RunC

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every tile, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every tile, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every tile, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every tile, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every tile, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every tile, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Never-idle windows, and one staging buffer per output through which its contents are stated -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view

/-! ## What each case leaves: covers and contents -/

/-- In case A the stored pieces of the layer-output tile cover its block; what they leave, read back. -/
theorem cover0_A_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

def out0_A_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) : Vec F S5000x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- In case A the store into the running column sum covers its row; what it leaves. -/
theorem scover0_A_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

def sout0_A_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- In case A the store into the running sum of squares covers its row; what it leaves. -/
theorem scover0_A_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

def sout0_A_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- In case B the stored pieces of the layer-output tile cover its block; what they leave, read back. -/
theorem cover0_B_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

def out0_B_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S5000x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- In case B the store into the running column sum covers its row; what it leaves. -/
theorem scover0_B_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

def sout0_B_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- In case B the store into the running sum of squares covers its row; what it leaves. -/
theorem scover0_B_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

def sout0_B_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the stored pieces of the layer-output tile cover its block; what they leave, read back. -/
theorem cover0_C_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

def out0_C_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S5000x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last tile the copied running sum covers the first resident output row. -/
theorem cover0_C_7 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

def out0_C_7 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last tile the copied running sum of squares covers the second resident output row. -/
theorem cover0_C_8 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

def out0_C_8 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the store into the running column sum covers its row; what it leaves. -/
theorem scover0_C_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

def sout0_C_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- In case C the store into the running sum of squares covers its row; what it leaves. -/
theorem scover0_C_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

def sout0_C_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Tile by tile -/

/-- After a tile: the three outputs' staging buffers (the h tile, the two resident rows), then the two scratch rows. -/
abbrev Outs0 (F : FTy → Type) [FloatOps F] : Type := (Vec F S5000x64 .f32 × Vec F S1x64 .f32 × Vec F S1x64 .f32) × (Vec F S1x64 .f32 × Vec F S1x64 .f32)

theorem not_cond0_0_of_ne (t : Fin cfg0.N) (h : t.val ≠ 0) : ¬cond0_0 (grid0.coords t) := fun hc => by
  have h1 := (hcond0_0 t).mp hc
  have hN : t.val < 20 := lt_of_lt_of_eq t.isLt (show cfg0.N = 20 from N_0)
  omega
theorem cond0_0_of_eq (t : Fin cfg0.N) (h : t.val = 0) : cond0_0 (grid0.coords t) := (hcond0_0 t).mpr (by rw [h])
theorem not_cond0_1_of_eq (t : Fin cfg0.N) (h : t.val = 0) : ¬cond0_1 (grid0.coords t) := fun hc => by
  have h1 := (hcond0_1 t).mp hc
  omega

/-- The first tile: nothing is read from before it; the resident rows are idle (their entry here is a placeholder nothing consults). -/
def caseA0 (c : Dev nD) (t : Fin cfg0.N) (h0 : cond0_0 (grid0.coords t)) (h1 : ¬cond0_1 (grid0.coords t)) : Outs0 F :=
  ((out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t), VO0_7.read (Elt F) VO0_7.junk, VO0_8.read (Elt F) VO0_8.junk),
   (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t)))

/-- A middle tile, over the running sums the tile before left. -/
def caseB0 (c : Dev nD) (t : Fin cfg0.N) (h0 : ¬cond0_0 (grid0.coords t)) (h1 : ¬cond0_1 (grid0.coords t)) (prev : Vec F S1x64 .f32 × Vec F S1x64 .f32) : Outs0 F :=
  ((out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, VO0_7.read (Elt F) VO0_7.junk, VO0_8.read (Elt F) VO0_8.junk),
   (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2))

/-- The last tile, over the running sums the tile before left: the resident rows receive the finished sums. -/
def caseC0 (c : Dev nD) (t : Fin cfg0.N) (h0 : ¬cond0_0 (grid0.coords t)) (h1 : cond0_1 (grid0.coords t)) (prev : Vec F S1x64 .f32 × Vec F S1x64 .f32) : Outs0 F :=
  ((out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2),
   (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2))

/-- THE ACCUMULATION, by recursion on the tile: the case the closed forms select, a later tile over what the tile before left in the scratch rows. -/
def outsAt0 (c : Dev nD) : (n : ℕ) → n < cfg0.N → Outs0 F
  | 0, hn => caseA0 V c ⟨0, hn⟩ (cond0_0_of_eq ⟨0, hn⟩ rfl) (not_cond0_1_of_eq ⟨0, hn⟩ rfl)
  | n + 1, hn =>
    if h1 : (n + 1) % 20 = 19 then
      caseC0 V c ⟨n + 1, hn⟩ (not_cond0_0_of_ne ⟨n + 1, hn⟩ (Nat.succ_ne_zero n)) ((hcond0_1 ⟨n + 1, hn⟩).mpr h1) (outsAt0 c n (Nat.lt_of_succ_lt hn)).2
    else
      caseB0 V c ⟨n + 1, hn⟩ (not_cond0_0_of_ne ⟨n + 1, hn⟩ (Nat.succ_ne_zero n)) (fun h => h1 ((hcond0_1 ⟨n + 1, hn⟩).mp h)) (outsAt0 c n (Nat.lt_of_succ_lt hn)).2

theorem outsAt0_A (c : Dev nD) (t : Fin cfg0.N) (hz : t.val = 0) :
    outsAt0 V c t.val t.isLt = caseA0 V c t (cond0_0_of_eq t hz) (not_cond0_1_of_eq t hz) := by
  obtain ⟨n, hn⟩ := t
  cases n with
  | zero => rfl
  | succ n => exact absurd hz (Nat.succ_ne_zero n)

theorem outsAt0_B (c : Dev nD) (t : Fin cfg0.N) (hz : t.val ≠ 0) (h1 : ¬t.val % 20 = 19) :
    outsAt0 V c t.val t.isLt = caseB0 V c t (not_cond0_0_of_ne t hz) (fun h => h1 ((hcond0_1 t).mp h))
      (outsAt0 V c (t.val - 1) (Nat.lt_of_le_of_lt (Nat.sub_le _ _) t.isLt)).2 := by
  obtain ⟨n, hn⟩ := t
  cases n with
  | zero => exact absurd rfl hz
  | succ n => exact (dif_neg h1).trans rfl

theorem outsAt0_C (c : Dev nD) (t : Fin cfg0.N) (hz : t.val ≠ 0) (h1 : t.val % 20 = 19) :
    outsAt0 V c t.val t.isLt = caseC0 V c t (not_cond0_0_of_ne t hz) ((hcond0_1 t).mpr h1)
      (outsAt0 V c (t.val - 1) (Nat.lt_of_le_of_lt (Nat.sub_le _ _) t.isLt)).2 := by
  obtain ⟨n, hn⟩ := t
  cases n with
  | zero => exact absurd rfl hz
  | succ n => exact (dif_pos h1).trans rfl

/-! ## The region invariant -/

/-- Before tile 0 the scoped buffers are untouched and unknown; before a later tile the two scratch rows hold what the tile
    before left, the other scoped buffers stay unopened, the generator register is at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1.1
    | ⟨7, _⟩ => (outsAt0 V c t.val t.isLt).1.2.1
    | ⟨8, _⟩ => (outsAt0 V c t.val t.isLt).1.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1.1 := by dsimp only [dat0]
theorem after0_7 (c : Dev nD) (t : Fin cfg0.N) : (dat0 V c).after 7 t = (outsAt0 V c t.val t.isLt).1.2.1 := by dsimp only [dat0]
theorem after0_8 (c : Dev nD) (t : Fin cfg0.N) : (dat0 V c).after 8 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any tile: the inputs' memrefs hold their blocks; the closed forms say which case the tile is in; the invariant
    hands the body the two scratch rows (at anything before the first tile, at what the tile before left afterwards) and takes
    them back at this tile's contents; an idle resident row is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases hz : t.val = 0
  · have hn1 : ¬cond0_1 (grid0.coords t) := not_cond0_1_of_eq t hz
    rw [Dat.leavesExact_idle (dat0 V c) 7 t (idleAt0_7 t hn1) (noFlush0_7 t hn1), Dat.leavesExact_idle (dat0 V c) 8 t (idleAt0_8 t hn1) (noFlush0_8 t hn1)]
    rw [outsAt0_A V c t hz]
    unfold caseA0 out0_A_6 sout0_A_0 sout0_A_1; (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ (cond0_0_of_eq t hz) hn1 (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val % 20 = 19
    · rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t hz h1]
      unfold caseC0 out0_C_6 out0_C_7 out0_C_8 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (not_cond0_0_of_ne t hz) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · have hn1 : ¬cond0_1 (grid0.coords t) := fun h => h1 ((hcond0_1 t).mp h)
      rw [Dat.leavesExact_idle (dat0 V c) 7 t (idleAt0_7 t hn1) (noFlush0_7 t hn1), Dat.leavesExact_idle (dat0 V c) 8 t (idleAt0_8 t hn1) (noFlush0_8 t hn1)]
      rw [outsAt0_B V c t hz h1]
      unfold caseB0 out0_B_6 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (not_cond0_0_of_ne t hz) hn1 (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any tile but the first the invariant gives the untouched-scoped-buffers form back: the scratch rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 20 := N_0; omega)

end Cert.Kernel.Regs

end
-- ==== Proof.KReg1.lean ====
import proofs.«158263_j27642409517219_1_alg».proof.Proof.Gen.Kernel.Launch
import proofs.«158263_j27642409517219_1_alg».proof.Proof.Gen.Kernel.Skeleton
import proofs.«158263_j27642409517219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: batch normalisation followed by a rectifier, one block of 5000 rows per grid point

The region normalises a [100000, 64] array row block by row block. At grid point `t` (of 20) it reads rows
`5000 t … 5000 t + 4999` of the array `h` (window 0) and four [1, 64] rows — mean, variance, scale and shift (windows
1–4), the same row at every point — and writes the same rows of the result (window 5) as
`max ((h - mean) * rsqrt (variance + ε) * scale + shift) 0`, entry by entry. This module states, at arbitrary contents
`V` of the arrays when the region is entered, what each window's buffer holds before and after the body at a point,
and proves that the body run on buffers holding the input blocks leaves exactly that. -/

-- membership of an index in a rectangle of 5000 rows is checked one coordinate at a time
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of every buffer of the core when the region is entered
variable (V : (c : Dev nD) → (b : Ref sig .tc) → Buf (Elt F) ((c : Thread nD τ).loc b))

/-! ## The windows' blocks -/

/-- Window `w`'s block at point `t`: the part of its array, as the region finds it, that the window's index map
    selects there (rows `5000 t …` for windows 0 and 5, the whole row for windows 1–4). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether or not the pipeline fetched it there (an unfetched
    window's block index has not moved), for any proof data over the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, whether or not the pipeline fetched it there (an unfetched
    window's block index has not moved), for any proof data over the entry arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, whether or not the pipeline fetched it there (an unfetched
    window's block index has not moved), for any proof data over the entry arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point, whether or not the pipeline fetched it there (an unfetched
    window's block index has not moved), for any proof data over the entry arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point, whether or not the pipeline fetched it there (an unfetched
    window's block index has not moved), for any proof data over the entry arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S1x64 := Rect.unit (s := S1x64) ![0, 0] S1x64.size inb_S1x64_S1x64_0_0
abbrev r1_1 : Rect S5000x64 := Rect.unit (s := S5000x64) ![0, 0] S5000x64.size inb_S5000x64_S5000x64_0_0

/-! ## What the body leaves in the output window's buffer -/

/-- The output buffer after the body, as a function of the five input blocks: its one store, of the normalised and
    rectified block computed from the variance row `x2`, the block `x0`, the mean `x1`, the scale `x3` and the shift `x4`. -/
def out1_5 (x0 : Vec F S5000x64 .f32) (x1 : Vec F S1x64 .f32) (x2 : Vec F S1x64 .f32) (x3 : Vec F S1x64 .f32) (x4 : Vec F S1x64 .f32) : Vec F S5000x64 .f32 :=
  View.canon [⟨r1_1, k1_pay1 (View.ld x2 r1_0) (View.ld x0 r1_1) (View.ld x1 r1_0) (View.ld x3 r1_0) (View.ld x4 r1_0)⟩]

/-- The one store is of the whole buffer, so it covers it. -/
theorem cover1_5 (p0 : Vec F S5000x64 .f32) (y : S5000x64.Idx) :
    ∃ pc ∈ ([⟨r1_1, p0⟩] : List (View.Piece (Elt F) S5000x64 .f32)), y ∈ pc.1.set :=
  View.cover_of_tiled [⟨r1_1, p0⟩] S5000x64.size (by rfl) y

/-! ## The body's triple -/

set_option maxHeartbeats 1000000 in
/-- The body run on whole buffers, the five inputs' reading `x0 … x4` and the output's holding anything, ends with the
    inputs' as they were and the output's at `out1_5 x0 … x4`. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer still at its block and the output's at `out1_5` of the input blocks; the invariant that of a body
    which touches nothing but its buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Regs

end
-- ==== Proof.KReg2Runs.lean ====
/-
  The second node-linear call (grid of 20 row tiles of 5000 nodes): what its three control cases share.
  The body resets its two running column sums at the first tile, adds each tile's column sums of the
  layer output h and of h·h to them, and copies them to the two resident one-row outputs at the last tile.
  Here: the two branch conditions in closed form over the grid, where the two resident outputs are idle,
  the staging and scratch memrefs, and the call's scoped rest opened at its two scratch rows.
-/
import proofs.«158263_j27642409517219_1_alg».proof.Proof.Gen.Kernel.Launch
import proofs.«158263_j27642409517219_1_alg».proof.Proof.Gen.Kernel.Skeleton
import proofs.«158263_j27642409517219_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the 20 tiles -/

/-- "This is the first tile": the scalar chain the body tests before resetting the running sums. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "This is the last tile": the condition under which the running sums are copied out. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the two resident outputs are idle -/

theorem idleAt2_7 : ∀ t : Fin cfg2.N, ¬cond2_1 (grid2.coords t) → cfg2.idle 7 (grid2.coords t) = true := by decide +kernel
theorem idleAt2_8 : ∀ t : Fin cfg2.N, ¬cond2_1 (grid2.coords t) → cfg2.idle 8 (grid2.coords t) = true := by decide +kernel
theorem noFlush2_7 : ∀ t : Fin cfg2.N, ¬cond2_1 (grid2.coords t) → (cfg2.win 7).flush t = false := by decide +kernel
theorem noFlush2_8 : ∀ t : Fin cfg2.N, ¬cond2_1 (grid2.coords t) → (cfg2.win 8).flush t = false := by decide +kernel
theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

/-! ## The memrefs the body is called with -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x32 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x32 .f32 := win2_8.stage (cfg2.slots t 8)
abbrev hs2_8 (t : Fin cfg2.N) : (ms2_8 t).IsWhole := hstage2_8 ((cfg2.slots t 8).cast nbuf2_8)
/-- The two scratch rows holding the running column sums of h and of h·h. -/
abbrev scM2_0 : Memref sig .tc .vmem S1x32 .f32 := Memref.whole cc2_scratch0
abbrev scM2_1 : Memref sig .tc .vmem S1x32 .f32 := Memref.whole cc2_scratch1
abbrev VS2_0 : View sig .tc .vmem S1x32 .f32 := scM2_0.view
abbrev VS2_1 : View sig .tc .vmem S1x32 .f32 := scM2_1.view

/-- The call's untouched-scoped-buffers invariant, opened at its two scratch rows (each owned whole at some contents),
    the remaining scoped buffers left unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Regs

end
-- ==== Proof.KReg2RunA.lean ====
/-
  The second node-linear call at its FIRST tile: the body stores zeros into both running column sums, reads its six
  input blocks, stores the tile of the layer output h whole, and then replaces each (now zero) running sum by itself
  plus the tile's column sum of h, of h·h. The two resident outputs are not touched; the scratch rows may hold
  anything on entry, since they are overwritten before any value read from them is used.
-/
import proofs.«158263_j27642409517219_1_alg».proof.Proof.KReg2Runs

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) :
    Σ' (L6 : List (View.Piece (Elt F) S5000x32 .f32)) (LS0 : List (View.Piece (Elt F) S1x32 .f32)), { LS1 : List (View.Piece (Elt F) S1x32 .f32) //
      ∀ (xi7 : Vec F S1x32 .f32) (xi8 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__sage_linear_kernel_eq_skeleton]; unfold cc2__sage_linear_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Regs

end
-- ==== Proof.KReg2RunB.lean ====
/-
  The second node-linear call at a MIDDLE tile (neither the first nor the last): the body reads its six input
  blocks, stores the tile of the layer output h whole, and replaces each running column sum by itself plus the
  tile's column sum (of h, of h·h). The two resident outputs are not touched. What each store leaves is found
  by running the body; the lists of stored pieces are the witness.
-/
import proofs.«158263_j27642409517219_1_alg».proof.Proof.KReg2Runs

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) :
    Σ' (L6 : List (View.Piece (Elt F) S5000x32 .f32)) (LS0 : List (View.Piece (Elt F) S1x32 .f32)), { LS1 : List (View.Piece (Elt F) S1x32 .f32) //
      ∀ (xi7 : Vec F S1x32 .f32) (xi8 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__sage_linear_kernel_eq_skeleton]; unfold cc2__sage_linear_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Regs

end
-- ==== Proof.KReg2RunC.lean ====
/-
  The second node-linear call at its LAST tile: as at a middle tile the body stores the tile of h and adds the tile's
  column sums to the two running sums; it then copies each finished running sum into its resident one-row output,
  which is live at this tile and written back after it.
-/
import proofs.«158263_j27642409517219_1_alg».proof.Proof.KReg2Runs

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) :
    Σ' (L6 : List (View.Piece (Elt F) S5000x32 .f32)) (L7 : List (View.Piece (Elt F) S1x32 .f32)) (L8 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__sage_linear_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__sage_linear_kernel_eq_skeleton]; unfold cc2__sage_linear_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Regs

end
-- ==== Proof.KReg2.lean ====
/-
  The second node-linear call: its proof data and body obligation over the 20 row tiles.
  After tile t the tile's block of the layer output h holds the layer's linear part of the tile's rows; the two scratch
  rows hold the column sums of h and of h·h over tiles 0..t (reset at tile 0, carried in the region invariant from
  tile 1 on); the two resident one-row outputs are idle until the last tile, where the finished sums are copied into
  them. Three control cases: first tile, middle tiles, last tile.
-/
import proofs.«158263_j27642409517219_1_alg».proof.Proof.KReg2RunA
import proofs.«158263_j27642409517219_1_alg».proof.Proof.KReg2RunB
import proofs.«158263_j27642409517219_1_alg».proof.Proof.KReg2RunC

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every tile, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every tile, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every tile, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every tile, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every tile, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every tile, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## Never-idle windows, and one staging buffer per output through which its contents are stated -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel

abbrev VO2_6 : View sig .tc .vmem S5000x32 .f32 := (Memref.whole cc2_stg6_0 : Memref sig .tc .vmem S5000x32 .f32).view
abbrev VO2_7 : View sig .tc .vmem S1x32 .f32 := (Memref.whole cc2_stg7_0 : Memref sig .tc .vmem S1x32 .f32).view
abbrev VO2_8 : View sig .tc .vmem S1x32 .f32 := (Memref.whole cc2_stg8_0 : Memref sig .tc .vmem S1x32 .f32).view

/-! ## What each case leaves: covers and contents -/

/-- In case A the stored pieces of the layer-output tile cover its block; what they leave, read back. -/
theorem cover2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (y : S5000x32.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x32.size (by sl_kernel_rfl) y

def out2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) : Vec F S5000x32 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- In case A the store into the running column sum covers its row; what it leaves. -/
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (y : S1x32.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x32.size (by sl_kernel_rfl) y

def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) : Vec F S1x32 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- In case A the store into the running sum of squares covers its row; what it leaves. -/
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (y : S1x32.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x32.size (by sl_kernel_rfl) y

def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) : Vec F S1x32 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- In case B the stored pieces of the layer-output tile cover its block; what they leave, read back. -/
theorem cover2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S5000x32.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x32.size (by sl_kernel_rfl) y

def out2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S5000x32 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- In case B the store into the running column sum covers its row; what it leaves. -/
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x32.size (by sl_kernel_rfl) y

def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- In case B the store into the running sum of squares covers its row; what it leaves. -/
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x32.size (by sl_kernel_rfl) y

def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the stored pieces of the layer-output tile cover its block; what they leave, read back. -/
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S5000x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x32.size (by sl_kernel_rfl) y

def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S5000x32 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last tile the copied running sum covers the first resident output row. -/
theorem cover2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x32.size (by sl_kernel_rfl) y

def out2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last tile the copied running sum of squares covers the second resident output row. -/
theorem cover2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x32.size (by sl_kernel_rfl) y

def out2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the store into the running column sum covers its row; what it leaves. -/
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x32.size (by sl_kernel_rfl) y

def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- In case C the store into the running sum of squares covers its row; what it leaves. -/
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x32.size (by sl_kernel_rfl) y

def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Tile by tile -/

/-- After a tile: the three outputs' staging buffers (the h tile, the two resident rows), then the two scratch rows. -/
abbrev Outs2 (F : FTy → Type) [FloatOps F] : Type := (Vec F S5000x32 .f32 × Vec F S1x32 .f32 × Vec F S1x32 .f32) × (Vec F S1x32 .f32 × Vec F S1x32 .f32)

theorem not_cond2_0_of_ne (t : Fin cfg2.N) (h : t.val ≠ 0) : ¬cond2_0 (grid2.coords t) := fun hc => by
  have h1 := (hcond2_0 t).mp hc
  have hN : t.val < 20 := lt_of_lt_of_eq t.isLt (show cfg2.N = 20 from N_2)
  omega
theorem cond2_0_of_eq (t : Fin cfg2.N) (h : t.val = 0) : cond2_0 (grid2.coords t) := (hcond2_0 t).mpr (by rw [h])
theorem not_cond2_1_of_eq (t : Fin cfg2.N) (h : t.val = 0) : ¬cond2_1 (grid2.coords t) := fun hc => by
  have h1 := (hcond2_1 t).mp hc
  omega

/-- The first tile: nothing is read from before it; the resident rows are idle (their entry here is a placeholder nothing consults). -/
def caseA2 (c : Dev nD) (t : Fin cfg2.N) (h0 : cond2_0 (grid2.coords t)) (h1 : ¬cond2_1 (grid2.coords t)) : Outs2 F :=
  ((out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t), VO2_7.read (Elt F) VO2_7.junk, VO2_8.read (Elt F) VO2_8.junk),
   (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t)))

/-- A middle tile, over the running sums the tile before left. -/
def caseB2 (c : Dev nD) (t : Fin cfg2.N) (h0 : ¬cond2_0 (grid2.coords t)) (h1 : ¬cond2_1 (grid2.coords t)) (prev : Vec F S1x32 .f32 × Vec F S1x32 .f32) : Outs2 F :=
  ((out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, VO2_7.read (Elt F) VO2_7.junk, VO2_8.read (Elt F) VO2_8.junk),
   (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2))

/-- The last tile, over the running sums the tile before left: the resident rows receive the finished sums. -/
def caseC2 (c : Dev nD) (t : Fin cfg2.N) (h0 : ¬cond2_0 (grid2.coords t)) (h1 : cond2_1 (grid2.coords t)) (prev : Vec F S1x32 .f32 × Vec F S1x32 .f32) : Outs2 F :=
  ((out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2),
   (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2))

/-- THE ACCUMULATION, by recursion on the tile: the case the closed forms select, a later tile over what the tile before left in the scratch rows. -/
def outsAt2 (c : Dev nD) : (n : ℕ) → n < cfg2.N → Outs2 F
  | 0, hn => caseA2 V c ⟨0, hn⟩ (cond2_0_of_eq ⟨0, hn⟩ rfl) (not_cond2_1_of_eq ⟨0, hn⟩ rfl)
  | n + 1, hn =>
    if h1 : (n + 1) % 20 = 19 then
      caseC2 V c ⟨n + 1, hn⟩ (not_cond2_0_of_ne ⟨n + 1, hn⟩ (Nat.succ_ne_zero n)) ((hcond2_1 ⟨n + 1, hn⟩).mpr h1) (outsAt2 c n (Nat.lt_of_succ_lt hn)).2
    else
      caseB2 V c ⟨n + 1, hn⟩ (not_cond2_0_of_ne ⟨n + 1, hn⟩ (Nat.succ_ne_zero n)) (fun h => h1 ((hcond2_1 ⟨n + 1, hn⟩).mp h)) (outsAt2 c n (Nat.lt_of_succ_lt hn)).2

theorem outsAt2_A (c : Dev nD) (t : Fin cfg2.N) (hz : t.val = 0) :
    outsAt2 V c t.val t.isLt = caseA2 V c t (cond2_0_of_eq t hz) (not_cond2_1_of_eq t hz) := by
  obtain ⟨n, hn⟩ := t
  cases n with
  | zero => rfl
  | succ n => exact absurd hz (Nat.succ_ne_zero n)

theorem outsAt2_B (c : Dev nD) (t : Fin cfg2.N) (hz : t.val ≠ 0) (h1 : ¬t.val % 20 = 19) :
    outsAt2 V c t.val t.isLt = caseB2 V c t (not_cond2_0_of_ne t hz) (fun h => h1 ((hcond2_1 t).mp h))
      (outsAt2 V c (t.val - 1) (Nat.lt_of_le_of_lt (Nat.sub_le _ _) t.isLt)).2 := by
  obtain ⟨n, hn⟩ := t
  cases n with
  | zero => exact absurd rfl hz
  | succ n => exact (dif_neg h1).trans rfl

theorem outsAt2_C (c : Dev nD) (t : Fin cfg2.N) (hz : t.val ≠ 0) (h1 : t.val % 20 = 19) :
    outsAt2 V c t.val t.isLt = caseC2 V c t (not_cond2_0_of_ne t hz) ((hcond2_1 t).mpr h1)
      (outsAt2 V c (t.val - 1) (Nat.lt_of_le_of_lt (Nat.sub_le _ _) t.isLt)).2 := by
  obtain ⟨n, hn⟩ := t
  cases n with
  | zero => exact absurd rfl hz
  | succ n => exact (dif_pos h1).trans rfl

/-! ## The region invariant -/

/-- Before tile 0 the scoped buffers are untouched and unknown; before a later tile the two scratch rows hold what the tile
    before left, the other scoped buffers stay unopened, the generator register is at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1.1
    | ⟨7, _⟩ => (outsAt2 V c t.val t.isLt).1.2.1
    | ⟨8, _⟩ => (outsAt2 V c t.val t.isLt).1.2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1.1 := by dsimp only [dat2]
theorem after2_7 (c : Dev nD) (t : Fin cfg2.N) : (dat2 V c).after 7 t = (outsAt2 V c t.val t.isLt).1.2.1 := by dsimp only [dat2]
theorem after2_8 (c : Dev nD) (t : Fin cfg2.N) : (dat2 V c).after 8 t = (outsAt2 V c t.val t.isLt).1.2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
/-- The body at any tile: the inputs' memrefs hold their blocks; the closed forms say which case the tile is in; the invariant
    hands the body the two scratch rows (at anything before the first tile, at what the tile before left afterwards) and takes
    them back at this tile's contents; an idle resident row is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases hz : t.val = 0
  · have hn1 : ¬cond2_1 (grid2.coords t) := not_cond2_1_of_eq t hz
    rw [Dat.leavesExact_idle (dat2 V c) 7 t (idleAt2_7 t hn1) (noFlush2_7 t hn1), Dat.leavesExact_idle (dat2 V c) 8 t (idleAt2_8 t hn1) (noFlush2_8 t hn1)]
    rw [outsAt2_A V c t hz]
    unfold caseA2 out2_A_6 sout2_A_0 sout2_A_1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ (cond2_0_of_eq t hz) hn1 (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val % 20 = 19
    · rw [show (dat2 V c).leavesExact 7 t = owns (c : Thread nD τ) (ms2_7 t) fullShare ((dat2 V c).after 7 t) from by
        unfold Dat.leavesExact; rw [liveAt2_7 t ((hcond2_1 t).mpr h1)], after2_7]
      rw [show (dat2 V c).leavesExact 8 t = owns (c : Thread nD τ) (ms2_8 t) fullShare ((dat2 V c).after 8 t) from by
        unfold Dat.leavesExact; rw [liveAt2_8 t ((hcond2_1 t).mpr h1)], after2_8]
      rw [outsAt2_C V c t hz h1]
      unfold caseC2 out2_C_6 out2_C_7 out2_C_8 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (not_cond2_0_of_ne t hz) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · have hn1 : ¬cond2_1 (grid2.coords t) := fun h => h1 ((hcond2_1 t).mp h)
      rw [Dat.leavesExact_idle (dat2 V c) 7 t (idleAt2_7 t hn1) (noFlush2_7 t hn1), Dat.leavesExact_idle (dat2 V c) 8 t (idleAt2_8 t hn1) (noFlush2_8 t hn1)]
      rw [outsAt2_B V c t hz h1]
      unfold caseB2 out2_B_6 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (not_cond2_0_of_ne t hz) hn1 (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile but the first the invariant gives the untouched-scoped-buffers form back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.Kernel.Regs

end
-- ==== Proof.KReg3.lean ====
import proofs.«158263_j27642409517219_1_alg».proof.Proof.Gen.Kernel.Launch
import proofs.«158263_j27642409517219_1_alg».proof.Proof.Gen.Kernel.Skeleton
import proofs.«158263_j27642409517219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: batch normalisation followed by a rectifier, one block of 5000 rows per grid point

The region normalises a [100000, 32] array row block by row block. At grid point `t` (of 20) it reads rows
`5000 t … 5000 t + 4999` of the array `h` (window 0) and four [1, 32] rows — mean, variance, scale and shift (windows
1–4), the same row at every point — and writes the same rows of the result (window 5) as
`max ((h - mean) * rsqrt (variance + ε) * scale + shift) 0`, entry by entry. This module states, at arbitrary contents
`V` of the arrays when the region is entered, what each window's buffer holds before and after the body at a point,
and proves that the body run on buffers holding the input blocks leaves exactly that. -/

-- membership of an index in a rectangle of 5000 rows is checked one coordinate at a time
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of every buffer of the core when the region is entered
variable (V : (c : Dev nD) → (b : Ref sig .tc) → Buf (Elt F) ((c : Thread nD τ).loc b))

/-! ## The windows' blocks -/

/-- Window `w`'s block at point `t`: the part of its array, as the region finds it, that the window's index map
    selects there (rows `5000 t …` for windows 0 and 5, the whole row for windows 1–4). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, whether or not the pipeline fetched it there (an unfetched
    window's block index has not moved), for any proof data over the entry arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block at every point, whether or not the pipeline fetched it there (an unfetched
    window's block index has not moved), for any proof data over the entry arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block at every point, whether or not the pipeline fetched it there (an unfetched
    window's block index has not moved), for any proof data over the entry arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 holds its block at every point, whether or not the pipeline fetched it there (an unfetched
    window's block index has not moved), for any proof data over the entry arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 holds its block at every point, whether or not the pipeline fetched it there (an unfetched
    window's block index has not moved), for any proof data over the entry arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S1x32 := Rect.unit (s := S1x32) ![0, 0] S1x32.size inb_S1x32_S1x32_0_0
abbrev r3_1 : Rect S5000x32 := Rect.unit (s := S5000x32) ![0, 0] S5000x32.size inb_S5000x32_S5000x32_0_0

/-! ## What the body leaves in the output window's buffer -/

/-- The output buffer after the body, as a function of the five input blocks: its one store, of the normalised and
    rectified block computed from the variance row `x2`, the block `x0`, the mean `x1`, the scale `x3` and the shift `x4`. -/
def out3_5 (x0 : Vec F S5000x32 .f32) (x1 : Vec F S1x32 .f32) (x2 : Vec F S1x32 .f32) (x3 : Vec F S1x32 .f32) (x4 : Vec F S1x32 .f32) : Vec F S5000x32 .f32 :=
  View.canon [⟨r3_1, k3_pay1 (View.ld x2 r3_0) (View.ld x0 r3_1) (View.ld x1 r3_0) (View.ld x3 r3_0) (View.ld x4 r3_0)⟩]

/-- The one store is of the whole buffer, so it covers it. -/
theorem cover3_5 (p0 : Vec F S5000x32 .f32) (y : S5000x32.Idx) :
    ∃ pc ∈ ([⟨r3_1, p0⟩] : List (View.Piece (Elt F) S5000x32 .f32)), y ∈ pc.1.set :=
  View.cover_of_tiled [⟨r3_1, p0⟩] S5000x32.size (by rfl) y

/-! ## The body's triple -/

set_option maxHeartbeats 1000000 in
/-- The body run on whole buffers, the five inputs' reading `x0 … x4` and the output's holding anything, ends with the
    inputs' as they were and the output's at `out3_5 x0 … x4`. -/
theorem sound_kernel3 (c : Dev nD) (E : Set ℕ) (i : grid3.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer still at its block and the output's at `out3_5` of the input blocks; the invariant that of a body
    which touches nothing but its buffers; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Regs

end
-- ==== Proof.KReg4.lean ====
import proofs.«158263_j27642409517219_1_alg».proof.Proof.Gen.Kernel.Launch
import proofs.«158263_j27642409517219_1_alg».proof.Proof.Gen.Kernel.Skeleton
import proofs.«158263_j27642409517219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the last linear layer and a log-softmax over its two classes, one block of 5000 rows per grid point

At grid point `t` (of 20) the region reads rows `5000 t … 5000 t + 4999` of two [100000, 32] arrays (windows 0 and 1)
and of a [100000, 1] column (window 2), and three small arrays that are the same at every point: two [2, 32] matrices
(windows 3 and 5) and a [1, 2] row (window 4). With `x0 … x5` the blocks, it forms the [5000, 2] block
`z = (x1 * x2) x3ᵀ + x4 + x0 x5ᵀ` (the column `x2` and the row `x4` repeated along the other axis), and writes, to the same
rows of the [100000, 2] result (window 6), `z - max z - log (sum (exp (z - max z)))`, the maximum and the sum taken
along each row. This module states, at arbitrary contents `V` of the arrays when the region is entered, what each
window's buffer holds before and after the body at a point, and proves that the body run on buffers holding the
input blocks leaves exactly that. -/

-- membership of an index in a rectangle of 5000 rows is checked one coordinate at a time
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of every buffer of the core when the region is entered
variable (V : (c : Dev nD) → (b : Ref sig .tc) → Buf (Elt F) ((c : Thread nD τ).loc b))

/-! ## The windows' blocks -/

/-- Window `w`'s block at point `t`: the part of its array, as the region finds it, that the window's index map
    selects there (rows `5000 t …` for windows 0, 1, 2 and 6, the whole array for windows 3, 4 and 5). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, whether or not the pipeline fetched it there (an unfetched
    window's block index has not moved), for any proof data over the entry arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, whether or not the pipeline fetched it there (an unfetched
    window's block index has not moved), for any proof data over the entry arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, whether or not the pipeline fetched it there (an unfetched
    window's block index has not moved), for any proof data over the entry arrays whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 holds its block at every point, whether or not the pipeline fetched it there (an unfetched
    window's block index has not moved), for any proof data over the entry arrays whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 holds its block at every point, whether or not the pipeline fetched it there (an unfetched
    window's block index has not moved), for any proof data over the entry arrays whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5 holds its block at every point, whether or not the pipeline fetched it there (an unfetched
    window's block index has not moved), for any proof data over the entry arrays whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4_0 : Rect S5000x32 := Rect.unit (s := S5000x32) ![0, 0] S5000x32.size inb_S5000x32_S5000x32_0_0
abbrev r4_1 : Rect S5000x1 := Rect.unit (s := S5000x1) ![0, 0] S5000x1.size inb_S5000x1_S5000x1_0_0
abbrev r4_2 : Rect S2x32 := Rect.unit (s := S2x32) ![0, 0] S2x32.size inb_S2x32_S2x32_0_0
abbrev r4_3 : Rect S1x2 := Rect.unit (s := S1x2) ![0, 0] S1x2.size inb_S1x2_S1x2_0_0
abbrev r4_4 : Rect S5000x2 := Rect.unit (s := S5000x2) ![0, 0] S5000x2.size inb_S5000x2_S5000x2_0_0

/-! ## What the body leaves in the output window's buffer -/

/-- The output buffer after the body, as a function of the six input blocks: its one store, of the row-wise
    log-softmax of `(x1 * x2) x3ᵀ + x4 + x0 x5ᵀ`. -/
def out4_6 (x0 : Vec F S5000x32 .f32) (x1 : Vec F S5000x32 .f32) (x2 : Vec F S5000x1 .f32) (x3 : Vec F S2x32 .f32) (x4 : Vec F S1x2 .f32) (x5 : Vec F S2x32 .f32) : Vec F S5000x2 .f32 :=
  View.canon [⟨r4_4, k4_pay1 (View.ld x1 r4_0) (View.ld x2 r4_1) (View.ld x3 r4_2) (View.ld x4 r4_3) (View.ld x0 r4_0) (View.ld x5 r4_2)⟩]

/-- The one store is of the whole buffer, so it covers it. -/
theorem cover4_6 (p0 : Vec F S5000x2 .f32) (y : S5000x2.Idx) :
    ∃ pc ∈ ([⟨r4_4, p0⟩] : List (View.Piece (Elt F) S5000x2 .f32)), y ∈ pc.1.set :=
  View.cover_of_tiled [⟨r4_4, p0⟩] S5000x2.size (by rfl) y

/-! ## The body's triple -/

set_option maxHeartbeats 1000000 in
/-- The body run on whole buffers, the six inputs' reading `x0 … x5` and the output's holding anything, ends with the
    inputs' as they were and the output's at `out4_6 x0 … x5`. -/
theorem sound_kernel4 (c : Dev nD) (E : Set ℕ) (i : grid4.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S2x32 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S5000x2 .f32) (harg7 : arg7.IsWhole)
    (x0 : Vec F S5000x32 .f32) (x1 : Vec F S5000x32 .f32) (x2 : Vec F S5000x1 .f32) (x3 : Vec F S2x32 .f32) (x4 : Vec F S1x2 .f32) (x5 : Vec F S2x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__sage_logsoftmax_kernel i arg1 harg1 arg2 harg2 arg3 harg3 arg4 harg4 arg5 harg5 arg6 harg6 arg7 harg7) K := by
  simp only [cc4__sage_logsoftmax_kernel_eq_skeleton]; unfold cc4__sage_logsoftmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core `c`: the arrays as the region finds them; after the body at point `t` each
    input's buffer still at its block and the output's at `out4_6` of the input blocks; the invariant that of a body
    which touches nothing but its buffers; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Regs

end
-- ==== Proof.KRun5Fold.lean ====
import proofs.«158263_j27642409517219_1_alg».proof.Proof.KReg0
import proofs.«158263_j27642409517219_1_alg».proof.Proof.KReg1
import proofs.«158263_j27642409517219_1_alg».proof.Proof.KReg2
import proofs.«158263_j27642409517219_1_alg».proof.Proof.KReg3
import proofs.«158263_j27642409517219_1_alg».proof.Proof.KReg4
import proofs.«158263_j27642409517219_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The contents of the core's buffers between the ten items of the program

The program is five stretches of host operations, each followed by a kernel region. From the launch memory `m` the
contents of every buffer of core `c` after each item are named in turn: `W0` at launch; after a host stretch, what its
operations compute from the contents before it; after a region, the region's arrays at what its pipeline leaves — an
input array as it was, an output array at the fold of the blocks written back — and every other buffer as before.
`V1 … V10` are the same contents read at the core's own references. For each region the two facts that put its
arrays back among the other buffers are stated, then, per item, that it leaves unchanged every buffer it does not
write, and from these that each of the fifteen argument arrays holds at the end what it held at launch. -/

-- decided memberships among the program's 160 references recurse past the default depth
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After the host stretch `hostOps0`: the contents region 0 is entered with. -/
abbrev W1 : Dev nD → Valuation τ sig (Elt F) := fun c => StableHlo.after hostOps0 (W0 m ρ c)
/-- The same read at the core's own references. -/
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: the contents region 1 is entered with. -/
abbrev W3 : Dev nD → Valuation τ sig (Elt F) := fun c => StableHlo.after hostOps1 (W2 m ρ c)
/-- The same read at the core's own references. -/
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: the contents region 2 is entered with. -/
abbrev W5 : Dev nD → Valuation τ sig (Elt F) := fun c => StableHlo.after hostOps2 (W4 m ρ c)
/-- The same read at the core's own references. -/
abbrev V5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's own references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: the contents region 3 is entered with. -/
abbrev W7 : Dev nD → Valuation τ sig (Elt F) := fun c => StableHlo.after hostOps3 (W6 m ρ c)
/-- The same read at the core's own references. -/
abbrev V7 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's own references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: the contents region 4 is entered with. -/
abbrev W9 : Dev nD → Valuation τ sig (Elt F) := fun c => StableHlo.after hostOps4 (W8 m ρ c)
/-- The same read at the core's own references. -/
abbrev V9 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's own references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## What each item leaves unchanged

A host stretch changes only the buffers its operations write; a region changes only the arrays of its output
windows (an input window's array ends as it was entered, an array no window stages is not touched). -/

theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_keep (c : Dev nD) (b : Ref sig .tc) (h : b ∉ ([main_v24_0, main_v24_1, main_v24_2] : List (Ref sig .tc))) :
    W2 m ρ c (Proc.devRef .tc b) = W1 m ρ c (Proc.devRef .tc b) := by
  by_cases hb : ∃ w, Pipeline.arrRef spec0 w = b
  · obtain ⟨w, rfl⟩ := hb
    have hw : (cfg0.win w).isOut = false :=
      (by decide : ∀ w : Fin 9, Pipeline.arrRef spec0 w ∉ ([main_v24_0, main_v24_1, main_v24_2] : List (Ref sig .tc)) → (cfg0.win w).isOut = false) w h
    exact (W2_arr m ρ c w).trans (((dat0 (V1 m ρ) c).arrAt_in w hw _).trans (A_eq0 (V1 m ρ) c w))
  · exact W2_of_ne m ρ c b fun w e => hb ⟨w, e⟩

theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h
theorem W4_keep (c : Dev nD) (b : Ref sig .tc) (h : b ∉ ([main_v33] : List (Ref sig .tc))) :
    W4 m ρ c (Proc.devRef .tc b) = W3 m ρ c (Proc.devRef .tc b) := by
  by_cases hb : ∃ w, Pipeline.arrRef spec1 w = b
  · obtain ⟨w, rfl⟩ := hb
    have hw : (cfg1.win w).isOut = false :=
      (by decide : ∀ w : Fin 6, Pipeline.arrRef spec1 w ∉ ([main_v33] : List (Ref sig .tc)) → (cfg1.win w).isOut = false) w h
    exact (W4_arr m ρ c w).trans (((dat1 (V3 m ρ) c).arrAt_in w hw _).trans (A_eq1 (V3 m ρ) c w))
  · exact W4_of_ne m ρ c b fun w e => hb ⟨w, e⟩

theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h
theorem W6_keep (c : Dev nD) (b : Ref sig .tc) (h : b ∉ ([main_v45_0, main_v45_1, main_v45_2] : List (Ref sig .tc))) :
    W6 m ρ c (Proc.devRef .tc b) = W5 m ρ c (Proc.devRef .tc b) := by
  by_cases hb : ∃ w, Pipeline.arrRef spec2 w = b
  · obtain ⟨w, rfl⟩ := hb
    have hw : (cfg2.win w).isOut = false :=
      (by decide : ∀ w : Fin 9, Pipeline.arrRef spec2 w ∉ ([main_v45_0, main_v45_1, main_v45_2] : List (Ref sig .tc)) → (cfg2.win w).isOut = false) w h
    exact (W6_arr m ρ c w).trans (((dat2 (V5 m ρ) c).arrAt_in w hw _).trans (A_eq2 (V5 m ρ) c w))
  · exact W6_of_ne m ρ c b fun w e => hb ⟨w, e⟩

theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h
theorem W8_keep (c : Dev nD) (b : Ref sig .tc) (h : b ∉ ([main_v54] : List (Ref sig .tc))) :
    W8 m ρ c (Proc.devRef .tc b) = W7 m ρ c (Proc.devRef .tc b) := by
  by_cases hb : ∃ w, Pipeline.arrRef spec3 w = b
  · obtain ⟨w, rfl⟩ := hb
    have hw : (cfg3.win w).isOut = false :=
      (by decide : ∀ w : Fin 6, Pipeline.arrRef spec3 w ∉ ([main_v54] : List (Ref sig .tc)) → (cfg3.win w).isOut = false) w h
    exact (W8_arr m ρ c w).trans (((dat3 (V7 m ρ) c).arrAt_in w hw _).trans (A_eq3 (V7 m ρ) c w))
  · exact W8_of_ne m ρ c b fun w e => hb ⟨w, e⟩

theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h
theorem W10_keep (c : Dev nD) (b : Ref sig .tc) (h : b ∉ ([main_v66] : List (Ref sig .tc))) :
    W10 m ρ c (Proc.devRef .tc b) = W9 m ρ c (Proc.devRef .tc b) := by
  by_cases hb : ∃ w, Pipeline.arrRef spec4 w = b
  · obtain ⟨w, rfl⟩ := hb
    have hw : (cfg4.win w).isOut = false :=
      (by decide : ∀ w : Fin 7, Pipeline.arrRef spec4 w ∉ ([main_v66] : List (Ref sig .tc)) → (cfg4.win w).isOut = false) w h
    exact (W10_arr m ρ c w).trans (((dat4 (V9 m ρ) c).arrAt_in w hw _).trans (A_eq4 (V9 m ρ) c w))
  · exact W10_of_ne m ρ c b fun w e => hb ⟨w, e⟩

/-! ## The arguments end as launched: no host operation writes one and no region has one as an output -/

theorem W10_main_arg0 (c : Dev nD) : W10 m ρ c (Proc.devRef .tc main_arg0) = m ((c : Thread nD τ).loc main_arg0) :=
  (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl
theorem W10_main_arg1 (c : Dev nD) : W10 m ρ c (Proc.devRef .tc main_arg1) = m ((c : Thread nD τ).loc main_arg1) :=
  (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl
theorem W10_main_arg2 (c : Dev nD) : W10 m ρ c (Proc.devRef .tc main_arg2) = m ((c : Thread nD τ).loc main_arg2) :=
  (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl
theorem W10_main_arg3 (c : Dev nD) : W10 m ρ c (Proc.devRef .tc main_arg3) = m ((c : Thread nD τ).loc main_arg3) :=
  (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl
theorem W10_main_arg4 (c : Dev nD) : W10 m ρ c (Proc.devRef .tc main_arg4) = m ((c : Thread nD τ).loc main_arg4) :=
  (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl
theorem W10_main_arg5 (c : Dev nD) : W10 m ρ c (Proc.devRef .tc main_arg5) = m ((c : Thread nD τ).loc main_arg5) :=
  (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl
theorem W10_main_arg6 (c : Dev nD) : W10 m ρ c (Proc.devRef .tc main_arg6) = m ((c : Thread nD τ).loc main_arg6) :=
  (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl
theorem W10_main_arg7 (c : Dev nD) : W10 m ρ c (Proc.devRef .tc main_arg7) = m ((c : Thread nD τ).loc main_arg7) :=
  (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl
theorem W10_main_arg8 (c : Dev nD) : W10 m ρ c (Proc.devRef .tc main_arg8) = m ((c : Thread nD τ).loc main_arg8) :=
  (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl
theorem W10_main_arg9 (c : Dev nD) : W10 m ρ c (Proc.devRef .tc main_arg9) = m ((c : Thread nD τ).loc main_arg9) :=
  (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl
theorem W10_main_arg10 (c : Dev nD) : W10 m ρ c (Proc.devRef .tc main_arg10) = m ((c : Thread nD τ).loc main_arg10) :=
  (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans rfl
theorem W10_main_arg11 (c : Dev nD) : W10 m ρ c (Proc.devRef .tc main_arg11) = m ((c : Thread nD τ).loc main_arg11) :=
  (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans rfl
theorem W10_main_arg12 (c : Dev nD) : W10 m ρ c (Proc.devRef .tc main_arg12) = m ((c : Thread nD τ).loc main_arg12) :=
  (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans rfl
theorem W10_main_arg13 (c : Dev nD) : W10 m ρ c (Proc.devRef .tc main_arg13) = m ((c : Thread nD τ).loc main_arg13) :=
  (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans rfl
theorem W10_main_arg14 (c : Dev nD) : W10 m ρ c (Proc.devRef .tc main_arg14) = m ((c : Thread nD τ).loc main_arg14) :=
  (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans rfl

end Cert.Kernel.Regs

end
-- ==== Proof.KRun5Segs.lean ====
import proofs.«158263_j27642409517219_1_alg».proof.Proof.KRun5Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The five kernel regions as items of the program's run

Between two items of the program a core's thread state holds every unscoped buffer at the contents named for that
point (`W0 … W10`) beside the generator register and the fact that the core owes nothing. This module gives the
family of the five pipelines' proof data, each at the contents its region is entered with, and for each region the
record that takes the thread state before it to the one after it: its arrays are split out of the unscoped buffers,
the pipeline runs under its body obligation, and the arrays are put back at their final contents. -/

-- decided memberships among the program's 160 references recurse past the default depth
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as an item over the unscoped buffers from the contents `W`, `R` riding along: it ends with them at
    what the operations compute from `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes: every unscoped buffer at the last contents `W10`, the generator
    register at some state. -/
abbrev Tₙ (c : Dev nD) : sProp 𝕄 := iprop(StableHlo.held (c : Thread nD τ) (Pipeline.ucRefs τ sig) (W10 m ρ c) ∗ ∃ r, prngReg c r)

/-! ## The regions as items -/

-- a library lemma stated over the pinned configuration of pipeline 0 meets the printed one only when unification may
-- unfold plain definitions in a metavariable's type
set_option backward.isDefEq.respectTransparency.types false in
/-- Region 0 over the thread state: entered with every unscoped buffer at `W1`, left with them at `W2`. Its arrays
    are split out of the unscoped buffers at entry and put back at their final contents at exit; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 1 meets the printed one only when unification may
-- unfold plain definitions in a metavariable's type
set_option backward.isDefEq.respectTransparency.types false in
/-- Region 1 over the thread state: entered with every unscoped buffer at `W3`, left with them at `W4`. Its arrays
    are split out of the unscoped buffers at entry and put back at their final contents at exit; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 2 meets the printed one only when unification may
-- unfold plain definitions in a metavariable's type
set_option backward.isDefEq.respectTransparency.types false in
/-- Region 2 over the thread state: entered with every unscoped buffer at `W5`, left with them at `W6`. Its arrays
    are split out of the unscoped buffers at entry and put back at their final contents at exit; the generator
    register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 3 meets the printed one only when unification may
-- unfold plain definitions in a metavariable's type
set_option backward.isDefEq.respectTransparency.types false in
/-- Region 3 over the thread state: entered with every unscoped buffer at `W7`, left with them at `W8`. Its arrays
    are split out of the unscoped buffers at entry and put back at their final contents at exit; the generator
    register goes into the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 4 meets the printed one only when unification may
-- unfold plain definitions in a metavariable's type
set_option backward.isDefEq.respectTransparency.types false in
/-- Region 4 over the thread state: entered with every unscoped buffer at `W9`, left with them at `W10`. Its arrays
    are split out of the unscoped buffers at entry and put back at their final contents at exit; the generator
    register goes into the pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Regs

end
-- ==== Proof.KRun5.lean ====
import proofs.«158263_j27642409517219_1_alg».proof.Proof.KRun5Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program: five host stretches and five kernel regions

Every weakly fair execution of the program from a memory `m` with all counters at zero terminates without a fault,
and in its final memory the result array holds what the last region's pipeline leaves in it (`V10 m ρ c main_v66`,
the last of the contents named between the items) while each of the fifteen argument arrays holds what it held at
launch. The ten items are run one after another over a thread state that holds every unscoped buffer of the core at
the contents named for that point: a host stretch takes them from one valuation to the next by what its operations
compute; a region takes its arrays out, runs its pipeline under that pipeline's body obligation, and puts them back
at their final contents. -/

-- decided memberships among the program's 160 references recurse past the default depth
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as its items, and the launch -/

/-- The ten items in order: a host item per stretch from the contents before it, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- The program is the run of its items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: from any memory with zero counters every weakly fair execution terminates, nothing faulting, and the final
    memory has the result array at what region 4 leaves in it and every argument array as launched — the launch over
    the ten items, the last thread state read against the final memory. -/
theorem run_out : θ_run defs (onTc (τ := τ) (main (F := F))) ⟨m, fun _ => 0, ρ⟩ (fun r => ∀ c : Dev nD,
      r.2.mem ((c.tc : Thread nD τ).loc main_v66) = V10 m ρ c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
        (h c _ (mem_uc main_arg0 (by decide))).trans (W10_main_arg0 m ρ c),
        (h c _ (mem_uc main_arg1 (by decide))).trans (W10_main_arg1 m ρ c),
        (h c _ (mem_uc main_arg2 (by decide))).trans (W10_main_arg2 m ρ c),
        (h c _ (mem_uc main_arg3 (by decide))).trans (W10_main_arg3 m ρ c),
        (h c _ (mem_uc main_arg4 (by decide))).trans (W10_main_arg4 m ρ c),
        (h c _ (mem_uc main_arg5 (by decide))).trans (W10_main_arg5 m ρ c),
        (h c _ (mem_uc main_arg6 (by decide))).trans (W10_main_arg6 m ρ c),
        (h c _ (mem_uc main_arg7 (by decide))).trans (W10_main_arg7 m ρ c),
        (h c _ (mem_uc main_arg8 (by decide))).trans (W10_main_arg8 m ρ c),
        (h c _ (mem_uc main_arg9 (by decide))).trans (W10_main_arg9 m ρ c),
        (h c _ (mem_uc main_arg10 (by decide))).trans (W10_main_arg10 m ρ c),
        (h c _ (mem_uc main_arg11 (by decide))).trans (W10_main_arg11 m ρ c),
        (h c _ (mem_uc main_arg12 (by decide))).trans (W10_main_arg12 m ρ c),
        (h c _ (mem_uc main_arg13 (by decide))).trans (W10_main_arg13 m ρ c),
        (h c _ (mem_uc main_arg14 (by decide))).trans (W10_main_arg14 m ρ c)⟩)

/-- The frame: the same run, keeping only that every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_out m ρ)

end Cert.Kernel.Regs

end
-- ==== Proof.Reg0Runs.lean ====
/-
  The first node-linear call (grid of 20 row tiles of 5000 nodes): what its three control cases share.
  The body resets its two running column sums at the first tile, adds each tile's column sums of the
  layer output h and of h·h to them, and copies them to the two resident one-row outputs at the last tile.
  Here: the two branch conditions in closed form over the grid, where the two resident outputs are idle,
  the staging and scratch memrefs, and the call's scoped rest opened at its two scratch rows.
-/
import proofs.«158263_j27642409517219_1_alg».proof.Proof.Gen.KernelIdeal.Launch
import proofs.«158263_j27642409517219_1_alg».proof.Proof.Gen.KernelIdeal.Skeleton
import proofs.«158263_j27642409517219_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the 20 tiles -/

/-- "This is the first tile": the scalar chain the body tests before resetting the running sums. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "This is the last tile": the condition under which the running sums are copied out. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the two resident outputs are idle -/

theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S5000x15 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x15 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x15 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x15 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The two scratch rows holding the running column sums of h and of h·h. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The call's untouched-scoped-buffers invariant, opened at its two scratch rows (each owned whole at some contents),
    the remaining scoped buffers left unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Regs

end
-- ==== Proof.Reg0RunA.lean ====
/-
  The first node-linear call at its FIRST tile: the body stores zeros into both running column sums, reads its six
  input blocks, stores the tile of the layer output h whole, and then replaces each (now zero) running sum by itself
  plus the tile's column sum of h, of h·h. The two resident outputs are not touched; the scratch rows may hold
  anything on entry, since they are overwritten before any value read from them is used.
-/
import proofs.«158263_j27642409517219_1_alg».proof.Proof.Reg0Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__sage_linear_kernel_eq_skeleton]; unfold cc0__sage_linear_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Regs

end
-- ==== Proof.Reg0RunB.lean ====
/-
  The first node-linear call at a MIDDLE tile (neither the first nor the last): the body reads its six input
  blocks, stores the tile of the layer output h whole, and replaces each running column sum by itself plus the
  tile's column sum (of h, of h·h). The two resident outputs are not touched. What each store leaves is found
  by running the body; the lists of stored pieces are the witness.
-/
import proofs.«158263_j27642409517219_1_alg».proof.Proof.Reg0Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__sage_linear_kernel_eq_skeleton]; unfold cc0__sage_linear_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Regs

end
-- ==== Proof.Reg0RunC.lean ====
/-
  The first node-linear call at its LAST tile: as at a middle tile the body stores the tile of h and adds the tile's
  column sums to the two running sums; it then copies each finished running sum into its resident one-row output,
  which is live at this tile and written back after it.
-/
import proofs.«158263_j27642409517219_1_alg».proof.Proof.Reg0Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__sage_linear_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__sage_linear_kernel_eq_skeleton]; unfold cc0__sage_linear_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Regs

end
-- ==== Proof.Reg0.lean ====
/-
  The first node-linear call: its proof data and body obligation over the 20 row tiles.
  After tile t the tile's block of the layer output h holds the layer's linear part of the tile's rows; the two scratch
  rows hold the column sums of h and of h·h over tiles 0..t (reset at tile 0, carried in the region invariant from
  tile 1 on); the two resident one-row outputs are idle until the last tile, where the finished sums are copied into
  them. Three control cases: first tile, middle tiles, last tile.
-/
import proofs.«158263_j27642409517219_1_alg».proof.Proof.Reg0RunA
import proofs.«158263_j27642409517219_1_alg».proof.Proof.Reg0RunB
import proofs.«158263_j27642409517219_1_alg».proof.Proof.Reg0RunC

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every tile, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every tile, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every tile, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every tile, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every tile, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every tile, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Never-idle windows, and one staging buffer per output through which its contents are stated -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view

/-! ## What each case leaves: covers and contents -/

/-- In case A the stored pieces of the layer-output tile cover its block; what they leave, read back. -/
theorem cover0_A_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

def out0_A_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) : Vec F S5000x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- In case A the store into the running column sum covers its row; what it leaves. -/
theorem scover0_A_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

def sout0_A_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- In case A the store into the running sum of squares covers its row; what it leaves. -/
theorem scover0_A_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

def sout0_A_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- In case B the stored pieces of the layer-output tile cover its block; what they leave, read back. -/
theorem cover0_B_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

def out0_B_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S5000x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- In case B the store into the running column sum covers its row; what it leaves. -/
theorem scover0_B_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

def sout0_B_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- In case B the store into the running sum of squares covers its row; what it leaves. -/
theorem scover0_B_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

def sout0_B_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the stored pieces of the layer-output tile cover its block; what they leave, read back. -/
theorem cover0_C_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

def out0_C_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S5000x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last tile the copied running sum covers the first resident output row. -/
theorem cover0_C_7 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

def out0_C_7 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last tile the copied running sum of squares covers the second resident output row. -/
theorem cover0_C_8 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

def out0_C_8 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the store into the running column sum covers its row; what it leaves. -/
theorem scover0_C_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

def sout0_C_0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- In case C the store into the running sum of squares covers its row; what it leaves. -/
theorem scover0_C_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

def sout0_C_1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Tile by tile -/

/-- After a tile: the three outputs' staging buffers (the h tile, the two resident rows), then the two scratch rows. -/
abbrev Outs0 (F : FTy → Type) [FloatOps F] : Type := (Vec F S5000x64 .f32 × Vec F S1x64 .f32 × Vec F S1x64 .f32) × (Vec F S1x64 .f32 × Vec F S1x64 .f32)

theorem not_cond0_0_of_ne (t : Fin cfg0.N) (h : t.val ≠ 0) : ¬cond0_0 (grid0.coords t) := fun hc => by
  have h1 := (hcond0_0 t).mp hc
  have hN : t.val < 20 := lt_of_lt_of_eq t.isLt (show cfg0.N = 20 from N_0)
  omega
theorem cond0_0_of_eq (t : Fin cfg0.N) (h : t.val = 0) : cond0_0 (grid0.coords t) := (hcond0_0 t).mpr (by rw [h])
theorem not_cond0_1_of_eq (t : Fin cfg0.N) (h : t.val = 0) : ¬cond0_1 (grid0.coords t) := fun hc => by
  have h1 := (hcond0_1 t).mp hc
  omega

/-- The first tile: nothing is read from before it; the resident rows are idle (their entry here is a placeholder nothing consults). -/
def caseA0 (c : Dev nD) (t : Fin cfg0.N) (h0 : cond0_0 (grid0.coords t)) (h1 : ¬cond0_1 (grid0.coords t)) : Outs0 F :=
  ((out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t), VO0_7.read (Elt F) VO0_7.junk, VO0_8.read (Elt F) VO0_8.junk),
   (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t)))

/-- A middle tile, over the running sums the tile before left. -/
def caseB0 (c : Dev nD) (t : Fin cfg0.N) (h0 : ¬cond0_0 (grid0.coords t)) (h1 : ¬cond0_1 (grid0.coords t)) (prev : Vec F S1x64 .f32 × Vec F S1x64 .f32) : Outs0 F :=
  ((out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, VO0_7.read (Elt F) VO0_7.junk, VO0_8.read (Elt F) VO0_8.junk),
   (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2))

/-- The last tile, over the running sums the tile before left: the resident rows receive the finished sums. -/
def caseC0 (c : Dev nD) (t : Fin cfg0.N) (h0 : ¬cond0_0 (grid0.coords t)) (h1 : cond0_1 (grid0.coords t)) (prev : Vec F S1x64 .f32 × Vec F S1x64 .f32) : Outs0 F :=
  ((out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2),
   (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2))

/-- THE ACCUMULATION, by recursion on the tile: the case the closed forms select, a later tile over what the tile before left in the scratch rows. -/
def outsAt0 (c : Dev nD) : (n : ℕ) → n < cfg0.N → Outs0 F
  | 0, hn => caseA0 V c ⟨0, hn⟩ (cond0_0_of_eq ⟨0, hn⟩ rfl) (not_cond0_1_of_eq ⟨0, hn⟩ rfl)
  | n + 1, hn =>
    if h1 : (n + 1) % 20 = 19 then
      caseC0 V c ⟨n + 1, hn⟩ (not_cond0_0_of_ne ⟨n + 1, hn⟩ (Nat.succ_ne_zero n)) ((hcond0_1 ⟨n + 1, hn⟩).mpr h1) (outsAt0 c n (Nat.lt_of_succ_lt hn)).2
    else
      caseB0 V c ⟨n + 1, hn⟩ (not_cond0_0_of_ne ⟨n + 1, hn⟩ (Nat.succ_ne_zero n)) (fun h => h1 ((hcond0_1 ⟨n + 1, hn⟩).mp h)) (outsAt0 c n (Nat.lt_of_succ_lt hn)).2

theorem outsAt0_A (c : Dev nD) (t : Fin cfg0.N) (hz : t.val = 0) :
    outsAt0 V c t.val t.isLt = caseA0 V c t (cond0_0_of_eq t hz) (not_cond0_1_of_eq t hz) := by
  obtain ⟨n, hn⟩ := t
  cases n with
  | zero => rfl
  | succ n => exact absurd hz (Nat.succ_ne_zero n)

theorem outsAt0_B (c : Dev nD) (t : Fin cfg0.N) (hz : t.val ≠ 0) (h1 : ¬t.val % 20 = 19) :
    outsAt0 V c t.val t.isLt = caseB0 V c t (not_cond0_0_of_ne t hz) (fun h => h1 ((hcond0_1 t).mp h))
      (outsAt0 V c (t.val - 1) (Nat.lt_of_le_of_lt (Nat.sub_le _ _) t.isLt)).2 := by
  obtain ⟨n, hn⟩ := t
  cases n with
  | zero => exact absurd rfl hz
  | succ n => exact (dif_neg h1).trans rfl

theorem outsAt0_C (c : Dev nD) (t : Fin cfg0.N) (hz : t.val ≠ 0) (h1 : t.val % 20 = 19) :
    outsAt0 V c t.val t.isLt = caseC0 V c t (not_cond0_0_of_ne t hz) ((hcond0_1 t).mpr h1)
      (outsAt0 V c (t.val - 1) (Nat.lt_of_le_of_lt (Nat.sub_le _ _) t.isLt)).2 := by
  obtain ⟨n, hn⟩ := t
  cases n with
  | zero => exact absurd rfl hz
  | succ n => exact (dif_pos h1).trans rfl

/-! ## The region invariant -/

/-- Before tile 0 the scoped buffers are untouched and unknown; before a later tile the two scratch rows hold what the tile
    before left, the other scoped buffers stay unopened, the generator register is at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1.1
    | ⟨7, _⟩ => (outsAt0 V c t.val t.isLt).1.2.1
    | ⟨8, _⟩ => (outsAt0 V c t.val t.isLt).1.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1.1 := by dsimp only [dat0]
theorem after0_7 (c : Dev nD) (t : Fin cfg0.N) : (dat0 V c).after 7 t = (outsAt0 V c t.val t.isLt).1.2.1 := by dsimp only [dat0]
theorem after0_8 (c : Dev nD) (t : Fin cfg0.N) : (dat0 V c).after 8 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any tile: the inputs' memrefs hold their blocks; the closed forms say which case the tile is in; the invariant
    hands the body the two scratch rows (at anything before the first tile, at what the tile before left afterwards) and takes
    them back at this tile's contents; an idle resident row is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases hz : t.val = 0
  · have hn1 : ¬cond0_1 (grid0.coords t) := not_cond0_1_of_eq t hz
    rw [Dat.leavesExact_idle (dat0 V c) 7 t (idleAt0_7 t hn1) (noFlush0_7 t hn1), Dat.leavesExact_idle (dat0 V c) 8 t (idleAt0_8 t hn1) (noFlush0_8 t hn1)]
    rw [outsAt0_A V c t hz]
    unfold caseA0 out0_A_6 sout0_A_0 sout0_A_1; (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ (cond0_0_of_eq t hz) hn1 (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val % 20 = 19
    · rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t hz h1]
      unfold caseC0 out0_C_6 out0_C_7 out0_C_8 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (not_cond0_0_of_ne t hz) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · have hn1 : ¬cond0_1 (grid0.coords t) := fun h => h1 ((hcond0_1 t).mp h)
      rw [Dat.leavesExact_idle (dat0 V c) 7 t (idleAt0_7 t hn1) (noFlush0_7 t hn1), Dat.leavesExact_idle (dat0 V c) 8 t (idleAt0_8 t hn1) (noFlush0_8 t hn1)]
      rw [outsAt0_B V c t hz h1]
      unfold caseB0 out0_B_6 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (not_cond0_0_of_ne t hz) hn1 (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any tile but the first the invariant gives the untouched-scoped-buffers form back: the scratch rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Regs

end
-- ==== Proof.Reg1.lean ====
import proofs.«158263_j27642409517219_1_alg».proof.Proof.Gen.KernelIdeal.Launch
import proofs.«158263_j27642409517219_1_alg».proof.Proof.Gen.KernelIdeal.Skeleton
import proofs.«158263_j27642409517219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: batch normalisation followed by a rectifier, one block of 5000 rows per grid point

The region normalises a [100000, 64] array row block by row block. At grid point `t` (of 20) it reads rows
`5000 t … 5000 t + 4999` of the array `h` (window 0) and four [1, 64] rows — mean, variance, scale and shift (windows
1–4), the same row at every point — and writes the same rows of the result (window 5) as
`max ((h - mean) * rsqrt (variance + ε) * scale + shift) 0`, entry by entry. This module states, at arbitrary contents
`V` of the arrays when the region is entered, what each window's buffer holds before and after the body at a point,
and proves that the body run on buffers holding the input blocks leaves exactly that. -/

-- membership of an index in a rectangle of 5000 rows is checked one coordinate at a time
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of every buffer of the core when the region is entered
variable (V : (c : Dev nD) → (b : Ref sig .tc) → Buf (Elt F) ((c : Thread nD τ).loc b))

/-! ## The windows' blocks -/

/-- Window `w`'s block at point `t`: the part of its array, as the region finds it, that the window's index map
    selects there (rows `5000 t …` for windows 0 and 5, the whole row for windows 1–4). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether or not the pipeline fetched it there (an unfetched
    window's block index has not moved), for any proof data over the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, whether or not the pipeline fetched it there (an unfetched
    window's block index has not moved), for any proof data over the entry arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, whether or not the pipeline fetched it there (an unfetched
    window's block index has not moved), for any proof data over the entry arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point, whether or not the pipeline fetched it there (an unfetched
    window's block index has not moved), for any proof data over the entry arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point, whether or not the pipeline fetched it there (an unfetched
    window's block index has not moved), for any proof data over the entry arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S1x64 := Rect.unit (s := S1x64) ![0, 0] S1x64.size inb_S1x64_S1x64_0_0
abbrev r1_1 : Rect S5000x64 := Rect.unit (s := S5000x64) ![0, 0] S5000x64.size inb_S5000x64_S5000x64_0_0

/-! ## What the body leaves in the output window's buffer -/

/-- The output buffer after the body, as a function of the five input blocks: its one store, of the normalised and
    rectified block computed from the variance row `x2`, the block `x0`, the mean `x1`, the scale `x3` and the shift `x4`. -/
def out1_5 (x0 : Vec F S5000x64 .f32) (x1 : Vec F S1x64 .f32) (x2 : Vec F S1x64 .f32) (x3 : Vec F S1x64 .f32) (x4 : Vec F S1x64 .f32) : Vec F S5000x64 .f32 :=
  View.canon [⟨r1_1, k1_pay1 (View.ld x2 r1_0) (View.ld x0 r1_1) (View.ld x1 r1_0) (View.ld x3 r1_0) (View.ld x4 r1_0)⟩]

/-- The one store is of the whole buffer, so it covers it. -/
theorem cover1_5 (p0 : Vec F S5000x64 .f32) (y : S5000x64.Idx) :
    ∃ pc ∈ ([⟨r1_1, p0⟩] : List (View.Piece (Elt F) S5000x64 .f32)), y ∈ pc.1.set :=
  View.cover_of_tiled [⟨r1_1, p0⟩] S5000x64.size (by rfl) y

/-! ## The body's triple -/

set_option maxHeartbeats 1000000 in
/-- The body run on whole buffers, the five inputs' reading `x0 … x4` and the output's holding anything, ends with the
    inputs' as they were and the output's at `out1_5 x0 … x4`. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer still at its block and the output's at `out1_5` of the input blocks; the invariant that of a body
    which touches nothing but its buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Regs

end
-- ==== Proof.Reg2Runs.lean ====
/-
  The second node-linear call (grid of 20 row tiles of 5000 nodes): what its three control cases share.
  The body resets its two running column sums at the first tile, adds each tile's column sums of the
  layer output h and of h·h to them, and copies them to the two resident one-row outputs at the last tile.
  Here: the two branch conditions in closed form over the grid, where the two resident outputs are idle,
  the staging and scratch memrefs, and the call's scoped rest opened at its two scratch rows.
-/
import proofs.«158263_j27642409517219_1_alg».proof.Proof.Gen.KernelIdeal.Launch
import proofs.«158263_j27642409517219_1_alg».proof.Proof.Gen.KernelIdeal.Skeleton
import proofs.«158263_j27642409517219_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the 20 tiles -/

/-- "This is the first tile": the scalar chain the body tests before resetting the running sums. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "This is the last tile": the condition under which the running sums are copied out. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the two resident outputs are idle -/

theorem idleAt2_7 : ∀ t : Fin cfg2.N, ¬cond2_1 (grid2.coords t) → cfg2.idle 7 (grid2.coords t) = true := by decide +kernel
theorem idleAt2_8 : ∀ t : Fin cfg2.N, ¬cond2_1 (grid2.coords t) → cfg2.idle 8 (grid2.coords t) = true := by decide +kernel
theorem noFlush2_7 : ∀ t : Fin cfg2.N, ¬cond2_1 (grid2.coords t) → (cfg2.win 7).flush t = false := by decide +kernel
theorem noFlush2_8 : ∀ t : Fin cfg2.N, ¬cond2_1 (grid2.coords t) → (cfg2.win 8).flush t = false := by decide +kernel
theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

/-! ## The memrefs the body is called with -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x32 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x32 .f32 := win2_8.stage (cfg2.slots t 8)
abbrev hs2_8 (t : Fin cfg2.N) : (ms2_8 t).IsWhole := hstage2_8 ((cfg2.slots t 8).cast nbuf2_8)
/-- The two scratch rows holding the running column sums of h and of h·h. -/
abbrev scM2_0 : Memref sig .tc .vmem S1x32 .f32 := Memref.whole cc2_scratch0
abbrev scM2_1 : Memref sig .tc .vmem S1x32 .f32 := Memref.whole cc2_scratch1
abbrev VS2_0 : View sig .tc .vmem S1x32 .f32 := scM2_0.view
abbrev VS2_1 : View sig .tc .vmem S1x32 .f32 := scM2_1.view

/-- The call's untouched-scoped-buffers invariant, opened at its two scratch rows (each owned whole at some contents),
    the remaining scoped buffers left unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Regs

end
-- ==== Proof.Reg2RunA.lean ====
/-
  The second node-linear call at its FIRST tile: the body stores zeros into both running column sums, reads its six
  input blocks, stores the tile of the layer output h whole, and then replaces each (now zero) running sum by itself
  plus the tile's column sum of h, of h·h. The two resident outputs are not touched; the scratch rows may hold
  anything on entry, since they are overwritten before any value read from them is used.
-/
import proofs.«158263_j27642409517219_1_alg».proof.Proof.Reg2Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) :
    Σ' (L6 : List (View.Piece (Elt F) S5000x32 .f32)) (LS0 : List (View.Piece (Elt F) S1x32 .f32)), { LS1 : List (View.Piece (Elt F) S1x32 .f32) //
      ∀ (xi7 : Vec F S1x32 .f32) (xi8 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__sage_linear_kernel_eq_skeleton]; unfold cc2__sage_linear_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Regs

end
-- ==== Proof.Reg2RunB.lean ====
/-
  The second node-linear call at a MIDDLE tile (neither the first nor the last): the body reads its six input
  blocks, stores the tile of the layer output h whole, and replaces each running column sum by itself plus the
  tile's column sum (of h, of h·h). The two resident outputs are not touched. What each store leaves is found
  by running the body; the lists of stored pieces are the witness.
-/
import proofs.«158263_j27642409517219_1_alg».proof.Proof.Reg2Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) :
    Σ' (L6 : List (View.Piece (Elt F) S5000x32 .f32)) (LS0 : List (View.Piece (Elt F) S1x32 .f32)), { LS1 : List (View.Piece (Elt F) S1x32 .f32) //
      ∀ (xi7 : Vec F S1x32 .f32) (xi8 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__sage_linear_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__sage_linear_kernel_eq_skeleton]; unfold cc2__sage_linear_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Regs

end
-- ==== Proof.Reg2RunC.lean ====
/-
  The second node-linear call at its LAST tile: as at a middle tile the body stores the tile of h and adds the tile's
  column sums to the two running sums; it then copies each finished running sum into its resident one-row output,
  which is live at this tile and written back after it.
-/
import proofs.«158263_j27642409517219_1_alg».proof.Proof.Reg2Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) :
    Σ' (L6 : List (View.Piece (Elt F) S5000x32 .f32)) (L7 : List (View.Piece (Elt F) S1x32 .f32)) (L8 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__sage_linear_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__sage_linear_kernel_eq_skeleton]; unfold cc2__sage_linear_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Regs

end
-- ==== Proof.Reg2.lean ====
/-
  The second node-linear call: its proof data and body obligation over the 20 row tiles.
  After tile t the tile's block of the layer output h holds the layer's linear part of the tile's rows; the two scratch
  rows hold the column sums of h and of h·h over tiles 0..t (reset at tile 0, carried in the region invariant from
  tile 1 on); the two resident one-row outputs are idle until the last tile, where the finished sums are copied into
  them. Three control cases: first tile, middle tiles, last tile.
-/
import proofs.«158263_j27642409517219_1_alg».proof.Proof.Reg2RunA
import proofs.«158263_j27642409517219_1_alg».proof.Proof.Reg2RunB
import proofs.«158263_j27642409517219_1_alg».proof.Proof.Reg2RunC

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every tile, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every tile, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every tile, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every tile, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every tile, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every tile, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## Never-idle windows, and one staging buffer per output through which its contents are stated -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel

abbrev VO2_6 : View sig .tc .vmem S5000x32 .f32 := (Memref.whole cc2_stg6_0 : Memref sig .tc .vmem S5000x32 .f32).view
abbrev VO2_7 : View sig .tc .vmem S1x32 .f32 := (Memref.whole cc2_stg7_0 : Memref sig .tc .vmem S1x32 .f32).view
abbrev VO2_8 : View sig .tc .vmem S1x32 .f32 := (Memref.whole cc2_stg8_0 : Memref sig .tc .vmem S1x32 .f32).view

/-! ## What each case leaves: covers and contents -/

/-- In case A the stored pieces of the layer-output tile cover its block; what they leave, read back. -/
theorem cover2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (y : S5000x32.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x32.size (by sl_kernel_rfl) y

def out2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) : Vec F S5000x32 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- In case A the store into the running column sum covers its row; what it leaves. -/
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (y : S1x32.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x32.size (by sl_kernel_rfl) y

def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) : Vec F S1x32 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- In case A the store into the running sum of squares covers its row; what it leaves. -/
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (y : S1x32.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x32.size (by sl_kernel_rfl) y

def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) : Vec F S1x32 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- In case B the stored pieces of the layer-output tile cover its block; what they leave, read back. -/
theorem cover2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S5000x32.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x32.size (by sl_kernel_rfl) y

def out2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S5000x32 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- In case B the store into the running column sum covers its row; what it leaves. -/
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x32.size (by sl_kernel_rfl) y

def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- In case B the store into the running sum of squares covers its row; what it leaves. -/
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x32.size (by sl_kernel_rfl) y

def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the stored pieces of the layer-output tile cover its block; what they leave, read back. -/
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S5000x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x32.size (by sl_kernel_rfl) y

def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S5000x32 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last tile the copied running sum covers the first resident output row. -/
theorem cover2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x32.size (by sl_kernel_rfl) y

def out2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last tile the copied running sum of squares covers the second resident output row. -/
theorem cover2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x32.size (by sl_kernel_rfl) y

def out2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- In case C the store into the running column sum covers its row; what it leaves. -/
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x32.size (by sl_kernel_rfl) y

def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- In case C the store into the running sum of squares covers its row; what it leaves. -/
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x32.size (by sl_kernel_rfl) y

def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 : Vec F S1x32 .f32) (xs1 : Vec F S1x32 .f32) : Vec F S1x32 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Tile by tile -/

/-- After a tile: the three outputs' staging buffers (the h tile, the two resident rows), then the two scratch rows. -/
abbrev Outs2 (F : FTy → Type) [FloatOps F] : Type := (Vec F S5000x32 .f32 × Vec F S1x32 .f32 × Vec F S1x32 .f32) × (Vec F S1x32 .f32 × Vec F S1x32 .f32)

theorem not_cond2_0_of_ne (t : Fin cfg2.N) (h : t.val ≠ 0) : ¬cond2_0 (grid2.coords t) := fun hc => by
  have h1 := (hcond2_0 t).mp hc
  have hN : t.val < 20 := lt_of_lt_of_eq t.isLt (show cfg2.N = 20 from N_2)
  omega
theorem cond2_0_of_eq (t : Fin cfg2.N) (h : t.val = 0) : cond2_0 (grid2.coords t) := (hcond2_0 t).mpr (by rw [h])
theorem not_cond2_1_of_eq (t : Fin cfg2.N) (h : t.val = 0) : ¬cond2_1 (grid2.coords t) := fun hc => by
  have h1 := (hcond2_1 t).mp hc
  omega

/-- The first tile: nothing is read from before it; the resident rows are idle (their entry here is a placeholder nothing consults). -/
def caseA2 (c : Dev nD) (t : Fin cfg2.N) (h0 : cond2_0 (grid2.coords t)) (h1 : ¬cond2_1 (grid2.coords t)) : Outs2 F :=
  ((out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t), VO2_7.read (Elt F) VO2_7.junk, VO2_8.read (Elt F) VO2_8.junk),
   (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t)))

/-- A middle tile, over the running sums the tile before left. -/
def caseB2 (c : Dev nD) (t : Fin cfg2.N) (h0 : ¬cond2_0 (grid2.coords t)) (h1 : ¬cond2_1 (grid2.coords t)) (prev : Vec F S1x32 .f32 × Vec F S1x32 .f32) : Outs2 F :=
  ((out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, VO2_7.read (Elt F) VO2_7.junk, VO2_8.read (Elt F) VO2_8.junk),
   (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2))

/-- The last tile, over the running sums the tile before left: the resident rows receive the finished sums. -/
def caseC2 (c : Dev nD) (t : Fin cfg2.N) (h0 : ¬cond2_0 (grid2.coords t)) (h1 : cond2_1 (grid2.coords t)) (prev : Vec F S1x32 .f32 × Vec F S1x32 .f32) : Outs2 F :=
  ((out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2),
   (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) h0 h1 (iblk2 V c 0 t) (iblk2 V c 1 t) (iblk2 V c 2 t) (iblk2 V c 3 t) (iblk2 V c 4 t) (iblk2 V c 5 t) prev.1 prev.2))

/-- THE ACCUMULATION, by recursion on the tile: the case the closed forms select, a later tile over what the tile before left in the scratch rows. -/
def outsAt2 (c : Dev nD) : (n : ℕ) → n < cfg2.N → Outs2 F
  | 0, hn => caseA2 V c ⟨0, hn⟩ (cond2_0_of_eq ⟨0, hn⟩ rfl) (not_cond2_1_of_eq ⟨0, hn⟩ rfl)
  | n + 1, hn =>
    if h1 : (n + 1) % 20 = 19 then
      caseC2 V c ⟨n + 1, hn⟩ (not_cond2_0_of_ne ⟨n + 1, hn⟩ (Nat.succ_ne_zero n)) ((hcond2_1 ⟨n + 1, hn⟩).mpr h1) (outsAt2 c n (Nat.lt_of_succ_lt hn)).2
    else
      caseB2 V c ⟨n + 1, hn⟩ (not_cond2_0_of_ne ⟨n + 1, hn⟩ (Nat.succ_ne_zero n)) (fun h => h1 ((hcond2_1 ⟨n + 1, hn⟩).mp h)) (outsAt2 c n (Nat.lt_of_succ_lt hn)).2

theorem outsAt2_A (c : Dev nD) (t : Fin cfg2.N) (hz : t.val = 0) :
    outsAt2 V c t.val t.isLt = caseA2 V c t (cond2_0_of_eq t hz) (not_cond2_1_of_eq t hz) := by
  obtain ⟨n, hn⟩ := t
  cases n with
  | zero => rfl
  | succ n => exact absurd hz (Nat.succ_ne_zero n)

theorem outsAt2_B (c : Dev nD) (t : Fin cfg2.N) (hz : t.val ≠ 0) (h1 : ¬t.val % 20 = 19) :
    outsAt2 V c t.val t.isLt = caseB2 V c t (not_cond2_0_of_ne t hz) (fun h => h1 ((hcond2_1 t).mp h))
      (outsAt2 V c (t.val - 1) (Nat.lt_of_le_of_lt (Nat.sub_le _ _) t.isLt)).2 := by
  obtain ⟨n, hn⟩ := t
  cases n with
  | zero => exact absurd rfl hz
  | succ n => exact (dif_neg h1).trans rfl

theorem outsAt2_C (c : Dev nD) (t : Fin cfg2.N) (hz : t.val ≠ 0) (h1 : t.val % 20 = 19) :
    outsAt2 V c t.val t.isLt = caseC2 V c t (not_cond2_0_of_ne t hz) ((hcond2_1 t).mpr h1)
      (outsAt2 V c (t.val - 1) (Nat.lt_of_le_of_lt (Nat.sub_le _ _) t.isLt)).2 := by
  obtain ⟨n, hn⟩ := t
  cases n with
  | zero => exact absurd rfl hz
  | succ n => exact (dif_pos h1).trans rfl

/-! ## The region invariant -/

/-- Before tile 0 the scoped buffers are untouched and unknown; before a later tile the two scratch rows hold what the tile
    before left, the other scoped buffers stay unopened, the generator register is at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1.1
    | ⟨7, _⟩ => (outsAt2 V c t.val t.isLt).1.2.1
    | ⟨8, _⟩ => (outsAt2 V c t.val t.isLt).1.2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1.1 := by dsimp only [dat2]
theorem after2_7 (c : Dev nD) (t : Fin cfg2.N) : (dat2 V c).after 7 t = (outsAt2 V c t.val t.isLt).1.2.1 := by dsimp only [dat2]
theorem after2_8 (c : Dev nD) (t : Fin cfg2.N) : (dat2 V c).after 8 t = (outsAt2 V c t.val t.isLt).1.2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
/-- The body at any tile: the inputs' memrefs hold their blocks; the closed forms say which case the tile is in; the invariant
    hands the body the two scratch rows (at anything before the first tile, at what the tile before left afterwards) and takes
    them back at this tile's contents; an idle resident row is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases hz : t.val = 0
  · have hn1 : ¬cond2_1 (grid2.coords t) := not_cond2_1_of_eq t hz
    rw [Dat.leavesExact_idle (dat2 V c) 7 t (idleAt2_7 t hn1) (noFlush2_7 t hn1), Dat.leavesExact_idle (dat2 V c) 8 t (idleAt2_8 t hn1) (noFlush2_8 t hn1)]
    rw [outsAt2_A V c t hz]
    unfold caseA2 out2_A_6 sout2_A_0 sout2_A_1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ (cond2_0_of_eq t hz) hn1 (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val % 20 = 19
    · rw [show (dat2 V c).leavesExact 7 t = owns (c : Thread nD τ) (ms2_7 t) fullShare ((dat2 V c).after 7 t) from by
        unfold Dat.leavesExact; rw [liveAt2_7 t ((hcond2_1 t).mpr h1)], after2_7]
      rw [show (dat2 V c).leavesExact 8 t = owns (c : Thread nD τ) (ms2_8 t) fullShare ((dat2 V c).after 8 t) from by
        unfold Dat.leavesExact; rw [liveAt2_8 t ((hcond2_1 t).mpr h1)], after2_8]
      rw [outsAt2_C V c t hz h1]
      unfold caseC2 out2_C_6 out2_C_7 out2_C_8 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (not_cond2_0_of_ne t hz) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · have hn1 : ¬cond2_1 (grid2.coords t) := fun h => h1 ((hcond2_1 t).mp h)
      rw [Dat.leavesExact_idle (dat2 V c) 7 t (idleAt2_7 t hn1) (noFlush2_7 t hn1), Dat.leavesExact_idle (dat2 V c) 8 t (idleAt2_8 t hn1) (noFlush2_8 t hn1)]
      rw [outsAt2_B V c t hz h1]
      unfold caseB2 out2_B_6 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (not_cond2_0_of_ne t hz) hn1 (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile but the first the invariant gives the untouched-scoped-buffers form back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Regs

end
-- ==== Proof.Reg3.lean ====
import proofs.«158263_j27642409517219_1_alg».proof.Proof.Gen.KernelIdeal.Launch
import proofs.«158263_j27642409517219_1_alg».proof.Proof.Gen.KernelIdeal.Skeleton
import proofs.«158263_j27642409517219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: batch normalisation followed by a rectifier, one block of 5000 rows per grid point

The region normalises a [100000, 32] array row block by row block. At grid point `t` (of 20) it reads rows
`5000 t … 5000 t + 4999` of the array `h` (window 0) and four [1, 32] rows — mean, variance, scale and shift (windows
1–4), the same row at every point — and writes the same rows of the result (window 5) as
`max ((h - mean) * rsqrt (variance + ε) * scale + shift) 0`, entry by entry. This module states, at arbitrary contents
`V` of the arrays when the region is entered, what each window's buffer holds before and after the body at a point,
and proves that the body run on buffers holding the input blocks leaves exactly that. -/

-- membership of an index in a rectangle of 5000 rows is checked one coordinate at a time
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of every buffer of the core when the region is entered
variable (V : (c : Dev nD) → (b : Ref sig .tc) → Buf (Elt F) ((c : Thread nD τ).loc b))

/-! ## The windows' blocks -/

/-- Window `w`'s block at point `t`: the part of its array, as the region finds it, that the window's index map
    selects there (rows `5000 t …` for windows 0 and 5, the whole row for windows 1–4). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, whether or not the pipeline fetched it there (an unfetched
    window's block index has not moved), for any proof data over the entry arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block at every point, whether or not the pipeline fetched it there (an unfetched
    window's block index has not moved), for any proof data over the entry arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block at every point, whether or not the pipeline fetched it there (an unfetched
    window's block index has not moved), for any proof data over the entry arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 holds its block at every point, whether or not the pipeline fetched it there (an unfetched
    window's block index has not moved), for any proof data over the entry arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 holds its block at every point, whether or not the pipeline fetched it there (an unfetched
    window's block index has not moved), for any proof data over the entry arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S1x32 := Rect.unit (s := S1x32) ![0, 0] S1x32.size inb_S1x32_S1x32_0_0
abbrev r3_1 : Rect S5000x32 := Rect.unit (s := S5000x32) ![0, 0] S5000x32.size inb_S5000x32_S5000x32_0_0

/-! ## What the body leaves in the output window's buffer -/

/-- The output buffer after the body, as a function of the five input blocks: its one store, of the normalised and
    rectified block computed from the variance row `x2`, the block `x0`, the mean `x1`, the scale `x3` and the shift `x4`. -/
def out3_5 (x0 : Vec F S5000x32 .f32) (x1 : Vec F S1x32 .f32) (x2 : Vec F S1x32 .f32) (x3 : Vec F S1x32 .f32) (x4 : Vec F S1x32 .f32) : Vec F S5000x32 .f32 :=
  View.canon [⟨r3_1, k3_pay1 (View.ld x2 r3_0) (View.ld x0 r3_1) (View.ld x1 r3_0) (View.ld x3 r3_0) (View.ld x4 r3_0)⟩]

/-- The one store is of the whole buffer, so it covers it. -/
theorem cover3_5 (p0 : Vec F S5000x32 .f32) (y : S5000x32.Idx) :
    ∃ pc ∈ ([⟨r3_1, p0⟩] : List (View.Piece (Elt F) S5000x32 .f32)), y ∈ pc.1.set :=
  View.cover_of_tiled [⟨r3_1, p0⟩] S5000x32.size (by rfl) y

/-! ## The body's triple -/

set_option maxHeartbeats 1000000 in
/-- The body run on whole buffers, the five inputs' reading `x0 … x4` and the output's holding anything, ends with the
    inputs' as they were and the output's at `out3_5 x0 … x4`. -/
theorem sound_kernel3 (c : Dev nD) (E : Set ℕ) (i : grid3.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer still at its block and the output's at `out3_5` of the input blocks; the invariant that of a body
    which touches nothing but its buffers; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Regs

end
-- ==== Proof.Reg4.lean ====
import proofs.«158263_j27642409517219_1_alg».proof.Proof.Gen.KernelIdeal.Launch
import proofs.«158263_j27642409517219_1_alg».proof.Proof.Gen.KernelIdeal.Skeleton
import proofs.«158263_j27642409517219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the last linear layer and a log-softmax over its two classes, one block of 5000 rows per grid point

At grid point `t` (of 20) the region reads rows `5000 t … 5000 t + 4999` of two [100000, 32] arrays (windows 0 and 1)
and of a [100000, 1] column (window 2), and three small arrays that are the same at every point: two [2, 32] matrices
(windows 3 and 5) and a [1, 2] row (window 4). With `x0 … x5` the blocks, it forms the [5000, 2] block
`z = (x1 * x2) x3ᵀ + x4 + x0 x5ᵀ` (the column `x2` and the row `x4` repeated along the other axis), and writes, to the same
rows of the [100000, 2] result (window 6), `z - max z - log (sum (exp (z - max z)))`, the maximum and the sum taken
along each row. This module states, at arbitrary contents `V` of the arrays when the region is entered, what each
window's buffer holds before and after the body at a point, and proves that the body run on buffers holding the
input blocks leaves exactly that. -/

-- membership of an index in a rectangle of 5000 rows is checked one coordinate at a time
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of every buffer of the core when the region is entered
variable (V : (c : Dev nD) → (b : Ref sig .tc) → Buf (Elt F) ((c : Thread nD τ).loc b))

/-! ## The windows' blocks -/

/-- Window `w`'s block at point `t`: the part of its array, as the region finds it, that the window's index map
    selects there (rows `5000 t …` for windows 0, 1, 2 and 6, the whole array for windows 3, 4 and 5). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, whether or not the pipeline fetched it there (an unfetched
    window's block index has not moved), for any proof data over the entry arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, whether or not the pipeline fetched it there (an unfetched
    window's block index has not moved), for any proof data over the entry arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, whether or not the pipeline fetched it there (an unfetched
    window's block index has not moved), for any proof data over the entry arrays whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 holds its block at every point, whether or not the pipeline fetched it there (an unfetched
    window's block index has not moved), for any proof data over the entry arrays whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 holds its block at every point, whether or not the pipeline fetched it there (an unfetched
    window's block index has not moved), for any proof data over the entry arrays whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5 holds its block at every point, whether or not the pipeline fetched it there (an unfetched
    window's block index has not moved), for any proof data over the entry arrays whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4_0 : Rect S5000x32 := Rect.unit (s := S5000x32) ![0, 0] S5000x32.size inb_S5000x32_S5000x32_0_0
abbrev r4_1 : Rect S5000x1 := Rect.unit (s := S5000x1) ![0, 0] S5000x1.size inb_S5000x1_S5000x1_0_0
abbrev r4_2 : Rect S2x32 := Rect.unit (s := S2x32) ![0, 0] S2x32.size inb_S2x32_S2x32_0_0
abbrev r4_3 : Rect S1x2 := Rect.unit (s := S1x2) ![0, 0] S1x2.size inb_S1x2_S1x2_0_0
abbrev r4_4 : Rect S5000x2 := Rect.unit (s := S5000x2) ![0, 0] S5000x2.size inb_S5000x2_S5000x2_0_0

/-! ## What the body leaves in the output window's buffer -/

/-- The output buffer after the body, as a function of the six input blocks: its one store, of the row-wise
    log-softmax of `(x1 * x2) x3ᵀ + x4 + x0 x5ᵀ`. -/
def out4_6 (x0 : Vec F S5000x32 .f32) (x1 : Vec F S5000x32 .f32) (x2 : Vec F S5000x1 .f32) (x3 : Vec F S2x32 .f32) (x4 : Vec F S1x2 .f32) (x5 : Vec F S2x32 .f32) : Vec F S5000x2 .f32 :=
  View.canon [⟨r4_4, k4_pay1 (View.ld x1 r4_0) (View.ld x2 r4_1) (View.ld x3 r4_2) (View.ld x4 r4_3) (View.ld x0 r4_0) (View.ld x5 r4_2)⟩]

/-- The one store is of the whole buffer, so it covers it. -/
theorem cover4_6 (p0 : Vec F S5000x2 .f32) (y : S5000x2.Idx) :
    ∃ pc ∈ ([⟨r4_4, p0⟩] : List (View.Piece (Elt F) S5000x2 .f32)), y ∈ pc.1.set :=
  View.cover_of_tiled [⟨r4_4, p0⟩] S5000x2.size (by rfl) y

/-! ## The body's triple -/

set_option maxHeartbeats 1000000 in
/-- The body run on whole buffers, the six inputs' reading `x0 … x5` and the output's holding anything, ends with the
    inputs' as they were and the output's at `out4_6 x0 … x5`. -/
theorem sound_kernel4 (c : Dev nD) (E : Set ℕ) (i : grid4.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S2x32 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S5000x2 .f32) (harg7 : arg7.IsWhole)
    (x0 : Vec F S5000x32 .f32) (x1 : Vec F S5000x32 .f32) (x2 : Vec F S5000x1 .f32) (x3 : Vec F S2x32 .f32) (x4 : Vec F S1x2 .f32) (x5 : Vec F S2x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__sage_logsoftmax_kernel i arg1 harg1 arg2 harg2 arg3 harg3 arg4 harg4 arg5 harg5 arg6 harg6 arg7 harg7) K := by
  simp only [cc4__sage_logsoftmax_kernel_eq_skeleton]; unfold cc4__sage_logsoftmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core `c`: the arrays as the region finds them; after the body at point `t` each
    input's buffer still at its block and the output's at `out4_6` of the input blocks; the invariant that of a body
    which touches nothing but its buffers; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Regs

end
-- ==== Proof.Run5Fold.lean ====
import proofs.«158263_j27642409517219_1_alg».proof.Proof.Reg0
import proofs.«158263_j27642409517219_1_alg».proof.Proof.Reg1
import proofs.«158263_j27642409517219_1_alg».proof.Proof.Reg2
import proofs.«158263_j27642409517219_1_alg».proof.Proof.Reg3
import proofs.«158263_j27642409517219_1_alg».proof.Proof.Reg4
import proofs.«158263_j27642409517219_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The contents of the core's buffers between the ten items of the program

The program is five stretches of host operations, each followed by a kernel region. From the launch memory `m` the
contents of every buffer of core `c` after each item are named in turn: `W0` at launch; after a host stretch, what its
operations compute from the contents before it; after a region, the region's arrays at what its pipeline leaves — an
input array as it was, an output array at the fold of the blocks written back — and every other buffer as before.
`V1 … V10` are the same contents read at the core's own references. For each region the two facts that put its
arrays back among the other buffers are stated, then, per item, that it leaves unchanged every buffer it does not
write, and from these that each of the fifteen argument arrays holds at the end what it held at launch. -/

-- decided memberships among the program's 160 references recurse past the default depth
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After the host stretch `hostOps0`: the contents region 0 is entered with. -/
abbrev W1 : Dev nD → Valuation τ sig (Elt F) := fun c => StableHlo.after hostOps0 (W0 m ρ c)
/-- The same read at the core's own references. -/
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: the contents region 1 is entered with. -/
abbrev W3 : Dev nD → Valuation τ sig (Elt F) := fun c => StableHlo.after hostOps1 (W2 m ρ c)
/-- The same read at the core's own references. -/
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: the contents region 2 is entered with. -/
abbrev W5 : Dev nD → Valuation τ sig (Elt F) := fun c => StableHlo.after hostOps2 (W4 m ρ c)
/-- The same read at the core's own references. -/
abbrev V5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's own references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: the contents region 3 is entered with. -/
abbrev W7 : Dev nD → Valuation τ sig (Elt F) := fun c => StableHlo.after hostOps3 (W6 m ρ c)
/-- The same read at the core's own references. -/
abbrev V7 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's own references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: the contents region 4 is entered with. -/
abbrev W9 : Dev nD → Valuation τ sig (Elt F) := fun c => StableHlo.after hostOps4 (W8 m ρ c)
/-- The same read at the core's own references. -/
abbrev V9 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's own references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## What each item leaves unchanged

A host stretch changes only the buffers its operations write; a region changes only the arrays of its output
windows (an input window's array ends as it was entered, an array no window stages is not touched). -/

theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_keep (c : Dev nD) (b : Ref sig .tc) (h : b ∉ ([main_v24_0, main_v24_1, main_v24_2] : List (Ref sig .tc))) :
    W2 m ρ c (Proc.devRef .tc b) = W1 m ρ c (Proc.devRef .tc b) := by
  by_cases hb : ∃ w, Pipeline.arrRef spec0 w = b
  · obtain ⟨w, rfl⟩ := hb
    have hw : (cfg0.win w).isOut = false :=
      (by decide : ∀ w : Fin 9, Pipeline.arrRef spec0 w ∉ ([main_v24_0, main_v24_1, main_v24_2] : List (Ref sig .tc)) → (cfg0.win w).isOut = false) w h
    exact (W2_arr m ρ c w).trans (((dat0 (V1 m ρ) c).arrAt_in w hw _).trans (A_eq0 (V1 m ρ) c w))
  · exact W2_of_ne m ρ c b fun w e => hb ⟨w, e⟩

theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h
theorem W4_keep (c : Dev nD) (b : Ref sig .tc) (h : b ∉ ([main_v33] : List (Ref sig .tc))) :
    W4 m ρ c (Proc.devRef .tc b) = W3 m ρ c (Proc.devRef .tc b) := by
  by_cases hb : ∃ w, Pipeline.arrRef spec1 w = b
  · obtain ⟨w, rfl⟩ := hb
    have hw : (cfg1.win w).isOut = false :=
      (by decide : ∀ w : Fin 6, Pipeline.arrRef spec1 w ∉ ([main_v33] : List (Ref sig .tc)) → (cfg1.win w).isOut = false) w h
    exact (W4_arr m ρ c w).trans (((dat1 (V3 m ρ) c).arrAt_in w hw _).trans (A_eq1 (V3 m ρ) c w))
  · exact W4_of_ne m ρ c b fun w e => hb ⟨w, e⟩

theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h
theorem W6_keep (c : Dev nD) (b : Ref sig .tc) (h : b ∉ ([main_v45_0, main_v45_1, main_v45_2] : List (Ref sig .tc))) :
    W6 m ρ c (Proc.devRef .tc b) = W5 m ρ c (Proc.devRef .tc b) := by
  by_cases hb : ∃ w, Pipeline.arrRef spec2 w = b
  · obtain ⟨w, rfl⟩ := hb
    have hw : (cfg2.win w).isOut = false :=
      (by decide : ∀ w : Fin 9, Pipeline.arrRef spec2 w ∉ ([main_v45_0, main_v45_1, main_v45_2] : List (Ref sig .tc)) → (cfg2.win w).isOut = false) w h
    exact (W6_arr m ρ c w).trans (((dat2 (V5 m ρ) c).arrAt_in w hw _).trans (A_eq2 (V5 m ρ) c w))
  · exact W6_of_ne m ρ c b fun w e => hb ⟨w, e⟩

theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h
theorem W8_keep (c : Dev nD) (b : Ref sig .tc) (h : b ∉ ([main_v54] : List (Ref sig .tc))) :
    W8 m ρ c (Proc.devRef .tc b) = W7 m ρ c (Proc.devRef .tc b) := by
  by_cases hb : ∃ w, Pipeline.arrRef spec3 w = b
  · obtain ⟨w, rfl⟩ := hb
    have hw : (cfg3.win w).isOut = false :=
      (by decide : ∀ w : Fin 6, Pipeline.arrRef spec3 w ∉ ([main_v54] : List (Ref sig .tc)) → (cfg3.win w).isOut = false) w h
    exact (W8_arr m ρ c w).trans (((dat3 (V7 m ρ) c).arrAt_in w hw _).trans (A_eq3 (V7 m ρ) c w))
  · exact W8_of_ne m ρ c b fun w e => hb ⟨w, e⟩

theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h
theorem W10_keep (c : Dev nD) (b : Ref sig .tc) (h : b ∉ ([main_v66] : List (Ref sig .tc))) :
    W10 m ρ c (Proc.devRef .tc b) = W9 m ρ c (Proc.devRef .tc b) := by
  by_cases hb : ∃ w, Pipeline.arrRef spec4 w = b
  · obtain ⟨w, rfl⟩ := hb
    have hw : (cfg4.win w).isOut = false :=
      (by decide : ∀ w : Fin 7, Pipeline.arrRef spec4 w ∉ ([main_v66] : List (Ref sig .tc)) → (cfg4.win w).isOut = false) w h
    exact (W10_arr m ρ c w).trans (((dat4 (V9 m ρ) c).arrAt_in w hw _).trans (A_eq4 (V9 m ρ) c w))
  · exact W10_of_ne m ρ c b fun w e => hb ⟨w, e⟩

/-! ## The arguments end as launched: no host operation writes one and no region has one as an output -/

theorem W10_main_arg0 (c : Dev nD) : W10 m ρ c (Proc.devRef .tc main_arg0) = m ((c : Thread nD τ).loc main_arg0) :=
  (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl
theorem W10_main_arg1 (c : Dev nD) : W10 m ρ c (Proc.devRef .tc main_arg1) = m ((c : Thread nD τ).loc main_arg1) :=
  (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl
theorem W10_main_arg2 (c : Dev nD) : W10 m ρ c (Proc.devRef .tc main_arg2) = m ((c : Thread nD τ).loc main_arg2) :=
  (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl
theorem W10_main_arg3 (c : Dev nD) : W10 m ρ c (Proc.devRef .tc main_arg3) = m ((c : Thread nD τ).loc main_arg3) :=
  (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl
theorem W10_main_arg4 (c : Dev nD) : W10 m ρ c (Proc.devRef .tc main_arg4) = m ((c : Thread nD τ).loc main_arg4) :=
  (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl
theorem W10_main_arg5 (c : Dev nD) : W10 m ρ c (Proc.devRef .tc main_arg5) = m ((c : Thread nD τ).loc main_arg5) :=
  (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl
theorem W10_main_arg6 (c : Dev nD) : W10 m ρ c (Proc.devRef .tc main_arg6) = m ((c : Thread nD τ).loc main_arg6) :=
  (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl
theorem W10_main_arg7 (c : Dev nD) : W10 m ρ c (Proc.devRef .tc main_arg7) = m ((c : Thread nD τ).loc main_arg7) :=
  (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl
theorem W10_main_arg8 (c : Dev nD) : W10 m ρ c (Proc.devRef .tc main_arg8) = m ((c : Thread nD τ).loc main_arg8) :=
  (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl
theorem W10_main_arg9 (c : Dev nD) : W10 m ρ c (Proc.devRef .tc main_arg9) = m ((c : Thread nD τ).loc main_arg9) :=
  (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl
theorem W10_main_arg10 (c : Dev nD) : W10 m ρ c (Proc.devRef .tc main_arg10) = m ((c : Thread nD τ).loc main_arg10) :=
  (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans rfl
theorem W10_main_arg11 (c : Dev nD) : W10 m ρ c (Proc.devRef .tc main_arg11) = m ((c : Thread nD τ).loc main_arg11) :=
  (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans rfl
theorem W10_main_arg12 (c : Dev nD) : W10 m ρ c (Proc.devRef .tc main_arg12) = m ((c : Thread nD τ).loc main_arg12) :=
  (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans rfl
theorem W10_main_arg13 (c : Dev nD) : W10 m ρ c (Proc.devRef .tc main_arg13) = m ((c : Thread nD τ).loc main_arg13) :=
  (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans rfl
theorem W10_main_arg14 (c : Dev nD) : W10 m ρ c (Proc.devRef .tc main_arg14) = m ((c : Thread nD τ).loc main_arg14) :=
  (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans rfl

end Cert.KernelIdeal.Regs

end
-- ==== Proof.Run5Segs.lean ====
import proofs.«158263_j27642409517219_1_alg».proof.Proof.Run5Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The five kernel regions as items of the program's run

Between two items of the program a core's thread state holds every unscoped buffer at the contents named for that
point (`W0 … W10`) beside the generator register and the fact that the core owes nothing. This module gives the
family of the five pipelines' proof data, each at the contents its region is entered with, and for each region the
record that takes the thread state before it to the one after it: its arrays are split out of the unscoped buffers,
the pipeline runs under its body obligation, and the arrays are put back at their final contents. -/

-- decided memberships among the program's 160 references recurse past the default depth
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as an item over the unscoped buffers from the contents `W`, `R` riding along: it ends with them at
    what the operations compute from `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes: every unscoped buffer at the last contents `W10`, the generator
    register at some state. -/
abbrev Tₙ (c : Dev nD) : sProp 𝕄 := iprop(StableHlo.held (c : Thread nD τ) (Pipeline.ucRefs τ sig) (W10 m ρ c) ∗ ∃ r, prngReg c r)

/-! ## The regions as items -/

-- a library lemma stated over the pinned configuration of pipeline 0 meets the printed one only when unification may
-- unfold plain definitions in a metavariable's type
set_option backward.isDefEq.respectTransparency.types false in
/-- Region 0 over the thread state: entered with every unscoped buffer at `W1`, left with them at `W2`. Its arrays
    are split out of the unscoped buffers at entry and put back at their final contents at exit; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 1 meets the printed one only when unification may
-- unfold plain definitions in a metavariable's type
set_option backward.isDefEq.respectTransparency.types false in
/-- Region 1 over the thread state: entered with every unscoped buffer at `W3`, left with them at `W4`. Its arrays
    are split out of the unscoped buffers at entry and put back at their final contents at exit; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 2 meets the printed one only when unification may
-- unfold plain definitions in a metavariable's type
set_option backward.isDefEq.respectTransparency.types false in
/-- Region 2 over the thread state: entered with every unscoped buffer at `W5`, left with them at `W6`. Its arrays
    are split out of the unscoped buffers at entry and put back at their final contents at exit; the generator
    register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 3 meets the printed one only when unification may
-- unfold plain definitions in a metavariable's type
set_option backward.isDefEq.respectTransparency.types false in
/-- Region 3 over the thread state: entered with every unscoped buffer at `W7`, left with them at `W8`. Its arrays
    are split out of the unscoped buffers at entry and put back at their final contents at exit; the generator
    register goes into the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline 4 meets the printed one only when unification may
-- unfold plain definitions in a metavariable's type
set_option backward.isDefEq.respectTransparency.types false in
/-- Region 4 over the thread state: entered with every unscoped buffer at `W9`, left with them at `W10`. Its arrays
    are split out of the unscoped buffers at entry and put back at their final contents at exit; the generator
    register goes into the pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Regs

end
-- ==== Proof.Run5.lean ====
import proofs.«158263_j27642409517219_1_alg».proof.Proof.Run5Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program: five host stretches and five kernel regions

Every weakly fair execution of the program from a memory `m` with all counters at zero terminates without a fault,
and in its final memory the result array holds what the last region's pipeline leaves in it (`V10 m ρ c main_v66`,
the last of the contents named between the items) while each of the fifteen argument arrays holds what it held at
launch. The ten items are run one after another over a thread state that holds every unscoped buffer of the core at
the contents named for that point: a host stretch takes them from one valuation to the next by what its operations
compute; a region takes its arrays out, runs its pipeline under that pipeline's body obligation, and puts them back
at their final contents. -/

-- decided memberships among the program's 160 references recurse past the default depth
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as its items, and the launch -/

/-- The ten items in order: a host item per stretch from the contents before it, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- The program is the run of its items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: from any memory with zero counters every weakly fair execution terminates, nothing faulting, and the final
    memory has the result array at what region 4 leaves in it and every argument array as launched — the launch over
    the ten items, the last thread state read against the final memory. -/
theorem run_out : θ_run defs (onTc (τ := τ) (main (F := F))) ⟨m, fun _ => 0, ρ⟩ (fun r => ∀ c : Dev nD,
      r.2.mem ((c.tc : Thread nD τ).loc main_v66) = V10 m ρ c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
        (h c _ (mem_uc main_arg0 (by decide))).trans (W10_main_arg0 m ρ c),
        (h c _ (mem_uc main_arg1 (by decide))).trans (W10_main_arg1 m ρ c),
        (h c _ (mem_uc main_arg2 (by decide))).trans (W10_main_arg2 m ρ c),
        (h c _ (mem_uc main_arg3 (by decide))).trans (W10_main_arg3 m ρ c),
        (h c _ (mem_uc main_arg4 (by decide))).trans (W10_main_arg4 m ρ c),
        (h c _ (mem_uc main_arg5 (by decide))).trans (W10_main_arg5 m ρ c),
        (h c _ (mem_uc main_arg6 (by decide))).trans (W10_main_arg6 m ρ c),
        (h c _ (mem_uc main_arg7 (by decide))).trans (W10_main_arg7 m ρ c),
        (h c _ (mem_uc main_arg8 (by decide))).trans (W10_main_arg8 m ρ c),
        (h c _ (mem_uc main_arg9 (by decide))).trans (W10_main_arg9 m ρ c),
        (h c _ (mem_uc main_arg10 (by decide))).trans (W10_main_arg10 m ρ c),
        (h c _ (mem_uc main_arg11 (by decide))).trans (W10_main_arg11 m ρ c),
        (h c _ (mem_uc main_arg12 (by decide))).trans (W10_main_arg12 m ρ c),
        (h c _ (mem_uc main_arg13 (by decide))).trans (W10_main_arg13 m ρ c),
        (h c _ (mem_uc main_arg14 (by decide))).trans (W10_main_arg14 m ρ c)⟩)

/-- The frame: the same run, keeping only that every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_out m ρ)

end Cert.KernelIdeal.Regs

end
-- ==== Proof.RefOps.lean ====
/- The reference's @main as a list of host operations, cut into windows that each compute one stage of the
   three-layer mean-aggregation network (index columns; gather / scatter-add / divide; the two matrix products
   and the bias; the column mean and variance; the normalisation; the rectifier; the log-softmax), with the
   operations of the outlined functions (variance, where, relu, log_softmax) listed at their call sites over the
   call's buffer record. The program is this straight line, so its run is the fold of the operations' results. -/
import proofs.«158263_j27642409517219_1_alg».proof.ReferenceIdeal
import proofs.«158263_j27642409517219_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- 4 operations, the last writing `main_v3`. -/
def wIdx : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

theorem wIdx_sub : (wIdx : List (HloOp τ sig (Elt F))).Forall fun op => op.bufs ⊆ tcRefs τ sig :=
  ⟨unary_bufs_sub .., reshape_bufs_sub .., unary_bufs_sub .., reshape_bufs_sub ..⟩

theorem wIdx_fresh : ∀ op ∈ (wIdx : List (HloOp τ sig (Elt F))), op.fresh = ∅ := by
  intro _ h; (repeat (cases h with | head => rfl | tail _ h => ?_)); exact nomatch h

/-- 25 operations, the last writing `main_v22`. -/
def wConv1a : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x15_S1600000x1_S1600000x15_1_0_n_n_0_1_115 x i) : (⟨S100000x15, .f32⟩ : BufTy).Contents (Elt F) → (⟨S1600000x1, .i32⟩ : BufTy).Contents (Elt F) → (⟨S1600000x15, .f32⟩ : BufTy).Contents (Elt F)),
    nullary main_cst (constant S_ .f32 0x00000000#32),
    unary main_cst main_v11 (broadcastInDim S100000x15 ![] bcast_S_S100000x15 : (⟨S_, .f32⟩ : BufTy).Contents (Elt F) → (⟨S100000x15, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x15_S1600000x1_S1600000x15_1_0_0_1 x i u) : (⟨S100000x15, .f32⟩ : BufTy).Contents (Elt F) → (⟨S1600000x1, .i32⟩ : BufTy).Contents (Elt F) → (⟨S1600000x15, .f32⟩ : BufTy).Contents (Elt F) → (⟨S100000x15, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x15 ![0, 1] bcast_S100000x1_S100000x15_0_1 : (⟨S100000x1, .f32⟩ : BufTy).Contents (Elt F) → (⟨S100000x15, .f32⟩ : BufTy).Contents (Elt F)),
    binary main_v13 main_v21 main_v22 (Host.divf : (⟨S100000x15, .f32⟩ : BufTy).Contents (Elt F) → (⟨S100000x15, .f32⟩ : BufTy).Contents (Elt F) → (⟨S100000x15, .f32⟩ : BufTy).Contents (Elt F)) ]

theorem wConv1a_sub : (wConv1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem wConv1a_fresh : ∀ op ∈ (wConv1a : List (HloOp τ sig (Elt F))), op.fresh = ∅ := by
  intro _ h; (repeat (cases h with | head => rfl | tail _ h => ?_)); exact nomatch h

/-- 8 operations, the last writing `main_v30`. -/
def wConv1b : List (HloOp τ sig (Elt F)) :=
  [ unary main_arg2 main_v23 ((transpose S15x64 [1, 0] · transposes_S64x15_S15x64_1_0) : (⟨S64x15, .f32⟩ : BufTy).Contents (Elt F) → (⟨S15x64, .f32⟩ : BufTy).Contents (Elt F)),
    binary main_v22 main_v23 main_v24 ((fun l r => Host.dotGeneral dot_S100000x15_S15x64_S100000x64_1_0_0_1_n_n none l r) : (⟨S100000x15, .f32⟩ : BufTy).Contents (Elt F) → (⟨S15x64, .f32⟩ : BufTy).Contents (Elt F) → (⟨S100000x64, .f32⟩ : BufTy).Contents (Elt F)),
    unary main_arg3 main_v25 (broadcastInDim S1x64 ![1] bcast_S64_S1x64_1 : (⟨S64, .f32⟩ : BufTy).Contents (Elt F) → (⟨S1x64, .f32⟩ : BufTy).Contents (Elt F)),
    unary main_v25 main_v26 (broadcastInDim S100000x64 ![0, 1] bcast_S1x64_S100000x64_0_1 : (⟨S1x64, .f32⟩ : BufTy).Contents (Elt F) → (⟨S100000x64, .f32⟩ : BufTy).Contents (Elt F)),
    binary main_v24 main_v26 main_v27 (addf : (⟨S100000x64, .f32⟩ : BufTy).Contents (Elt F) → (⟨S100000x64, .f32⟩ : BufTy).Contents (Elt F) → (⟨S100000x64, .f32⟩ : BufTy).Contents (Elt F)),
    unary main_arg4 main_v28 ((transpose S15x64 [1, 0] · transposes_S64x15_S15x64_1_0) : (⟨S64x15, .f32⟩ : BufTy).Contents (Elt F) → (⟨S15x64, .f32⟩ : BufTy).Contents (Elt F)),
    binary main_arg0 main_v28 main_v29 ((fun l r => Host.dotGeneral dot_S100000x15_S15x64_S100000x64_1_0_0_1_n_n none l r) : (⟨S100000x15, .f32⟩ : BufTy).Contents (Elt F) → (⟨S15x64, .f32⟩ : BufTy).Contents (Elt F) → (⟨S100000x64, .f32⟩ : BufTy).Contents (Elt F)),
    binary main_v27 main_v29 main_v30 (addf : (⟨S100000x64, .f32⟩ : BufTy).Contents (Elt F) → (⟨S100000x64, .f32⟩ : BufTy).Contents (Elt F) → (⟨S100000x64, .f32⟩ : BufTy).Contents (Elt F)) ]

theorem wConv1b_sub : (wConv1b : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩

theorem wConv1b_fresh : ∀ op ∈ (wConv1b : List (HloOp τ sig (Elt F))), op.fresh = ∅ := by
  intro _ h; (repeat (cases h with | head => rfl | tail _ h => ?_)); exact nomatch h

/-- 28 operations, the last writing `main_v34`. -/
def wStat1 : List (HloOp τ sig (Elt F)) :=
  [ nullary main_cst_4 (constant S_ .f32 0x00000000#32),
    binary main_v30 main_cst_4 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_5 (constant S_ .f32 0x47C35000#32),
    unary main_cst_5 main_v32 (broadcastInDim S64 ![] bcast_S_S64 : (⟨S_, .f32⟩ : BufTy).Contents (Elt F) → (⟨S64, .f32⟩ : BufTy).Contents (Elt F)),
    binary main_v31 main_v32 main_v33 (Host.divf : (⟨S64, .f32⟩ : BufTy).Contents (Elt F) → (⟨S64, .f32⟩ : BufTy).Contents (Elt F) → (⟨S64, .f32⟩ : BufTy).Contents (Elt F)),
    nullary main_c_6 (constantI S_ 32 0#32),
    TRef.nullary main_call0.cst (constant S_ .f32 0x00000000#32),
    TRef.binary (.of main_v30 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v30 : TRef sig ⟨S100000x64, .f32⟩) main_call0.v4 main_call0.v5 subf,
    TRef.binary main_call0.v5 main_call0.v5 main_call0.v6 mulf,
    TRef.unary (.of main_c_6 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

theorem wStat1_sub : (wStat1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem wStat1_fresh : ∀ op ∈ (wStat1 : List (HloOp τ sig (Elt F))), op.fresh = ∅ := by
  intro _ h; (repeat (cases h with | head => rfl | tail _ h => ?_)); exact nomatch h

/-- 16 operations, the last writing `main_v49`. -/
def wBn1 : List (HloOp τ sig (Elt F)) :=
  [ unary main_v33 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v30 main_v36 main_v37 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v38 (broadcastInDim S64 ![] bcast_S_S64 : (⟨S_, .f32⟩ : BufTy).Contents (Elt F) → (⟨S64, .f32⟩ : BufTy).Contents (Elt F)),
    binary main_v34 main_v38 main_v39 (addf : (⟨S64, .f32⟩ : BufTy).Contents (Elt F) → (⟨S64, .f32⟩ : BufTy).Contents (Elt F) → (⟨S64, .f32⟩ : BufTy).Contents (Elt F)),
    unary main_v39 main_v40 (Host.rsqrt : (⟨S64, .f32⟩ : BufTy).Contents (Elt F) → (⟨S64, .f32⟩ : BufTy).Contents (Elt F)),
    unary main_v40 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v37 main_v42 main_v43 (mulf : (⟨S100000x64, .f32⟩ : BufTy).Contents (Elt F) → (⟨S100000x64, .f32⟩ : BufTy).Contents (Elt F) → (⟨S100000x64, .f32⟩ : BufTy).Contents (Elt F)),
    unary main_arg5 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (mulf : (⟨S100000x64, .f32⟩ : BufTy).Contents (Elt F) → (⟨S100000x64, .f32⟩ : BufTy).Contents (Elt F) → (⟨S100000x64, .f32⟩ : BufTy).Contents (Elt F)),
    unary main_arg6 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)) ]

theorem wBn1_sub : (wBn1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem wBn1_fresh : ∀ op ∈ (wBn1 : List (HloOp τ sig (Elt F))), op.fresh = ∅ := by
  intro _ h; (repeat (cases h with | head => rfl | tail _ h => ?_)); exact nomatch h

/-- 3 operations, the last writing `main_v50`. -/
def wRelu1 : List (HloOp τ sig (Elt F)) :=
  [ TRef.nullary main_call1.cst (constant S_ .f32 0x00000000#32),
    TRef.unary main_call1.cst main_call1.v0 (broadcastInDim S100000x64 ![] bcast_S_S100000x64),
    TRef.binary (.of main_v49 : TRef sig ⟨S100000x64, .f32⟩) main_call1.v0 main_call1.v1 maximumf ]

theorem wRelu1_sub : (wRelu1 : List (HloOp τ sig (Elt F))).Forall fun op => op.bufs ⊆ tcRefs τ sig :=
  ⟨nullary_bufs_sub .., unary_bufs_sub .., binary_bufs_sub ..⟩

theorem wRelu1_fresh : ∀ op ∈ (wRelu1 : List (HloOp τ sig (Elt F))), op.fresh = ∅ := by
  intro _ h; (repeat (cases h with | head => rfl | tail _ h => ?_)); exact nomatch h

/-- 25 operations, the last writing `main_v69`. -/
def wConv2a : List (HloOp τ sig (Elt F)) :=
  [ nullary main_c_8 (constantI S_ 32 0#32),
    unary main_c_8 main_v51 (broadcastInDim S1600000 ![] bcast_S_S1600000 : (⟨S_, .i32⟩ : BufTy).Contents (Elt F) → (⟨S1600000, .i32⟩ : BufTy).Contents (Elt F)),
    binary main_v1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v53 (broadcastInDim S1600000 ![] bcast_S_S1600000 : (⟨S_, .i32⟩ : BufTy).Contents (Elt F) → (⟨S1600000, .i32⟩ : BufTy).Contents (Elt F)),
    binary main_v1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_10 (constant S_ .f32 0x00000000#32),
    unary main_cst_10 main_v58 (broadcastInDim S100000x64 ![] bcast_S_S100000x64 : (⟨S_, .f32⟩ : BufTy).Contents (Elt F) → (⟨S100000x64, .f32⟩ : BufTy).Contents (Elt F)),
    unary main_v3 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_11 (constant S_ .f32 0x3F800000#32),
    unary main_cst_11 main_v61 (broadcastInDim S1600000 ![] bcast_S_S1600000 : (⟨S_, .f32⟩ : BufTy).Contents (Elt F) → (⟨S1600000, .f32⟩ : BufTy).Contents (Elt F)),
    nullary main_cst_12 (constant S_ .f32 0x00000000#32),
    unary main_cst_12 main_v62 (broadcastInDim S100000 ![] bcast_S_S100000 : (⟨S_, .f32⟩ : BufTy).Contents (Elt F) → (⟨S100000, .f32⟩ : BufTy).Contents (Elt F)),
    unary main_v3 main_v63 (broadcastInDim S1600000x1 ![0] bcast_S1600000_S1600000x1_0 : (⟨S1600000, .i32⟩ : BufTy).Contents (Elt F) → (⟨S1600000x1, .i32⟩ : BufTy).Contents (Elt F)),
    ternary main_v62 main_v63 main_v61 main_v64 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_13 (constant S_ .f32 0x3F800000#32),
    unary main_cst_13 main_v65 (broadcastInDim S100000 ![] bcast_S_S100000 : (⟨S_, .f32⟩ : BufTy).Contents (Elt F) → (⟨S100000, .f32⟩ : BufTy).Contents (Elt F)),
    binary main_v64 main_v65 main_v66 (maximumf : (⟨S100000, .f32⟩ : BufTy).Contents (Elt F) → (⟨S100000, .f32⟩ : BufTy).Contents (Elt F) → (⟨S100000, .f32⟩ : BufTy).Contents (Elt F)),
    unary main_v66 main_v67 (broadcastInDim S100000x1 ![0] bcast_S100000_S100000x1_0 : (⟨S100000, .f32⟩ : BufTy).Contents (Elt F) → (⟨S100000x1, .f32⟩ : BufTy).Contents (Elt F)),
    unary main_v67 main_v68 (broadcastInDim S100000x64 ![0, 1] bcast_S100000x1_S100000x64_0_1 : (⟨S100000x1, .f32⟩ : BufTy).Contents (Elt F) → (⟨S100000x64, .f32⟩ : BufTy).Contents (Elt F)),
    binary main_v60 main_v68 main_v69 (Host.divf : (⟨S100000x64, .f32⟩ : BufTy).Contents (Elt F) → (⟨S100000x64, .f32⟩ : BufTy).Contents (Elt F) → (⟨S100000x64, .f32⟩ : BufTy).Contents (Elt F)) ]

theorem wConv2a_sub : (wConv2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem wConv2a_fresh : ∀ op ∈ (wConv2a : List (HloOp τ sig (Elt F))), op.fresh = ∅ := by
  intro _ h; (repeat (cases h with | head => rfl | tail _ h => ?_)); exact nomatch h

/-- 8 operations, the last writing `main_v77`. -/
def wConv2b : List (HloOp τ sig (Elt F)) :=
  [ unary main_arg7 main_v70 ((transpose S64x32 [1, 0] · transposes_S32x64_S64x32_1_0) : (⟨S32x64, .f32⟩ : BufTy).Contents (Elt F) → (⟨S64x32, .f32⟩ : BufTy).Contents (Elt F)),
    binary main_v69 main_v70 main_v71 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg8 main_v72 (broadcastInDim S1x32 ![1] bcast_S32_S1x32_1 : (⟨S32, .f32⟩ : BufTy).Contents (Elt F) → (⟨S1x32, .f32⟩ : BufTy).Contents (Elt F)),
    unary main_v72 main_v73 (broadcastInDim S100000x32 ![0, 1] bcast_S1x32_S100000x32_0_1 : (⟨S1x32, .f32⟩ : BufTy).Contents (Elt F) → (⟨S100000x32, .f32⟩ : BufTy).Contents (Elt F)),
    binary main_v71 main_v73 main_v74 (addf : (⟨S100000x32, .f32⟩ : BufTy).Contents (Elt F) → (⟨S100000x32, .f32⟩ : BufTy).Contents (Elt F) → (⟨S100000x32, .f32⟩ : BufTy).Contents (Elt F)),
    unary main_arg9 main_v75 ((transpose S64x32 [1, 0] · transposes_S32x64_S64x32_1_0) : (⟨S32x64, .f32⟩ : BufTy).Contents (Elt F) → (⟨S64x32, .f32⟩ : BufTy).Contents (Elt F)),
    binary main_v50 main_v75 main_v76 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v74 main_v76 main_v77 (addf : (⟨S100000x32, .f32⟩ : BufTy).Contents (Elt F) → (⟨S100000x32, .f32⟩ : BufTy).Contents (Elt F) → (⟨S100000x32, .f32⟩ : BufTy).Contents (Elt F)) ]

theorem wConv2b_sub : (wConv2b : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩

theorem wConv2b_fresh : ∀ op ∈ (wConv2b : List (HloOp τ sig (Elt F))), op.fresh = ∅ := by
  intro _ h; (repeat (cases h with | head => rfl | tail _ h => ?_)); exact nomatch h

/-- 28 operations, the last writing `main_v81`. -/
def wStat2 : List (HloOp τ sig (Elt F)) :=
  [ nullary main_cst_14 (constant S_ .f32 0x00000000#32),
    binary main_v77 main_cst_14 main_v78 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_15 (constant S_ .f32 0x47C35000#32),
    unary main_cst_15 main_v79 (broadcastInDim S32 ![] bcast_S_S32 : (⟨S_, .f32⟩ : BufTy).Contents (Elt F) → (⟨S32, .f32⟩ : BufTy).Contents (Elt F)),
    binary main_v78 main_v79 main_v80 (Host.divf : (⟨S32, .f32⟩ : BufTy).Contents (Elt F) → (⟨S32, .f32⟩ : BufTy).Contents (Elt F) → (⟨S32, .f32⟩ : BufTy).Contents (Elt F)),
    nullary main_c_16 (constantI S_ 32 0#32),
    TRef.nullary main_call2.cst (constant S_ .f32 0x00000000#32),
    TRef.binary (.of main_v77 : TRef sig ⟨S100000x32, .f32⟩) main_call2.cst main_call2.v0 (fun x v => Host.reduceAdd x v reducesTo_S100000x32_S32_d0 h_S_),
    TRef.unary main_call2.v0 main_call2.v1 (broadcastInDim S1x32 ![1] bcast_S32_S1x32_1),
    TRef.nullary main_call2.cst_0 (constant S_ .f32 0x47C35000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S100000x32 ![0, 1] bcast_S1x32_S100000x32_0_1),
    TRef.binary (.of main_v77 : TRef sig ⟨S100000x32, .f32⟩) main_call2.v4 main_call2.v5 subf,
    TRef.binary main_call2.v5 main_call2.v5 main_call2.v6 mulf,
    TRef.unary (.of main_c_16 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b) ]

theorem wStat2_sub : (wStat2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem wStat2_fresh : ∀ op ∈ (wStat2 : List (HloOp τ sig (Elt F))), op.fresh = ∅ := by
  intro _ h; (repeat (cases h with | head => rfl | tail _ h => ?_)); exact nomatch h

/-- 16 operations, the last writing `main_v96`. -/
def wBn2 : List (HloOp τ sig (Elt F)) :=
  [ unary main_v80 main_v82 (broadcastInDim S1x32 ![1] bcast_S32_S1x32_1 : (⟨S32, .f32⟩ : BufTy).Contents (Elt F) → (⟨S1x32, .f32⟩ : BufTy).Contents (Elt F)),
    unary main_v82 main_v83 (broadcastInDim S100000x32 ![0, 1] bcast_S1x32_S100000x32_0_1 : (⟨S1x32, .f32⟩ : BufTy).Contents (Elt F) → (⟨S100000x32, .f32⟩ : BufTy).Contents (Elt F)),
    binary main_v77 main_v83 main_v84 (subf : (⟨S100000x32, .f32⟩ : BufTy).Contents (Elt F) → (⟨S100000x32, .f32⟩ : BufTy).Contents (Elt F) → (⟨S100000x32, .f32⟩ : BufTy).Contents (Elt F)),
    nullary main_cst_17 (constant S_ .f32 0x3727C5AC#32),
    unary main_cst_17 main_v85 (broadcastInDim S32 ![] bcast_S_S32 : (⟨S_, .f32⟩ : BufTy).Contents (Elt F) → (⟨S32, .f32⟩ : BufTy).Contents (Elt F)),
    binary main_v81 main_v85 main_v86 (addf : (⟨S32, .f32⟩ : BufTy).Contents (Elt F) → (⟨S32, .f32⟩ : BufTy).Contents (Elt F) → (⟨S32, .f32⟩ : BufTy).Contents (Elt F)),
    unary main_v86 main_v87 (Host.rsqrt : (⟨S32, .f32⟩ : BufTy).Contents (Elt F) → (⟨S32, .f32⟩ : BufTy).Contents (Elt F)),
    unary main_v87 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v84 main_v89 main_v90 (mulf : (⟨S100000x32, .f32⟩ : BufTy).Contents (Elt F) → (⟨S100000x32, .f32⟩ : BufTy).Contents (Elt F) → (⟨S100000x32, .f32⟩ : BufTy).Contents (Elt F)),
    unary main_arg10 main_v91 (broadcastInDim S1x32 ![1] bcast_S32_S1x32_1 : (⟨S32, .f32⟩ : BufTy).Contents (Elt F) → (⟨S1x32, .f32⟩ : BufTy).Contents (Elt F)),
    unary main_v91 main_v92 (broadcastInDim S100000x32 ![0, 1] bcast_S1x32_S100000x32_0_1 : (⟨S1x32, .f32⟩ : BufTy).Contents (Elt F) → (⟨S100000x32, .f32⟩ : BufTy).Contents (Elt F)),
    binary main_v90 main_v92 main_v93 (mulf : (⟨S100000x32, .f32⟩ : BufTy).Contents (Elt F) → (⟨S100000x32, .f32⟩ : BufTy).Contents (Elt F) → (⟨S100000x32, .f32⟩ : BufTy).Contents (Elt F)),
    unary main_arg11 main_v94 (broadcastInDim S1x32 ![1] bcast_S32_S1x32_1 : (⟨S32, .f32⟩ : BufTy).Contents (Elt F) → (⟨S1x32, .f32⟩ : BufTy).Contents (Elt F)),
    unary main_v94 main_v95 (broadcastInDim S100000x32 ![0, 1] bcast_S1x32_S100000x32_0_1 : (⟨S1x32, .f32⟩ : BufTy).Contents (Elt F) → (⟨S100000x32, .f32⟩ : BufTy).Contents (Elt F)),
    binary main_v93 main_v95 main_v96 (addf : (⟨S100000x32, .f32⟩ : BufTy).Contents (Elt F) → (⟨S100000x32, .f32⟩ : BufTy).Contents (Elt F) → (⟨S100000x32, .f32⟩ : BufTy).Contents (Elt F)) ]

theorem wBn2_sub : (wBn2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem wBn2_fresh : ∀ op ∈ (wBn2 : List (HloOp τ sig (Elt F))), op.fresh = ∅ := by
  intro _ h; (repeat (cases h with | head => rfl | tail _ h => ?_)); exact nomatch h

/-- 5 operations, the last writing `main_v98`. -/
def wRelu2 : List (HloOp τ sig (Elt F)) :=
  [ TRef.nullary main_call3.cst (constant S_ .f32 0x00000000#32),
    TRef.unary main_call3.cst main_call3.v0 (broadcastInDim S100000x32 ![] bcast_S_S100000x32),
    TRef.binary (.of main_v96 : TRef sig ⟨S100000x32, .f32⟩) main_call3.v0 main_call3.v1 maximumf,
    nullary main_c_18 (constantI S_ 32 0#32),
    unary main_c_18 main_v98 (broadcastInDim S1600000 ![] bcast_S_S1600000 : (⟨S_, .i32⟩ : BufTy).Contents (Elt F) → (⟨S1600000, .i32⟩ : BufTy).Contents (Elt F)) ]

theorem wRelu2_sub : (wRelu2 : List (HloOp τ sig (Elt F))).Forall fun op => op.bufs ⊆ tcRefs τ sig :=
  ⟨nullary_bufs_sub .., unary_bufs_sub .., binary_bufs_sub .., nullary_bufs_sub .., unary_bufs_sub ..⟩

theorem wRelu2_fresh : ∀ op ∈ (wRelu2 : List (HloOp τ sig (Elt F))), op.fresh = ∅ := by
  intro _ h; (repeat (cases h with | head => rfl | tail _ h => ?_)); exact nomatch h

/-- 23 operations, the last writing `main_v116`. -/
def wConv3a : List (HloOp τ sig (Elt F)) :=
  [ binary main_v1 main_v98 main_v99 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v100 (broadcastInDim S1600000 ![] bcast_S_S1600000 : (⟨S_, .i32⟩ : BufTy).Contents (Elt F) → (⟨S1600000, .i32⟩ : BufTy).Contents (Elt F)),
    binary main_v1 main_v100 main_v101 (addi : (⟨S1600000, .i32⟩ : BufTy).Contents (Elt F) → (⟨S1600000, .i32⟩ : BufTy).Contents (Elt F) → (⟨S1600000, .i32⟩ : BufTy).Contents (Elt F)),
    ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v102 main_v103 (broadcastInDim S1600000x1 ![0] bcast_S1600000_S1600000x1_0 : (⟨S1600000, .i32⟩ : BufTy).Contents (Elt F) → (⟨S1600000x1, .i32⟩ : BufTy).Contents (Elt F)),
    binary main_v97 main_v103 main_v104 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_20 (constant S_ .f32 0x00000000#32),
    unary main_cst_20 main_v105 (broadcastInDim S100000x32 ![] bcast_S_S100000x32 : (⟨S_, .f32⟩ : BufTy).Contents (Elt F) → (⟨S100000x32, .f32⟩ : BufTy).Contents (Elt F)),
    unary main_v3 main_v106 (broadcastInDim S1600000x1 ![0] bcast_S1600000_S1600000x1_0 : (⟨S1600000, .i32⟩ : BufTy).Contents (Elt F) → (⟨S1600000x1, .i32⟩ : BufTy).Contents (Elt F)),
    ternary main_v105 main_v106 main_v104 main_v107 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_21 (constant S_ .f32 0x3F800000#32),
    unary main_cst_21 main_v108 (broadcastInDim S1600000 ![] bcast_S_S1600000 : (⟨S_, .f32⟩ : BufTy).Contents (Elt F) → (⟨S1600000, .f32⟩ : BufTy).Contents (Elt F)),
    nullary main_cst_22 (constant S_ .f32 0x00000000#32),
    unary main_cst_22 main_v109 (broadcastInDim S100000 ![] bcast_S_S100000 : (⟨S_, .f32⟩ : BufTy).Contents (Elt F) → (⟨S100000, .f32⟩ : BufTy).Contents (Elt F)),
    unary main_v3 main_v110 (broadcastInDim S1600000x1 ![0] bcast_S1600000_S1600000x1_0 : (⟨S1600000, .i32⟩ : BufTy).Contents (Elt F) → (⟨S1600000x1, .i32⟩ : BufTy).Contents (Elt F)),
    ternary main_v109 main_v110 main_v108 main_v111 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_23 (constant S_ .f32 0x3F800000#32),
    unary main_cst_23 main_v112 (broadcastInDim S100000 ![] bcast_S_S100000 : (⟨S_, .f32⟩ : BufTy).Contents (Elt F) → (⟨S100000, .f32⟩ : BufTy).Contents (Elt F)),
    binary main_v111 main_v112 main_v113 (maximumf : (⟨S100000, .f32⟩ : BufTy).Contents (Elt F) → (⟨S100000, .f32⟩ : BufTy).Contents (Elt F) → (⟨S100000, .f32⟩ : BufTy).Contents (Elt F)),
    unary main_v113 main_v114 (broadcastInDim S100000x1 ![0] bcast_S100000_S100000x1_0 : (⟨S100000, .f32⟩ : BufTy).Contents (Elt F) → (⟨S100000x1, .f32⟩ : BufTy).Contents (Elt F)),
    unary main_v114 main_v115 (broadcastInDim S100000x32 ![0, 1] bcast_S100000x1_S100000x32_0_1 : (⟨S100000x1, .f32⟩ : BufTy).Contents (Elt F) → (⟨S100000x32, .f32⟩ : BufTy).Contents (Elt F)),
    binary main_v107 main_v115 main_v116 (Host.divf : (⟨S100000x32, .f32⟩ : BufTy).Contents (Elt F) → (⟨S100000x32, .f32⟩ : BufTy).Contents (Elt F) → (⟨S100000x32, .f32⟩ : BufTy).Contents (Elt F)) ]

theorem wConv3a_sub : (wConv3a : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem wConv3a_fresh : ∀ op ∈ (wConv3a : List (HloOp τ sig (Elt F))), op.fresh = ∅ := by
  intro _ h; (repeat (cases h with | head => rfl | tail _ h => ?_)); exact nomatch h

/-- 8 operations, the last writing `main_v124`. -/
def wConv3b : List (HloOp τ sig (Elt F)) :=
  [ unary main_arg12 main_v117 ((transpose S32x2 [1, 0] · transposes_S2x32_S32x2_1_0) : (⟨S2x32, .f32⟩ : BufTy).Contents (Elt F) → (⟨S32x2, .f32⟩ : BufTy).Contents (Elt F)),
    binary main_v116 main_v117 main_v118 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    unary main_arg13 main_v119 (broadcastInDim S1x2 ![1] bcast_S2_S1x2_1 : (⟨S2, .f32⟩ : BufTy).Contents (Elt F) → (⟨S1x2, .f32⟩ : BufTy).Contents (Elt F)),
    unary main_v119 main_v120 (broadcastInDim S100000x2 ![0, 1] bcast_S1x2_S100000x2_0_1 : (⟨S1x2, .f32⟩ : BufTy).Contents (Elt F) → (⟨S100000x2, .f32⟩ : BufTy).Contents (Elt F)),
    binary main_v118 main_v120 main_v121 (addf : (⟨S100000x2, .f32⟩ : BufTy).Contents (Elt F) → (⟨S100000x2, .f32⟩ : BufTy).Contents (Elt F) → (⟨S100000x2, .f32⟩ : BufTy).Contents (Elt F)),
    unary main_arg14 main_v122 ((transpose S32x2 [1, 0] · transposes_S2x32_S32x2_1_0) : (⟨S2x32, .f32⟩ : BufTy).Contents (Elt F) → (⟨S32x2, .f32⟩ : BufTy).Contents (Elt F)),
    binary main_v97 main_v122 main_v123 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    binary main_v121 main_v123 main_v124 (addf : (⟨S100000x2, .f32⟩ : BufTy).Contents (Elt F) → (⟨S100000x2, .f32⟩ : BufTy).Contents (Elt F) → (⟨S100000x2, .f32⟩ : BufTy).Contents (Elt F)) ]

theorem wConv3b_sub : (wConv3b : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., binary_bufs_sub ..⟩

theorem wConv3b_fresh : ∀ op ∈ (wConv3b : List (HloOp τ sig (Elt F))), op.fresh = ∅ := by
  intro _ h; (repeat (cases h with | head => rfl | tail _ h => ?_)); exact nomatch h

/-- 15 operations, the last writing `main_v125`. -/
def wLsm : List (HloOp τ sig (Elt F)) :=
  [ TRef.nullary main_call4.cst (constant S_ .f32 0xFF800000#32),
    TRef.binary (.of main_v124 : TRef sig ⟨S100000x2, .f32⟩) main_call4.cst main_call4.v0 (fun x v => Host.reduce FloatOps.maximumf x v reducesTo_S100000x2_S100000_d1 h_S_),
    TRef.nullary main_call4.cst_0 (constant S_ .f32 0xFF800000#32),
    TRef.unary main_call4.cst_0 main_call4.v1 (broadcastInDim S100000 ![] bcast_S_S100000),
    TRef.binary main_call4.v1 main_call4.v0 main_call4.v2 maximumf,
    TRef.unary main_call4.v2 main_call4.v3 (broadcastInDim S100000x1 ![0] bcast_S100000_S100000x1_0),
    TRef.unary main_call4.v3 main_call4.v4 (broadcastInDim S100000x2 ![0, 1] bcast_S100000x1_S100000x2_0_1),
    TRef.binary (.of main_v124 : TRef sig ⟨S100000x2, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S100000x2_S100000_d1 h_S_),
    TRef.unary main_call4.v7 main_call4.v8 (broadcastInDim S100000x1 ![0] bcast_S100000_S100000x1_0),
    TRef.unary main_call4.v8 main_call4.v9 Host.log,
    TRef.unary main_call4.v9 main_call4.v10 (broadcastInDim S100000x2 ![0, 1] bcast_S100000x1_S100000x2_0_1),
    TRef.binary main_call4.v5 main_call4.v10 main_call4.v11 subf ]

theorem wLsm_sub : (wLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem wLsm_fresh : ∀ op ∈ (wLsm : List (HloOp τ sig (Elt F))), op.fresh = ∅ := by
  intro _ h; (repeat (cases h with | head => rfl | tail _ h => ?_)); exact nomatch h

/-- The operations of `main_part0`. -/
abbrev main_part0_ops : List (HloOp τ sig (Elt F)) := wIdx ++ wConv1a ++ wConv1b ++ wStat1 ++ wBn1

set_option maxRecDepth 16384 in
set_option maxHeartbeats 4000000 in
theorem main_part0_eq (c : Dev nD) : main_part0 (F := F) c = seq main_part0_ops := rfl

/-- The operations of `main_part1`. -/
abbrev main_part1_ops : List (HloOp τ sig (Elt F)) := wRelu1 ++ wConv2a ++ wConv2b ++ wStat2 ++ wBn2 ++ wRelu2

set_option maxRecDepth 16384 in
set_option maxHeartbeats 4000000 in
theorem main_part1_eq (c : Dev nD) : main_part1 (F := F) c = seq main_part1_ops := rfl

/-- The operations of `main_part2`. -/
abbrev main_part2_ops : List (HloOp τ sig (Elt F)) := wConv3a ++ wConv3b ++ wLsm

set_option maxRecDepth 16384 in
set_option maxHeartbeats 4000000 in
theorem main_part2_eq (c : Dev nD) : main_part2 (F := F) c = seq main_part2_ops := rfl

/-- @main's 212 operations, in order. -/
abbrev ops : List (HloOp τ sig (Elt F)) := main_part0_ops ++ main_part1_ops ++ main_part2_ops

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, main_part0_ops, main_part1_ops, main_part2_ops, List.mem_append, or_assoc] at h
    rcases h with h | h | h | h | h | h | h | h | h | h | h | h | h | h
    exacts [List.forall_iff_forall_mem.mp wIdx_sub op h, List.forall_iff_forall_mem.mp wConv1a_sub op h, List.forall_iff_forall_mem.mp wConv1b_sub op h, List.forall_iff_forall_mem.mp wStat1_sub op h, List.forall_iff_forall_mem.mp wBn1_sub op h, List.forall_iff_forall_mem.mp wRelu1_sub op h, List.forall_iff_forall_mem.mp wConv2a_sub op h, List.forall_iff_forall_mem.mp wConv2b_sub op h, List.forall_iff_forall_mem.mp wStat2_sub op h, List.forall_iff_forall_mem.mp wBn2_sub op h, List.forall_iff_forall_mem.mp wRelu2_sub op h, List.forall_iff_forall_mem.mp wConv3a_sub op h, List.forall_iff_forall_mem.mp wConv3b_sub op h, List.forall_iff_forall_mem.mp wLsm_sub op h]

theorem ops_fresh : ∀ op ∈ (ops : List (HloOp τ sig (Elt F))), op.fresh = ∅ := by
  intro op h
  simp only [ops, main_part0_ops, main_part1_ops, main_part2_ops, List.mem_append, or_assoc] at h
  rcases h with h | h | h | h | h | h | h | h | h | h | h | h | h | h
  exacts [wIdx_fresh op h, wConv1a_fresh op h, wConv1b_fresh op h, wStat1_fresh op h, wBn1_fresh op h, wRelu1_fresh op h, wConv2a_fresh op h, wConv2b_fresh op h, wStat2_fresh op h, wBn2_fresh op h, wRelu2_fresh op h, wConv3a_fresh op h, wConv3b_fresh op h, wLsm_fresh op h]

/-- From any memory with zero counters every weakly fair execution of @main terminates, and every buffer ends at the
    fold of the operations' results over the contents the run started from. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
/- The stages of the reference network as pure functions of arrays, one definition per stage, each over the arrays it
   reads: the two index columns of the edge list, the source column with negative entries wrapped, the in-degree and
   its clamp at one, and per layer the gathered messages, their scatter-add by destination, the division by the
   clamped degree, the two matrix products with the bias, the column mean, the column variance (a sum of squared
   deviations divided by the row count, selected against a positivity test of that count), the normalisation with
   scale and shift, the rectifier; at the end the row-wise log-softmax (row maximum, shift, sum of exponentials,
   logarithm). -/
import proofs.«158263_j27642409517219_1_alg».proof.ReferenceIdeal
import proofs.«158263_j27642409517219_1_alg».proof.Proof.Gen.ReferenceIdeal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

def srcRaw (e : (⟨S2x1600000, .i32⟩ : BufTy).Contents (Elt F)) : (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) e : (⟨S1x1600000, .i32⟩ : BufTy).Contents (Elt F)) shapeCasts_S1x1600000_S1600000 : (⟨S1600000, .i32⟩ : BufTy).Contents (Elt F))

def dstRaw (e : (⟨S2x1600000, .i32⟩ : BufTy).Contents (Elt F)) : (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) e : (⟨S1x1600000, .i32⟩ : BufTy).Contents (Elt F)) shapeCasts_S1x1600000_S1600000 : (⟨S1600000, .i32⟩ : BufTy).Contents (Elt F))

def zeroCol  : (⟨S1600000, .i32⟩ : BufTy).Contents (Elt F) :=
  ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)) : (⟨S1600000, .i32⟩ : BufTy).Contents (Elt F))

def srcIdxZ (z : (⟨S1600000, .i32⟩ : BufTy).Contents (Elt F)) (s : (⟨S1600000, .i32⟩ : BufTy).Contents (Elt F)) : (⟨S1600000x1, .i32⟩ : BufTy).Contents (Elt F) :=
  ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) s z : (⟨S1600000, .i1⟩ : BufTy).Contents (Elt F)) ((addi : (⟨S1600000, .i32⟩ : BufTy).Contents (Elt F) → (⟨S1600000, .i32⟩ : BufTy).Contents (Elt F) → (⟨S1600000, .i32⟩ : BufTy).Contents (Elt F)) s ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)) : (⟨S1600000, .i32⟩ : BufTy).Contents (Elt F)) : (⟨S1600000, .i32⟩ : BufTy).Contents (Elt F)) s : (⟨S1600000, .i32⟩ : BufTy).Contents (Elt F)) : (⟨S1600000x1, .i32⟩ : BufTy).Contents (Elt F))

def dstIdx (d : (⟨S1600000, .i32⟩ : BufTy).Contents (Elt F)) : (⟨S1600000x1, .i32⟩ : BufTy).Contents (Elt F) :=
  ((broadcastInDim S1600000x1 ![0] bcast_S1600000_S1600000x1_0 : (⟨S1600000, .i32⟩ : BufTy).Contents (Elt F) → (⟨S1600000x1, .i32⟩ : BufTy).Contents (Elt F)) d : (⟨S1600000x1, .i32⟩ : BufTy).Contents (Elt F))

def deg (di : (⟨S1600000x1, .i32⟩ : BufTy).Contents (Elt F)) : (⟨S100000, .f32⟩ : BufTy).Contents (Elt F) :=
  (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32) : (⟨S_, .f32⟩ : BufTy).Contents (Elt F)) : (⟨S100000, .f32⟩ : BufTy).Contents (Elt F)) di ((broadcastInDim S1600000 ![] bcast_S_S1600000 : (⟨S_, .f32⟩ : BufTy).Contents (Elt F) → (⟨S1600000, .f32⟩ : BufTy).Contents (Elt F)) ((constant S_ .f32 0x3F800000#32) : (⟨S_, .f32⟩ : BufTy).Contents (Elt F)) : (⟨S1600000, .f32⟩ : BufTy).Contents (Elt F)) : (⟨S100000, .f32⟩ : BufTy).Contents (Elt F))

def degMax (dg : (⟨S100000, .f32⟩ : BufTy).Contents (Elt F)) : (⟨S100000, .f32⟩ : BufTy).Contents (Elt F) :=
  ((maximumf : (⟨S100000, .f32⟩ : BufTy).Contents (Elt F) → (⟨S100000, .f32⟩ : BufTy).Contents (Elt F) → (⟨S100000, .f32⟩ : BufTy).Contents (Elt F)) dg ((broadcastInDim S100000 ![] bcast_S_S100000 : (⟨S_, .f32⟩ : BufTy).Contents (Elt F) → (⟨S100000, .f32⟩ : BufTy).Contents (Elt F)) ((constant S_ .f32 0x3F800000#32) : (⟨S_, .f32⟩ : BufTy).Contents (Elt F)) : (⟨S100000, .f32⟩ : BufTy).Contents (Elt F)) : (⟨S100000, .f32⟩ : BufTy).Contents (Elt F))

def msg1 (x : (⟨S100000x15, .f32⟩ : BufTy).Contents (Elt F)) (si : (⟨S1600000x1, .i32⟩ : BufTy).Contents (Elt F)) : (⟨S1600000x15, .f32⟩ : BufTy).Contents (Elt F) :=
  (((fun x i => Host.gather gather_S100000x15_S1600000x1_S1600000x15_1_0_n_n_0_1_115 x i) : (⟨S100000x15, .f32⟩ : BufTy).Contents (Elt F) → (⟨S1600000x1, .i32⟩ : BufTy).Contents (Elt F) → (⟨S1600000x15, .f32⟩ : BufTy).Contents (Elt F)) x si : (⟨S1600000x15, .f32⟩ : BufTy).Contents (Elt F))

def agg1 (ms : (⟨S1600000x15, .f32⟩ : BufTy).Contents (Elt F)) (di : (⟨S1600000x1, .i32⟩ : BufTy).Contents (Elt F)) : (⟨S100000x15, .f32⟩ : BufTy).Contents (Elt F) :=
  (((fun x i u => Host.scatterAdd scatter_S100000x15_S1600000x1_S1600000x15_1_0_0_1 x i u) : (⟨S100000x15, .f32⟩ : BufTy).Contents (Elt F) → (⟨S1600000x1, .i32⟩ : BufTy).Contents (Elt F) → (⟨S1600000x15, .f32⟩ : BufTy).Contents (Elt F) → (⟨S100000x15, .f32⟩ : BufTy).Contents (Elt F)) ((broadcastInDim S100000x15 ![] bcast_S_S100000x15 : (⟨S_, .f32⟩ : BufTy).Contents (Elt F) → (⟨S100000x15, .f32⟩ : BufTy).Contents (Elt F)) ((constant S_ .f32 0x00000000#32) : (⟨S_, .f32⟩ : BufTy).Contents (Elt F)) : (⟨S100000x15, .f32⟩ : BufTy).Contents (Elt F)) di ms : (⟨S100000x15, .f32⟩ : BufTy).Contents (Elt F))

def mean1 (ag : (⟨S100000x15, .f32⟩ : BufTy).Contents (Elt F)) (dm : (⟨S100000, .f32⟩ : BufTy).Contents (Elt F)) : (⟨S100000x15, .f32⟩ : BufTy).Contents (Elt F) :=
  ((Host.divf : (⟨S100000x15, .f32⟩ : BufTy).Contents (Elt F) → (⟨S100000x15, .f32⟩ : BufTy).Contents (Elt F) → (⟨S100000x15, .f32⟩ : BufTy).Contents (Elt F)) ag ((broadcastInDim S100000x15 ![0, 1] bcast_S100000x1_S100000x15_0_1 : (⟨S100000x1, .f32⟩ : BufTy).Contents (Elt F) → (⟨S100000x15, .f32⟩ : BufTy).Contents (Elt F)) ((broadcastInDim S100000x1 ![0] bcast_S100000_S100000x1_0 : (⟨S100000, .f32⟩ : BufTy).Contents (Elt F) → (⟨S100000x1, .f32⟩ : BufTy).Contents (Elt F)) dm : (⟨S100000x1, .f32⟩ : BufTy).Contents (Elt F)) : (⟨S100000x15, .f32⟩ : BufTy).Contents (Elt F)) : (⟨S100000x15, .f32⟩ : BufTy).Contents (Elt F))

def lin1 (mn : (⟨S100000x15, .f32⟩ : BufTy).Contents (Elt F)) (x : (⟨S100000x15, .f32⟩ : BufTy).Contents (Elt F)) (Wl : (⟨S64x15, .f32⟩ : BufTy).Contents (Elt F)) (b : (⟨S64, .f32⟩ : BufTy).Contents (Elt F)) (Wr : (⟨S64x15, .f32⟩ : BufTy).Contents (Elt F)) : (⟨S100000x64, .f32⟩ : BufTy).Contents (Elt F) :=
  ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x15_S15x64_S100000x64_1_0_0_1_n_n none l r) : (⟨S100000x15, .f32⟩ : BufTy).Contents (Elt F) → (⟨S15x64, .f32⟩ : BufTy).Contents (Elt F) → (⟨S100000x64, .f32⟩ : BufTy).Contents (Elt F)) mn (((transpose S15x64 [1, 0] · transposes_S64x15_S15x64_1_0) : (⟨S64x15, .f32⟩ : BufTy).Contents (Elt F) → (⟨S15x64, .f32⟩ : BufTy).Contents (Elt F)) Wl : (⟨S15x64, .f32⟩ : BufTy).Contents (Elt F)) : (⟨S100000x64, .f32⟩ : BufTy).Contents (Elt F)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b : (⟨S1x64, .f32⟩ : BufTy).Contents (Elt F)) : (⟨S100000x64, .f32⟩ : BufTy).Contents (Elt F)) : (⟨S100000x64, .f32⟩ : BufTy).Contents (Elt F)) (((fun l r => Host.dotGeneral dot_S100000x15_S15x64_S100000x64_1_0_0_1_n_n none l r) : (⟨S100000x15, .f32⟩ : BufTy).Contents (Elt F) → (⟨S15x64, .f32⟩ : BufTy).Contents (Elt F) → (⟨S100000x64, .f32⟩ : BufTy).Contents (Elt F)) x (((transpose S15x64 [1, 0] · transposes_S64x15_S15x64_1_0) : (⟨S64x15, .f32⟩ : BufTy).Contents (Elt F) → (⟨S15x64, .f32⟩ : BufTy).Contents (Elt F)) Wr : (⟨S15x64, .f32⟩ : BufTy).Contents (Elt F)) : (⟨S100000x64, .f32⟩ : BufTy).Contents (Elt F)) : (⟨S100000x64, .f32⟩ : BufTy).Contents (Elt F))

def mu1 (h : (⟨S100000x64, .f32⟩ : BufTy).Contents (Elt F)) : (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) h ((constant S_ .f32 0x00000000#32) : (⟨S_, .f32⟩ : BufTy).Contents (Elt F)) : (⟨S64, .f32⟩ : BufTy).Contents (Elt F)) ((broadcastInDim S64 ![] bcast_S_S64 : (⟨S_, .f32⟩ : BufTy).Contents (Elt F) → (⟨S64, .f32⟩ : BufTy).Contents (Elt F)) ((constant S_ .f32 0x47C35000#32) : (⟨S_, .f32⟩ : BufTy).Contents (Elt F)) : (⟨S64, .f32⟩ : BufTy).Contents (Elt F)) : (⟨S64, .f32⟩ : BufTy).Contents (Elt F))

def cnt  : (⟨S_, .f32⟩ : BufTy).Contents (Elt F) :=
  ((subf : (⟨S_, .f32⟩ : BufTy).Contents (Elt F) → (⟨S_, .f32⟩ : BufTy).Contents (Elt F) → (⟨S_, .f32⟩ : BufTy).Contents (Elt F)) ((constant S_ .f32 0x47C35000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)) : (⟨S_, .f32⟩ : BufTy).Contents (Elt F)) : (⟨S_, .f32⟩ : BufTy).Contents (Elt F))

def cntPos  : (⟨S_, .i1⟩ : BufTy).Contents (Elt F) :=
  (((cmpf .ogt) : (⟨S_, .f32⟩ : BufTy).Contents (Elt F) → (⟨S_, .f32⟩ : BufTy).Contents (Elt F) → (⟨S_, .i1⟩ : BufTy).Contents (Elt F)) (cnt (F := F)) ((constant S_ .f32 0x00000000#32) : (⟨S_, .f32⟩ : BufTy).Contents (Elt F)) : (⟨S_, .i1⟩ : BufTy).Contents (Elt F))

def colMean1 (h : (⟨S100000x64, .f32⟩ : BufTy).Contents (Elt F)) : (⟨S1x64, .f32⟩ : BufTy).Contents (Elt F) :=
  ((Host.divf : (⟨S1x64, .f32⟩ : BufTy).Contents (Elt F) → (⟨S1x64, .f32⟩ : BufTy).Contents (Elt F) → (⟨S1x64, .f32⟩ : BufTy).Contents (Elt F)) (((broadcastInDim S1x64 ![1] bcast_S64_S1x64_1) : (⟨S64, .f32⟩ : BufTy).Contents (Elt F) → (⟨S1x64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) h ((constant S_ .f32 0x00000000#32) : (⟨S_, .f32⟩ : BufTy).Contents (Elt F)) : (⟨S64, .f32⟩ : BufTy).Contents (Elt F)) : (⟨S1x64, .f32⟩ : BufTy).Contents (Elt F)) (((broadcastInDim S1x64 ![] bcast_S_S1x64) : (⟨S_, .f32⟩ : BufTy).Contents (Elt F) → (⟨S1x64, .f32⟩ : BufTy).Contents (Elt F)) ((constant S_ .f32 0x47C35000#32) : (⟨S_, .f32⟩ : BufTy).Contents (Elt F)) : (⟨S1x64, .f32⟩ : BufTy).Contents (Elt F)) : (⟨S1x64, .f32⟩ : BufTy).Contents (Elt F))

def sumSq1 (h : (⟨S100000x64, .f32⟩ : BufTy).Contents (Elt F)) : (⟨S64, .f32⟩ : BufTy).Contents (Elt F) :=
  (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) h (((broadcastInDim S100000x64 ![0, 1] bcast_S1x64_S100000x64_0_1) : (⟨S1x64, .f32⟩ : BufTy).Contents (Elt F) → (⟨S100000x64, .f32⟩ : BufTy).Contents (Elt F)) (colMean1 (F := F) h) : (⟨S100000x64, .f32⟩ : BufTy).Contents (Elt F)) : (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) h (((broadcastInDim S100000x64 ![0, 1] bcast_S1x64_S100000x64_0_1) : (⟨S1x64, .f32⟩ : BufTy).Contents (Elt F) → (⟨S100000x64, .f32⟩ : BufTy).Contents (Elt F)) (colMean1 (F := F) h) : (⟨S100000x64, .f32⟩ : BufTy).Contents (Elt F)) : (⟨S100000x64, .f32⟩ : BufTy).Contents (Elt F)) : (⟨S100000x64, .f32⟩ : BufTy).Contents (Elt F)) ((constant S_ .f32 0x00000000#32) : (⟨S_, .f32⟩ : BufTy).Contents (Elt F)) : (⟨S64, .f32⟩ : BufTy).Contents (Elt F))

def var1 (h : (⟨S100000x64, .f32⟩ : BufTy).Contents (Elt F)) : (⟨S64, .f32⟩ : BufTy).Contents (Elt F) :=
  (((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (cntPos (F := F)) ((Host.divf : (⟨S64, .f32⟩ : BufTy).Contents (Elt F) → (⟨S64, .f32⟩ : BufTy).Contents (Elt F) → (⟨S64, .f32⟩ : BufTy).Contents (Elt F)) (sumSq1 (F := F) h) (((broadcastInDim S64 ![] bcast_S_S64) : (⟨S_, .f32⟩ : BufTy).Contents (Elt F) → (⟨S64, .f32⟩ : BufTy).Contents (Elt F)) (cnt (F := F)) : (⟨S64, .f32⟩ : BufTy).Contents (Elt F)) : (⟨S64, .f32⟩ : BufTy).Contents (Elt F)) (((broadcastInDim S64 ![] bcast_S_S64) : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F))

def bn1 (h : (⟨S100000x64, .f32⟩ : BufTy).Contents (Elt F)) (mu : (⟨S64, .f32⟩ : BufTy).Contents (Elt F)) (vr : (⟨S64, .f32⟩ : BufTy).Contents (Elt F)) (g : (⟨S64, .f32⟩ : BufTy).Contents (Elt F)) (be : (⟨S64, .f32⟩ : BufTy).Contents (Elt F)) : (⟨S100000x64, .f32⟩ : BufTy).Contents (Elt F) :=
  ((addf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) h ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) mu : (⟨S1x64, .f32⟩ : BufTy).Contents (Elt F)) : (⟨S100000x64, .f32⟩ : BufTy).Contents (Elt F)) : (⟨S100000x64, .f32⟩ : BufTy).Contents (Elt F)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) vr ((broadcastInDim S64 ![] bcast_S_S64 : (⟨S_, .f32⟩ : BufTy).Contents (Elt F) → (⟨S64, .f32⟩ : BufTy).Contents (Elt F)) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) g : (⟨S1x64, .f32⟩ : BufTy).Contents (Elt F)) : (⟨S100000x64, .f32⟩ : BufTy).Contents (Elt F)) : (⟨S100000x64, .f32⟩ : BufTy).Contents (Elt F)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) be : (⟨S1x64, .f32⟩ : BufTy).Contents (Elt F)) : (⟨S100000x64, .f32⟩ : BufTy).Contents (Elt F)) : (⟨S100000x64, .f32⟩ : BufTy).Contents (Elt F))

def relu1 (h : (⟨S100000x64, .f32⟩ : BufTy).Contents (Elt F)) : (⟨S100000x64, .f32⟩ : BufTy).Contents (Elt F) :=
  ((maximumf : (⟨S100000x64, .f32⟩ : BufTy).Contents (Elt F) → (⟨S100000x64, .f32⟩ : BufTy).Contents (Elt F) → (⟨S100000x64, .f32⟩ : BufTy).Contents (Elt F)) h (((broadcastInDim S100000x64 ![] bcast_S_S100000x64) : (⟨S_, .f32⟩ : BufTy).Contents (Elt F) → (⟨S100000x64, .f32⟩ : BufTy).Contents (Elt F)) ((constant S_ .f32 0x00000000#32) : (⟨S_, .f32⟩ : BufTy).Contents (Elt F)) : (⟨S100000x64, .f32⟩ : BufTy).Contents (Elt F)) : (⟨S100000x64, .f32⟩ : BufTy).Contents (Elt F))

def msg2 (x : (⟨S100000x64, .f32⟩ : BufTy).Contents (Elt F)) (si : (⟨S1600000x1, .i32⟩ : BufTy).Contents (Elt F)) : (⟨S1600000x64, .f32⟩ : BufTy).Contents (Elt F) :=
  (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) x si : (⟨S1600000x64, .f32⟩ : BufTy).Contents (Elt F))

def agg2 (ms : (⟨S1600000x64, .f32⟩ : BufTy).Contents (Elt F)) (di : (⟨S1600000x1, .i32⟩ : BufTy).Contents (Elt F)) : (⟨S100000x64, .f32⟩ : BufTy).Contents (Elt F) :=
  (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) ((constant S_ .f32 0x00000000#32) : (⟨S_, .f32⟩ : BufTy).Contents (Elt F)) : (⟨S100000x64, .f32⟩ : BufTy).Contents (Elt F)) di ms : (⟨S100000x64, .f32⟩ : BufTy).Contents (Elt F))

def mean2 (ag : (⟨S100000x64, .f32⟩ : BufTy).Contents (Elt F)) (dm : (⟨S100000, .f32⟩ : BufTy).Contents (Elt F)) : (⟨S100000x64, .f32⟩ : BufTy).Contents (Elt F) :=
  ((Host.divf : (⟨S100000x64, .f32⟩ : BufTy).Contents (Elt F) → (⟨S100000x64, .f32⟩ : BufTy).Contents (Elt F) → (⟨S100000x64, .f32⟩ : BufTy).Contents (Elt F)) ag ((broadcastInDim S100000x64 ![0, 1] bcast_S100000x1_S100000x64_0_1 : (⟨S100000x1, .f32⟩ : BufTy).Contents (Elt F) → (⟨S100000x64, .f32⟩ : BufTy).Contents (Elt F)) ((broadcastInDim S100000x1 ![0] bcast_S100000_S100000x1_0 : (⟨S100000, .f32⟩ : BufTy).Contents (Elt F) → (⟨S100000x1, .f32⟩ : BufTy).Contents (Elt F)) dm : (⟨S100000x1, .f32⟩ : BufTy).Contents (Elt F)) : (⟨S100000x64, .f32⟩ : BufTy).Contents (Elt F)) : (⟨S100000x64, .f32⟩ : BufTy).Contents (Elt F))

def lin2 (mn : (⟨S100000x64, .f32⟩ : BufTy).Contents (Elt F)) (x : (⟨S100000x64, .f32⟩ : BufTy).Contents (Elt F)) (Wl : (⟨S32x64, .f32⟩ : BufTy).Contents (Elt F)) (b : (⟨S32, .f32⟩ : BufTy).Contents (Elt F)) (Wr : (⟨S32x64, .f32⟩ : BufTy).Contents (Elt F)) : (⟨S100000x32, .f32⟩ : BufTy).Contents (Elt F) :=
  ((addf : (⟨S100000x32, .f32⟩ : BufTy).Contents (Elt F) → (⟨S100000x32, .f32⟩ : BufTy).Contents (Elt F) → (⟨S100000x32, .f32⟩ : BufTy).Contents (Elt F)) ((addf : (⟨S100000x32, .f32⟩ : BufTy).Contents (Elt F) → (⟨S100000x32, .f32⟩ : BufTy).Contents (Elt F) → (⟨S100000x32, .f32⟩ : BufTy).Contents (Elt F)) (((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) mn (((transpose S64x32 [1, 0] · transposes_S32x64_S64x32_1_0) : (⟨S32x64, .f32⟩ : BufTy).Contents (Elt F) → (⟨S64x32, .f32⟩ : BufTy).Contents (Elt F)) Wl : (⟨S64x32, .f32⟩ : BufTy).Contents (Elt F)) : (⟨S100000x32, .f32⟩ : BufTy).Contents (Elt F)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) b : (⟨S1x32, .f32⟩ : BufTy).Contents (Elt F)) : (⟨S100000x32, .f32⟩ : BufTy).Contents (Elt F)) : (⟨S100000x32, .f32⟩ : BufTy).Contents (Elt F)) (((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) x (((transpose S64x32 [1, 0] · transposes_S32x64_S64x32_1_0) : (⟨S32x64, .f32⟩ : BufTy).Contents (Elt F) → (⟨S64x32, .f32⟩ : BufTy).Contents (Elt F)) Wr : (⟨S64x32, .f32⟩ : BufTy).Contents (Elt F)) : (⟨S100000x32, .f32⟩ : BufTy).Contents (Elt F)) : (⟨S100000x32, .f32⟩ : BufTy).Contents (Elt F))

def mu2 (h : (⟨S100000x32, .f32⟩ : BufTy).Contents (Elt F)) : (⟨S32, .f32⟩ : BufTy).Contents (Elt F) :=
  ((Host.divf : (⟨S32, .f32⟩ : BufTy).Contents (Elt F) → (⟨S32, .f32⟩ : BufTy).Contents (Elt F) → (⟨S32, .f32⟩ : BufTy).Contents (Elt F)) (((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) h ((constant S_ .f32 0x00000000#32) : (⟨S_, .f32⟩ : BufTy).Contents (Elt F)) : (⟨S32, .f32⟩ : BufTy).Contents (Elt F)) ((broadcastInDim S32 ![] bcast_S_S32 : (⟨S_, .f32⟩ : BufTy).Contents (Elt F) → (⟨S32, .f32⟩ : BufTy).Contents (Elt F)) ((constant S_ .f32 0x47C35000#32) : (⟨S_, .f32⟩ : BufTy).Contents (Elt F)) : (⟨S32, .f32⟩ : BufTy).Contents (Elt F)) : (⟨S32, .f32⟩ : BufTy).Contents (Elt F))

def colMean2 (h : (⟨S100000x32, .f32⟩ : BufTy).Contents (Elt F)) : (⟨S1x32, .f32⟩ : BufTy).Contents (Elt F) :=
  ((Host.divf : (⟨S1x32, .f32⟩ : BufTy).Contents (Elt F) → (⟨S1x32, .f32⟩ : BufTy).Contents (Elt F) → (⟨S1x32, .f32⟩ : BufTy).Contents (Elt F)) (((broadcastInDim S1x32 ![1] bcast_S32_S1x32_1) : (⟨S32, .f32⟩ : BufTy).Contents (Elt F) → (⟨S1x32, .f32⟩ : BufTy).Contents (Elt F)) (((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) h ((constant S_ .f32 0x00000000#32) : (⟨S_, .f32⟩ : BufTy).Contents (Elt F)) : (⟨S32, .f32⟩ : BufTy).Contents (Elt F)) : (⟨S1x32, .f32⟩ : BufTy).Contents (Elt F)) (((broadcastInDim S1x32 ![] bcast_S_S1x32) : (⟨S_, .f32⟩ : BufTy).Contents (Elt F) → (⟨S1x32, .f32⟩ : BufTy).Contents (Elt F)) ((constant S_ .f32 0x47C35000#32) : (⟨S_, .f32⟩ : BufTy).Contents (Elt F)) : (⟨S1x32, .f32⟩ : BufTy).Contents (Elt F)) : (⟨S1x32, .f32⟩ : BufTy).Contents (Elt F))

def sumSq2 (h : (⟨S100000x32, .f32⟩ : BufTy).Contents (Elt F)) : (⟨S32, .f32⟩ : BufTy).Contents (Elt F) :=
  (((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) ((subf : (⟨S100000x32, .f32⟩ : BufTy).Contents (Elt F) → (⟨S100000x32, .f32⟩ : BufTy).Contents (Elt F) → (⟨S100000x32, .f32⟩ : BufTy).Contents (Elt F)) h (((broadcastInDim S100000x32 ![0, 1] bcast_S1x32_S100000x32_0_1) : (⟨S1x32, .f32⟩ : BufTy).Contents (Elt F) → (⟨S100000x32, .f32⟩ : BufTy).Contents (Elt F)) (colMean2 (F := F) h) : (⟨S100000x32, .f32⟩ : BufTy).Contents (Elt F)) : (⟨S100000x32, .f32⟩ : BufTy).Contents (Elt F)) ((subf : (⟨S100000x32, .f32⟩ : BufTy).Contents (Elt F) → (⟨S100000x32, .f32⟩ : BufTy).Contents (Elt F) → (⟨S100000x32, .f32⟩ : BufTy).Contents (Elt F)) h (((broadcastInDim S100000x32 ![0, 1] bcast_S1x32_S100000x32_0_1) : (⟨S1x32, .f32⟩ : BufTy).Contents (Elt F) → (⟨S100000x32, .f32⟩ : BufTy).Contents (Elt F)) (colMean2 (F := F) h) : (⟨S100000x32, .f32⟩ : BufTy).Contents (Elt F)) : (⟨S100000x32, .f32⟩ : BufTy).Contents (Elt F)) : (⟨S100000x32, .f32⟩ : BufTy).Contents (Elt F)) ((constant S_ .f32 0x00000000#32) : (⟨S_, .f32⟩ : BufTy).Contents (Elt F)) : (⟨S32, .f32⟩ : BufTy).Contents (Elt F))

def var2 (h : (⟨S100000x32, .f32⟩ : BufTy).Contents (Elt F)) : (⟨S32, .f32⟩ : BufTy).Contents (Elt F) :=
  (((fun p a b => select (broadcastInDim S32 ![] bcast_S_S32 p) a b) : (⟨S_, .i1⟩ : BufTy).Contents (Elt F) → (⟨S32, .f32⟩ : BufTy).Contents (Elt F) → (⟨S32, .f32⟩ : BufTy).Contents (Elt F) → (⟨S32, .f32⟩ : BufTy).Contents (Elt F)) (cntPos (F := F)) ((Host.divf : (⟨S32, .f32⟩ : BufTy).Contents (Elt F) → (⟨S32, .f32⟩ : BufTy).Contents (Elt F) → (⟨S32, .f32⟩ : BufTy).Contents (Elt F)) (sumSq2 (F := F) h) (((broadcastInDim S32 ![] bcast_S_S32) : (⟨S_, .f32⟩ : BufTy).Contents (Elt F) → (⟨S32, .f32⟩ : BufTy).Contents (Elt F)) (cnt (F := F)) : (⟨S32, .f32⟩ : BufTy).Contents (Elt F)) : (⟨S32, .f32⟩ : BufTy).Contents (Elt F)) (((broadcastInDim S32 ![] bcast_S_S32) : (⟨S_, .f32⟩ : BufTy).Contents (Elt F) → (⟨S32, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)) : (⟨S_, .f32⟩ : BufTy).Contents (Elt F)) : (⟨S32, .f32⟩ : BufTy).Contents (Elt F)) : (⟨S32, .f32⟩ : BufTy).Contents (Elt F))

def bn2 (h : (⟨S100000x32, .f32⟩ : BufTy).Contents (Elt F)) (mu : (⟨S32, .f32⟩ : BufTy).Contents (Elt F)) (vr : (⟨S32, .f32⟩ : BufTy).Contents (Elt F)) (g : (⟨S32, .f32⟩ : BufTy).Contents (Elt F)) (be : (⟨S32, .f32⟩ : BufTy).Contents (Elt F)) : (⟨S100000x32, .f32⟩ : BufTy).Contents (Elt F) :=
  ((addf : (⟨S100000x32, .f32⟩ : BufTy).Contents (Elt F) → (⟨S100000x32, .f32⟩ : BufTy).Contents (Elt F) → (⟨S100000x32, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) ((subf : (⟨S100000x32, .f32⟩ : BufTy).Contents (Elt F) → (⟨S100000x32, .f32⟩ : BufTy).Contents (Elt F) → (⟨S100000x32, .f32⟩ : BufTy).Contents (Elt F)) h ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) mu : (⟨S1x32, .f32⟩ : BufTy).Contents (Elt F)) : (⟨S100000x32, .f32⟩ : BufTy).Contents (Elt F)) : (⟨S100000x32, .f32⟩ : BufTy).Contents (Elt F)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) ((Host.rsqrt : (⟨S32, .f32⟩ : BufTy).Contents (Elt F) → (⟨S32, .f32⟩ : BufTy).Contents (Elt F)) ((addf : (⟨S32, .f32⟩ : BufTy).Contents (Elt F) → (⟨S32, .f32⟩ : BufTy).Contents (Elt F) → (⟨S32, .f32⟩ : BufTy).Contents (Elt F)) vr ((broadcastInDim S32 ![] bcast_S_S32 : (⟨S_, .f32⟩ : BufTy).Contents (Elt F) → (⟨S32, .f32⟩ : BufTy).Contents (Elt F)) ((constant S_ .f32 0x3727C5AC#32) : (⟨S_, .f32⟩ : BufTy).Contents (Elt F)) : (⟨S32, .f32⟩ : BufTy).Contents (Elt F)) : (⟨S32, .f32⟩ : BufTy).Contents (Elt F)) : (⟨S32, .f32⟩ : BufTy).Contents (Elt F)) : (⟨S1x32, .f32⟩ : BufTy).Contents (Elt F)) : (⟨S100000x32, .f32⟩ : BufTy).Contents (Elt F)) : (⟨S100000x32, .f32⟩ : BufTy).Contents (Elt F)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) g : (⟨S1x32, .f32⟩ : BufTy).Contents (Elt F)) : (⟨S100000x32, .f32⟩ : BufTy).Contents (Elt F)) : (⟨S100000x32, .f32⟩ : BufTy).Contents (Elt F)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) be : (⟨S1x32, .f32⟩ : BufTy).Contents (Elt F)) : (⟨S100000x32, .f32⟩ : BufTy).Contents (Elt F)) : (⟨S100000x32, .f32⟩ : BufTy).Contents (Elt F))

def relu2 (h : (⟨S100000x32, .f32⟩ : BufTy).Contents (Elt F)) : (⟨S100000x32, .f32⟩ : BufTy).Contents (Elt F) :=
  ((maximumf : (⟨S100000x32, .f32⟩ : BufTy).Contents (Elt F) → (⟨S100000x32, .f32⟩ : BufTy).Contents (Elt F) → (⟨S100000x32, .f32⟩ : BufTy).Contents (Elt F)) h (((broadcastInDim S100000x32 ![] bcast_S_S100000x32) : (⟨S_, .f32⟩ : BufTy).Contents (Elt F) → (⟨S100000x32, .f32⟩ : BufTy).Contents (Elt F)) ((constant S_ .f32 0x00000000#32) : (⟨S_, .f32⟩ : BufTy).Contents (Elt F)) : (⟨S100000x32, .f32⟩ : BufTy).Contents (Elt F)) : (⟨S100000x32, .f32⟩ : BufTy).Contents (Elt F))

def msg3 (x : (⟨S100000x32, .f32⟩ : BufTy).Contents (Elt F)) (si : (⟨S1600000x1, .i32⟩ : BufTy).Contents (Elt F)) : (⟨S1600000x32, .f32⟩ : BufTy).Contents (Elt F) :=
  (((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) x si : (⟨S1600000x32, .f32⟩ : BufTy).Contents (Elt F))

def agg3 (ms : (⟨S1600000x32, .f32⟩ : BufTy).Contents (Elt F)) (di : (⟨S1600000x1, .i32⟩ : BufTy).Contents (Elt F)) : (⟨S100000x32, .f32⟩ : BufTy).Contents (Elt F) :=
  (((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ((broadcastInDim S100000x32 ![] bcast_S_S100000x32 : (⟨S_, .f32⟩ : BufTy).Contents (Elt F) → (⟨S100000x32, .f32⟩ : BufTy).Contents (Elt F)) ((constant S_ .f32 0x00000000#32) : (⟨S_, .f32⟩ : BufTy).Contents (Elt F)) : (⟨S100000x32, .f32⟩ : BufTy).Contents (Elt F)) di ms : (⟨S100000x32, .f32⟩ : BufTy).Contents (Elt F))

def mean3 (ag : (⟨S100000x32, .f32⟩ : BufTy).Contents (Elt F)) (dm : (⟨S100000, .f32⟩ : BufTy).Contents (Elt F)) : (⟨S100000x32, .f32⟩ : BufTy).Contents (Elt F) :=
  ((Host.divf : (⟨S100000x32, .f32⟩ : BufTy).Contents (Elt F) → (⟨S100000x32, .f32⟩ : BufTy).Contents (Elt F) → (⟨S100000x32, .f32⟩ : BufTy).Contents (Elt F)) ag ((broadcastInDim S100000x32 ![0, 1] bcast_S100000x1_S100000x32_0_1 : (⟨S100000x1, .f32⟩ : BufTy).Contents (Elt F) → (⟨S100000x32, .f32⟩ : BufTy).Contents (Elt F)) ((broadcastInDim S100000x1 ![0] bcast_S100000_S100000x1_0 : (⟨S100000, .f32⟩ : BufTy).Contents (Elt F) → (⟨S100000x1, .f32⟩ : BufTy).Contents (Elt F)) dm : (⟨S100000x1, .f32⟩ : BufTy).Contents (Elt F)) : (⟨S100000x32, .f32⟩ : BufTy).Contents (Elt F)) : (⟨S100000x32, .f32⟩ : BufTy).Contents (Elt F))

def lin3 (mn : (⟨S100000x32, .f32⟩ : BufTy).Contents (Elt F)) (x : (⟨S100000x32, .f32⟩ : BufTy).Contents (Elt F)) (Wl : (⟨S2x32, .f32⟩ : BufTy).Contents (Elt F)) (b : (⟨S2, .f32⟩ : BufTy).Contents (Elt F)) (Wr : (⟨S2x32, .f32⟩ : BufTy).Contents (Elt F)) : (⟨S100000x2, .f32⟩ : BufTy).Contents (Elt F) :=
  ((addf : (⟨S100000x2, .f32⟩ : BufTy).Contents (Elt F) → (⟨S100000x2, .f32⟩ : BufTy).Contents (Elt F) → (⟨S100000x2, .f32⟩ : BufTy).Contents (Elt F)) ((addf : (⟨S100000x2, .f32⟩ : BufTy).Contents (Elt F) → (⟨S100000x2, .f32⟩ : BufTy).Contents (Elt F) → (⟨S100000x2, .f32⟩ : BufTy).Contents (Elt F)) (((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)) mn (((transpose S32x2 [1, 0] · transposes_S2x32_S32x2_1_0) : (⟨S2x32, .f32⟩ : BufTy).Contents (Elt F) → (⟨S32x2, .f32⟩ : BufTy).Contents (Elt F)) Wl : (⟨S32x2, .f32⟩ : BufTy).Contents (Elt F)) : (⟨S100000x2, .f32⟩ : BufTy).Contents (Elt F)) ((broadcastInDim S100000x2 ![0, 1] bcast_S1x2_S100000x2_0_1 : (⟨S1x2, .f32⟩ : BufTy).Contents (Elt F) → (⟨S100000x2, .f32⟩ : BufTy).Contents (Elt F)) ((broadcastInDim S1x2 ![1] bcast_S2_S1x2_1 : (⟨S2, .f32⟩ : BufTy).Contents (Elt F) → (⟨S1x2, .f32⟩ : BufTy).Contents (Elt F)) b : (⟨S1x2, .f32⟩ : BufTy).Contents (Elt F)) : (⟨S100000x2, .f32⟩ : BufTy).Contents (Elt F)) : (⟨S100000x2, .f32⟩ : BufTy).Contents (Elt F)) (((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)) x (((transpose S32x2 [1, 0] · transposes_S2x32_S32x2_1_0) : (⟨S2x32, .f32⟩ : BufTy).Contents (Elt F) → (⟨S32x2, .f32⟩ : BufTy).Contents (Elt F)) Wr : (⟨S32x2, .f32⟩ : BufTy).Contents (Elt F)) : (⟨S100000x2, .f32⟩ : BufTy).Contents (Elt F)) : (⟨S100000x2, .f32⟩ : BufTy).Contents (Elt F))

def lsmMax (h : (⟨S100000x2, .f32⟩ : BufTy).Contents (Elt F)) : (⟨S100000, .f32⟩ : BufTy).Contents (Elt F) :=
  ((maximumf : (⟨S100000, .f32⟩ : BufTy).Contents (Elt F) → (⟨S100000, .f32⟩ : BufTy).Contents (Elt F) → (⟨S100000, .f32⟩ : BufTy).Contents (Elt F)) (((broadcastInDim S100000 ![] bcast_S_S100000) : (⟨S_, .f32⟩ : BufTy).Contents (Elt F) → (⟨S100000, .f32⟩ : BufTy).Contents (Elt F)) ((constant S_ .f32 0xFF800000#32) : (⟨S_, .f32⟩ : BufTy).Contents (Elt F)) : (⟨S100000, .f32⟩ : BufTy).Contents (Elt F)) (((fun x v => Host.reduce FloatOps.maximumf x v reducesTo_S100000x2_S100000_d1 h_S_) : (⟨S100000x2, .f32⟩ : BufTy).Contents (Elt F) → (⟨S_, .f32⟩ : BufTy).Contents (Elt F) → (⟨S100000, .f32⟩ : BufTy).Contents (Elt F)) h ((constant S_ .f32 0xFF800000#32) : (⟨S_, .f32⟩ : BufTy).Contents (Elt F)) : (⟨S100000, .f32⟩ : BufTy).Contents (Elt F)) : (⟨S100000, .f32⟩ : BufTy).Contents (Elt F))

def lsmShift (h : (⟨S100000x2, .f32⟩ : BufTy).Contents (Elt F)) (mx : (⟨S100000, .f32⟩ : BufTy).Contents (Elt F)) : (⟨S100000x2, .f32⟩ : BufTy).Contents (Elt F) :=
  ((subf : (⟨S100000x2, .f32⟩ : BufTy).Contents (Elt F) → (⟨S100000x2, .f32⟩ : BufTy).Contents (Elt F) → (⟨S100000x2, .f32⟩ : BufTy).Contents (Elt F)) h (((broadcastInDim S100000x2 ![0, 1] bcast_S100000x1_S100000x2_0_1) : (⟨S100000x1, .f32⟩ : BufTy).Contents (Elt F) → (⟨S100000x2, .f32⟩ : BufTy).Contents (Elt F)) (((broadcastInDim S100000x1 ![0] bcast_S100000_S100000x1_0) : (⟨S100000, .f32⟩ : BufTy).Contents (Elt F) → (⟨S100000x1, .f32⟩ : BufTy).Contents (Elt F)) mx : (⟨S100000x1, .f32⟩ : BufTy).Contents (Elt F)) : (⟨S100000x2, .f32⟩ : BufTy).Contents (Elt F)) : (⟨S100000x2, .f32⟩ : BufTy).Contents (Elt F))

def lsmSumExp (sh : (⟨S100000x2, .f32⟩ : BufTy).Contents (Elt F)) : (⟨S100000, .f32⟩ : BufTy).Contents (Elt F) :=
  (((fun x v => Host.reduceAdd x v reducesTo_S100000x2_S100000_d1 h_S_) : (⟨S100000x2, .f32⟩ : BufTy).Contents (Elt F) → (⟨S_, .f32⟩ : BufTy).Contents (Elt F) → (⟨S100000, .f32⟩ : BufTy).Contents (Elt F)) ((Host.exp : (⟨S100000x2, .f32⟩ : BufTy).Contents (Elt F) → (⟨S100000x2, .f32⟩ : BufTy).Contents (Elt F)) sh : (⟨S100000x2, .f32⟩ : BufTy).Contents (Elt F)) ((constant S_ .f32 0x00000000#32) : (⟨S_, .f32⟩ : BufTy).Contents (Elt F)) : (⟨S100000, .f32⟩ : BufTy).Contents (Elt F))

def lsmOut (sh : (⟨S100000x2, .f32⟩ : BufTy).Contents (Elt F)) (se : (⟨S100000, .f32⟩ : BufTy).Contents (Elt F)) : (⟨S100000x2, .f32⟩ : BufTy).Contents (Elt F) :=
  ((subf : (⟨S100000x2, .f32⟩ : BufTy).Contents (Elt F) → (⟨S100000x2, .f32⟩ : BufTy).Contents (Elt F) → (⟨S100000x2, .f32⟩ : BufTy).Contents (Elt F)) sh (((broadcastInDim S100000x2 ![0, 1] bcast_S100000x1_S100000x2_0_1) : (⟨S100000x1, .f32⟩ : BufTy).Contents (Elt F) → (⟨S100000x2, .f32⟩ : BufTy).Contents (Elt F)) ((Host.log : (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) se : (⟨S100000x1, .f32⟩ : BufTy).Contents (Elt F)) : (⟨S100000x1, .f32⟩ : BufTy).Contents (Elt F)) : (⟨S100000x2, .f32⟩ : BufTy).Contents (Elt F)) : (⟨S100000x2, .f32⟩ : BufTy).Contents (Elt F))

/-- The source column with negative entries wrapped by the node count. -/
def srcIdx (s : (⟨S1600000, .i32⟩ : BufTy).Contents (Elt F)) : (⟨S1600000x1, .i32⟩ : BufTy).Contents (Elt F) := srcIdxZ (zeroCol (F := F)) s

/-- The row-wise log-softmax: the rows shifted by their maximum, less the logarithm of the sum of their exponentials. -/
def logSoftmax (h : (⟨S100000x2, .f32⟩ : BufTy).Contents (Elt F)) : (⟨S100000x2, .f32⟩ : BufTy).Contents (Elt F) :=
  lsmOut (lsmShift h (lsmMax h)) (lsmSumExp (lsmShift h (lsmMax h)))

end Cert.ReferenceIdeal.RefRun

end
-- ==== Proof.RefWinA.lean ====
/- What each window of the reference's operations leaves in the buffers later windows read, as the stage functions
   applied to the contents the window started from; and that a window changes only the buffers it writes. -/
import proofs.«158263_j27642409517219_1_alg».proof.Proof.RefOps
import proofs.«158263_j27642409517219_1_alg».proof.Proof.RefStages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The buffers that window `wIdx` writes. -/
abbrev wIdx_W : List (Ref sig .tc) := [main_v0, main_v1, main_v2, main_v3]

theorem wIdx_writes : (wIdx : List (HloOp τ sig (Elt F))).Forall fun op => op.writes ⊆ (wIdx_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wIdx_keep (V : Valuation τ sig (Elt F)) (r : Ref sig .tc) (h : r ∉ wIdx_W) :
    after wIdx V (r : DevRef τ sig) = V (r : DevRef τ sig) :=
  after_of_writes_sub wIdx V wIdx_writes h

set_option maxRecDepth 16384 in
theorem wIdx_v1 (V : Valuation τ sig (Elt F)) :
    after wIdx V (main_v1 : DevRef τ sig) = (srcRaw (F := F) (V (main_arg1 : DevRef τ sig))) := by
  unfold wIdx
  after_results_simp
  rfl

set_option maxRecDepth 16384 in
theorem wIdx_v3 (V : Valuation τ sig (Elt F)) :
    after wIdx V (main_v3 : DevRef τ sig) = (dstRaw (F := F) (V (main_arg1 : DevRef τ sig))) := by
  unfold wIdx
  after_results_simp
  rfl

/-- The buffers that window `wConv1a` writes. -/
abbrev wConv1a_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22]

theorem wConv1a_writes : (wConv1a : List (HloOp τ sig (Elt F))).Forall fun op => op.writes ⊆ (wConv1a_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wConv1a_keep (V : Valuation τ sig (Elt F)) (r : Ref sig .tc) (h : r ∉ wConv1a_W) :
    after wConv1a V (r : DevRef τ sig) = V (r : DevRef τ sig) :=
  after_of_writes_sub wConv1a V wConv1a_writes h

set_option maxRecDepth 16384 in
theorem wConv1a_v22 (V : Valuation τ sig (Elt F)) :
    after wConv1a V (main_v22 : DevRef τ sig) = (mean1 (F := F) (agg1 (F := F) (msg1 (F := F) (V (main_arg0 : DevRef τ sig)) (srcIdxZ (F := F) (zeroCol (F := F)) (V (main_v1 : DevRef τ sig)))) (dstIdx (F := F) (V (main_v3 : DevRef τ sig)))) (degMax (F := F) (deg (F := F) (dstIdx (F := F) (V (main_v3 : DevRef τ sig)))))) := by
  unfold wConv1a
  after_results_simp
  rfl

/-- The buffers that window `wConv1b` writes. -/
abbrev wConv1b_W : List (Ref sig .tc) := [main_v23, main_v24, main_v25, main_v26, main_v27, main_v28, main_v29, main_v30]

theorem wConv1b_writes : (wConv1b : List (HloOp τ sig (Elt F))).Forall fun op => op.writes ⊆ (wConv1b_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wConv1b_keep (V : Valuation τ sig (Elt F)) (r : Ref sig .tc) (h : r ∉ wConv1b_W) :
    after wConv1b V (r : DevRef τ sig) = V (r : DevRef τ sig) :=
  after_of_writes_sub wConv1b V wConv1b_writes h

set_option maxRecDepth 16384 in
theorem wConv1b_v30 (V : Valuation τ sig (Elt F)) :
    after wConv1b V (main_v30 : DevRef τ sig) = (lin1 (F := F) (V (main_v22 : DevRef τ sig)) (V (main_arg0 : DevRef τ sig)) (V (main_arg2 : DevRef τ sig)) (V (main_arg3 : DevRef τ sig)) (V (main_arg4 : DevRef τ sig))) := by
  unfold wConv1b
  after_results_simp
  rfl

/-- The buffers that window `wStat1` writes. -/
abbrev wStat1_W : List (Ref sig .tc) := [main_cst_4, main_v31, main_cst_5, main_v32, main_v33, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v34]

theorem wStat1_writes : (wStat1 : List (HloOp τ sig (Elt F))).Forall fun op => op.writes ⊆ (wStat1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wStat1_keep (V : Valuation τ sig (Elt F)) (r : Ref sig .tc) (h : r ∉ wStat1_W) :
    after wStat1 V (r : DevRef τ sig) = V (r : DevRef τ sig) :=
  after_of_writes_sub wStat1 V wStat1_writes h

set_option maxRecDepth 16384 in
theorem wStat1_v33 (V : Valuation τ sig (Elt F)) :
    after wStat1 V (main_v33 : DevRef τ sig) = (mu1 (F := F) (V (main_v30 : DevRef τ sig))) := by
  unfold wStat1
  after_results_simp
  rfl

set_option maxRecDepth 16384 in
theorem wStat1_v34 (V : Valuation τ sig (Elt F)) :
    after wStat1 V (main_v34 : DevRef τ sig) = (var1 (F := F) (V (main_v30 : DevRef τ sig))) := by
  unfold wStat1
  after_results_simp
  rfl

/-- The buffers that window `wBn1` writes. -/
abbrev wBn1_W : List (Ref sig .tc) := [main_v35, main_v36, main_v37, main_cst_7, main_v38, main_v39, main_v40, main_v41, main_v42, main_v43, main_v44, main_v45, main_v46, main_v47, main_v48, main_v49]

theorem wBn1_writes : (wBn1 : List (HloOp τ sig (Elt F))).Forall fun op => op.writes ⊆ (wBn1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wBn1_keep (V : Valuation τ sig (Elt F)) (r : Ref sig .tc) (h : r ∉ wBn1_W) :
    after wBn1 V (r : DevRef τ sig) = V (r : DevRef τ sig) :=
  after_of_writes_sub wBn1 V wBn1_writes h

set_option maxRecDepth 16384 in
theorem wBn1_v49 (V : Valuation τ sig (Elt F)) :
    after wBn1 V (main_v49 : DevRef τ sig) = (bn1 (F := F) (V (main_v30 : DevRef τ sig)) (V (main_v33 : DevRef τ sig)) (V (main_v34 : DevRef τ sig)) (V (main_arg5 : DevRef τ sig)) (V (main_arg6 : DevRef τ sig))) := by
  unfold wBn1
  after_results_simp
  rfl

end Cert.ReferenceIdeal.RefRun

end
-- ==== Proof.RefWinB.lean ====
/- What each window of the reference's operations leaves in the buffers later windows read, as the stage functions
   applied to the contents the window started from; and that a window changes only the buffers it writes. -/
import proofs.«158263_j27642409517219_1_alg».proof.Proof.RefOps
import proofs.«158263_j27642409517219_1_alg».proof.Proof.RefStages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The buffers that window `wRelu1` writes. -/
abbrev wRelu1_W : List (Ref sig .tc) := [main_call1_cst, main_call1_v0, main_v50]

theorem wRelu1_writes : (wRelu1 : List (HloOp τ sig (Elt F))).Forall fun op => op.writes ⊆ (wRelu1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wRelu1_keep (V : Valuation τ sig (Elt F)) (r : Ref sig .tc) (h : r ∉ wRelu1_W) :
    after wRelu1 V (r : DevRef τ sig) = V (r : DevRef τ sig) :=
  after_of_writes_sub wRelu1 V wRelu1_writes h

set_option maxRecDepth 16384 in
theorem wRelu1_v50 (V : Valuation τ sig (Elt F)) :
    after wRelu1 V (main_v50 : DevRef τ sig) = (relu1 (F := F) (V (main_v49 : DevRef τ sig))) := by
  unfold wRelu1
  after_results_simp
  rfl

/-- The buffers that window `wConv2a` writes. -/
abbrev wConv2a_W : List (Ref sig .tc) := [main_c_8, main_v51, main_v52, main_c_9, main_v53, main_v54, main_v55, main_v56, main_v57, main_cst_10, main_v58, main_v59, main_v60, main_cst_11, main_v61, main_cst_12, main_v62, main_v63, main_v64, main_cst_13, main_v65, main_v66, main_v67, main_v68, main_v69]

theorem wConv2a_writes : (wConv2a : List (HloOp τ sig (Elt F))).Forall fun op => op.writes ⊆ (wConv2a_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wConv2a_keep (V : Valuation τ sig (Elt F)) (r : Ref sig .tc) (h : r ∉ wConv2a_W) :
    after wConv2a V (r : DevRef τ sig) = V (r : DevRef τ sig) :=
  after_of_writes_sub wConv2a V wConv2a_writes h

set_option maxRecDepth 16384 in
theorem wConv2a_v69 (V : Valuation τ sig (Elt F)) :
    after wConv2a V (main_v69 : DevRef τ sig) = (mean2 (F := F) (agg2 (F := F) (msg2 (F := F) (V (main_v50 : DevRef τ sig)) (srcIdxZ (F := F) (zeroCol (F := F)) (V (main_v1 : DevRef τ sig)))) (dstIdx (F := F) (V (main_v3 : DevRef τ sig)))) (degMax (F := F) (deg (F := F) (dstIdx (F := F) (V (main_v3 : DevRef τ sig)))))) := by
  unfold wConv2a
  after_results_simp
  rfl

/-- The buffers that window `wConv2b` writes. -/
abbrev wConv2b_W : List (Ref sig .tc) := [main_v70, main_v71, main_v72, main_v73, main_v74, main_v75, main_v76, main_v77]

theorem wConv2b_writes : (wConv2b : List (HloOp τ sig (Elt F))).Forall fun op => op.writes ⊆ (wConv2b_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wConv2b_keep (V : Valuation τ sig (Elt F)) (r : Ref sig .tc) (h : r ∉ wConv2b_W) :
    after wConv2b V (r : DevRef τ sig) = V (r : DevRef τ sig) :=
  after_of_writes_sub wConv2b V wConv2b_writes h

set_option maxRecDepth 16384 in
theorem wConv2b_v77 (V : Valuation τ sig (Elt F)) :
    after wConv2b V (main_v77 : DevRef τ sig) = (lin2 (F := F) (V (main_v69 : DevRef τ sig)) (V (main_v50 : DevRef τ sig)) (V (main_arg7 : DevRef τ sig)) (V (main_arg8 : DevRef τ sig)) (V (main_arg9 : DevRef τ sig))) := by
  unfold wConv2b
  after_results_simp
  rfl

/-- The buffers that window `wStat2` writes. -/
abbrev wStat2_W : List (Ref sig .tc) := [main_cst_14, main_v78, main_cst_15, main_v79, main_v80, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v81]

theorem wStat2_writes : (wStat2 : List (HloOp τ sig (Elt F))).Forall fun op => op.writes ⊆ (wStat2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wStat2_keep (V : Valuation τ sig (Elt F)) (r : Ref sig .tc) (h : r ∉ wStat2_W) :
    after wStat2 V (r : DevRef τ sig) = V (r : DevRef τ sig) :=
  after_of_writes_sub wStat2 V wStat2_writes h

set_option maxRecDepth 16384 in
theorem wStat2_v80 (V : Valuation τ sig (Elt F)) :
    after wStat2 V (main_v80 : DevRef τ sig) = (mu2 (F := F) (V (main_v77 : DevRef τ sig))) := by
  unfold wStat2
  after_results_simp
  rfl

set_option maxRecDepth 16384 in
theorem wStat2_v81 (V : Valuation τ sig (Elt F)) :
    after wStat2 V (main_v81 : DevRef τ sig) = (var2 (F := F) (V (main_v77 : DevRef τ sig))) := by
  unfold wStat2
  after_results_simp
  rfl

/-- The buffers that window `wBn2` writes. -/
abbrev wBn2_W : List (Ref sig .tc) := [main_v82, main_v83, main_v84, main_cst_17, main_v85, main_v86, main_v87, main_v88, main_v89, main_v90, main_v91, main_v92, main_v93, main_v94, main_v95, main_v96]

theorem wBn2_writes : (wBn2 : List (HloOp τ sig (Elt F))).Forall fun op => op.writes ⊆ (wBn2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wBn2_keep (V : Valuation τ sig (Elt F)) (r : Ref sig .tc) (h : r ∉ wBn2_W) :
    after wBn2 V (r : DevRef τ sig) = V (r : DevRef τ sig) :=
  after_of_writes_sub wBn2 V wBn2_writes h

set_option maxRecDepth 16384 in
theorem wBn2_v96 (V : Valuation τ sig (Elt F)) :
    after wBn2 V (main_v96 : DevRef τ sig) = (bn2 (F := F) (V (main_v77 : DevRef τ sig)) (V (main_v80 : DevRef τ sig)) (V (main_v81 : DevRef τ sig)) (V (main_arg10 : DevRef τ sig)) (V (main_arg11 : DevRef τ sig))) := by
  unfold wBn2
  after_results_simp
  rfl

/-- The buffers that window `wRelu2` writes. -/
abbrev wRelu2_W : List (Ref sig .tc) := [main_call3_cst, main_call3_v0, main_v97, main_c_18, main_v98]

theorem wRelu2_writes : (wRelu2 : List (HloOp τ sig (Elt F))).Forall fun op => op.writes ⊆ (wRelu2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wRelu2_keep (V : Valuation τ sig (Elt F)) (r : Ref sig .tc) (h : r ∉ wRelu2_W) :
    after wRelu2 V (r : DevRef τ sig) = V (r : DevRef τ sig) :=
  after_of_writes_sub wRelu2 V wRelu2_writes h

set_option maxRecDepth 16384 in
theorem wRelu2_v97 (V : Valuation τ sig (Elt F)) :
    after wRelu2 V (main_v97 : DevRef τ sig) = (relu2 (F := F) (V (main_v96 : DevRef τ sig))) := by
  unfold wRelu2
  after_results_simp
  rfl

set_option maxRecDepth 16384 in
theorem wRelu2_v98 (V : Valuation τ sig (Elt F)) :
    after wRelu2 V (main_v98 : DevRef τ sig) = (zeroCol (F := F)) := by
  unfold wRelu2
  after_results_simp
  rfl

end Cert.ReferenceIdeal.RefRun

end
-- ==== Proof.RefWinC.lean ====
/- What each window of the reference's operations leaves in the buffers later windows read, as the stage functions
   applied to the contents the window started from; and that a window changes only the buffers it writes. -/
import proofs.«158263_j27642409517219_1_alg».proof.Proof.RefOps
import proofs.«158263_j27642409517219_1_alg».proof.Proof.RefStages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

attribute [local irreducible] Host.gather Host.scatterAdd Host.reduceAdd Host.reduce

/-- The buffers that window `wConv3a` writes. -/
abbrev wConv3a_W : List (Ref sig .tc) := [main_v99, main_c_19, main_v100, main_v101, main_v102, main_v103, main_v104, main_cst_20, main_v105, main_v106, main_v107, main_cst_21, main_v108, main_cst_22, main_v109, main_v110, main_v111, main_cst_23, main_v112, main_v113, main_v114, main_v115, main_v116]

theorem wConv3a_writes : (wConv3a : List (HloOp τ sig (Elt F))).Forall fun op => op.writes ⊆ (wConv3a_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wConv3a_keep (V : Valuation τ sig (Elt F)) (r : Ref sig .tc) (h : r ∉ wConv3a_W) :
    after wConv3a V (r : DevRef τ sig) = V (r : DevRef τ sig) :=
  after_of_writes_sub wConv3a V wConv3a_writes h

set_option maxRecDepth 16384 in
theorem wConv3a_v116 (V : Valuation τ sig (Elt F)) :
    after wConv3a V (main_v116 : DevRef τ sig) = (mean3 (F := F) (agg3 (F := F) (msg3 (F := F) (V (main_v97 : DevRef τ sig)) (srcIdxZ (F := F) (V (main_v98 : DevRef τ sig)) (V (main_v1 : DevRef τ sig)))) (dstIdx (F := F) (V (main_v3 : DevRef τ sig)))) (degMax (F := F) (deg (F := F) (dstIdx (F := F) (V (main_v3 : DevRef τ sig)))))) := by
  unfold wConv3a
  after_results_simp
  rfl

/-- The buffers that window `wConv3b` writes. -/
abbrev wConv3b_W : List (Ref sig .tc) := [main_v117, main_v118, main_v119, main_v120, main_v121, main_v122, main_v123, main_v124]

theorem wConv3b_writes : (wConv3b : List (HloOp τ sig (Elt F))).Forall fun op => op.writes ⊆ (wConv3b_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wConv3b_keep (V : Valuation τ sig (Elt F)) (r : Ref sig .tc) (h : r ∉ wConv3b_W) :
    after wConv3b V (r : DevRef τ sig) = V (r : DevRef τ sig) :=
  after_of_writes_sub wConv3b V wConv3b_writes h

set_option maxRecDepth 16384 in
theorem wConv3b_v124 (V : Valuation τ sig (Elt F)) :
    after wConv3b V (main_v124 : DevRef τ sig) = (lin3 (F := F) (V (main_v116 : DevRef τ sig)) (V (main_v97 : DevRef τ sig)) (V (main_arg12 : DevRef τ sig)) (V (main_arg13 : DevRef τ sig)) (V (main_arg14 : DevRef τ sig))) := by
  unfold wConv3b
  after_results_simp
  rfl

/-- The buffers that window `wLsm` writes. -/
abbrev wLsm_W : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v125]

theorem wLsm_writes : (wLsm : List (HloOp τ sig (Elt F))).Forall fun op => op.writes ⊆ (wLsm_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer the window does not write keeps its contents through it. -/
theorem wLsm_keep (V : Valuation τ sig (Elt F)) (r : Ref sig .tc) (h : r ∉ wLsm_W) :
    after wLsm V (r : DevRef τ sig) = V (r : DevRef τ sig) :=
  after_of_writes_sub wLsm V wLsm_writes h

set_option maxRecDepth 16384 in
theorem wLsm_v125 (V : Valuation τ sig (Elt F)) :
    after wLsm V (main_v125 : DevRef τ sig) = (lsmOut (F := F) (lsmShift (F := F) (V (main_v124 : DevRef τ sig)) (lsmMax (F := F) (V (main_v124 : DevRef τ sig)))) (lsmSumExp (F := F) (lsmShift (F := F) (V (main_v124 : DevRef τ sig)) (lsmMax (F := F) (V (main_v124 : DevRef τ sig)))))) := by
  unfold wLsm
  after_results_simp
  rfl

end Cert.ReferenceIdeal.RefRun

end
-- ==== Proof.RefRun.lean ====
/- The reference's run read back: the network as one function `out` of the fifteen argument arrays, composed of the
   stage functions; the contents of the buffers after each window of operations, followed from the arguments; and the
   run: every weakly fair execution of @main ends with the result buffer at `out` of the arguments' contents at
   launch and every argument unchanged. -/
import proofs.«158263_j27642409517219_1_alg».proof.Proof.RefWinA
import proofs.«158263_j27642409517219_1_alg».proof.Proof.RefWinB
import proofs.«158263_j27642409517219_1_alg».proof.Proof.RefWinC
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The wrapped source column of the edge list, as gather indices. -/
def src (e : (⟨S2x1600000, .i32⟩ : BufTy).Contents (Elt F)) : (⟨S1600000x1, .i32⟩ : BufTy).Contents (Elt F) := srcIdx (srcRaw e)
/-- The destination column of the edge list, as scatter indices. -/
def dst (e : (⟨S2x1600000, .i32⟩ : BufTy).Contents (Elt F)) : (⟨S1600000x1, .i32⟩ : BufTy).Contents (Elt F) := dstIdx (dstRaw e)
/-- The in-degree of every node, at least one. -/
def dmax (e : (⟨S2x1600000, .i32⟩ : BufTy).Contents (Elt F)) : (⟨S100000, .f32⟩ : BufTy).Contents (Elt F) := degMax (deg (dst e))
/-- Layer 1's mean of the neighbours' features. -/
def m1 (x : (⟨S100000x15, .f32⟩ : BufTy).Contents (Elt F)) (e : (⟨S2x1600000, .i32⟩ : BufTy).Contents (Elt F)) : (⟨S100000x15, .f32⟩ : BufTy).Contents (Elt F) := mean1 (agg1 (msg1 x (src e)) (dst e)) (dmax e)
/-- Layer 1's two products and bias. -/
def h1 (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) : (⟨S100000x64, .f32⟩ : BufTy).Contents (Elt F) := lin1 (m1 x e) x W1l b1l W1r
/-- Layer 1 normalised over the nodes and rectified. -/
def a1 (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) (g1 : (⟨S64, .f32⟩ : BufTy).Contents (Elt F)) (be1 : (⟨S64, .f32⟩ : BufTy).Contents (Elt F)) : (⟨S100000x64, .f32⟩ : BufTy).Contents (Elt F) :=
  relu1 (bn1 (h1 x e W1l b1l W1r) (mu1 (h1 x e W1l b1l W1r)) (var1 (h1 x e W1l b1l W1r)) g1 be1)
/-- Layer 2's mean of the neighbours' features. -/
def m2 (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) (g1 : (⟨S64, .f32⟩ : BufTy).Contents (Elt F)) (be1 : (⟨S64, .f32⟩ : BufTy).Contents (Elt F)) : (⟨S100000x64, .f32⟩ : BufTy).Contents (Elt F) := mean2 (agg2 (msg2 (a1 x e W1l b1l W1r g1 be1) (src e)) (dst e)) (dmax e)
/-- Layer 2's two products and bias. -/
def h2 (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) (g1 : (⟨S64, .f32⟩ : BufTy).Contents (Elt F)) (be1 : (⟨S64, .f32⟩ : BufTy).Contents (Elt F)) (W2l : (⟨S32x64, .f32⟩ : BufTy).Contents (Elt F)) (b2l : (⟨S32, .f32⟩ : BufTy).Contents (Elt F)) (W2r : (⟨S32x64, .f32⟩ : BufTy).Contents (Elt F)) : (⟨S100000x32, .f32⟩ : BufTy).Contents (Elt F) := lin2 (m2 x e W1l b1l W1r g1 be1) (a1 x e W1l b1l W1r g1 be1) W2l b2l W2r
/-- Layer 2 normalised over the nodes and rectified. -/
def a2 (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) (g1 : (⟨S64, .f32⟩ : BufTy).Contents (Elt F)) (be1 : (⟨S64, .f32⟩ : BufTy).Contents (Elt F)) (W2l : (⟨S32x64, .f32⟩ : BufTy).Contents (Elt F)) (b2l : (⟨S32, .f32⟩ : BufTy).Contents (Elt F)) (W2r : (⟨S32x64, .f32⟩ : BufTy).Contents (Elt F)) (g2 : (⟨S32, .f32⟩ : BufTy).Contents (Elt F)) (be2 : (⟨S32, .f32⟩ : BufTy).Contents (Elt F)) : (⟨S100000x32, .f32⟩ : BufTy).Contents (Elt F) :=
  relu2 (bn2 (h2 x e W1l b1l W1r g1 be1 W2l b2l W2r) (mu2 (h2 x e W1l b1l W1r g1 be1 W2l b2l W2r)) (var2 (h2 x e W1l b1l W1r g1 be1 W2l b2l W2r)) g2 be2)
/-- Layer 3's mean of the neighbours' features. -/
def m3 (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) (g1 : (⟨S64, .f32⟩ : BufTy).Contents (Elt F)) (be1 : (⟨S64, .f32⟩ : BufTy).Contents (Elt F)) (W2l : (⟨S32x64, .f32⟩ : BufTy).Contents (Elt F)) (b2l : (⟨S32, .f32⟩ : BufTy).Contents (Elt F)) (W2r : (⟨S32x64, .f32⟩ : BufTy).Contents (Elt F)) (g2 : (⟨S32, .f32⟩ : BufTy).Contents (Elt F)) (be2 : (⟨S32, .f32⟩ : BufTy).Contents (Elt F)) : (⟨S100000x32, .f32⟩ : BufTy).Contents (Elt F) := mean3 (agg3 (msg3 (a2 x e W1l b1l W1r g1 be1 W2l b2l W2r g2 be2) (src e)) (dst e)) (dmax e)
/-- Layer 3's two products and bias. -/
def h3 (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) (g1 : (⟨S64, .f32⟩ : BufTy).Contents (Elt F)) (be1 : (⟨S64, .f32⟩ : BufTy).Contents (Elt F)) (W2l : (⟨S32x64, .f32⟩ : BufTy).Contents (Elt F)) (b2l : (⟨S32, .f32⟩ : BufTy).Contents (Elt F)) (W2r : (⟨S32x64, .f32⟩ : BufTy).Contents (Elt F)) (g2 : (⟨S32, .f32⟩ : BufTy).Contents (Elt F)) (be2 : (⟨S32, .f32⟩ : BufTy).Contents (Elt F)) (W3l : (⟨S2x32, .f32⟩ : BufTy).Contents (Elt F)) (b3l : (⟨S2, .f32⟩ : BufTy).Contents (Elt F)) (W3r : (⟨S2x32, .f32⟩ : BufTy).Contents (Elt F)) : (⟨S100000x2, .f32⟩ : BufTy).Contents (Elt F) := lin3 (m3 x e W1l b1l W1r g1 be1 W2l b2l W2r g2 be2) (a2 x e W1l b1l W1r g1 be1 W2l b2l W2r g2 be2) W3l b3l W3r
/-- The network: the row-wise log-softmax of layer 3. -/
def out (x : (⟨S100000x15, .f32⟩ : BufTy).Contents (Elt F)) (e : (⟨S2x1600000, .i32⟩ : BufTy).Contents (Elt F)) (W1l : (⟨S64x15, .f32⟩ : BufTy).Contents (Elt F)) (b1l : (⟨S64, .f32⟩ : BufTy).Contents (Elt F)) (W1r : (⟨S64x15, .f32⟩ : BufTy).Contents (Elt F)) (g1 : (⟨S64, .f32⟩ : BufTy).Contents (Elt F)) (be1 : (⟨S64, .f32⟩ : BufTy).Contents (Elt F)) (W2l : (⟨S32x64, .f32⟩ : BufTy).Contents (Elt F)) (b2l : (⟨S32, .f32⟩ : BufTy).Contents (Elt F)) (W2r : (⟨S32x64, .f32⟩ : BufTy).Contents (Elt F)) (g2 : (⟨S32, .f32⟩ : BufTy).Contents (Elt F)) (be2 : (⟨S32, .f32⟩ : BufTy).Contents (Elt F)) (W3l : (⟨S2x32, .f32⟩ : BufTy).Contents (Elt F)) (b3l : (⟨S2, .f32⟩ : BufTy).Contents (Elt F)) (W3r : (⟨S2x32, .f32⟩ : BufTy).Contents (Elt F)) : (⟨S100000x2, .f32⟩ : BufTy).Contents (Elt F) := logSoftmax (h3 x e W1l b1l W1r g1 be1 W2l b2l W2r g2 be2 W3l b3l W3r)

/-- @main's arguments. -/
abbrev argRefs : List (Ref sig .tc) := [main_arg0, main_arg1, main_arg2, main_arg3, main_arg4, main_arg5, main_arg6, main_arg7, main_arg8, main_arg9, main_arg10, main_arg11, main_arg12, main_arg13, main_arg14]

/-- The buffers' contents after the first 1 window. -/
def val1 (V0 : Valuation τ sig (Elt F)) : Valuation τ sig (Elt F) := after wIdx V0
theorem wIdx_args : ∀ r ∈ argRefs, r ∉ wIdx_W := by decide
theorem val1_arg (V0 : Valuation τ sig (Elt F)) (r : Ref sig .tc) (hr : r ∈ argRefs) : val1 V0 (r : DevRef τ sig) = V0 (r : DevRef τ sig) :=
  wIdx_keep V0 r (wIdx_args r hr)
theorem val1_v1 (V0 : Valuation τ sig (Elt F)) : val1 V0 (main_v1 : DevRef τ sig) = (srcRaw (F := F) (V0 (main_arg1 : DevRef τ sig))) :=
  (wIdx_v1 V0).trans (by rfl)
theorem val1_v3 (V0 : Valuation τ sig (Elt F)) : val1 V0 (main_v3 : DevRef τ sig) = (dstRaw (F := F) (V0 (main_arg1 : DevRef τ sig))) :=
  (wIdx_v3 V0).trans (by rfl)

/-- The buffers' contents after the first 2 windows. -/
def val2 (V0 : Valuation τ sig (Elt F)) : Valuation τ sig (Elt F) := after wConv1a (val1 V0)
theorem wConv1a_args : ∀ r ∈ argRefs, r ∉ wConv1a_W := by decide
theorem val2_arg (V0 : Valuation τ sig (Elt F)) (r : Ref sig .tc) (hr : r ∈ argRefs) : val2 V0 (r : DevRef τ sig) = V0 (r : DevRef τ sig) :=
  (wConv1a_keep _ r (wConv1a_args r hr)).trans (val1_arg V0 r hr)
theorem val2_v1 (V0 : Valuation τ sig (Elt F)) : val2 V0 (main_v1 : DevRef τ sig) = (srcRaw (F := F) (V0 (main_arg1 : DevRef τ sig))) :=
  (wConv1a_keep _ main_v1 (by decide)).trans (val1_v1 V0)
theorem val2_v3 (V0 : Valuation τ sig (Elt F)) : val2 V0 (main_v3 : DevRef τ sig) = (dstRaw (F := F) (V0 (main_arg1 : DevRef τ sig))) :=
  (wConv1a_keep _ main_v3 (by decide)).trans (val1_v3 V0)
theorem val2_v22 (V0 : Valuation τ sig (Elt F)) : val2 V0 (main_v22 : DevRef τ sig) = (m1 (F := F) (V0 (main_arg0 : DevRef τ sig)) (V0 (main_arg1 : DevRef τ sig))) :=
  (wConv1a_v22 (val1 V0)).trans (by rw [val1_v1 V0, val1_arg V0 main_arg0 (by decide), val1_v3 V0] <;> rfl)

/-- The buffers' contents after the first 3 windows. -/
def val3 (V0 : Valuation τ sig (Elt F)) : Valuation τ sig (Elt F) := after wConv1b (val2 V0)
theorem wConv1b_args : ∀ r ∈ argRefs, r ∉ wConv1b_W := by decide
theorem val3_arg (V0 : Valuation τ sig (Elt F)) (r : Ref sig .tc) (hr : r ∈ argRefs) : val3 V0 (r : DevRef τ sig) = V0 (r : DevRef τ sig) :=
  (wConv1b_keep _ r (wConv1b_args r hr)).trans (val2_arg V0 r hr)
theorem val3_v1 (V0 : Valuation τ sig (Elt F)) : val3 V0 (main_v1 : DevRef τ sig) = (srcRaw (F := F) (V0 (main_arg1 : DevRef τ sig))) :=
  (wConv1b_keep _ main_v1 (by decide)).trans (val2_v1 V0)
theorem val3_v3 (V0 : Valuation τ sig (Elt F)) : val3 V0 (main_v3 : DevRef τ sig) = (dstRaw (F := F) (V0 (main_arg1 : DevRef τ sig))) :=
  (wConv1b_keep _ main_v3 (by decide)).trans (val2_v3 V0)
theorem val3_v30 (V0 : Valuation τ sig (Elt F)) : val3 V0 (main_v30 : DevRef τ sig) = (h1 (F := F) (V0 (main_arg0 : DevRef τ sig)) (V0 (main_arg1 : DevRef τ sig)) (V0 (main_arg2 : DevRef τ sig)) (V0 (main_arg3 : DevRef τ sig)) (V0 (main_arg4 : DevRef τ sig))) :=
  (wConv1b_v30 (val2 V0)).trans (by rw [val2_arg V0 main_arg2 (by decide), val2_v22 V0, val2_arg V0 main_arg3 (by decide), val2_arg V0 main_arg4 (by decide), val2_arg V0 main_arg0 (by decide)] <;> rfl)

/-- The buffers' contents after the first 4 windows. -/
def val4 (V0 : Valuation τ sig (Elt F)) : Valuation τ sig (Elt F) := after wStat1 (val3 V0)
theorem wStat1_args : ∀ r ∈ argRefs, r ∉ wStat1_W := by decide
theorem val4_arg (V0 : Valuation τ sig (Elt F)) (r : Ref sig .tc) (hr : r ∈ argRefs) : val4 V0 (r : DevRef τ sig) = V0 (r : DevRef τ sig) :=
  (wStat1_keep _ r (wStat1_args r hr)).trans (val3_arg V0 r hr)
theorem val4_v1 (V0 : Valuation τ sig (Elt F)) : val4 V0 (main_v1 : DevRef τ sig) = (srcRaw (F := F) (V0 (main_arg1 : DevRef τ sig))) :=
  (wStat1_keep _ main_v1 (by decide)).trans (val3_v1 V0)
theorem val4_v3 (V0 : Valuation τ sig (Elt F)) : val4 V0 (main_v3 : DevRef τ sig) = (dstRaw (F := F) (V0 (main_arg1 : DevRef τ sig))) :=
  (wStat1_keep _ main_v3 (by decide)).trans (val3_v3 V0)
theorem val4_v30 (V0 : Valuation τ sig (Elt F)) : val4 V0 (main_v30 : DevRef τ sig) = (h1 (F := F) (V0 (main_arg0 : DevRef τ sig)) (V0 (main_arg1 : DevRef τ sig)) (V0 (main_arg2 : DevRef τ sig)) (V0 (main_arg3 : DevRef τ sig)) (V0 (main_arg4 : DevRef τ sig))) :=
  (wStat1_keep _ main_v30 (by decide)).trans (val3_v30 V0)
theorem val4_v33 (V0 : Valuation τ sig (Elt F)) : val4 V0 (main_v33 : DevRef τ sig) = (mu1 (F := F) (h1 (F := F) (V0 (main_arg0 : DevRef τ sig)) (V0 (main_arg1 : DevRef τ sig)) (V0 (main_arg2 : DevRef τ sig)) (V0 (main_arg3 : DevRef τ sig)) (V0 (main_arg4 : DevRef τ sig)))) :=
  (wStat1_v33 (val3 V0)).trans (by rw [val3_v30 V0] <;> rfl)
theorem val4_v34 (V0 : Valuation τ sig (Elt F)) : val4 V0 (main_v34 : DevRef τ sig) = (var1 (F := F) (h1 (F := F) (V0 (main_arg0 : DevRef τ sig)) (V0 (main_arg1 : DevRef τ sig)) (V0 (main_arg2 : DevRef τ sig)) (V0 (main_arg3 : DevRef τ sig)) (V0 (main_arg4 : DevRef τ sig)))) :=
  (wStat1_v34 (val3 V0)).trans (by rw [val3_v30 V0] <;> rfl)

/-- The buffers' contents after the first 5 windows. -/
def val5 (V0 : Valuation τ sig (Elt F)) : Valuation τ sig (Elt F) := after wBn1 (val4 V0)
theorem wBn1_args : ∀ r ∈ argRefs, r ∉ wBn1_W := by decide
theorem val5_arg (V0 : Valuation τ sig (Elt F)) (r : Ref sig .tc) (hr : r ∈ argRefs) : val5 V0 (r : DevRef τ sig) = V0 (r : DevRef τ sig) :=
  (wBn1_keep _ r (wBn1_args r hr)).trans (val4_arg V0 r hr)
theorem val5_v1 (V0 : Valuation τ sig (Elt F)) : val5 V0 (main_v1 : DevRef τ sig) = (srcRaw (F := F) (V0 (main_arg1 : DevRef τ sig))) :=
  (wBn1_keep _ main_v1 (by decide)).trans (val4_v1 V0)
theorem val5_v3 (V0 : Valuation τ sig (Elt F)) : val5 V0 (main_v3 : DevRef τ sig) = (dstRaw (F := F) (V0 (main_arg1 : DevRef τ sig))) :=
  (wBn1_keep _ main_v3 (by decide)).trans (val4_v3 V0)
theorem val5_v49 (V0 : Valuation τ sig (Elt F)) : val5 V0 (main_v49 : DevRef τ sig) = (bn1 (F := F) (h1 (F := F) (V0 (main_arg0 : DevRef τ sig)) (V0 (main_arg1 : DevRef τ sig)) (V0 (main_arg2 : DevRef τ sig)) (V0 (main_arg3 : DevRef τ sig)) (V0 (main_arg4 : DevRef τ sig))) (mu1 (F := F) (h1 (F := F) (V0 (main_arg0 : DevRef τ sig)) (V0 (main_arg1 : DevRef τ sig)) (V0 (main_arg2 : DevRef τ sig)) (V0 (main_arg3 : DevRef τ sig)) (V0 (main_arg4 : DevRef τ sig)))) (var1 (F := F) (h1 (F := F) (V0 (main_arg0 : DevRef τ sig)) (V0 (main_arg1 : DevRef τ sig)) (V0 (main_arg2 : DevRef τ sig)) (V0 (main_arg3 : DevRef τ sig)) (V0 (main_arg4 : DevRef τ sig)))) (V0 (main_arg5 : DevRef τ sig)) (V0 (main_arg6 : DevRef τ sig))) :=
  (wBn1_v49 (val4 V0)).trans (by rw [val4_v33 V0, val4_v30 V0, val4_v34 V0, val4_arg V0 main_arg5 (by decide), val4_arg V0 main_arg6 (by decide)] <;> rfl)

/-- The buffers' contents after the first 6 windows. -/
def val6 (V0 : Valuation τ sig (Elt F)) : Valuation τ sig (Elt F) := after wRelu1 (val5 V0)
theorem wRelu1_args : ∀ r ∈ argRefs, r ∉ wRelu1_W := by decide
theorem val6_arg (V0 : Valuation τ sig (Elt F)) (r : Ref sig .tc) (hr : r ∈ argRefs) : val6 V0 (r : DevRef τ sig) = V0 (r : DevRef τ sig) :=
  (wRelu1_keep _ r (wRelu1_args r hr)).trans (val5_arg V0 r hr)
theorem val6_v1 (V0 : Valuation τ sig (Elt F)) : val6 V0 (main_v1 : DevRef τ sig) = (srcRaw (F := F) (V0 (main_arg1 : DevRef τ sig))) :=
  (wRelu1_keep _ main_v1 (by decide)).trans (val5_v1 V0)
theorem val6_v3 (V0 : Valuation τ sig (Elt F)) : val6 V0 (main_v3 : DevRef τ sig) = (dstRaw (F := F) (V0 (main_arg1 : DevRef τ sig))) :=
  (wRelu1_keep _ main_v3 (by decide)).trans (val5_v3 V0)
theorem val6_v50 (V0 : Valuation τ sig (Elt F)) : val6 V0 (main_v50 : DevRef τ sig) = (a1 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig))) :=
  (wRelu1_v50 (val5 V0)).trans (by rw [val5_v49 V0] <;> rfl)

/-- The buffers' contents after the first 7 windows. -/
def val7 (V0 : Valuation τ sig (Elt F)) : Valuation τ sig (Elt F) := after wConv2a (val6 V0)
theorem wConv2a_args : ∀ r ∈ argRefs, r ∉ wConv2a_W := by decide
theorem val7_arg (V0 : Valuation τ sig (Elt F)) (r : Ref sig .tc) (hr : r ∈ argRefs) : val7 V0 (r : DevRef τ sig) = V0 (r : DevRef τ sig) :=
  (wConv2a_keep _ r (wConv2a_args r hr)).trans (val6_arg V0 r hr)
theorem val7_v1 (V0 : Valuation τ sig (Elt F)) : val7 V0 (main_v1 : DevRef τ sig) = (srcRaw (F := F) (V0 (main_arg1 : DevRef τ sig))) :=
  (wConv2a_keep _ main_v1 (by decide)).trans (val6_v1 V0)
theorem val7_v3 (V0 : Valuation τ sig (Elt F)) : val7 V0 (main_v3 : DevRef τ sig) = (dstRaw (F := F) (V0 (main_arg1 : DevRef τ sig))) :=
  (wConv2a_keep _ main_v3 (by decide)).trans (val6_v3 V0)
theorem val7_v50 (V0 : Valuation τ sig (Elt F)) : val7 V0 (main_v50 : DevRef τ sig) = (a1 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig))) :=
  (wConv2a_keep _ main_v50 (by decide)).trans (val6_v50 V0)
theorem val7_v69 (V0 : Valuation τ sig (Elt F)) : val7 V0 (main_v69 : DevRef τ sig) = (m2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig))) :=
  (wConv2a_v69 (val6 V0)).trans (by rw [val6_v1 V0, val6_v50 V0, val6_v3 V0] <;> rfl)

/-- The buffers' contents after the first 8 windows. -/
def val8 (V0 : Valuation τ sig (Elt F)) : Valuation τ sig (Elt F) := after wConv2b (val7 V0)
theorem wConv2b_args : ∀ r ∈ argRefs, r ∉ wConv2b_W := by decide
theorem val8_arg (V0 : Valuation τ sig (Elt F)) (r : Ref sig .tc) (hr : r ∈ argRefs) : val8 V0 (r : DevRef τ sig) = V0 (r : DevRef τ sig) :=
  (wConv2b_keep _ r (wConv2b_args r hr)).trans (val7_arg V0 r hr)
theorem val8_v1 (V0 : Valuation τ sig (Elt F)) : val8 V0 (main_v1 : DevRef τ sig) = (srcRaw (F := F) (V0 (main_arg1 : DevRef τ sig))) :=
  (wConv2b_keep _ main_v1 (by decide)).trans (val7_v1 V0)
theorem val8_v3 (V0 : Valuation τ sig (Elt F)) : val8 V0 (main_v3 : DevRef τ sig) = (dstRaw (F := F) (V0 (main_arg1 : DevRef τ sig))) :=
  (wConv2b_keep _ main_v3 (by decide)).trans (val7_v3 V0)
theorem val8_v77 (V0 : Valuation τ sig (Elt F)) : val8 V0 (main_v77 : DevRef τ sig) = (h2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig))) :=
  (wConv2b_v77 (val7 V0)).trans (by rw [val7_arg V0 main_arg7 (by decide), val7_v69 V0, val7_arg V0 main_arg8 (by decide), val7_arg V0 main_arg9 (by decide), val7_v50 V0] <;> rfl)

/-- The buffers' contents after the first 9 windows. -/
def val9 (V0 : Valuation τ sig (Elt F)) : Valuation τ sig (Elt F) := after wStat2 (val8 V0)
theorem wStat2_args : ∀ r ∈ argRefs, r ∉ wStat2_W := by decide
theorem val9_arg (V0 : Valuation τ sig (Elt F)) (r : Ref sig .tc) (hr : r ∈ argRefs) : val9 V0 (r : DevRef τ sig) = V0 (r : DevRef τ sig) :=
  (wStat2_keep _ r (wStat2_args r hr)).trans (val8_arg V0 r hr)
theorem val9_v1 (V0 : Valuation τ sig (Elt F)) : val9 V0 (main_v1 : DevRef τ sig) = (srcRaw (F := F) (V0 (main_arg1 : DevRef τ sig))) :=
  (wStat2_keep _ main_v1 (by decide)).trans (val8_v1 V0)
theorem val9_v3 (V0 : Valuation τ sig (Elt F)) : val9 V0 (main_v3 : DevRef τ sig) = (dstRaw (F := F) (V0 (main_arg1 : DevRef τ sig))) :=
  (wStat2_keep _ main_v3 (by decide)).trans (val8_v3 V0)
theorem val9_v77 (V0 : Valuation τ sig (Elt F)) : val9 V0 (main_v77 : DevRef τ sig) = (h2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig))) :=
  (wStat2_keep _ main_v77 (by decide)).trans (val8_v77 V0)
theorem val9_v80 (V0 : Valuation τ sig (Elt F)) : val9 V0 (main_v80 : DevRef τ sig) = (mu2 (F := F) (h2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)))) :=
  (wStat2_v80 (val8 V0)).trans (by rw [val8_v77 V0] <;> rfl)
theorem val9_v81 (V0 : Valuation τ sig (Elt F)) : val9 V0 (main_v81 : DevRef τ sig) = (var2 (F := F) (h2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)))) :=
  (wStat2_v81 (val8 V0)).trans (by rw [val8_v77 V0] <;> rfl)

/-- The buffers' contents after the first 10 windows. -/
def val10 (V0 : Valuation τ sig (Elt F)) : Valuation τ sig (Elt F) := after wBn2 (val9 V0)
theorem wBn2_args : ∀ r ∈ argRefs, r ∉ wBn2_W := by decide
theorem val10_arg (V0 : Valuation τ sig (Elt F)) (r : Ref sig .tc) (hr : r ∈ argRefs) : val10 V0 (r : DevRef τ sig) = V0 (r : DevRef τ sig) :=
  (wBn2_keep _ r (wBn2_args r hr)).trans (val9_arg V0 r hr)
theorem val10_v1 (V0 : Valuation τ sig (Elt F)) : val10 V0 (main_v1 : DevRef τ sig) = (srcRaw (F := F) (V0 (main_arg1 : DevRef τ sig))) :=
  (wBn2_keep _ main_v1 (by decide)).trans (val9_v1 V0)
theorem val10_v3 (V0 : Valuation τ sig (Elt F)) : val10 V0 (main_v3 : DevRef τ sig) = (dstRaw (F := F) (V0 (main_arg1 : DevRef τ sig))) :=
  (wBn2_keep _ main_v3 (by decide)).trans (val9_v3 V0)
theorem val10_v96 (V0 : Valuation τ sig (Elt F)) : val10 V0 (main_v96 : DevRef τ sig) = (bn2 (F := F) (h2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig))) (mu2 (F := F) (h2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)))) (var2 (F := F) (h2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)))) (V0 (main_arg10 : DevRef τ sig)) (V0 (main_arg11 : DevRef τ sig))) :=
  (wBn2_v96 (val9 V0)).trans (by rw [val9_v80 V0, val9_v77 V0, val9_v81 V0, val9_arg V0 main_arg10 (by decide), val9_arg V0 main_arg11 (by decide)] <;> rfl)

/-- The buffers' contents after the first 11 windows. -/
def val11 (V0 : Valuation τ sig (Elt F)) : Valuation τ sig (Elt F) := after wRelu2 (val10 V0)
theorem wRelu2_args : ∀ r ∈ argRefs, r ∉ wRelu2_W := by decide
theorem val11_arg (V0 : Valuation τ sig (Elt F)) (r : Ref sig .tc) (hr : r ∈ argRefs) : val11 V0 (r : DevRef τ sig) = V0 (r : DevRef τ sig) :=
  (wRelu2_keep _ r (wRelu2_args r hr)).trans (val10_arg V0 r hr)
theorem val11_v1 (V0 : Valuation τ sig (Elt F)) : val11 V0 (main_v1 : DevRef τ sig) = (srcRaw (F := F) (V0 (main_arg1 : DevRef τ sig))) :=
  (wRelu2_keep _ main_v1 (by decide)).trans (val10_v1 V0)
theorem val11_v3 (V0 : Valuation τ sig (Elt F)) : val11 V0 (main_v3 : DevRef τ sig) = (dstRaw (F := F) (V0 (main_arg1 : DevRef τ sig))) :=
  (wRelu2_keep _ main_v3 (by decide)).trans (val10_v3 V0)
theorem val11_v97 (V0 : Valuation τ sig (Elt F)) : val11 V0 (main_v97 : DevRef τ sig) = (a2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))) :=
  (wRelu2_v97 (val10 V0)).trans (by rw [val10_v96 V0] <;> rfl)
theorem val11_v98 (V0 : Valuation τ sig (Elt F)) : val11 V0 (main_v98 : DevRef τ sig) = (zeroCol (F := F)) :=
  (wRelu2_v98 (val10 V0)).trans (by rfl)

/-- The buffers' contents after the first 12 windows. -/
def val12 (V0 : Valuation τ sig (Elt F)) : Valuation τ sig (Elt F) := after wConv3a (val11 V0)
theorem wConv3a_args : ∀ r ∈ argRefs, r ∉ wConv3a_W := by decide
theorem val12_arg (V0 : Valuation τ sig (Elt F)) (r : Ref sig .tc) (hr : r ∈ argRefs) : val12 V0 (r : DevRef τ sig) = V0 (r : DevRef τ sig) :=
  (wConv3a_keep _ r (wConv3a_args r hr)).trans (val11_arg V0 r hr)
theorem val12_v97 (V0 : Valuation τ sig (Elt F)) : val12 V0 (main_v97 : DevRef τ sig) = (a2 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))) :=
  (wConv3a_keep _ main_v97 (by decide)).trans (val11_v97 V0)
theorem val12_v116 (V0 : Valuation τ sig (Elt F)) : val12 V0 (main_v116 : DevRef τ sig) = (m3 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))) :=
  (wConv3a_v116 (val11 V0)).trans (by rw [val11_v1 V0, val11_v98 V0, val11_v97 V0, val11_v3 V0] <;> rfl)

/-- The buffers' contents after the first 13 windows. -/
def val13 (V0 : Valuation τ sig (Elt F)) : Valuation τ sig (Elt F) := after wConv3b (val12 V0)
theorem wConv3b_args : ∀ r ∈ argRefs, r ∉ wConv3b_W := by decide
theorem val13_arg (V0 : Valuation τ sig (Elt F)) (r : Ref sig .tc) (hr : r ∈ argRefs) : val13 V0 (r : DevRef τ sig) = V0 (r : DevRef τ sig) :=
  (wConv3b_keep _ r (wConv3b_args r hr)).trans (val12_arg V0 r hr)
theorem val13_v124 (V0 : Valuation τ sig (Elt F)) : val13 V0 (main_v124 : DevRef τ sig) = (h3 (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig)) (V0 (main_arg12 : DevRef τ sig)) (V0 (main_arg13 : DevRef τ sig)) (V0 (main_arg14 : DevRef τ sig))) :=
  (wConv3b_v124 (val12 V0)).trans (by rw [val12_arg V0 main_arg12 (by decide), val12_v116 V0, val12_arg V0 main_arg13 (by decide), val12_arg V0 main_arg14 (by decide), val12_v97 V0] <;> rfl)

/-- The buffers' contents after the first 14 windows. -/
def val14 (V0 : Valuation τ sig (Elt F)) : Valuation τ sig (Elt F) := after wLsm (val13 V0)
theorem wLsm_args : ∀ r ∈ argRefs, r ∉ wLsm_W := by decide
theorem val14_arg (V0 : Valuation τ sig (Elt F)) (r : Ref sig .tc) (hr : r ∈ argRefs) : val14 V0 (r : DevRef τ sig) = V0 (r : DevRef τ sig) :=
  (wLsm_keep _ r (wLsm_args r hr)).trans (val13_arg V0 r hr)
theorem val14_v125 (V0 : Valuation τ sig (Elt F)) : val14 V0 (main_v125 : DevRef τ sig) = (out (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig)) (V0 (main_arg12 : DevRef τ sig)) (V0 (main_arg13 : DevRef τ sig)) (V0 (main_arg14 : DevRef τ sig))) :=
  (wLsm_v125 (val13 V0)).trans (by rw [val13_v124 V0] <;> rfl)

theorem after_ops (V0 : Valuation τ sig (Elt F)) : after ops V0 = val14 V0 := by
  simp only [ops, main_part0_ops, main_part1_ops, main_part2_ops, after_append]
  rfl

/-- The result buffer after @main, from any contents: the network of the arguments' contents. -/
theorem out_eq (V0 : Valuation τ sig (Elt F)) : after ops V0 (main_v125 : DevRef τ sig) = (out (F := F) (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig)) (V0 (main_arg12 : DevRef τ sig)) (V0 (main_arg13 : DevRef τ sig)) (V0 (main_arg14 : DevRef τ sig))) :=
  (congrFun (after_ops V0) _).trans (val14_v125 V0)

/-- No operation writes an argument. -/
theorem arg_eq (V0 : Valuation τ sig (Elt F)) (r : Ref sig .tc) (hr : r ∈ argRefs) : after ops V0 (r : DevRef τ sig) = V0 (r : DevRef τ sig) :=
  (congrFun (after_ops V0) _).trans (val14_arg V0 r hr)

/-- The network of the argument arrays as the run finds them on device `c`. -/
def res (m : (ℓ : Loc nD τ sig) → Buf (Elt F) ℓ) (c : Dev nD) : (⟨S100000x2, .f32⟩ : BufTy).Contents (Elt F) :=
  out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- On every device, for any float values, from any memory with zero counters: every weakly fair execution of @main
    terminates with the result buffer at the network of the arguments' launch contents and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v125).trans (out_eq _),
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide)),
      (h c main_arg8).trans (arg_eq _ main_arg8 (by decide)),
      (h c main_arg9).trans (arg_eq _ main_arg9 (by decide)),
      (h c main_arg10).trans (arg_eq _ main_arg10 (by decide)),
      (h c main_arg11).trans (arg_eq _ main_arg11 (by decide)),
      (h c main_arg12).trans (arg_eq _ main_arg12 (by decide)),
      (h c main_arg13).trans (arg_eq _ main_arg13 (by decide)),
      (h c main_arg14).trans (arg_eq _ main_arg14 (by decide))⟩)
    (run_after m ρ)

end Cert.ReferenceIdeal.RefRun

end
-- ==== Proof.RunHost.lean ====
import proofs.«158263_j27642409517219_1_alg».proof.Proof.Run5Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # What the host stretches put in the arrays the regions stage

Between the kernel regions the program runs plain array operations. This module names what they compute — the two
rows of the edge list, each node's in-degree and one over it, the neighbour sums of a node array over the edges, the
batch mean and variance of each feature from a region's accumulated sums, a small vector as a row — and states, for
every array a region's window stages, what it holds when the region is entered (`V1, V3, V5, V7, V9`): the named
function of the launch memory or of what the previous region left, or what an earlier item put there when no later
item writes it. Nothing here reads an array at an index. -/

-- decided memberships among the program's 160 references recurse past the default depth
set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host computations, named -/

/-- The sending node of each edge: row 0 of the [2, 1600000] edge list, as a vector. -/
def edgeSrc (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0 : (⟨S1x1600000, .i32⟩ : BufTy).Contents (Elt F)) shapeCasts_S1x1600000_S1600000
/-- The receiving node of each edge: row 1 of the edge list, as a vector. -/
def edgeDst (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0 : (⟨S1x1600000, .i32⟩ : BufTy).Contents (Elt F)) shapeCasts_S1x1600000_S1600000
/-- A node index below zero read from the end of the 100000 nodes, any other index as it is. -/
def wrapIdx (s : (⟨S1600000, .i32⟩ : BufTy).Contents (Elt F)) : (⟨S1600000, .i32⟩ : BufTy).Contents (Elt F) :=
  select (cmpi .slt s (broadcastInDim S1600000 ![] bcast_S_S1600000 (constantI S_ 32 0#32) : (⟨S1600000, .i32⟩ : BufTy).Contents (Elt F)) : (⟨S1600000, .i1⟩ : BufTy).Contents (Elt F))
    (addi s (broadcastInDim S1600000 ![] bcast_S_S1600000 (constantI S_ 32 100000#32) : (⟨S1600000, .i32⟩ : BufTy).Contents (Elt F)) : (⟨S1600000, .i32⟩ : BufTy).Contents (Elt F)) s
/-- Each node's in-degree: one added at the receiving node of every edge, from zero. -/
def degK (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32) : (⟨S100000, .f32⟩ : BufTy).Contents (Elt F))
    (broadcastInDim S1600000x1 ![0] bcast_S1600000_S1600000x1_0 (edgeDst e) : (⟨S1600000x1, .i32⟩ : BufTy).Contents (Elt F))
    (broadcastInDim S1600000 ![] bcast_S_S1600000 (constant S_ .f32 0x3F800000#32) : (⟨S1600000, .f32⟩ : BufTy).Contents (Elt F))
/-- One over a degree taken as at least one, node by node, as a [100000, 1] column. -/
def invOf (deg : (⟨S100000, .f32⟩ : BufTy).Contents (Elt F)) : (⟨S100000x1, .f32⟩ : BufTy).Contents (Elt F) :=
  shapeCast S100000x1
    (Host.divf (broadcastInDim S100000 ![] bcast_S_S100000 (constant S_ .f32 0x3F800000#32) : (⟨S100000, .f32⟩ : BufTy).Contents (Elt F))
      (maximumf deg (broadcastInDim S100000 ![] bcast_S_S100000 (constant S_ .f32 0x3F800000#32) : (⟨S100000, .f32⟩ : BufTy).Contents (Elt F)) : (⟨S100000, .f32⟩ : BufTy).Contents (Elt F)) : (⟨S100000, .f32⟩ : BufTy).Contents (Elt F))
    shapeCasts_S100000_S100000x1
/-- Neighbour sums of a [100000, 15] array `x` over edges with sending nodes `s` and receiving nodes `d`: row `d k` of the
    result takes `x`'s row `s k` (an index below zero counted from the end), summed over the edges `k`; a node no edge
    reaches holds zero. -/
def aggr15 (s d : (⟨S1600000, .i32⟩ : BufTy).Contents (Elt F)) (x : (⟨S100000x15, .f32⟩ : BufTy).Contents (Elt F)) : (⟨S100000x15, .f32⟩ : BufTy).Contents (Elt F) :=
  Host.scatterAdd scatter_S100000x15_S1600000x1_S1600000x15_1_0_0_1
    (broadcastInDim S100000x15 ![] bcast_S_S100000x15 (constant S_ .f32 0x00000000#32) : (⟨S100000x15, .f32⟩ : BufTy).Contents (Elt F))
    (broadcastInDim S1600000x1 ![0] bcast_S1600000_S1600000x1_0 d : (⟨S1600000x1, .i32⟩ : BufTy).Contents (Elt F))
    (Host.gather gather_S100000x15_S1600000x1_S1600000x15_1_0_n_n_0_1_115 x
      (broadcastInDim S1600000x1 ![0] bcast_S1600000_S1600000x1_0 (wrapIdx s) : (⟨S1600000x1, .i32⟩ : BufTy).Contents (Elt F)) : (⟨S1600000x15, .f32⟩ : BufTy).Contents (Elt F))
/-- The same from the [2, 1600000] edge list `e`: the features first, then the edges. -/
def aggK15 (x : (⟨S100000x15, .f32⟩ : BufTy).Contents (Elt F)) (e : (⟨S2x1600000, .i32⟩ : BufTy).Contents (Elt F)) : (⟨S100000x15, .f32⟩ : BufTy).Contents (Elt F) := aggr15 (edgeSrc e) (edgeDst e) x
/-- Neighbour sums of a [100000, 64] array `x` over edges with sending nodes `s` and receiving nodes `d`: row `d k` of the
    result takes `x`'s row `s k` (an index below zero counted from the end), summed over the edges `k`; a node no edge
    reaches holds zero. -/
def aggr64 (s d : (⟨S1600000, .i32⟩ : BufTy).Contents (Elt F)) (x : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32) : (⟨S100000x64, .f32⟩ : BufTy).Contents (Elt F))
    (broadcastInDim S1600000x1 ![0] bcast_S1600000_S1600000x1_0 d : (⟨S1600000x1, .i32⟩ : BufTy).Contents (Elt F))
    (Host.gather gather_S100000x64_S1600000x1_S1600000x64_1_0_n_n_0_1_164 x
      (broadcastInDim S1600000x1 ![0] bcast_S1600000_S1600000x1_0 (wrapIdx s) : (⟨S1600000x1, .i32⟩ : BufTy).Contents (Elt F)) : (⟨S1600000x64, .f32⟩ : BufTy).Contents (Elt F))
/-- The same from the [2, 1600000] edge list `e`: the features first, then the edges. -/
def aggK64 (x : (⟨S100000x64, .f32⟩ : BufTy).Contents (Elt F)) (e : (⟨S2x1600000, .i32⟩ : BufTy).Contents (Elt F)) : (⟨S100000x64, .f32⟩ : BufTy).Contents (Elt F) := aggr64 (edgeSrc e) (edgeDst e) x
/-- Neighbour sums of a [100000, 32] array `x` over edges with sending nodes `s` and receiving nodes `d`: row `d k` of the
    result takes `x`'s row `s k` (an index below zero counted from the end), summed over the edges `k`; a node no edge
    reaches holds zero. -/
def aggr32 (s d : (⟨S1600000, .i32⟩ : BufTy).Contents (Elt F)) (x : (⟨S100000x32, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32) : (⟨S100000x32, .f32⟩ : BufTy).Contents (Elt F))
    (broadcastInDim S1600000x1 ![0] bcast_S1600000_S1600000x1_0 d : (⟨S1600000x1, .i32⟩ : BufTy).Contents (Elt F))
    (Host.gather gather_S100000x32_S1600000x1_S1600000x32_1_0_n_n_0_1_132 x
      (broadcastInDim S1600000x1 ![0] bcast_S1600000_S1600000x1_0 (wrapIdx s) : (⟨S1600000x1, .i32⟩ : BufTy).Contents (Elt F)) : (⟨S1600000x32, .f32⟩ : BufTy).Contents (Elt F))
/-- The same from the [2, 1600000] edge list `e`: the features first, then the edges. -/
def aggK32 (x : (⟨S100000x32, .f32⟩ : BufTy).Contents (Elt F)) (e : (⟨S2x1600000, .i32⟩ : BufTy).Contents (Elt F)) : (⟨S100000x32, .f32⟩ : BufTy).Contents (Elt F) := aggr32 (edgeSrc e) (edgeDst e) x
/-- The batch mean of each of 64 features from the row of their sums over the 100000 nodes. -/
def mean64 (sum : (⟨S1x64, .f32⟩ : BufTy).Contents (Elt F)) : (⟨S1x64, .f32⟩ : BufTy).Contents (Elt F) :=
  Host.divf sum (broadcastInDim S1x64 ![] bcast_S_S1x64 (constant S_ .f32 0x47C35000#32) : (⟨S1x64, .f32⟩ : BufTy).Contents (Elt F))
/-- The batch variance of each feature from the rows of sums and of sums of squares: the mean square less the squared mean. -/
def var64 (sum sq : (⟨S1x64, .f32⟩ : BufTy).Contents (Elt F)) : (⟨S1x64, .f32⟩ : BufTy).Contents (Elt F) :=
  subf (mean64 sq) (mulf (mean64 sum) (mean64 sum))
/-- A vector of 64 entries as a row. -/
def row64 (v : (⟨S64, .f32⟩ : BufTy).Contents (Elt F)) : (⟨S1x64, .f32⟩ : BufTy).Contents (Elt F) := shapeCast S1x64 v shapeCasts_S64_S1x64
/-- The batch mean of each of 32 features from the row of their sums over the 100000 nodes. -/
def mean32 (sum : (⟨S1x32, .f32⟩ : BufTy).Contents (Elt F)) : (⟨S1x32, .f32⟩ : BufTy).Contents (Elt F) :=
  Host.divf sum (broadcastInDim S1x32 ![] bcast_S_S1x32 (constant S_ .f32 0x47C35000#32) : (⟨S1x32, .f32⟩ : BufTy).Contents (Elt F))
/-- The batch variance of each feature from the rows of sums and of sums of squares: the mean square less the squared mean. -/
def var32 (sum sq : (⟨S1x32, .f32⟩ : BufTy).Contents (Elt F)) : (⟨S1x32, .f32⟩ : BufTy).Contents (Elt F) :=
  subf (mean32 sq) (mulf (mean32 sum) (mean32 sum))
/-- A vector of 32 entries as a row. -/
def row32 (v : (⟨S32, .f32⟩ : BufTy).Contents (Elt F)) : (⟨S1x32, .f32⟩ : BufTy).Contents (Elt F) := shapeCast S1x32 v shapeCasts_S32_S1x32
/-- A vector of two entries as a row. -/
def row2 (v : (⟨S2, .f32⟩ : BufTy).Contents (Elt F)) : (⟨S1x2, .f32⟩ : BufTy).Contents (Elt F) := shapeCast S1x2 v shapeCasts_S2_S1x2

/-! ## Each stretch at the arrays a region stages, from any contents `W` before it -/

section Stretch
variable (W : Valuation τ sig (Elt F))
theorem host0_v1 : StableHlo.after hostOps0 W (main_v1 : DevRef τ sig) = edgeSrc (W (main_arg1 : DevRef τ sig)) := by
  after_results
  rfl
theorem host0_v3 : StableHlo.after hostOps0 W (main_v3 : DevRef τ sig) = edgeDst (W (main_arg1 : DevRef τ sig)) := by
  after_results
  rfl
theorem host0_v12 : StableHlo.after hostOps0 W (main_v12 : DevRef τ sig) = invOf (degK (W (main_arg1 : DevRef τ sig))) := by
  after_results
  rfl
set_option maxHeartbeats 1000000 in
theorem host0_v22 : StableHlo.after hostOps0 W (main_v22 : DevRef τ sig) = aggK15 (W (main_arg0 : DevRef τ sig)) (W (main_arg1 : DevRef τ sig)) := by
  after_results_simp
  rfl
theorem host0_v23 : StableHlo.after hostOps0 W (main_v23 : DevRef τ sig) = row64 (W (main_arg3 : DevRef τ sig)) := by
  after_results
  rfl
theorem host1_v26 : StableHlo.after hostOps1 W (main_v26 : DevRef τ sig) = mean64 (W (main_v24_1 : DevRef τ sig)) := by
  after_results
  rfl
theorem host1_v30 : StableHlo.after hostOps1 W (main_v30 : DevRef τ sig) = var64 (W (main_v24_1 : DevRef τ sig)) (W (main_v24_2 : DevRef τ sig)) := by
  after_results
  rfl
theorem host1_v31 : StableHlo.after hostOps1 W (main_v31 : DevRef τ sig) = row64 (W (main_arg5 : DevRef τ sig)) := by
  after_results
  rfl
theorem host1_v32 : StableHlo.after hostOps1 W (main_v32 : DevRef τ sig) = row64 (W (main_arg6 : DevRef τ sig)) := by
  after_results
  rfl
set_option maxHeartbeats 1000000 in
theorem host2_v43 : StableHlo.after hostOps2 W (main_v43 : DevRef τ sig) = aggr64 (W (main_v1 : DevRef τ sig)) (W (main_v3 : DevRef τ sig)) (W (main_v33 : DevRef τ sig)) := by
  after_results_simp
  rfl
theorem host2_v44 : StableHlo.after hostOps2 W (main_v44 : DevRef τ sig) = row32 (W (main_arg8 : DevRef τ sig)) := by
  after_results
  rfl
theorem host3_v47 : StableHlo.after hostOps3 W (main_v47 : DevRef τ sig) = mean32 (W (main_v45_1 : DevRef τ sig)) := by
  after_results
  rfl
theorem host3_v51 : StableHlo.after hostOps3 W (main_v51 : DevRef τ sig) = var32 (W (main_v45_1 : DevRef τ sig)) (W (main_v45_2 : DevRef τ sig)) := by
  after_results
  rfl
theorem host3_v52 : StableHlo.after hostOps3 W (main_v52 : DevRef τ sig) = row32 (W (main_arg10 : DevRef τ sig)) := by
  after_results
  rfl
theorem host3_v53 : StableHlo.after hostOps3 W (main_v53 : DevRef τ sig) = row32 (W (main_arg11 : DevRef τ sig)) := by
  after_results
  rfl
set_option maxHeartbeats 1000000 in
theorem host4_v64 : StableHlo.after hostOps4 W (main_v64 : DevRef τ sig) = aggr32 (W (main_v1 : DevRef τ sig)) (W (main_v3 : DevRef τ sig)) (W (main_v54 : DevRef τ sig)) := by
  after_results_simp
  rfl
theorem host4_v65 : StableHlo.after hostOps4 W (main_v65 : DevRef τ sig) = row2 (W (main_arg13 : DevRef τ sig)) := by
  after_results
  rfl

end Stretch

/-! ## What earlier items left, where no later item writes it -/

section Entry
variable (m : (ℓ : Loc nD τ sig) → Buf (Elt F) ℓ) (ρ : Dev nD → PrngReg) (c : Dev nD)
theorem W1_arg0 : W1 m ρ c (main_arg0 : DevRef τ sig) = (m ((c : Thread nD τ).loc main_arg0)) :=
  (W1_keep m ρ c main_arg0 (by decide)).trans rfl
theorem W1_arg2 : W1 m ρ c (main_arg2 : DevRef τ sig) = (m ((c : Thread nD τ).loc main_arg2)) :=
  (W1_keep m ρ c main_arg2 (by decide)).trans rfl
theorem W1_arg4 : W1 m ρ c (main_arg4 : DevRef τ sig) = (m ((c : Thread nD τ).loc main_arg4)) :=
  (W1_keep m ρ c main_arg4 (by decide)).trans rfl
theorem W2_arg5 : W2 m ρ c (main_arg5 : DevRef τ sig) = (m ((c : Thread nD τ).loc main_arg5)) :=
  (W2_keep m ρ c main_arg5 (by decide)).trans <| (W1_keep m ρ c main_arg5 (by decide)).trans rfl
theorem W2_arg6 : W2 m ρ c (main_arg6 : DevRef τ sig) = (m ((c : Thread nD τ).loc main_arg6)) :=
  (W2_keep m ρ c main_arg6 (by decide)).trans <| (W1_keep m ρ c main_arg6 (by decide)).trans rfl
theorem W4_arg8 : W4 m ρ c (main_arg8 : DevRef τ sig) = (m ((c : Thread nD τ).loc main_arg8)) :=
  (W4_keep m ρ c main_arg8 (by decide)).trans <| (W3_keep m ρ c main_arg8 (by decide)).trans <| (W2_keep m ρ c main_arg8 (by decide)).trans <| (W1_keep m ρ c main_arg8 (by decide)).trans rfl
theorem W5_arg7 : W5 m ρ c (main_arg7 : DevRef τ sig) = (m ((c : Thread nD τ).loc main_arg7)) :=
  (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl
theorem W5_arg9 : W5 m ρ c (main_arg9 : DevRef τ sig) = (m ((c : Thread nD τ).loc main_arg9)) :=
  (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl
theorem W6_arg10 : W6 m ρ c (main_arg10 : DevRef τ sig) = (m ((c : Thread nD τ).loc main_arg10)) :=
  (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans rfl
theorem W6_arg11 : W6 m ρ c (main_arg11 : DevRef τ sig) = (m ((c : Thread nD τ).loc main_arg11)) :=
  (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans rfl
theorem W8_arg13 : W8 m ρ c (main_arg13 : DevRef τ sig) = (m ((c : Thread nD τ).loc main_arg13)) :=
  (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans rfl
theorem W9_arg12 : W9 m ρ c (main_arg12 : DevRef τ sig) = (m ((c : Thread nD τ).loc main_arg12)) :=
  (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans rfl
theorem W9_arg14 : W9 m ρ c (main_arg14 : DevRef τ sig) = (m ((c : Thread nD τ).loc main_arg14)) :=
  (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans rfl
theorem W1_arg1 : W1 m ρ c (main_arg1 : DevRef τ sig) = (m ((c : Thread nD τ).loc main_arg1)) :=
  (W1_keep m ρ c main_arg1 (by decide)).trans rfl
theorem W1_arg3 : W1 m ρ c (main_arg3 : DevRef τ sig) = (m ((c : Thread nD τ).loc main_arg3)) :=
  (W1_keep m ρ c main_arg3 (by decide)).trans rfl
theorem W4_v1 : W4 m ρ c (main_v1 : DevRef τ sig) = edgeSrc (m ((c : Thread nD τ).loc main_arg1)) :=
  (W4_keep m ρ c main_v1 (by decide)).trans <| (W3_keep m ρ c main_v1 (by decide)).trans <| (W2_keep m ρ c main_v1 (by decide)).trans (host0_v1 (W0 m ρ c))
theorem W4_v3 : W4 m ρ c (main_v3 : DevRef τ sig) = edgeDst (m ((c : Thread nD τ).loc main_arg1)) :=
  (W4_keep m ρ c main_v3 (by decide)).trans <| (W3_keep m ρ c main_v3 (by decide)).trans <| (W2_keep m ρ c main_v3 (by decide)).trans (host0_v3 (W0 m ρ c))
theorem W8_v1 : W8 m ρ c (main_v1 : DevRef τ sig) = edgeSrc (m ((c : Thread nD τ).loc main_arg1)) :=
  (W8_keep m ρ c main_v1 (by decide)).trans <| (W7_keep m ρ c main_v1 (by decide)).trans <| (W6_keep m ρ c main_v1 (by decide)).trans <| (W5_keep m ρ c main_v1 (by decide)).trans <| (W4_keep m ρ c main_v1 (by decide)).trans <| (W3_keep m ρ c main_v1 (by decide)).trans <| (W2_keep m ρ c main_v1 (by decide)).trans (host0_v1 (W0 m ρ c))
theorem W8_v3 : W8 m ρ c (main_v3 : DevRef τ sig) = edgeDst (m ((c : Thread nD τ).loc main_arg1)) :=
  (W8_keep m ρ c main_v3 (by decide)).trans <| (W7_keep m ρ c main_v3 (by decide)).trans <| (W6_keep m ρ c main_v3 (by decide)).trans <| (W5_keep m ρ c main_v3 (by decide)).trans <| (W4_keep m ρ c main_v3 (by decide)).trans <| (W3_keep m ρ c main_v3 (by decide)).trans <| (W2_keep m ρ c main_v3 (by decide)).trans (host0_v3 (W0 m ρ c))

/-! ## Region 0's staged arrays at its entry -/

theorem V1_v22 : (V1 m ρ c main_v22 : (⟨S100000x15, .f32⟩ : BufTy).Contents (Elt F)) = aggK15 (m ((c : Thread nD τ).loc main_arg0)) (m ((c : Thread nD τ).loc main_arg1)) := host0_v22 (W0 m ρ c)
theorem V1_v12 : (V1 m ρ c main_v12 : (⟨S100000x1, .f32⟩ : BufTy).Contents (Elt F)) = invOf (degK (m ((c : Thread nD τ).loc main_arg1))) := host0_v12 (W0 m ρ c)
theorem V1_v23 : (V1 m ρ c main_v23 : (⟨S1x64, .f32⟩ : BufTy).Contents (Elt F)) = row64 (m ((c : Thread nD τ).loc main_arg3)) := host0_v23 (W0 m ρ c)
theorem V1_arg0 : V1 m ρ c main_arg0 = (m ((c : Thread nD τ).loc main_arg0)) := W1_arg0 m ρ c
theorem V1_arg2 : V1 m ρ c main_arg2 = (m ((c : Thread nD τ).loc main_arg2)) := W1_arg2 m ρ c
theorem V1_arg4 : V1 m ρ c main_arg4 = (m ((c : Thread nD τ).loc main_arg4)) := W1_arg4 m ρ c

/-! ## Region 1's -/

theorem V3_v24_0 : V3 m ρ c main_v24_0 = V2 m ρ c main_v24_0 := W3_keep m ρ c main_v24_0 (by decide)
theorem V3_v26 : (V3 m ρ c main_v26 : (⟨S1x64, .f32⟩ : BufTy).Contents (Elt F)) = mean64 (V2 m ρ c main_v24_1) := host1_v26 (W2 m ρ c)
theorem V3_v30 : (V3 m ρ c main_v30 : (⟨S1x64, .f32⟩ : BufTy).Contents (Elt F)) = var64 (V2 m ρ c main_v24_1) (V2 m ρ c main_v24_2) := host1_v30 (W2 m ρ c)
theorem V3_v31 : (V3 m ρ c main_v31 : (⟨S1x64, .f32⟩ : BufTy).Contents (Elt F)) = row64 (m ((c : Thread nD τ).loc main_arg5)) := (host1_v31 (W2 m ρ c)).trans (congrArg row64 (W2_arg5 m ρ c))
theorem V3_v32 : (V3 m ρ c main_v32 : (⟨S1x64, .f32⟩ : BufTy).Contents (Elt F)) = row64 (m ((c : Thread nD τ).loc main_arg6)) := (host1_v32 (W2 m ρ c)).trans (congrArg row64 (W2_arg6 m ρ c))

/-! ## Region 2's -/

theorem V5_v33 : V5 m ρ c main_v33 = V4 m ρ c main_v33 := W5_keep m ρ c main_v33 (by decide)
theorem V5_v43 : (V5 m ρ c main_v43 : (⟨S100000x64, .f32⟩ : BufTy).Contents (Elt F)) = aggK64 (V4 m ρ c main_v33) (m ((c : Thread nD τ).loc main_arg1)) :=
  (host2_v43 (W4 m ρ c)).trans (congrArg₂ (fun s d => aggr64 s d (W4 m ρ c (main_v33 : DevRef τ sig))) (W4_v1 m ρ c) (W4_v3 m ρ c))
theorem V5_v12 : (V5 m ρ c main_v12 : (⟨S100000x1, .f32⟩ : BufTy).Contents (Elt F)) = invOf (degK (m ((c : Thread nD τ).loc main_arg1))) :=
  (W5_keep m ρ c main_v12 (by decide)).trans <| (W4_keep m ρ c main_v12 (by decide)).trans <| (W3_keep m ρ c main_v12 (by decide)).trans <| (W2_keep m ρ c main_v12 (by decide)).trans (host0_v12 (W0 m ρ c))
theorem V5_v44 : (V5 m ρ c main_v44 : (⟨S1x32, .f32⟩ : BufTy).Contents (Elt F)) = row32 (m ((c : Thread nD τ).loc main_arg8)) := (host2_v44 (W4 m ρ c)).trans (congrArg row32 (W4_arg8 m ρ c))
theorem V5_arg7 : V5 m ρ c main_arg7 = (m ((c : Thread nD τ).loc main_arg7)) := W5_arg7 m ρ c
theorem V5_arg9 : V5 m ρ c main_arg9 = (m ((c : Thread nD τ).loc main_arg9)) := W5_arg9 m ρ c

/-! ## Region 3's -/

theorem V7_v45_0 : V7 m ρ c main_v45_0 = V6 m ρ c main_v45_0 := W7_keep m ρ c main_v45_0 (by decide)
theorem V7_v47 : (V7 m ρ c main_v47 : (⟨S1x32, .f32⟩ : BufTy).Contents (Elt F)) = mean32 (V6 m ρ c main_v45_1) := host3_v47 (W6 m ρ c)
theorem V7_v51 : (V7 m ρ c main_v51 : (⟨S1x32, .f32⟩ : BufTy).Contents (Elt F)) = var32 (V6 m ρ c main_v45_1) (V6 m ρ c main_v45_2) := host3_v51 (W6 m ρ c)
theorem V7_v52 : (V7 m ρ c main_v52 : (⟨S1x32, .f32⟩ : BufTy).Contents (Elt F)) = row32 (m ((c : Thread nD τ).loc main_arg10)) := (host3_v52 (W6 m ρ c)).trans (congrArg row32 (W6_arg10 m ρ c))
theorem V7_v53 : (V7 m ρ c main_v53 : (⟨S1x32, .f32⟩ : BufTy).Contents (Elt F)) = row32 (m ((c : Thread nD τ).loc main_arg11)) := (host3_v53 (W6 m ρ c)).trans (congrArg row32 (W6_arg11 m ρ c))

/-! ## Region 4's -/

theorem V9_v54 : V9 m ρ c main_v54 = V8 m ρ c main_v54 := W9_keep m ρ c main_v54 (by decide)
theorem V9_v64 : (V9 m ρ c main_v64 : (⟨S100000x32, .f32⟩ : BufTy).Contents (Elt F)) = aggK32 (V8 m ρ c main_v54) (m ((c : Thread nD τ).loc main_arg1)) :=
  (host4_v64 (W8 m ρ c)).trans (congrArg₂ (fun s d => aggr32 s d (W8 m ρ c (main_v54 : DevRef τ sig))) (W8_v1 m ρ c) (W8_v3 m ρ c))
theorem V9_v12 : (V9 m ρ c main_v12 : (⟨S100000x1, .f32⟩ : BufTy).Contents (Elt F)) = invOf (degK (m ((c : Thread nD τ).loc main_arg1))) :=
  (W9_keep m ρ c main_v12 (by decide)).trans <| (W8_keep m ρ c main_v12 (by decide)).trans <| (W7_keep m ρ c main_v12 (by decide)).trans <| (W6_keep m ρ c main_v12 (by decide)).trans <| (W5_keep m ρ c main_v12 (by decide)).trans <| (W4_keep m ρ c main_v12 (by decide)).trans <| (W3_keep m ρ c main_v12 (by decide)).trans <| (W2_keep m ρ c main_v12 (by decide)).trans (host0_v12 (W0 m ρ c))
theorem V9_v65 : (V9 m ρ c main_v65 : (⟨S1x2, .f32⟩ : BufTy).Contents (Elt F)) = row2 (m ((c : Thread nD τ).loc main_arg13)) := (host4_v65 (W8 m ρ c)).trans (congrArg row2 (W8_arg13 m ρ c))
theorem V9_arg12 : V9 m ρ c main_arg12 = (m ((c : Thread nD τ).loc main_arg12)) := W9_arg12 m ρ c
theorem V9_arg14 : V9 m ρ c main_arg14 = (m ((c : Thread nD τ).loc main_arg14)) := W9_arg14 m ρ c

end Entry

end Cert.KernelIdeal.Vals

end
-- ==== Proof.RunHostIdx.lean ====
import proofs.«158263_j27642409517219_1_alg».proof.Proof.RunHost
import Idealize.ShloMosaic.Lib.ValueIdx
import Idealize.ShloMosaic.Lib.ValueLayout
import Idealize.ShloMosaic.Lib.IdealHost
import Idealize.ShloMosaic.Lib.Pipeline.Value

/-! # The small staged arrays read at an index, over the extended reals

At the ideal instance a float is an extended real and every operation the textbook one. This module reads at an
index the small arrays the regions stage that the host stretches compute: a batch-normalisation region's mean row
(each feature's sum over the 100000 nodes divided by the node count), its variance row (the mean square less the
squared mean), its scale and shift rows and a linear region's bias row (a vector argument laid out as one row), and
the column of reciprocal in-degrees (one over the larger of the degree and one). The float words stay words. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL Idealize.SL.Sem

/-! ## The named computations at an index -/

/-- An `[a]` array cast to `[a, 1]` reads, at `(i, u)`, the operand at `i`, whatever the unit coordinate `u`. -/
theorem shapeCast_vec_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem mean64_apply (s : (⟨S1x64, .f32⟩ : BufTy).Contents (Elt Ideal)) (j : Fin 64) :
    (mean64 s (ix2 (0 : Fin 1) j) : EReal) = Ideal.div (s (ix2 (0 : Fin 1) j)) (Ideal.ofBits .f32 0x47C35000#32) := by
  show Ideal.div (s (ix2 (0 : Fin 1) j)) (broadcastInDim S1x64 ![] bcast_S_S1x64 (constant (F := Ideal) S_ .f32 0x47C35000#32) (ix2 (0 : Fin 1) j)) = _
  rw [broadcastInDim_scalar_apply]
  rfl
theorem var64_apply (s q : (⟨S1x64, .f32⟩ : BufTy).Contents (Elt Ideal)) (j : Fin 64) :
    (var64 s q (ix2 (0 : Fin 1) j) : EReal) = Ideal.div (q (ix2 (0 : Fin 1) j)) (Ideal.ofBits .f32 0x47C35000#32)
      - Ideal.div (s (ix2 (0 : Fin 1) j)) (Ideal.ofBits .f32 0x47C35000#32) * Ideal.div (s (ix2 (0 : Fin 1) j)) (Ideal.ofBits .f32 0x47C35000#32) := by
  show (mean64 q (ix2 (0 : Fin 1) j) : EReal) - (mean64 s (ix2 (0 : Fin 1) j) : EReal) * (mean64 s (ix2 (0 : Fin 1) j) : EReal) = _
  rw [mean64_apply, mean64_apply]
theorem row64_apply (v : (⟨S64, .f32⟩ : BufTy).Contents (Elt Ideal)) (j : Fin 64) : (row64 v (ix2 (0 : Fin 1) j) : EReal) = v (ix1 j) :=
  shapeCast_a_1a_apply v shapeCasts_S64_S1x64 0 j

theorem mean32_apply (s : (⟨S1x32, .f32⟩ : BufTy).Contents (Elt Ideal)) (j : Fin 32) :
    (mean32 s (ix2 (0 : Fin 1) j) : EReal) = Ideal.div (s (ix2 (0 : Fin 1) j)) (Ideal.ofBits .f32 0x47C35000#32) := by
  show Ideal.div (s (ix2 (0 : Fin 1) j)) (broadcastInDim S1x32 ![] bcast_S_S1x32 (constant (F := Ideal) S_ .f32 0x47C35000#32) (ix2 (0 : Fin 1) j)) = _
  rw [broadcastInDim_scalar_apply]
  rfl
theorem var32_apply (s q : (⟨S1x32, .f32⟩ : BufTy).Contents (Elt Ideal)) (j : Fin 32) :
    (var32 s q (ix2 (0 : Fin 1) j) : EReal) = Ideal.div (q (ix2 (0 : Fin 1) j)) (Ideal.ofBits .f32 0x47C35000#32)
      - Ideal.div (s (ix2 (0 : Fin 1) j)) (Ideal.ofBits .f32 0x47C35000#32) * Ideal.div (s (ix2 (0 : Fin 1) j)) (Ideal.ofBits .f32 0x47C35000#32) := by
  show (mean32 q (ix2 (0 : Fin 1) j) : EReal) - (mean32 s (ix2 (0 : Fin 1) j) : EReal) * (mean32 s (ix2 (0 : Fin 1) j) : EReal) = _
  rw [mean32_apply, mean32_apply]
theorem row32_apply (v : (⟨S32, .f32⟩ : BufTy).Contents (Elt Ideal)) (j : Fin 32) : (row32 v (ix2 (0 : Fin 1) j) : EReal) = v (ix1 j) :=
  shapeCast_a_1a_apply v shapeCasts_S32_S1x32 0 j
theorem row2_apply (v : (⟨S2, .f32⟩ : BufTy).Contents (Elt Ideal)) (j : Fin 2) : (row2 v (ix2 (0 : Fin 1) j) : EReal) = v (ix1 j) :=
  shapeCast_a_1a_apply v shapeCasts_S2_S1x2 0 j
/-- One over a degree taken as at least one, at a node. -/
theorem invOf_apply (deg : (⟨S100000, .f32⟩ : BufTy).Contents (Elt Ideal)) (n : Fin 100000) :
    (invOf deg (ix2 n (0 : Fin 1)) : EReal) = Ideal.div (Ideal.ofBits .f32 0x3F800000#32) (max (deg (ix1 n)) (Ideal.ofBits .f32 0x3F800000#32)) := by
  unfold invOf
  refine (shapeCast_vec_col_apply _ shapeCasts_S100000_S100000x1 n 0).trans ?_
  show Ideal.div (broadcastInDim S100000 ![] bcast_S_S100000 (constant (F := Ideal) S_ .f32 0x3F800000#32) (ix1 n))
      (max (deg (ix1 n)) (broadcastInDim S100000 ![] bcast_S_S100000 (constant (F := Ideal) S_ .f32 0x3F800000#32) (ix1 n))) = _
  rw [broadcastInDim_scalar_apply]
  rfl

/-! ## The staged arrays at an index -/

section Entry
variable (m : (ℓ : Loc nD τ sig) → Buf (Elt Ideal) ℓ) (ρ : Dev nD → PrngReg) (c : Dev nD)

/-- The mean row region 1 stages: each feature's sum over the nodes, as the previous region left it, over the node count. -/
theorem V3_v26_apply (j : Fin 64) : (V3 m ρ c main_v26 : S1x64.Idx → EReal) (ix2 (0 : Fin 1) j)
    = Ideal.div ((V2 m ρ c main_v24_1 : S1x64.Idx → EReal) (ix2 (0 : Fin 1) j)) (Ideal.ofBits .f32 0x47C35000#32) :=
  (congrFun (V3_v26 m ρ c) _).trans (mean64_apply _ j)
/-- The variance row: the mean of the squares less the square of the mean. -/
theorem V3_v30_apply (j : Fin 64) : (V3 m ρ c main_v30 : S1x64.Idx → EReal) (ix2 (0 : Fin 1) j)
    = Ideal.div ((V2 m ρ c main_v24_2 : S1x64.Idx → EReal) (ix2 (0 : Fin 1) j)) (Ideal.ofBits .f32 0x47C35000#32)
      - Ideal.div ((V2 m ρ c main_v24_1 : S1x64.Idx → EReal) (ix2 (0 : Fin 1) j)) (Ideal.ofBits .f32 0x47C35000#32)
        * Ideal.div ((V2 m ρ c main_v24_1 : S1x64.Idx → EReal) (ix2 (0 : Fin 1) j)) (Ideal.ofBits .f32 0x47C35000#32) :=
  (congrFun (V3_v30 m ρ c) _).trans (var64_apply _ _ j)
/-- The scale and the shift rows: the two [64] arguments as rows. -/
theorem V3_v31_apply (j : Fin 64) : (V3 m ρ c main_v31 : S1x64.Idx → EReal) (ix2 (0 : Fin 1) j) = (m ((c : Thread nD τ).loc main_arg5) : S64.Idx → EReal) (ix1 j) :=
  (congrFun (V3_v31 m ρ c) _).trans (row64_apply _ j)
theorem V3_v32_apply (j : Fin 64) : (V3 m ρ c main_v32 : S1x64.Idx → EReal) (ix2 (0 : Fin 1) j) = (m ((c : Thread nD τ).loc main_arg6) : S64.Idx → EReal) (ix1 j) :=
  (congrFun (V3_v32 m ρ c) _).trans (row64_apply _ j)

/-- The mean row region 3 stages: each feature's sum over the nodes, as the previous region left it, over the node count. -/
theorem V7_v47_apply (j : Fin 32) : (V7 m ρ c main_v47 : S1x32.Idx → EReal) (ix2 (0 : Fin 1) j)
    = Ideal.div ((V6 m ρ c main_v45_1 : S1x32.Idx → EReal) (ix2 (0 : Fin 1) j)) (Ideal.ofBits .f32 0x47C35000#32) :=
  (congrFun (V7_v47 m ρ c) _).trans (mean32_apply _ j)
/-- The variance row: the mean of the squares less the square of the mean. -/
theorem V7_v51_apply (j : Fin 32) : (V7 m ρ c main_v51 : S1x32.Idx → EReal) (ix2 (0 : Fin 1) j)
    = Ideal.div ((V6 m ρ c main_v45_2 : S1x32.Idx → EReal) (ix2 (0 : Fin 1) j)) (Ideal.ofBits .f32 0x47C35000#32)
      - Ideal.div ((V6 m ρ c main_v45_1 : S1x32.Idx → EReal) (ix2 (0 : Fin 1) j)) (Ideal.ofBits .f32 0x47C35000#32)
        * Ideal.div ((V6 m ρ c main_v45_1 : S1x32.Idx → EReal) (ix2 (0 : Fin 1) j)) (Ideal.ofBits .f32 0x47C35000#32) :=
  (congrFun (V7_v51 m ρ c) _).trans (var32_apply _ _ j)
/-- The scale and the shift rows: the two [32] arguments as rows. -/
theorem V7_v52_apply (j : Fin 32) : (V7 m ρ c main_v52 : S1x32.Idx → EReal) (ix2 (0 : Fin 1) j) = (m ((c : Thread nD τ).loc main_arg10) : S32.Idx → EReal) (ix1 j) :=
  (congrFun (V7_v52 m ρ c) _).trans (row32_apply _ j)
theorem V7_v53_apply (j : Fin 32) : (V7 m ρ c main_v53 : S1x32.Idx → EReal) (ix2 (0 : Fin 1) j) = (m ((c : Thread nD τ).loc main_arg11) : S32.Idx → EReal) (ix1 j) :=
  (congrFun (V7_v53 m ρ c) _).trans (row32_apply _ j)

/-- The bias rows of the three linear regions: a vector argument as one row. -/
theorem V1_v23_apply (j : Fin 64) : (V1 m ρ c main_v23 : S1x64.Idx → EReal) (ix2 (0 : Fin 1) j) = (m ((c : Thread nD τ).loc main_arg3) : S64.Idx → EReal) (ix1 j) :=
  (congrFun (V1_v23 m ρ c) _).trans (row64_apply _ j)
theorem V5_v44_apply (j : Fin 32) : (V5 m ρ c main_v44 : S1x32.Idx → EReal) (ix2 (0 : Fin 1) j) = (m ((c : Thread nD τ).loc main_arg8) : S32.Idx → EReal) (ix1 j) :=
  (congrFun (V5_v44 m ρ c) _).trans (row32_apply _ j)
theorem V9_v65_apply (j : Fin 2) : (V9 m ρ c main_v65 : S1x2.Idx → EReal) (ix2 (0 : Fin 1) j) = (m ((c : Thread nD τ).loc main_arg13) : S2.Idx → EReal) (ix1 j) :=
  (congrFun (V9_v65 m ρ c) _).trans (row2_apply _ j)

/-- The reciprocal in-degree column the three linear regions stage: the same column at each, computed once from the edge list. -/
theorem V1_v12_apply (n : Fin 100000) : (V1 m ρ c main_v12 : S100000x1.Idx → EReal) (ix2 n (0 : Fin 1))
    = Ideal.div (Ideal.ofBits .f32 0x3F800000#32) (max (degK (m ((c : Thread nD τ).loc main_arg1)) (ix1 n)) (Ideal.ofBits .f32 0x3F800000#32)) :=
  (congrFun (V1_v12 m ρ c) _).trans (invOf_apply _ n)
theorem V5_v12_apply (n : Fin 100000) : (V5 m ρ c main_v12 : S100000x1.Idx → EReal) (ix2 n (0 : Fin 1))
    = Ideal.div (Ideal.ofBits .f32 0x3F800000#32) (max (degK (m ((c : Thread nD τ).loc main_arg1)) (ix1 n)) (Ideal.ofBits .f32 0x3F800000#32)) :=
  (congrFun (V5_v12 m ρ c) _).trans (invOf_apply _ n)
theorem V9_v12_apply (n : Fin 100000) : (V9 m ρ c main_v12 : S100000x1.Idx → EReal) (ix2 n (0 : Fin 1))
    = Ideal.div (Ideal.ofBits .f32 0x3F800000#32) (max (degK (m ((c : Thread nD τ).loc main_arg1)) (ix1 n)) (Ideal.ofBits .f32 0x3F800000#32)) :=
  (congrFun (V9_v12 m ρ c) _).trans (invOf_apply _ n)

end Entry

end Cert.KernelIdeal.Vals

end
-- ==== Proof.Spec.lean ====
/-
  The specification both programs are read against: three mean-aggregating graph layers over N nodes.
  A layer takes node features x, the neighbour sums agg (row n = the sum of the features of the edges' source
  nodes over the edges ending in n) and the reciprocal clamped degree invd, and returns, row by row,
      lin n j = (Σ_k (agg n k · invd n) · Wl j k) + b j + Σ_k x n k · Wr j k.
  The first two layers are followed by a batch normalisation over the node axis with the statistics taken as
  "mean of squares less squared mean", an affine map and a rectifier; the third by a row-wise log-softmax over its
  two columns. Everything is an extended real; the float words are kept as words, read once at the ideal instance.
-/
import Mathlib.Data.EReal.Basic
import Mathlib.Data.EReal.Operations
import Mathlib.Algebra.BigOperators.Fin
import Idealize.ShloMosaic.PureOps.Ideal

noncomputable section

namespace Cert.Sage

open Idealize.ShloMosaic

/-- The float words the two programs share: 0, 1, the node count 100000, the normalisation's epsilon, and −∞. -/
abbrev zeroW : EReal := Ideal.ofBits .f32 0x00000000#32
abbrev oneW : EReal := Ideal.ofBits .f32 0x3F800000#32
abbrev nodesW : EReal := Ideal.ofBits .f32 0x47C35000#32
abbrev epsW : EReal := Ideal.ofBits .f32 0x3727C5AC#32
abbrev negInfW : EReal := Ideal.ofBits .f32 0xFF800000#32

variable {N d H : ℕ}

/-- The reciprocal of the degree clamped below at one. -/
def invDeg (deg : Fin N → EReal) : Fin N → EReal := fun n => Ideal.div oneW (max (deg n) oneW)

/-- One layer's linear part, with the neighbour mean taken as a product with the reciprocal degree. -/
def lin (x agg : Fin N → Fin d → EReal) (invd : Fin N → EReal) (Wl : Fin H → Fin d → EReal) (b : Fin H → EReal)
    (Wr : Fin H → Fin d → EReal) : Fin N → Fin H → EReal :=
  fun n j => ((∑ k : Fin d, (agg n k * invd n) * Wl j k) + b j) + ∑ k : Fin d, x n k * Wr j k

/-- Column sums over the node axis, of the entries and of their squares. -/
def colSum (h : Fin N → Fin H → EReal) : Fin H → EReal := fun j => ∑ n : Fin N, h n j
def colSumSq (h : Fin N → Fin H → EReal) : Fin H → EReal := fun j => ∑ n : Fin N, h n j * h n j

/-- The batch statistics from the two column sums: the mean, and the mean square less the squared mean. -/
def meanOf (s : Fin H → EReal) : Fin H → EReal := fun j => Ideal.div (s j) nodesW
def varOf (s q : Fin H → EReal) : Fin H → EReal := fun j => Ideal.div (q j) nodesW - meanOf s j * meanOf s j

/-- Normalise by the statistics, scale, shift, rectify. -/
def bnRelu (h : Fin N → Fin H → EReal) (mean var g beta : Fin H → EReal) : Fin N → Fin H → EReal :=
  fun n j => max ((h n j - mean j) * Ideal.rsqrt (var j + epsW) * g j + beta j) zeroW

/-- A row's maximum over its two columns, as the fold of max from −∞. -/
def rowMax (h : Fin N → Fin 2 → EReal) : Fin N → EReal :=
  fun n => (Finset.univ : Finset (Fin 2)).fold max negInfW (fun j => h n j)

/-- The row-wise log-softmax over two columns, shifted by the row's maximum. -/
def logSoftmax (h : Fin N → Fin 2 → EReal) : Fin N → Fin 2 → EReal :=
  fun n j => (h n j - rowMax h n) - Ideal.log (∑ j' : Fin 2, Ideal.exp (h n j' - rowMax h n))

end Cert.Sage

end
-- ==== Proof.Val1Pay.lean ====
import proofs.«158263_j27642409517219_1_alg».proof.Proof.Reg1
import proofs.«158263_j27642409517219_1_alg».proof.Proof.Spec
import Idealize.ShloMosaic.Lib.Pipeline.Value
import Idealize.ShloMosaic.Lib.ValueIdx
import Idealize.ShloMosaic.Lib.ValueLayout

/-! # Region 1 at the extended reals: one entry of a block, and where the blocks sit

The region's body is pointwise along the rows: entry `(p, q)` of the block it writes depends on entry `(p, q)` of
the block of the array being normalised and on entry `q` of each of the four rows. This module reads the body's
one payload at an entry, decides the windows' block indices over the 20 grid points (point `t` takes block `t` of
the two tall arrays and block 0 of each row), turns them into the position of a block's entry in its array (row
`5000 t + p` for the tall arrays, the entry itself for the rows), and shows that the written blocks cover the
result. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

/-- The zero offsets of a whole-buffer access, as the constant function. -/
theorem hz1 : (![0, 0] : Fin 2 → Nat) = fun _ => 0 := funext fun a => by fin_cases a <;> rfl

/-! ## The payload at an entry -/

/-- Entry `(p, q)` of the payload: subtract the second row's entry `q`, multiply by the reciprocal square root of
    the first row's entry `q` plus the epsilon, multiply by the third row's, add the fourth row's, and take the
    maximum with zero. -/
theorem pay1_apply (v0 : FVec Ideal S1x64 .f32) (v5 : FVec Ideal S5000x64 .f32) (v7 v13 v17 : FVec Ideal S1x64 .f32)
    (p : Fin 5000) (q : Fin 64) :
    k1_pay1 (F := Ideal) v0 v5 v7 v13 v17 (ix2 p q)
      = max ((v5 (ix2 p q) - v7 (ix2 0 q)) * Ideal.rsqrt (v0 (ix2 0 q) + Cert.Sage.epsW) * v13 (ix2 0 q) + v17 (ix2 0 q)) Cert.Sage.zeroW := by
  unfold k1_pay1
  simp only [shapeCast_self]
  show max ((v5 (ix2 p q) - broadcastTo S5000x64 v7 _ (ix2 p q)) * broadcastTo S5000x64 (rsqrt (addf v0 (broadcast S1x64 _))) _ (ix2 p q) * broadcastTo S5000x64 v13 _ (ix2 p q) + broadcastTo S5000x64 v17 _ (ix2 p q)) _ = _
  rw [broadcastTo_1b_ab_apply, broadcastTo_1b_ab_apply, broadcastTo_1b_ab_apply, broadcastTo_1b_ab_apply]
  rfl

/-- Entry `(p, q)` of what the body leaves in the output buffer, from the five input buffers' contents: `x0` the
    block being normalised, `x1` the row subtracted, `x2` the row under the square root, `x3` the scale, `x4` the shift. -/
theorem out1_5_apply (x0 : FVec Ideal S5000x64 .f32) (x1 x2 x3 x4 : FVec Ideal S1x64 .f32) (p : Fin 5000) (q : Fin 64) :
    out1_5 (F := Ideal) x0 x1 x2 x3 x4 (ix2 p q)
      = max ((x0 (ix2 p q) - x1 (ix2 0 q)) * Ideal.rsqrt (x2 (ix2 0 q) + Cert.Sage.epsW) * x3 (ix2 0 q) + x4 (ix2 0 q)) Cert.Sage.zeroW := by
  unfold out1_5
  rw [View.canon_unit_zero hz1]
  simp only [View.ld_unit_zero (S := S5000x64) hz1, View.ld_unit_zero (S := S1x64) hz1]
  exact pay1_apply x2 x0 x1 x3 x4 p q

/-! ## The block indices over the grid -/

/-- At point `t` the two tall windows take block `(t, 0)` and each row window block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Where a block's entry sits in its array: block index times block size plus the entry's coordinate -/

theorem emb1_0 (t : Fin cfg1.N) (p : Fin 5000) (q : Fin 64) (n : Fin 100000) (hn : n.val = 5000 * t.val + p.val) :
    ((cfg1.win 0).blk t).view.emb (ix2 p q) = (ix2 n q : S100000x64.Idx) := by
  obtain ⟨e0, e1, -⟩ := idx_facts1 t
  funext a; apply Fin.ext
  match a with
  | ⟨0, _⟩ => show win1_0.index t (0 : Fin 2) * 5000 + 1 * p.val = n.val; rw [e0, hn]; omega
  | ⟨1, _⟩ => show win1_0.index t (1 : Fin 2) * 64 + 1 * q.val = q.val; rw [e1]; omega

theorem emb1_5 (t : Fin cfg1.N) (p : Fin 5000) (q : Fin 64) (n : Fin 100000) (hn : n.val = 5000 * t.val + p.val) :
    ((cfg1.win 5).blk t).view.emb (ix2 p q) = (ix2 n q : S100000x64.Idx) := by
  obtain ⟨-, -, -, -, -, -, -, -, -, -, e0, e1⟩ := idx_facts1 t
  funext a; apply Fin.ext
  match a with
  | ⟨0, _⟩ => show win1_5.index t (0 : Fin 2) * 5000 + 1 * p.val = n.val; rw [e0, hn]; omega
  | ⟨1, _⟩ => show win1_5.index t (1 : Fin 2) * 64 + 1 * q.val = q.val; rw [e1]; omega

theorem emb1_1 (t : Fin cfg1.N) (q : Fin 64) :
    ((cfg1.win 1).blk t).view.emb (ix2 (0 : Fin 1) q) = (ix2 (0 : Fin 1) q : S1x64.Idx) := by
  obtain ⟨-, -, e0, e1, -⟩ := idx_facts1 t
  funext a; apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega
theorem emb1_2 (t : Fin cfg1.N) (q : Fin 64) :
    ((cfg1.win 2).blk t).view.emb (ix2 (0 : Fin 1) q) = (ix2 (0 : Fin 1) q : S1x64.Idx) := by
  obtain ⟨-, -, -, -, e0, e1, -⟩ := idx_facts1 t
  funext a; apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega
theorem emb1_3 (t : Fin cfg1.N) (q : Fin 64) :
    ((cfg1.win 3).blk t).view.emb (ix2 (0 : Fin 1) q) = (ix2 (0 : Fin 1) q : S1x64.Idx) := by
  obtain ⟨-, -, -, -, -, -, e0, e1, -⟩ := idx_facts1 t
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega
theorem emb1_4 (t : Fin cfg1.N) (q : Fin 64) :
    ((cfg1.win 4).blk t).view.emb (ix2 (0 : Fin 1) q) = (ix2 (0 : Fin 1) q : S1x64.Idx) := by
  obtain ⟨-, -, -, -, -, -, -, -, e0, e1, -⟩ := idx_facts1 t
  funext a; apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-! ## The written blocks cover the result -/

/-- Row `r` of the result lies in the block written at point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, -, -, e0, e1⟩ := idx_facts1 t
  refine ⟨t, flush1_5 t, ?_⟩
  show i ∈ ((View.whole main_v33).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

end Cert.KernelIdeal.Vals

end
-- ==== Proof.Val1.lean ====
import proofs.«158263_j27642409517219_1_alg».proof.Proof.Val1Pay

/-! # Region 1 at the extended reals: the array it leaves

With `h` the [100000, 64] array the region finds in its first operand and `m`, `v`, `g`, `b` the four [1, 64] rows it
finds in the next four, the region leaves in its result, at row `n` and column `j`,
`max ((h n j - m j) * rsqrt (v j + ε) * g j + b j) 0`: point `t` writes rows `5000 t … 5000 t + 4999` of exactly that
function, and the twenty blocks cover the rows. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

section
-- the contents of every buffer of the core when the region is entered
variable (V : (c : Dev nD) → (b : Ref sig .tc) → Buf (Elt Ideal) ((c : Thread nD τ).loc b))

/-- The arrays the region finds in its five input operands, as functions of an index. -/
def in1_0 (c : Dev nD) : S100000x64.Idx → EReal := V c (Pipeline.arrRef spec1 0)
def in1_1 (c : Dev nD) : S1x64.Idx → EReal := V c (Pipeline.arrRef spec1 1)
def in1_2 (c : Dev nD) : S1x64.Idx → EReal := V c (Pipeline.arrRef spec1 2)
def in1_3 (c : Dev nD) : S1x64.Idx → EReal := V c (Pipeline.arrRef spec1 3)
def in1_4 (c : Dev nD) : S1x64.Idx → EReal := V c (Pipeline.arrRef spec1 4)

/-- The result as one function of the index: the normalised, scaled, shifted and rectified entry. -/
def G1 (c : Dev nD) : S100000x64.Idx → EReal := fun i =>
  Cert.Sage.bnRelu (fun n j => in1_0 V c (ix2 n j)) (fun j => in1_1 V c (ix2 0 j)) (fun j => in1_2 V c (ix2 0 j))
    (fun j => in1_3 V c (ix2 0 j)) (fun j => in1_4 V c (ix2 0 j)) (i 0) (i 1)

/-- What point `t` writes back is block `t` of that function. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  funext y
  obtain ⟨p, q, rfl⟩ : ∃ (p : Fin 5000) (q : Fin 64), y = ix2 p q := ⟨y 0, y 1, eq_ix2 y⟩
  have ht : t.val < 20 := lt_of_lt_of_eq t.isLt N_1
  have hn : 5000 * t.val + p.val < 100000 := by have := p.isLt; omega
  refine (out1_5_apply (iblk1 V c 0 t) (iblk1 V c 1 t) (iblk1 V c 2 t) (iblk1 V c 3 t) (iblk1 V c 4 t) p q).trans ?_
  show max ((in1_0 V c (((cfg1.win 0).blk t).view.emb (ix2 p q))
        - in1_1 V c (((cfg1.win 1).blk t).view.emb (ix2 (0 : Fin 1) q)))
      * Ideal.rsqrt (in1_2 V c (((cfg1.win 2).blk t).view.emb (ix2 (0 : Fin 1) q)) + Cert.Sage.epsW)
      * in1_3 V c (((cfg1.win 3).blk t).view.emb (ix2 (0 : Fin 1) q))
      + in1_4 V c (((cfg1.win 4).blk t).view.emb (ix2 (0 : Fin 1) q))) Cert.Sage.zeroW
    = G1 V c (((cfg1.win 5).blk t).view.emb (ix2 p q))
  rw [emb1_0 t p q ⟨_, hn⟩ rfl, emb1_1, emb1_2, emb1_3, emb1_4, emb1_5 t p q ⟨_, hn⟩ rfl]
  rfl

/-- The array the region leaves: every entry the normalised, scaled, shifted and rectified entry of the arrays found. -/
theorem final1 (c : Dev nD) (n : Fin 100000) (j : Fin 64) :
    ((dat1 (F := Ideal) V c).arrAt 5 cfg1.N : S100000x64.Idx → EReal) (ix2 n j)
      = Cert.Sage.bnRelu (fun n j => (V c (Pipeline.arrRef spec1 0) : S100000x64.Idx → EReal) (ix2 n j))
          (fun j => (V c (Pipeline.arrRef spec1 1) : S1x64.Idx → EReal) (ix2 0 j))
          (fun j => (V c (Pipeline.arrRef spec1 2) : S1x64.Idx → EReal) (ix2 0 j))
          (fun j => (V c (Pipeline.arrRef spec1 3) : S1x64.Idx → EReal) (ix2 0 j))
          (fun j => (V c (Pipeline.arrRef spec1 4) : S1x64.Idx → EReal) (ix2 0 j)) n j := by
  rw [(dat1 (F := Ideal) V c).arrAt_eq_of_cover 5 (G1 V c) (fun t _ => flushed1_eq V c t) cover1]
  rfl

end

end Cert.KernelIdeal.Vals

end
-- ==== Proof.Val3Pay.lean ====
import proofs.«158263_j27642409517219_1_alg».proof.Proof.Reg3
import proofs.«158263_j27642409517219_1_alg».proof.Proof.Spec
import Idealize.ShloMosaic.Lib.Pipeline.Value
import Idealize.ShloMosaic.Lib.ValueIdx
import Idealize.ShloMosaic.Lib.ValueLayout

/-! # Region 3 at the extended reals: one entry of a block, and where the blocks sit

The region's body is pointwise along the rows: entry `(p, q)` of the block it writes depends on entry `(p, q)` of
the block of the array being normalised and on entry `q` of each of the four rows. This module reads the body's
one payload at an entry, decides the windows' block indices over the 20 grid points (point `t` takes block `t` of
the two tall arrays and block 0 of each row), turns them into the position of a block's entry in its array (row
`5000 t + p` for the tall arrays, the entry itself for the rows), and shows that the written blocks cover the
result. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

/-- The zero offsets of a whole-buffer access, as the constant function. -/
theorem hz3 : (![0, 0] : Fin 2 → Nat) = fun _ => 0 := funext fun a => by fin_cases a <;> rfl

/-! ## The payload at an entry -/

/-- Entry `(p, q)` of the payload: subtract the second row's entry `q`, multiply by the reciprocal square root of
    the first row's entry `q` plus the epsilon, multiply by the third row's, add the fourth row's, and take the
    maximum with zero. -/
theorem pay3_apply (v0 : FVec Ideal S1x32 .f32) (v5 : FVec Ideal S5000x32 .f32) (v7 v13 v17 : FVec Ideal S1x32 .f32)
    (p : Fin 5000) (q : Fin 32) :
    k3_pay1 (F := Ideal) v0 v5 v7 v13 v17 (ix2 p q)
      = max ((v5 (ix2 p q) - v7 (ix2 0 q)) * Ideal.rsqrt (v0 (ix2 0 q) + Cert.Sage.epsW) * v13 (ix2 0 q) + v17 (ix2 0 q)) Cert.Sage.zeroW := by
  unfold k3_pay1
  simp only [shapeCast_self]
  show max ((v5 (ix2 p q) - broadcastTo S5000x32 v7 _ (ix2 p q)) * broadcastTo S5000x32 (rsqrt (addf v0 (broadcast S1x32 _))) _ (ix2 p q) * broadcastTo S5000x32 v13 _ (ix2 p q) + broadcastTo S5000x32 v17 _ (ix2 p q)) _ = _
  rw [broadcastTo_1b_ab_apply, broadcastTo_1b_ab_apply, broadcastTo_1b_ab_apply, broadcastTo_1b_ab_apply]
  rfl

/-- Entry `(p, q)` of what the body leaves in the output buffer, from the five input buffers' contents: `x0` the
    block being normalised, `x1` the row subtracted, `x2` the row under the square root, `x3` the scale, `x4` the shift. -/
theorem out3_5_apply (x0 : FVec Ideal S5000x32 .f32) (x1 x2 x3 x4 : FVec Ideal S1x32 .f32) (p : Fin 5000) (q : Fin 32) :
    out3_5 (F := Ideal) x0 x1 x2 x3 x4 (ix2 p q)
      = max ((x0 (ix2 p q) - x1 (ix2 0 q)) * Ideal.rsqrt (x2 (ix2 0 q) + Cert.Sage.epsW) * x3 (ix2 0 q) + x4 (ix2 0 q)) Cert.Sage.zeroW := by
  unfold out3_5
  rw [View.canon_unit_zero hz3]
  simp only [View.ld_unit_zero (S := S5000x32) hz3, View.ld_unit_zero (S := S1x32) hz3]
  exact pay3_apply x2 x0 x1 x3 x4 p q

/-! ## The block indices over the grid -/

/-- At point `t` the two tall windows take block `(t, 0)` and each row window block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## Where a block's entry sits in its array: block index times block size plus the entry's coordinate -/

theorem emb3_0 (t : Fin cfg3.N) (p : Fin 5000) (q : Fin 32) (n : Fin 100000) (hn : n.val = 5000 * t.val + p.val) :
    ((cfg3.win 0).blk t).view.emb (ix2 p q) = (ix2 n q : S100000x32.Idx) := by
  obtain ⟨e0, e1, -⟩ := idx_facts3 t
  funext a; apply Fin.ext
  match a with
  | ⟨0, _⟩ => show win3_0.index t (0 : Fin 2) * 5000 + 1 * p.val = n.val; rw [e0, hn]; omega
  | ⟨1, _⟩ => show win3_0.index t (1 : Fin 2) * 32 + 1 * q.val = q.val; rw [e1]; omega

theorem emb3_5 (t : Fin cfg3.N) (p : Fin 5000) (q : Fin 32) (n : Fin 100000) (hn : n.val = 5000 * t.val + p.val) :
    ((cfg3.win 5).blk t).view.emb (ix2 p q) = (ix2 n q : S100000x32.Idx) := by
  obtain ⟨-, -, -, -, -, -, -, -, -, -, e0, e1⟩ := idx_facts3 t
  funext a; apply Fin.ext
  match a with
  | ⟨0, _⟩ => show win3_5.index t (0 : Fin 2) * 5000 + 1 * p.val = n.val; rw [e0, hn]; omega
  | ⟨1, _⟩ => show win3_5.index t (1 : Fin 2) * 32 + 1 * q.val = q.val; rw [e1]; omega

theorem emb3_1 (t : Fin cfg3.N) (q : Fin 32) :
    ((cfg3.win 1).blk t).view.emb (ix2 (0 : Fin 1) q) = (ix2 (0 : Fin 1) q : S1x32.Idx) := by
  obtain ⟨-, -, e0, e1, -⟩ := idx_facts3 t
  funext a; apply Fin.ext
  match a with
  | ⟨0, _⟩ => show win3_1.index t (0 : Fin 2) * 1 + 1 * 0 = 0; rw [e0]
  | ⟨1, _⟩ => show win3_1.index t (1 : Fin 2) * 32 + 1 * q.val = q.val; rw [e1]; omega
theorem emb3_2 (t : Fin cfg3.N) (q : Fin 32) :
    ((cfg3.win 2).blk t).view.emb (ix2 (0 : Fin 1) q) = (ix2 (0 : Fin 1) q : S1x32.Idx) := by
  obtain ⟨-, -, -, -, e0, e1, -⟩ := idx_facts3 t
  funext a; apply Fin.ext
  match a with
  | ⟨0, _⟩ => show win3_2.index t (0 : Fin 2) * 1 + 1 * 0 = 0; rw [e0]
  | ⟨1, _⟩ => show win3_2.index t (1 : Fin 2) * 32 + 1 * q.val = q.val; rw [e1]; omega
theorem emb3_3 (t : Fin cfg3.N) (q : Fin 32) :
    ((cfg3.win 3).blk t).view.emb (ix2 (0 : Fin 1) q) = (ix2 (0 : Fin 1) q : S1x32.Idx) := by
  obtain ⟨-, -, -, -, -, -, e0, e1, -⟩ := idx_facts3 t
  funext a; apply Fin.ext
  match a with
  | ⟨0, _⟩ => show win3_3.index t (0 : Fin 2) * 1 + 1 * 0 = 0; rw [e0]
  | ⟨1, _⟩ => show win3_3.index t (1 : Fin 2) * 32 + 1 * q.val = q.val; rw [e1]; omega
theorem emb3_4 (t : Fin cfg3.N) (q : Fin 32) :
    ((cfg3.win 4).blk t).view.emb (ix2 (0 : Fin 1) q) = (ix2 (0 : Fin 1) q : S1x32.Idx) := by
  obtain ⟨-, -, -, -, -, -, -, -, e0, e1, -⟩ := idx_facts3 t
  funext a; apply Fin.ext
  match a with
  | ⟨0, _⟩ => show win3_4.index t (0 : Fin 2) * 1 + 1 * 0 = 0; rw [e0]
  | ⟨1, _⟩ => show win3_4.index t (1 : Fin 2) * 32 + 1 * q.val = q.val; rw [e1]; omega

/-! ## The written blocks cover the result -/

/-- Row `r` of the result lies in the block written at point `r / 5000`. -/
theorem cover3 (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, ht⟩ : ∃ t : Fin cfg3.N, t.val = (i 0).val / 5000 :=
    ⟨⟨(i 0).val / 5000, lt_of_lt_of_eq (by omega) N_3.symm⟩, rfl⟩
  obtain ⟨-, -, -, -, -, -, -, -, -, -, e0, e1⟩ := idx_facts3 t
  refine ⟨t, flush3_5 t, ?_⟩
  show i ∈ ((View.whole main_v54).slice (win3_5.rect t)).set
  rw [View.set_slice_whole, Rect.mem_set_unit]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 32 ≤ (i 1).val ∧ (i 1).val < win3_5.index t (1 : Fin 2) * 32 + 32
    rw [e1]; omega

end Cert.KernelIdeal.Vals

end
-- ==== Proof.Val3.lean ====
import proofs.«158263_j27642409517219_1_alg».proof.Proof.Val3Pay

/-! # Region 3 at the extended reals: the array it leaves

With `h` the [100000, 32] array the region finds in its first operand and `m`, `v`, `g`, `b` the four [1, 32] rows it
finds in the next four, the region leaves in its result, at row `n` and column `j`,
`max ((h n j - m j) * rsqrt (v j + ε) * g j + b j) 0`: point `t` writes rows `5000 t … 5000 t + 4999` of exactly that
function, and the twenty blocks cover the rows. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

section
-- the contents of every buffer of the core when the region is entered
variable (V : (c : Dev nD) → (b : Ref sig .tc) → Buf (Elt Ideal) ((c : Thread nD τ).loc b))

/-- The arrays the region finds in its five input operands, as functions of an index. -/
def in3_0 (c : Dev nD) : S100000x32.Idx → EReal := V c (Pipeline.arrRef spec3 0)
def in3_1 (c : Dev nD) : S1x32.Idx → EReal := V c (Pipeline.arrRef spec3 1)
def in3_2 (c : Dev nD) : S1x32.Idx → EReal := V c (Pipeline.arrRef spec3 2)
def in3_3 (c : Dev nD) : S1x32.Idx → EReal := V c (Pipeline.arrRef spec3 3)
def in3_4 (c : Dev nD) : S1x32.Idx → EReal := V c (Pipeline.arrRef spec3 4)

/-- The result as one function of the index: the normalised, scaled, shifted and rectified entry. -/
def G3 (c : Dev nD) : S100000x32.Idx → EReal := fun i =>
  Cert.Sage.bnRelu (fun n j => in3_0 V c (ix2 n j)) (fun j => in3_1 V c (ix2 0 j)) (fun j => in3_2 V c (ix2 0 j))
    (fun j => in3_3 V c (ix2 0 j)) (fun j => in3_4 V c (ix2 0 j)) (i 0) (i 1)

/-- What point `t` writes back is block `t` of that function. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  funext y
  obtain ⟨p, q, rfl⟩ : ∃ (p : Fin 5000) (q : Fin 32), y = ix2 p q := ⟨y 0, y 1, eq_ix2 y⟩
  have ht : t.val < 20 := lt_of_lt_of_eq t.isLt N_3
  have hn : 5000 * t.val + p.val < 100000 := by have := p.isLt; omega
  refine (out3_5_apply (iblk3 V c 0 t) (iblk3 V c 1 t) (iblk3 V c 2 t) (iblk3 V c 3 t) (iblk3 V c 4 t) p q).trans ?_
  show max ((in3_0 V c (((cfg3.win 0).blk t).view.emb (ix2 p q))
        - in3_1 V c (((cfg3.win 1).blk t).view.emb (ix2 (0 : Fin 1) q)))
      * Ideal.rsqrt (in3_2 V c (((cfg3.win 2).blk t).view.emb (ix2 (0 : Fin 1) q)) + Cert.Sage.epsW)
      * in3_3 V c (((cfg3.win 3).blk t).view.emb (ix2 (0 : Fin 1) q))
      + in3_4 V c (((cfg3.win 4).blk t).view.emb (ix2 (0 : Fin 1) q))) Cert.Sage.zeroW
    = G3 V c (((cfg3.win 5).blk t).view.emb (ix2 p q))
  rw [emb3_0 t p q ⟨_, hn⟩ rfl, emb3_1, emb3_2, emb3_3, emb3_4, emb3_5 t p q ⟨_, hn⟩ rfl]
  rfl

/-- The array the region leaves: every entry the normalised, scaled, shifted and rectified entry of the arrays found. -/
theorem final3 (c : Dev nD) (n : Fin 100000) (j : Fin 32) :
    ((dat3 (F := Ideal) V c).arrAt 5 cfg3.N : S100000x32.Idx → EReal) (ix2 n j)
      = Cert.Sage.bnRelu (fun n j => (V c (Pipeline.arrRef spec3 0) : S100000x32.Idx → EReal) (ix2 n j))
          (fun j => (V c (Pipeline.arrRef spec3 1) : S1x32.Idx → EReal) (ix2 0 j))
          (fun j => (V c (Pipeline.arrRef spec3 2) : S1x32.Idx → EReal) (ix2 0 j))
          (fun j => (V c (Pipeline.arrRef spec3 3) : S1x32.Idx → EReal) (ix2 0 j))
          (fun j => (V c (Pipeline.arrRef spec3 4) : S1x32.Idx → EReal) (ix2 0 j)) n j := by
  rw [(dat3 (F := Ideal) V c).arrAt_eq_of_cover 5 (G3 V c) (fun t _ => flushed3_eq V c t) cover3]
  rfl

end

end Cert.KernelIdeal.Vals

end
-- ==== Proof.LibReal.lean ====
/-
  Real numbers among the extended reals. An extended real is either a real number or one of the two
  infinities, and the laws of arithmetic that move a factor across a sum hold on the extended reals only
  where no infinity occurs. This module names the property "is a real number", shows that every operation a
  graph-convolution layer performs on a row of features keeps it, and proves the one law the layers need:
  a common real factor may be moved from every summand of a finite sum of products to the finished sum.
-/
import Mathlib.Data.EReal.Basic
import Mathlib.Data.EReal.Operations
import Mathlib.Data.EReal.Inv
import Idealize.ShloMosaic.PureOps.Ideal

noncomputable section

open scoped BigOperators

namespace Cert.Gcn

open Idealize.ShloMosaic

/-- An extended real is a real number: it is the image of some real, hence neither infinity. -/
def IsReal (x : EReal) : Prop := ∃ r : ℝ, x = (r : EReal)

namespace IsReal

/-- The image of a real number is a real number. -/
theorem coe (r : ℝ) : IsReal (r : EReal) := ⟨r, rfl⟩

/-- Zero is a real number. -/
theorem zero : IsReal (0 : EReal) := ⟨0, rfl⟩

/-- One is a real number. -/
theorem one : IsReal (1 : EReal) := ⟨1, rfl⟩

/-- The sum of two real numbers is a real number. -/
theorem add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The negative of a real number is a real number. -/
theorem neg {x : EReal} (hx : IsReal x) : IsReal (-x) := by
  obtain ⟨a, rfl⟩ := hx
  exact ⟨-a, (EReal.coe_neg a).symm⟩

/-- The larger of two real numbers is a real number: it is one of the two. -/
theorem max {x y : EReal} (hx : IsReal x) (hy : IsReal y) : IsReal (max x y) := by
  rcases max_choice x y with h | h
  · rw [h]; exact hx
  · rw [h]; exact hy

/-- The smaller of two real numbers is a real number: it is one of the two. -/
theorem min {x y : EReal} (hx : IsReal x) (hy : IsReal y) : IsReal (min x y) := by
  rcases min_choice x y with h | h
  · rw [h]; exact hx
  · rw [h]; exact hy

/-- A real number is not `+∞`. -/
theorem ne_top {x : EReal} (hx : IsReal x) : x ≠ ⊤ := by
  obtain ⟨a, rfl⟩ := hx
  exact EReal.coe_ne_top a

/-- A real number is not `-∞`. -/
theorem ne_bot {x : EReal} (hx : IsReal x) : x ≠ ⊥ := by
  obtain ⟨a, rfl⟩ := hx
  exact EReal.coe_ne_bot a

end IsReal

/-- An extended real that is neither infinity is a real number. -/
theorem isReal_of_ne {x : EReal} (ht : x ≠ ⊤) (hb : x ≠ ⊥) : IsReal x :=
  ⟨x.toReal, (EReal.coe_toReal ht hb).symm⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The image of the larger of two reals is the larger of the images. -/
theorem coe_max (a b : ℝ) : ((Max.max a b : ℝ) : EReal) = Max.max (a : EReal) (b : EReal) :=
  EReal.coe_strictMono.monotone.map_max

/-! ### Moving a real factor across a finite sum -/

/-- A finite sum of products of reals, each summand multiplied by one more real `c`, is the finished sum
    multiplied by `c`. On the extended reals this is false in general (an infinite summand and `c = 0`);
    here every factor is a real number. The leading `0 +` is the initial value of the accumulation. -/
theorem sum_mul_hoist {ι : Type*} (s : Finset ι) (a f : ι → EReal) (c : EReal)
    (ha : ∀ j ∈ s, IsReal (a j)) (hf : ∀ j ∈ s, IsReal (f j)) (hc : IsReal c) :
    (0 + ∑ j ∈ s, a j * f j) * c = 0 + ∑ j ∈ s, a j * (f j * c) := by
  obtain ⟨c', rfl⟩ := hc
  have ha2 : ∀ j ∈ s, ∃ r : ℝ, a j = (r : EReal) := ha
  have hf2 : ∀ j ∈ s, ∃ r : ℝ, f j = (r : EReal) := hf
  choose! a' ha' using ha2
  choose! f' hf' using hf2
  have h1 : ∑ j ∈ s, a j * f j = ((∑ j ∈ s, a' j * f' j : ℝ) : EReal) := by
    rw [coe_sum]
    exact Finset.sum_congr rfl fun j hj => by rw [ha' j hj, hf' j hj, EReal.coe_mul]
  have h2 : ∑ j ∈ s, a j * (f j * (c' : EReal)) = ((∑ j ∈ s, a' j * (f' j * c') : ℝ) : EReal) := by
    rw [coe_sum]
    exact Finset.sum_congr rfl fun j hj => by rw [ha' j hj, hf' j hj, EReal.coe_mul, EReal.coe_mul]
  rw [zero_add, zero_add, h1, h2, ← EReal.coe_mul, Finset.sum_mul]
  exact congrArg _ (Finset.sum_congr rfl fun j _ => mul_assoc _ _ _)

/-- The same law with the two factors of each summand on the left written in the other order. -/
theorem sum_mul_hoist' {ι : Type*} (s : Finset ι) (a f : ι → EReal) (c : EReal)
    (ha : ∀ j ∈ s, IsReal (a j)) (hf : ∀ j ∈ s, IsReal (f j)) (hc : IsReal c) :
    (0 + ∑ j ∈ s, f j * a j) * c = 0 + ∑ j ∈ s, a j * (f j * c) := by
  rw [← sum_mul_hoist s a f c ha hf hc]
  exact congrArg (fun t => (0 + t) * c) (Finset.sum_congr rfl fun j _ => mul_comm _ _)

/-! ### The single-precision words the programs spell, as the reals they denote -/

/-- The word `0x3F800000` denotes the real number 1. -/
theorem ofBits_one : Ideal.ofBits .f32 0x3F800000#32 = ((1 : ℝ) : EReal) := by
  simp [Ideal.ofBits, Ideal.ieee, -EReal.coe_mul]; norm_num

/-- The word `0x3F000000` denotes the real number 1/2. -/
theorem ofBits_half : Ideal.ofBits .f32 0x3F000000#32 = ((1 / 2 : ℝ) : EReal) := by
  simp [Ideal.ofBits, Ideal.ieee, -EReal.coe_mul]; norm_num

/-- The word `0x40000000` denotes the real number 2. -/
theorem ofBits_two : Ideal.ofBits .f32 0x40000000#32 = ((2 : ℝ) : EReal) := by
  simp [Ideal.ofBits, Ideal.ieee, -EReal.coe_mul]; norm_num

/-- The word `0x40400000` denotes the real number 3. -/
theorem ofBits_three : Ideal.ofBits .f32 0x40400000#32 = ((3 : ℝ) : EReal) := by
  simp [Ideal.ofBits, Ideal.ieee, -EReal.coe_mul]; norm_num

/-- The word `0x47C35000` denotes the real number 100000. -/
theorem ofBits_100000 : Ideal.ofBits .f32 0x47C35000#32 = ((100000 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- The word `0x3727C5AC` (the single-precision rounding of one hundred-thousandth) denotes a positive real number. -/
theorem ofBits_eps_pos : ∃ r : ℝ, 0 < r ∧ Ideal.ofBits .f32 0x3727C5AC#32 = (r : EReal) := by
  simp [Ideal.ofBits, Ideal.ieee, -EReal.coe_mul]

/-- The word `0x7F800000` denotes +∞. -/
theorem ofBits_pos_inf : Ideal.ofBits .f32 0x7F800000#32 = ⊤ := by
  simp [Ideal.ofBits, Ideal.ieee]

/-- The word `0xFF800000` denotes −∞. -/
theorem ofBits_neg_inf : Ideal.ofBits .f32 0xFF800000#32 = ⊥ := by
  simp [Ideal.ofBits, Ideal.ieee]

/-- The first four words above denote real numbers. -/
theorem isReal_ofBits_one : IsReal (Ideal.ofBits .f32 0x3F800000#32) := ⟨_, ofBits_one⟩
/-- See `isReal_ofBits_one`. -/
theorem isReal_ofBits_half : IsReal (Ideal.ofBits .f32 0x3F000000#32) := ⟨_, ofBits_half⟩
/-- See `isReal_ofBits_one`. -/
theorem isReal_ofBits_two : IsReal (Ideal.ofBits .f32 0x40000000#32) := ⟨_, ofBits_two⟩
/-- See `isReal_ofBits_one`. -/
theorem isReal_ofBits_three : IsReal (Ideal.ofBits .f32 0x40400000#32) := ⟨_, ofBits_three⟩

/-! ### The operations with corners, away from their corners -/

/-- The square root of a nonnegative real number is a real number. (Below zero the square root here is `-∞`,
    so the hypothesis `0 ≤ x` cannot be dropped.) -/
theorem isReal_sqrt {x : EReal} (hx : IsReal x) (h0 : 0 ≤ x) : IsReal (Ideal.sqrt x) := by
  obtain ⟨r, rfl⟩ := hx
  rw [Ideal.sqrt_coe, if_neg (not_lt.mpr (EReal.coe_nonneg.mp h0))]
  exact ⟨_, rfl⟩

/-- The quotient of a real number by a nonzero real number is a real number. -/
theorem isReal_div {x y : EReal} (hx : IsReal x) (hy : IsReal y) (h0 : y ≠ 0) : IsReal (Ideal.div x y) := by
  obtain ⟨a, rfl⟩ := hx
  obtain ⟨b, rfl⟩ := hy
  have hb : b ≠ 0 := fun h => h0 (by rw [h]; rfl)
  rw [Ideal.div_coe hb, ← EReal.coe_mul]
  exact ⟨_, rfl⟩

/-- A real number raised to at least 1 has a real inverse square root: the argument of the inverse square root
    is then a real number that is at least 1, in particular positive. -/
theorem isReal_rsqrt_max_one {x : EReal} (hx : IsReal x) :
    IsReal (Ideal.rsqrt (max x (Ideal.ofBits .f32 0x3F800000#32))) := by
  obtain ⟨r, rfl⟩ := hx
  rw [ofBits_one, ← coe_max, Ideal.rsqrt_coe]
  have h1 : (1 : ℝ) ≤ Max.max r 1 := le_max_right r 1
  have h2 : ¬ Max.max r 1 < 0 := not_lt.mpr (by linarith)
  have h3 : ¬ Max.max r 1 = 0 := fun h => by linarith
  rw [if_neg h2, if_neg h3]
  exact ⟨_, rfl⟩

/-! ### Three quotients against products, at every extended real -/

/-- Dividing by the word for 1 is multiplying by it, at the infinities too. -/
theorem div_one (x : EReal) :
    Ideal.div x (Ideal.ofBits .f32 0x3F800000#32) = x * Ideal.ofBits .f32 0x3F800000#32 := by
  rw [ofBits_one, Ideal.div_coe one_ne_zero, _root_.div_one]

/-- Dividing by the word for 2 is multiplying by the word for 1/2, at the infinities too. -/
theorem div_two (x : EReal) :
    Ideal.div x (Ideal.ofBits .f32 0x40000000#32) = x * Ideal.ofBits .f32 0x3F000000#32 := by
  rw [ofBits_two, ofBits_half, Ideal.div_coe two_ne_zero]

/-- Dividing by the word for 3 is multiplying by the real number 1/3, at the infinities too. -/
theorem div_three (x : EReal) :
    Ideal.div x (Ideal.ofBits .f32 0x40400000#32) = x * ((1 / 3 : ℝ) : EReal) := by
  rw [ofBits_three, Ideal.div_coe three_ne_zero]

/-! ### Distributing a real factor -/

/-- A real number is the image of its real part. -/
theorem IsReal.coe_toReal {x : EReal} (hx : IsReal x) : ((x.toReal : ℝ) : EReal) = x := by
  obtain ⟨a, rfl⟩ := hx
  rfl

/-- The difference of two real numbers is a real number. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Among real numbers a sum times a factor is the sum of the products. -/
theorem add_mul_real {x y c : EReal} (hx : IsReal x) (hy : IsReal y) (hc : IsReal c) :
    (x + y) * c = x * c + y * c := by
  obtain ⟨a, rfl⟩ := hx
  obtain ⟨b, rfl⟩ := hy
  obtain ⟨d, rfl⟩ := hc
  rw [← EReal.coe_add, ← EReal.coe_mul, ← EReal.coe_mul, ← EReal.coe_mul, ← EReal.coe_add, add_mul]

/-- Among real numbers a factor times a sum is the sum of the products. -/
theorem mul_add_real {c x y : EReal} (hc : IsReal c) (hx : IsReal x) (hy : IsReal y) :
    c * (x + y) = c * x + c * y := by
  rw [mul_comm c (x + y), add_mul_real hx hy hc, mul_comm x c, mul_comm y c]

/-- A finite sum of real numbers times a real factor is the sum of the products. -/
theorem sum_mul_real {ι : Type*} (s : Finset ι) (f : ι → EReal) (c : EReal) (hf : ∀ j ∈ s, IsReal (f j))
    (hc : IsReal c) : (∑ j ∈ s, f j) * c = ∑ j ∈ s, f j * c := by
  classical
  induction s using Finset.induction_on with
  | empty => simp
  | insert a s ha ih =>
    rw [Finset.sum_insert ha, Finset.sum_insert ha,
      add_mul_real (hf a (Finset.mem_insert_self a s))
        (IsReal.sum s f fun i hi => hf i (Finset.mem_insert_of_mem hi)) hc,
      ih fun i hi => hf i (Finset.mem_insert_of_mem hi)]

/-- A real factor times a finite sum of real numbers is the sum of the products. -/
theorem mul_sum_real {ι : Type*} (s : Finset ι) (f : ι → EReal) (c : EReal) (hf : ∀ j ∈ s, IsReal (f j))
    (hc : IsReal c) : c * ∑ j ∈ s, f j = ∑ j ∈ s, c * f j := by
  rw [mul_comm, sum_mul_real s f c hf hc]
  exact Finset.sum_congr rfl fun j _ => mul_comm _ _

/-! ### Regrouping three summands, at every extended real -/

/-- Three summands accumulated one at a time from zero are zero plus their sum. -/
theorem add3_assoc (a b c : EReal) : ((0 + a) + b) + c = 0 + (a + b + c) := by
  rw [zero_add, zero_add]

/-- Three summands accumulated one at a time from zero, with the sum grouped to the right. -/
theorem add3_assoc_right (a b c : EReal) : ((0 + a) + b) + c = a + (b + c) := by
  rw [zero_add, add_assoc]

/-- Three summands accumulated one at a time from zero are their plain sum. -/
theorem add3_zero (a b c : EReal) : ((0 + a) + b) + c = a + b + c := by
  rw [zero_add]

end Cert.Gcn

end
-- ==== Proof.LibBatchStats.lean ====
/-
  The two ways of computing a column's variance agree on real numbers, and a sum over rows may be taken tile by tile.

  Given finitely many real numbers x i and a nonzero real N equal to their count, write m = (∑ x i) / N for their mean.
  The variance is either the mean of the squared deviations, (∑ (x i - m)²) / N, or the mean of the squares less the
  squared mean, (∑ x i²) / N - m². Expanding (x i - m)² = x i² - 2 m x i + m² and summing gives
  ∑ x i² - 2 m (N m) + N m² = ∑ x i² - N m², which is the second form times N. On the extended reals the expansion
  is not available at an infinity (a difference of infinities is not what it seems), which is why the statement asks
  for real entries; the quotient by the real N is then a product with 1 / N on every extended real.

  A sum over an index set that is a product of a tile number and a position inside the tile is the sum over tiles of
  the sums inside each tile; this needs no finiteness, addition on the extended reals being commutative and
  associative everywhere.
-/
import Mathlib.Data.EReal.Basic
import Mathlib.Data.EReal.Operations
import Mathlib.Algebra.BigOperators.Fin
import Mathlib.Tactic
import Idealize.ShloMosaic.PureOps.Ideal

noncomputable section

open scoped BigOperators

namespace Cert.BatchStats

open Idealize.ShloMosaic

/-- A finite sum of real numbers, taken among the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean squared deviation is the mean square less the squared mean. -/
theorem var_real {ι : Type*} [Fintype ι] (r : ι → ℝ) (N : ℝ) (hN : N ≠ 0) (hc : (Fintype.card ι : ℝ) = N) :
    (∑ i, (r i - (∑ j, r j) / N) * (r i - (∑ j, r j) / N)) / N
      = (∑ i, r i * r i) / N - ((∑ j, r j) / N) * ((∑ j, r j) / N) := by
  set S : ℝ := ∑ j, r j with hS
  have h : ∀ i, (r i - S / N) * (r i - S / N) = r i * r i - 2 * (S / N) * r i + (S / N) * (S / N) := fun i => by ring
  simp only [h, Finset.sum_add_distrib, Finset.sum_sub_distrib, ← Finset.mul_sum, Finset.sum_const, Finset.card_univ,
    nsmul_eq_mul, hc, ← hS]
  field_simp
  ring

/-- On the extended reals, for real entries and a real nonzero count: the two forms of the variance agree, the
    quotients being the exact quotient of the extended reals. -/
theorem var_ereal {ι : Type*} [Fintype ι] (x : ι → EReal) (hx : ∀ i, ∃ r : ℝ, x i = (r : EReal)) (N : ℝ) (hN : N ≠ 0)
    (hc : (Fintype.card ι : ℝ) = N) :
    Ideal.div (∑ i, (x i - Ideal.div (∑ j, x j) (N : EReal)) * (x i - Ideal.div (∑ j, x j) (N : EReal))) (N : EReal)
      = Ideal.div (∑ i, x i * x i) (N : EReal)
          - Ideal.div (∑ j, x j) (N : EReal) * Ideal.div (∑ j, x j) (N : EReal) := by
  choose r hr using hx
  have hx' : x = fun i => (r i : EReal) := funext hr
  subst hx'
  simp only [Ideal.div_coe hN, ← coe_sum, ← EReal.coe_mul, ← EReal.coe_sub]
  rw [EReal.coe_eq_coe_iff]
  have h := var_real r N hN hc
  simp only [div_eq_mul_inv, one_mul] at h ⊢
  exact h

/-- A sum over rows numbered tile by tile is the sum over the tiles of the sums inside each tile. -/
theorem sum_tiles {M : Type*} [AddCommMonoid M] (T R : ℕ) (f : Fin (T * R) → M) :
    ∑ i, f i = ∑ t : Fin T, ∑ k : Fin R, f (finProdFinEquiv (t, k)) := by
  rw [← Finset.sum_product', Finset.univ_product_univ]
  simp only [Prod.mk.eta]
  exact (Equiv.sum_comp finProdFinEquiv f).symm

end Cert.BatchStats

end
-- ==== Proof.Algebra.lean ====
/-
  The algebra that joins the two programs, over the extended reals.
  The kernel multiplies a neighbour sum by the reciprocal of the clamped degree where the reference divides by the clamped
  degree: equal at every extended real once the degree is a real number. The kernel takes the batch variance as the mean
  square less the squared mean where the reference takes the mean squared deviation: equal when every entry is a real
  number, and then nonnegative, so that the inverse square root of variance plus epsilon is a real number too. Real entries
  are kept by every step of a layer. A sum over the 100000 nodes is the sum over 20 tiles of the sums over 5000 rows.
-/
import proofs.«158263_j27642409517219_1_alg».proof.Proof.Spec
import proofs.«158263_j27642409517219_1_alg».proof.Proof.LibReal
import proofs.«158263_j27642409517219_1_alg».proof.Proof.LibBatchStats

noncomputable section

open scoped BigOperators

namespace Cert.Sage

open Idealize.ShloMosaic Cert.Gcn

/-! ## The shared words -/

theorem nodesW_eq : nodesW = ((100000 : ℝ) : EReal) := ofBits_100000
theorem oneW_eq : oneW = ((1 : ℝ) : EReal) := ofBits_one
theorem zeroW_eq : zeroW = 0 := ofBits_zero
theorem isReal_nodesW : IsReal nodesW := ⟨_, nodesW_eq⟩
theorem isReal_oneW : IsReal oneW := ⟨_, oneW_eq⟩
theorem isReal_zeroW : IsReal zeroW := ⟨0, zeroW_eq⟩
theorem nodesW_ne_zero : nodesW ≠ 0 := by
  rw [nodesW_eq]; exact fun h => by have := EReal.coe_eq_zero.mp h; norm_num at this

/-! ## The clamped degree and its reciprocal -/

/-- A real number clamped below at one is a real number that is at least one. -/
theorem max_one_real {d : EReal} (hd : IsReal d) : ∃ r : ℝ, 1 ≤ r ∧ max d oneW = (r : EReal) := by
  obtain ⟨a, rfl⟩ := hd
  exact ⟨Max.max a 1, le_max_right _ _, by rw [oneW_eq, ← coe_max]⟩

/-- Dividing by the clamped degree is multiplying by its reciprocal, at every extended real. -/
theorem div_clamped_eq_mul_inv (a : EReal) {d : EReal} (hd : IsReal d) :
    Ideal.div a (max d oneW) = a * Ideal.div oneW (max d oneW) := by
  obtain ⟨r, hr, h⟩ := max_one_real hd
  have hr0 : r ≠ 0 := by linarith
  rw [h, Ideal.div_coe hr0, Ideal.div_coe hr0, oneW_eq, ← EReal.coe_mul, one_mul]

/-- The reciprocal clamped degree of a real degree is a real number. -/
theorem isReal_invDeg {N : ℕ} (deg : Fin N → EReal) (hd : ∀ n, IsReal (deg n)) (n : Fin N) : IsReal (invDeg deg n) := by
  obtain ⟨r, hr, h⟩ := max_one_real (hd n)
  unfold invDeg
  rw [h]
  exact isReal_div isReal_oneW ⟨r, rfl⟩ (fun h0 => by have := EReal.coe_eq_zero.mp h0; linarith)

/-! ## Real entries through a layer -/

variable {N d H : ℕ}

theorem isReal_lin {x agg : Fin N → Fin d → EReal} {invd : Fin N → EReal} {Wl Wr : Fin H → Fin d → EReal} {b : Fin H → EReal}
    (hx : ∀ n k, IsReal (x n k)) (hagg : ∀ n k, IsReal (agg n k)) (hinv : ∀ n, IsReal (invd n))
    (hWl : ∀ j k, IsReal (Wl j k)) (hb : ∀ j, IsReal (b j)) (hWr : ∀ j k, IsReal (Wr j k)) (n : Fin N) (j : Fin H) :
    IsReal (lin x agg invd Wl b Wr n j) :=
  ((IsReal.sum _ _ fun k _ => ((hagg n k).mul (hinv n)).mul (hWl j k)).add (hb j)).add
    (IsReal.sum _ _ fun k _ => (hx n k).mul (hWr j k))

theorem isReal_colSum {h : Fin N → Fin H → EReal} (hh : ∀ n j, IsReal (h n j)) (j : Fin H) : IsReal (colSum h j) :=
  IsReal.sum _ _ fun n _ => hh n j

theorem isReal_colSumSq {h : Fin N → Fin H → EReal} (hh : ∀ n j, IsReal (h n j)) (j : Fin H) : IsReal (colSumSq h j) :=
  IsReal.sum _ _ fun n _ => (hh n j).mul (hh n j)

theorem isReal_meanOf {s : Fin H → EReal} (hs : ∀ j, IsReal (s j)) (j : Fin H) : IsReal (meanOf s j) :=
  isReal_div (hs j) isReal_nodesW nodesW_ne_zero

/-! ## The batch variance, two ways -/

/-- For real entries over the 100000 nodes the mean squared deviation is the mean square less the squared mean. -/
theorem var_identity (h : Fin 100000 → Fin H → EReal) (hh : ∀ n j, IsReal (h n j)) (j : Fin H) :
    Ideal.div (∑ n, (h n j - Ideal.div (∑ n', h n' j) nodesW) * (h n j - Ideal.div (∑ n', h n' j) nodesW)) nodesW
      = varOf (colSum h) (colSumSq h) j := by
  unfold varOf meanOf colSum colSumSq
  rw [nodesW_eq]
  exact Cert.BatchStats.var_ereal (fun n => h n j) (fun n => hh n j) 100000 (by norm_num) (by simp)

/-- That variance is a nonnegative real number. -/
theorem varOf_nonneg_real (h : Fin 100000 → Fin H → EReal) (hh : ∀ n j, IsReal (h n j)) (j : Fin H) :
    ∃ v : ℝ, 0 ≤ v ∧ varOf (colSum h) (colSumSq h) j = (v : EReal) := by
  choose r hr using fun n => hh n j
  refine ⟨(∑ n, (r n - (∑ n', r n') / 100000) * (r n - (∑ n', r n') / 100000)) / 100000, ?_, ?_⟩
  · exact div_nonneg (Finset.sum_nonneg fun n _ => mul_self_nonneg _) (by norm_num)
  · rw [← var_identity h hh j, nodesW_eq]
    simp only [hr, Ideal.div_coe (by norm_num : (100000 : ℝ) ≠ 0), ← Cert.BatchStats.coe_sum, ← EReal.coe_mul, ← EReal.coe_sub]
    rw [EReal.coe_eq_coe_iff]
    simp only [div_eq_mul_inv, one_mul]

/-- The inverse square root of a nonnegative real plus epsilon is a real number. -/
theorem isReal_rsqrt_add_eps {v : EReal} (hv : ∃ r : ℝ, 0 ≤ r ∧ v = (r : EReal)) : IsReal (Ideal.rsqrt (v + epsW)) := by
  obtain ⟨r, hr, rfl⟩ := hv
  obtain ⟨e, he, hE⟩ := ofBits_eps_pos
  rw [show epsW = (e : EReal) from hE, ← EReal.coe_add, Ideal.rsqrt_coe]
  have h1 : ¬ r + e < 0 := by linarith
  have h2 : ¬ r + e = 0 := by linarith
  rw [if_neg h1, if_neg h2]
  exact ⟨_, rfl⟩

theorem isReal_bnRelu {h : Fin N → Fin H → EReal} {mean var g beta : Fin H → EReal}
    (hh : ∀ n j, IsReal (h n j)) (hm : ∀ j, IsReal (mean j)) (hv : ∀ j, ∃ r : ℝ, 0 ≤ r ∧ var j = (r : EReal))
    (hg : ∀ j, IsReal (g j)) (hb : ∀ j, IsReal (beta j)) (n : Fin N) (j : Fin H) : IsReal (bnRelu h mean var g beta n j) :=
  IsReal.max (((((hh n j).sub (hm j)).mul (isReal_rsqrt_add_eps (hv j))).mul (hg j)).add (hb j)) isReal_zeroW

/-! ## Tiles -/

/-- A sum over the 100000 nodes is the sum over the 20 tiles of the sums over a tile's 5000 rows. -/
theorem sum_nodes_tiles {M : Type*} [AddCommMonoid M] (f : Fin 100000 → M) :
    ∑ n, f n = ∑ t : Fin 20, ∑ r : Fin 5000, f ⟨t.val * 5000 + r.val, by omega⟩ := by
  have h := Cert.BatchStats.sum_tiles 20 5000 (fun i : Fin (20 * 5000) => f ⟨i.val, i.isLt⟩)
  refine h.trans (Finset.sum_congr rfl fun t _ => Finset.sum_congr rfl fun r _ => ?_)
  refine congrArg f (Fin.ext ?_)
  show (finProdFinEquiv (t, r) : ℕ) = t.val * 5000 + r.val
  rw [finProdFinEquiv_apply_val]
  dsimp only
  omega

end Cert.Sage

end
-- ==== Proof.Arr.lean ====
/-
  Arrays as functions of their coordinates. A rank-2 array indexed by (row, column) is read as a function of two
  bounded naturals, a rank-1 array as a function of one; two arrays with the same reading are the same array.
  Then the reference's forms of a layer: the neighbour mean as a quotient by the clamped degree, the batch mean, and
  the batch variance as the mean squared deviation — with the laws that turn them into the specification's forms.
-/
import proofs.«158263_j27642409517219_1_alg».proof.Proof.Algebra
import Idealize.ShloMosaic.Lib.ValueIdx

noncomputable section

open scoped BigOperators

namespace Cert.Sage

open Idealize.ShloMosaic Idealize.ShloMosaic.ValueIdx Cert.Gcn

/-! ## Reading arrays -/

def mat {A B : ℕ} (a : (⟨2, ![A, B]⟩ : Shape).Idx → EReal) : Fin A → Fin B → EReal := fun n k => a (ix2 n k)
def vec {A : ℕ} (a : (⟨1, ![A]⟩ : Shape).Idx → EReal) : Fin A → EReal := fun n => a (ix1 n)
/-- A one-row matrix read as its row; a one-column matrix read as its column. -/
def row {B : ℕ} (a : (⟨2, ![1, B]⟩ : Shape).Idx → EReal) : Fin B → EReal := fun k => a (ix2 0 k)
def col {A : ℕ} (a : (⟨2, ![A, 1]⟩ : Shape).Idx → EReal) : Fin A → EReal := fun n => a (ix2 n 0)

theorem mat_apply {A B : ℕ} (a : (⟨2, ![A, B]⟩ : Shape).Idx → EReal) (n : Fin A) (k : Fin B) : mat a n k = a (ix2 n k) := rfl
theorem vec_apply {A : ℕ} (a : (⟨1, ![A]⟩ : Shape).Idx → EReal) (n : Fin A) : vec a n = a (ix1 n) := rfl

theorem mat_inj {A B : ℕ} {a b : (⟨2, ![A, B]⟩ : Shape).Idx → EReal} (h : mat a = mat b) : a = b := by
  funext j
  rw [eq_ix2 j]
  exact congrFun (congrFun h (j 0)) (j 1)

theorem vec_inj {A : ℕ} {a b : (⟨1, ![A]⟩ : Shape).Idx → EReal} (h : vec a = vec b) : a = b := by
  funext j
  rw [eq_ix1 j]
  exact congrFun h (j 0)

/-! ## The reference's forms -/

variable {N d H : ℕ}

/-- The neighbour mean as a quotient by the clamped degree. -/
def meanR (agg : Fin N → Fin d → EReal) (deg : Fin N → EReal) : Fin N → Fin d → EReal :=
  fun n k => Ideal.div (agg n k) (max (deg n) oneW)

/-- A layer's linear part over an already averaged neighbourhood. -/
def linR (x mn : Fin N → Fin d → EReal) (Wl : Fin H → Fin d → EReal) (b : Fin H → EReal) (Wr : Fin H → Fin d → EReal) :
    Fin N → Fin H → EReal :=
  fun n j => ((∑ k : Fin d, mn n k * Wl j k) + b j) + ∑ k : Fin d, x n k * Wr j k

def muR (h : Fin N → Fin H → EReal) : Fin H → EReal := fun j => Ideal.div (∑ n : Fin N, h n j) nodesW
def varR (h : Fin N → Fin H → EReal) : Fin H → EReal :=
  fun j => Ideal.div (∑ n : Fin N, (h n j - muR h j) * (h n j - muR h j)) nodesW

/-- With a real degree the two forms of the linear part agree, at every extended real of the other arguments. -/
theorem linR_meanR_eq_lin (x agg : Fin N → Fin d → EReal) (deg : Fin N → EReal) (hd : ∀ n, IsReal (deg n))
    (Wl : Fin H → Fin d → EReal) (b : Fin H → EReal) (Wr : Fin H → Fin d → EReal) :
    linR x (meanR agg deg) Wl b Wr = lin x agg (invDeg deg) Wl b Wr := by
  funext n j
  unfold linR meanR lin invDeg
  congr 1
  congr 1
  exact Finset.sum_congr rfl fun k _ => by rw [div_clamped_eq_mul_inv _ (hd n)]

theorem muR_eq_meanOf (h : Fin N → Fin H → EReal) : muR h = meanOf (colSum h) := rfl

/-- For real entries over the 100000 nodes the reference's variance is the specification's. -/
theorem varR_eq_varOf (h : Fin 100000 → Fin H → EReal) (hh : ∀ n j, IsReal (h n j)) :
    varR h = varOf (colSum h) (colSumSq h) := by
  funext j
  exact var_identity h hh j

end Cert.Sage

end
-- ==== Proof.KernelNet.lean ====
import proofs.«158263_j27642409517219_1_alg».proof.Proof.RunHostIdx
import proofs.«158263_j27642409517219_1_alg».proof.Proof.Val1
import proofs.«158263_j27642409517219_1_alg».proof.Proof.Val3
import proofs.«158263_j27642409517219_1_alg».proof.Proof.Arr

/-! # The kernel's program as the specification's layers

With `x` the node features, `e` the edge list and the weight arguments as launched, the arrays the five regions
leave are the specification's: the first region's main output is the first layer's linear part of `x`, its neighbour
sums over `e` and the reciprocal clamped in-degrees; the second region's output is that array normalised by its own
batch statistics, scaled, shifted and rectified; the third and fourth repeat the pair one width down; the last is the
row-wise log-softmax of the third linear part. Each statement joins three things: what a region's pipeline leaves as
a function of the arrays it stages (taken here as a hypothesis in the form the region's value theorem has), the
contents named between the items of the run, and what the host stretches put in the staged arrays. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL Idealize.SL.Sem
open Cert.Sage

variable (m : (ℓ : Loc nD τ sig) → Buf (Elt Ideal) ℓ) (ρ : Dev nD → PrngReg) (c : Dev nD)

/-! ## The arguments as launched, and the arrays the regions leave -/

abbrev Kx : S100000x15.Idx → EReal := m ((c : Thread nD τ).loc main_arg0)
abbrev Ke : (⟨S2x1600000, .i32⟩ : BufTy).Contents (Elt Ideal) := m ((c : Thread nD τ).loc main_arg1)
abbrev W1l : S64x15.Idx → EReal := m ((c : Thread nD τ).loc main_arg2)
abbrev b1l : S64.Idx → EReal := m ((c : Thread nD τ).loc main_arg3)
abbrev W1r : S64x15.Idx → EReal := m ((c : Thread nD τ).loc main_arg4)
abbrev g1 : S64.Idx → EReal := m ((c : Thread nD τ).loc main_arg5)
abbrev beta1 : S64.Idx → EReal := m ((c : Thread nD τ).loc main_arg6)
abbrev W2l : S32x64.Idx → EReal := m ((c : Thread nD τ).loc main_arg7)
abbrev b2l : S32.Idx → EReal := m ((c : Thread nD τ).loc main_arg8)
abbrev W2r : S32x64.Idx → EReal := m ((c : Thread nD τ).loc main_arg9)
abbrev g2 : S32.Idx → EReal := m ((c : Thread nD τ).loc main_arg10)
abbrev beta2 : S32.Idx → EReal := m ((c : Thread nD τ).loc main_arg11)
abbrev W3l : S2x32.Idx → EReal := m ((c : Thread nD τ).loc main_arg12)
abbrev b3l : S2.Idx → EReal := m ((c : Thread nD τ).loc main_arg13)
abbrev W3r : S2x32.Idx → EReal := m ((c : Thread nD τ).loc main_arg14)
abbrev K_h1 : S100000x64.Idx → EReal := V2 m ρ c main_v24_0
abbrev K_a1 : S100000x64.Idx → EReal := V4 m ρ c main_v33
abbrev K_h2 : S100000x32.Idx → EReal := V6 m ρ c main_v45_0
abbrev K_a2 : S100000x32.Idx → EReal := V8 m ρ c main_v54
abbrev K_out : S100000x2.Idx → EReal := V10 m ρ c main_v66

/-! ## Region 0: a linear layer -/

/-- Region 0's linear form over the six arrays it stages, as it finds them: the features, their neighbour sums, the
    reciprocal degree column, the neighbour weights, the bias row, the self weights. -/
abbrev linAt0 : Fin 100000 → Fin 64 → EReal :=
  lin (fun (n : Fin 100000) (k : Fin 15) => (V1 m ρ c (Pipeline.arrRef spec0 0) : S100000x15.Idx → EReal) (ix2 n k))
    (fun (n : Fin 100000) (k : Fin 15) => (V1 m ρ c (Pipeline.arrRef spec0 1) : S100000x15.Idx → EReal) (ix2 n k))
    (fun (n : Fin 100000) => (V1 m ρ c (Pipeline.arrRef spec0 2) : S100000x1.Idx → EReal) (ix2 n (0 : Fin 1)))
    (fun (j : Fin 64) (k : Fin 15) => (V1 m ρ c (Pipeline.arrRef spec0 3) : S64x15.Idx → EReal) (ix2 j k))
    (fun (j : Fin 64) => (V1 m ρ c (Pipeline.arrRef spec0 4) : S1x64.Idx → EReal) (ix2 (0 : Fin 1) j))
    (fun (j : Fin 64) (k : Fin 15) => (V1 m ρ c (Pipeline.arrRef spec0 5) : S64x15.Idx → EReal) (ix2 j k))

/-- The staged arrays are the features, the host's neighbour sums of them, its reciprocal degrees, and the arguments. -/
theorem linAt0_eq : linAt0 m ρ c = lin (mat (Kx m c)) (mat (aggK15 (Kx m c) (Ke m c))) (invDeg (vec (degK (Ke m c)))) (mat (W1l m c)) (vec (b1l m c)) (mat (W1r m c)) := by
  have e0 : (fun (n : Fin 100000) (k : Fin 15) => (V1 m ρ c (Pipeline.arrRef spec0 0) : S100000x15.Idx → EReal) (ix2 n k)) = mat (Kx m c) :=
    funext fun n => funext fun k => congrFun (V1_arg0 m ρ c) (ix2 n k)
  have e1 : (fun (n : Fin 100000) (k : Fin 15) => (V1 m ρ c (Pipeline.arrRef spec0 1) : S100000x15.Idx → EReal) (ix2 n k)) = mat (aggK15 (Kx m c) (Ke m c)) :=
    funext fun n => funext fun k => congrFun (V1_v22 m ρ c) (ix2 n k)
  have e2 : (fun (n : Fin 100000) => (V1 m ρ c (Pipeline.arrRef spec0 2) : S100000x1.Idx → EReal) (ix2 n (0 : Fin 1))) = invDeg (vec (degK (Ke m c))) :=
    funext fun n => V1_v12_apply m ρ c n
  have e3 : (fun (j : Fin 64) (k : Fin 15) => (V1 m ρ c (Pipeline.arrRef spec0 3) : S64x15.Idx → EReal) (ix2 j k)) = mat (W1l m c) :=
    funext fun j => funext fun k => congrFun (V1_arg2 m ρ c) (ix2 j k)
  have e4 : (fun (j : Fin 64) => (V1 m ρ c (Pipeline.arrRef spec0 4) : S1x64.Idx → EReal) (ix2 (0 : Fin 1) j)) = vec (b1l m c) :=
    funext fun j => V1_v23_apply m ρ c j
  have e5 : (fun (j : Fin 64) (k : Fin 15) => (V1 m ρ c (Pipeline.arrRef spec0 5) : S64x15.Idx → EReal) (ix2 j k)) = mat (W1r m c) :=
    funext fun j => funext fun k => congrFun (V1_arg4 m ρ c) (ix2 j k)
  exact congr (congr (congr (congr (congr (congrArg lin e0) e1) e2) e3) e4) e5

/-! ## Region 2: a linear layer -/

/-- Region 2's linear form over the six arrays it stages, as it finds them: the features, their neighbour sums, the
    reciprocal degree column, the neighbour weights, the bias row, the self weights. -/
abbrev linAt2 : Fin 100000 → Fin 32 → EReal :=
  lin (fun (n : Fin 100000) (k : Fin 64) => (V5 m ρ c (Pipeline.arrRef spec2 0) : S100000x64.Idx → EReal) (ix2 n k))
    (fun (n : Fin 100000) (k : Fin 64) => (V5 m ρ c (Pipeline.arrRef spec2 1) : S100000x64.Idx → EReal) (ix2 n k))
    (fun (n : Fin 100000) => (V5 m ρ c (Pipeline.arrRef spec2 2) : S100000x1.Idx → EReal) (ix2 n (0 : Fin 1)))
    (fun (j : Fin 32) (k : Fin 64) => (V5 m ρ c (Pipeline.arrRef spec2 3) : S32x64.Idx → EReal) (ix2 j k))
    (fun (j : Fin 32) => (V5 m ρ c (Pipeline.arrRef spec2 4) : S1x32.Idx → EReal) (ix2 (0 : Fin 1) j))
    (fun (j : Fin 32) (k : Fin 64) => (V5 m ρ c (Pipeline.arrRef spec2 5) : S32x64.Idx → EReal) (ix2 j k))

/-- The staged arrays are the features, the host's neighbour sums of them, its reciprocal degrees, and the arguments. -/
theorem linAt2_eq : linAt2 m ρ c = lin (mat (K_a1 m ρ c)) (mat (aggK64 (K_a1 m ρ c) (Ke m c))) (invDeg (vec (degK (Ke m c)))) (mat (W2l m c)) (vec (b2l m c)) (mat (W2r m c)) := by
  have e0 : (fun (n : Fin 100000) (k : Fin 64) => (V5 m ρ c (Pipeline.arrRef spec2 0) : S100000x64.Idx → EReal) (ix2 n k)) = mat (K_a1 m ρ c) :=
    funext fun n => funext fun k => congrFun (V5_v33 m ρ c) (ix2 n k)
  have e1 : (fun (n : Fin 100000) (k : Fin 64) => (V5 m ρ c (Pipeline.arrRef spec2 1) : S100000x64.Idx → EReal) (ix2 n k)) = mat (aggK64 (K_a1 m ρ c) (Ke m c)) :=
    funext fun n => funext fun k => congrFun (V5_v43 m ρ c) (ix2 n k)
  have e2 : (fun (n : Fin 100000) => (V5 m ρ c (Pipeline.arrRef spec2 2) : S100000x1.Idx → EReal) (ix2 n (0 : Fin 1))) = invDeg (vec (degK (Ke m c))) :=
    funext fun n => V5_v12_apply m ρ c n
  have e3 : (fun (j : Fin 32) (k : Fin 64) => (V5 m ρ c (Pipeline.arrRef spec2 3) : S32x64.Idx → EReal) (ix2 j k)) = mat (W2l m c) :=
    funext fun j => funext fun k => congrFun (V5_arg7 m ρ c) (ix2 j k)
  have e4 : (fun (j : Fin 32) => (V5 m ρ c (Pipeline.arrRef spec2 4) : S1x32.Idx → EReal) (ix2 (0 : Fin 1) j)) = vec (b2l m c) :=
    funext fun j => V5_v44_apply m ρ c j
  have e5 : (fun (j : Fin 32) (k : Fin 64) => (V5 m ρ c (Pipeline.arrRef spec2 5) : S32x64.Idx → EReal) (ix2 j k)) = mat (W2r m c) :=
    funext fun j => funext fun k => congrFun (V5_arg9 m ρ c) (ix2 j k)
  exact congr (congr (congr (congr (congr (congrArg lin e0) e1) e2) e3) e4) e5

/-! ## Region 4: a linear layer -/

/-- Region 4's linear form over the six arrays it stages, as it finds them: the features, their neighbour sums, the
    reciprocal degree column, the neighbour weights, the bias row, the self weights. -/
abbrev linAt4 : Fin 100000 → Fin 2 → EReal :=
  lin (fun (n : Fin 100000) (k : Fin 32) => (V9 m ρ c (Pipeline.arrRef spec4 0) : S100000x32.Idx → EReal) (ix2 n k))
    (fun (n : Fin 100000) (k : Fin 32) => (V9 m ρ c (Pipeline.arrRef spec4 1) : S100000x32.Idx → EReal) (ix2 n k))
    (fun (n : Fin 100000) => (V9 m ρ c (Pipeline.arrRef spec4 2) : S100000x1.Idx → EReal) (ix2 n (0 : Fin 1)))
    (fun (j : Fin 2) (k : Fin 32) => (V9 m ρ c (Pipeline.arrRef spec4 3) : S2x32.Idx → EReal) (ix2 j k))
    (fun (j : Fin 2) => (V9 m ρ c (Pipeline.arrRef spec4 4) : S1x2.Idx → EReal) (ix2 (0 : Fin 1) j))
    (fun (j : Fin 2) (k : Fin 32) => (V9 m ρ c (Pipeline.arrRef spec4 5) : S2x32.Idx → EReal) (ix2 j k))

/-- The staged arrays are the features, the host's neighbour sums of them, its reciprocal degrees, and the arguments. -/
theorem linAt4_eq : linAt4 m ρ c = lin (mat (K_a2 m ρ c)) (mat (aggK32 (K_a2 m ρ c) (Ke m c))) (invDeg (vec (degK (Ke m c)))) (mat (W3l m c)) (vec (b3l m c)) (mat (W3r m c)) := by
  have e0 : (fun (n : Fin 100000) (k : Fin 32) => (V9 m ρ c (Pipeline.arrRef spec4 0) : S100000x32.Idx → EReal) (ix2 n k)) = mat (K_a2 m ρ c) :=
    funext fun n => funext fun k => congrFun (V9_v54 m ρ c) (ix2 n k)
  have e1 : (fun (n : Fin 100000) (k : Fin 32) => (V9 m ρ c (Pipeline.arrRef spec4 1) : S100000x32.Idx → EReal) (ix2 n k)) = mat (aggK32 (K_a2 m ρ c) (Ke m c)) :=
    funext fun n => funext fun k => congrFun (V9_v64 m ρ c) (ix2 n k)
  have e2 : (fun (n : Fin 100000) => (V9 m ρ c (Pipeline.arrRef spec4 2) : S100000x1.Idx → EReal) (ix2 n (0 : Fin 1))) = invDeg (vec (degK (Ke m c))) :=
    funext fun n => V9_v12_apply m ρ c n
  have e3 : (fun (j : Fin 2) (k : Fin 32) => (V9 m ρ c (Pipeline.arrRef spec4 3) : S2x32.Idx → EReal) (ix2 j k)) = mat (W3l m c) :=
    funext fun j => funext fun k => congrFun (V9_arg12 m ρ c) (ix2 j k)
  have e4 : (fun (j : Fin 2) => (V9 m ρ c (Pipeline.arrRef spec4 4) : S1x2.Idx → EReal) (ix2 (0 : Fin 1) j)) = vec (b3l m c) :=
    funext fun j => V9_v65_apply m ρ c j
  have e5 : (fun (j : Fin 2) (k : Fin 32) => (V9 m ρ c (Pipeline.arrRef spec4 5) : S2x32.Idx → EReal) (ix2 j k)) = mat (W3r m c) :=
    funext fun j => funext fun k => congrFun (V9_arg14 m ρ c) (ix2 j k)
  exact congr (congr (congr (congr (congr (congrArg lin e0) e1) e2) e3) e4) e5

/-! ## The linear regions' outputs -/

/-- What region 0 leaves in its main output, given its value theorem at output window 6. -/
theorem K_h1_eq_linAt0
    (h6 : ∀ (n : Fin 100000) (j : Fin 64), ((dat0 (F := Ideal) (V1 m ρ) c).arrAt 6 cfg0.N : S100000x64.Idx → EReal) (ix2 n j) = linAt0 m ρ c n j) :
    mat (K_h1 m ρ c) = linAt0 m ρ c :=
  funext fun n => funext fun j => (congrFun (hF0 m ρ c 6) (ix2 n j)).symm.trans (h6 n j)
theorem kh1
    (h6 : ∀ (n : Fin 100000) (j : Fin 64), ((dat0 (F := Ideal) (V1 m ρ) c).arrAt 6 cfg0.N : S100000x64.Idx → EReal) (ix2 n j) = linAt0 m ρ c n j) :
    mat (K_h1 m ρ c) = lin (mat (Kx m c)) (mat (aggK15 (Kx m c) (Ke m c))) (invDeg (vec (degK (Ke m c)))) (mat (W1l m c)) (vec (b1l m c)) (mat (W1r m c)) :=
  (K_h1_eq_linAt0 m ρ c h6).trans (linAt0_eq m ρ c)
/-- The two accumulated rows region 0 leaves are the column sums of its main output and of its squares. -/
theorem ksum0
    (h6 : ∀ (n : Fin 100000) (j : Fin 64), ((dat0 (F := Ideal) (V1 m ρ) c).arrAt 6 cfg0.N : S100000x64.Idx → EReal) (ix2 n j) = linAt0 m ρ c n j)
    (h7 : ∀ j : Fin 64, ((dat0 (F := Ideal) (V1 m ρ) c).arrAt 7 cfg0.N : S1x64.Idx → EReal) (ix2 (0 : Fin 1) j) = colSum (linAt0 m ρ c) j) (j : Fin 64) :
    (V2 m ρ c main_v24_1 : S1x64.Idx → EReal) (ix2 (0 : Fin 1) j) = colSum (mat (K_h1 m ρ c)) j :=
  ((congrFun (hF0 m ρ c 7) (ix2 (0 : Fin 1) j)).symm.trans (h7 j)).trans (congrFun (congrArg colSum (K_h1_eq_linAt0 m ρ c h6).symm) j)
theorem ksq0
    (h6 : ∀ (n : Fin 100000) (j : Fin 64), ((dat0 (F := Ideal) (V1 m ρ) c).arrAt 6 cfg0.N : S100000x64.Idx → EReal) (ix2 n j) = linAt0 m ρ c n j)
    (h8 : ∀ j : Fin 64, ((dat0 (F := Ideal) (V1 m ρ) c).arrAt 8 cfg0.N : S1x64.Idx → EReal) (ix2 (0 : Fin 1) j) = colSumSq (linAt0 m ρ c) j) (j : Fin 64) :
    (V2 m ρ c main_v24_2 : S1x64.Idx → EReal) (ix2 (0 : Fin 1) j) = colSumSq (mat (K_h1 m ρ c)) j :=
  ((congrFun (hF0 m ρ c 8) (ix2 (0 : Fin 1) j)).symm.trans (h8 j)).trans (congrFun (congrArg colSumSq (K_h1_eq_linAt0 m ρ c h6).symm) j)

/-- What region 2 leaves in its main output, given its value theorem at output window 6. -/
theorem K_h2_eq_linAt2
    (h6 : ∀ (n : Fin 100000) (j : Fin 32), ((dat2 (F := Ideal) (V5 m ρ) c).arrAt 6 cfg2.N : S100000x32.Idx → EReal) (ix2 n j) = linAt2 m ρ c n j) :
    mat (K_h2 m ρ c) = linAt2 m ρ c :=
  funext fun n => funext fun j => (congrFun (hF2 m ρ c 6) (ix2 n j)).symm.trans (h6 n j)
theorem kh2
    (h6 : ∀ (n : Fin 100000) (j : Fin 32), ((dat2 (F := Ideal) (V5 m ρ) c).arrAt 6 cfg2.N : S100000x32.Idx → EReal) (ix2 n j) = linAt2 m ρ c n j) :
    mat (K_h2 m ρ c) = lin (mat (K_a1 m ρ c)) (mat (aggK64 (K_a1 m ρ c) (Ke m c))) (invDeg (vec (degK (Ke m c)))) (mat (W2l m c)) (vec (b2l m c)) (mat (W2r m c)) :=
  (K_h2_eq_linAt2 m ρ c h6).trans (linAt2_eq m ρ c)
/-- The two accumulated rows region 2 leaves are the column sums of its main output and of its squares. -/
theorem ksum2
    (h6 : ∀ (n : Fin 100000) (j : Fin 32), ((dat2 (F := Ideal) (V5 m ρ) c).arrAt 6 cfg2.N : S100000x32.Idx → EReal) (ix2 n j) = linAt2 m ρ c n j)
    (h7 : ∀ j : Fin 32, ((dat2 (F := Ideal) (V5 m ρ) c).arrAt 7 cfg2.N : S1x32.Idx → EReal) (ix2 (0 : Fin 1) j) = colSum (linAt2 m ρ c) j) (j : Fin 32) :
    (V6 m ρ c main_v45_1 : S1x32.Idx → EReal) (ix2 (0 : Fin 1) j) = colSum (mat (K_h2 m ρ c)) j :=
  ((congrFun (hF2 m ρ c 7) (ix2 (0 : Fin 1) j)).symm.trans (h7 j)).trans (congrFun (congrArg colSum (K_h2_eq_linAt2 m ρ c h6).symm) j)
theorem ksq2
    (h6 : ∀ (n : Fin 100000) (j : Fin 32), ((dat2 (F := Ideal) (V5 m ρ) c).arrAt 6 cfg2.N : S100000x32.Idx → EReal) (ix2 n j) = linAt2 m ρ c n j)
    (h8 : ∀ j : Fin 32, ((dat2 (F := Ideal) (V5 m ρ) c).arrAt 8 cfg2.N : S1x32.Idx → EReal) (ix2 (0 : Fin 1) j) = colSumSq (linAt2 m ρ c) j) (j : Fin 32) :
    (V6 m ρ c main_v45_2 : S1x32.Idx → EReal) (ix2 (0 : Fin 1) j) = colSumSq (mat (K_h2 m ρ c)) j :=
  ((congrFun (hF2 m ρ c 8) (ix2 (0 : Fin 1) j)).symm.trans (h8 j)).trans (congrFun (congrArg colSumSq (K_h2_eq_linAt2 m ρ c h6).symm) j)

/-- What region 4 leaves, given its value theorem: the row-wise log-softmax of the third linear part. -/
theorem kout
    (h6 : ∀ (n : Fin 100000) (j : Fin 2), ((dat4 (F := Ideal) (V9 m ρ) c).arrAt 6 cfg4.N : S100000x2.Idx → EReal) (ix2 n j) = logSoftmax (linAt4 m ρ c) n j) :
    mat (K_out m ρ c) = logSoftmax (lin (mat (K_a2 m ρ c)) (mat (aggK32 (K_a2 m ρ c) (Ke m c))) (invDeg (vec (degK (Ke m c)))) (mat (W3l m c)) (vec (b3l m c)) (mat (W3r m c))) :=
  (funext fun n => funext fun j => (congrFun (hF4 m ρ c 6) (ix2 n j)).symm.trans (h6 n j)).trans (congrArg logSoftmax (linAt4_eq m ρ c))

/-! ## The normalising regions' outputs -/

/-- What region 1 leaves: the previous region's main output normalised by its own batch statistics, scaled, shifted
    and rectified — given that the two rows that region accumulated are its column sums. -/
theorem ka1
    (hs : ∀ j : Fin 64, (V2 m ρ c main_v24_1 : S1x64.Idx → EReal) (ix2 (0 : Fin 1) j) = colSum (mat (K_h1 m ρ c)) j)
    (hq : ∀ j : Fin 64, (V2 m ρ c main_v24_2 : S1x64.Idx → EReal) (ix2 (0 : Fin 1) j) = colSumSq (mat (K_h1 m ρ c)) j) :
    mat (K_a1 m ρ c) = bnRelu (mat (K_h1 m ρ c)) (meanOf (colSum (mat (K_h1 m ρ c))))
      (varOf (colSum (mat (K_h1 m ρ c))) (colSumSq (mat (K_h1 m ρ c)))) (vec (g1 m c)) (vec (beta1 m c)) := by
  have e0 : (fun (n : Fin 100000) (j : Fin 64) => (V3 m ρ c (Pipeline.arrRef spec1 0) : S100000x64.Idx → EReal) (ix2 n j)) = mat (K_h1 m ρ c) :=
    funext fun n => funext fun j => congrFun (V3_v24_0 m ρ c) (ix2 n j)
  have e1 : (fun (j : Fin 64) => (V3 m ρ c (Pipeline.arrRef spec1 1) : S1x64.Idx → EReal) (ix2 (0 : Fin 1) j)) = meanOf (colSum (mat (K_h1 m ρ c))) :=
    funext fun j => (V3_v26_apply m ρ c j).trans (congrArg (fun s => Ideal.div s nodesW) (hs j))
  have e2 : (fun (j : Fin 64) => (V3 m ρ c (Pipeline.arrRef spec1 2) : S1x64.Idx → EReal) (ix2 (0 : Fin 1) j))
      = varOf (colSum (mat (K_h1 m ρ c))) (colSumSq (mat (K_h1 m ρ c))) :=
    funext fun j => (V3_v30_apply m ρ c j).trans (by rw [hs j, hq j]; rfl)
  have e3 : (fun (j : Fin 64) => (V3 m ρ c (Pipeline.arrRef spec1 3) : S1x64.Idx → EReal) (ix2 (0 : Fin 1) j)) = vec (g1 m c) :=
    funext fun j => V3_v31_apply m ρ c j
  have e4 : (fun (j : Fin 64) => (V3 m ρ c (Pipeline.arrRef spec1 4) : S1x64.Idx → EReal) (ix2 (0 : Fin 1) j)) = vec (beta1 m c) :=
    funext fun j => V3_v32_apply m ρ c j
  funext n j
  exact ((congrFun (hF1 m ρ c 5) (ix2 n j)).symm.trans (final1 (V3 m ρ) c n j)).trans
    (congrFun (congrFun (congr (congr (congr (congr (congrArg bnRelu e0) e1) e2) e3) e4) n) j)

/-- What region 3 leaves: the previous region's main output normalised by its own batch statistics, scaled, shifted
    and rectified — given that the two rows that region accumulated are its column sums. -/
theorem ka2
    (hs : ∀ j : Fin 32, (V6 m ρ c main_v45_1 : S1x32.Idx → EReal) (ix2 (0 : Fin 1) j) = colSum (mat (K_h2 m ρ c)) j)
    (hq : ∀ j : Fin 32, (V6 m ρ c main_v45_2 : S1x32.Idx → EReal) (ix2 (0 : Fin 1) j) = colSumSq (mat (K_h2 m ρ c)) j) :
    mat (K_a2 m ρ c) = bnRelu (mat (K_h2 m ρ c)) (meanOf (colSum (mat (K_h2 m ρ c))))
      (varOf (colSum (mat (K_h2 m ρ c))) (colSumSq (mat (K_h2 m ρ c)))) (vec (g2 m c)) (vec (beta2 m c)) := by
  have e0 : (fun (n : Fin 100000) (j : Fin 32) => (V7 m ρ c (Pipeline.arrRef spec3 0) : S100000x32.Idx → EReal) (ix2 n j)) = mat (K_h2 m ρ c) :=
    funext fun n => funext fun j => congrFun (V7_v45_0 m ρ c) (ix2 n j)
  have e1 : (fun (j : Fin 32) => (V7 m ρ c (Pipeline.arrRef spec3 1) : S1x32.Idx → EReal) (ix2 (0 : Fin 1) j)) = meanOf (colSum (mat (K_h2 m ρ c))) :=
    funext fun j => (V7_v47_apply m ρ c j).trans (congrArg (fun s => Ideal.div s nodesW) (hs j))
  have e2 : (fun (j : Fin 32) => (V7 m ρ c (Pipeline.arrRef spec3 2) : S1x32.Idx → EReal) (ix2 (0 : Fin 1) j))
      = varOf (colSum (mat (K_h2 m ρ c))) (colSumSq (mat (K_h2 m ρ c))) :=
    funext fun j => (V7_v51_apply m ρ c j).trans (by rw [hs j, hq j]; rfl)
  have e3 : (fun (j : Fin 32) => (V7 m ρ c (Pipeline.arrRef spec3 3) : S1x32.Idx → EReal) (ix2 (0 : Fin 1) j)) = vec (g2 m c) :=
    funext fun j => V7_v52_apply m ρ c j
  have e4 : (fun (j : Fin 32) => (V7 m ρ c (Pipeline.arrRef spec3 4) : S1x32.Idx → EReal) (ix2 (0 : Fin 1) j)) = vec (beta2 m c) :=
    funext fun j => V7_v53_apply m ρ c j
  funext n j
  exact ((congrFun (hF3 m ρ c 5) (ix2 n j)).symm.trans (final3 (V7 m ρ) c n j)).trans
    (congrFun (congrFun (congr (congr (congr (congr (congrArg bnRelu e0) e1) e2) e3) e4) n) j)

end Cert.KernelIdeal.Vals

end
-- ==== Proof.Val4Pay.lean ====
import proofs.«158263_j27642409517219_1_alg».proof.Proof.Reg4
import proofs.«158263_j27642409517219_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 4 at the extended reals: one entry of a block, and where the blocks sit

The region's body works row by row: entry `(p, j)` of the block it writes depends on row `p` of the two [5000, 32]
blocks and of the [5000, 1] column, and on the three small arrays. This module reads the body's layout operations, its
two matrix products and its two row reductions at an entry, so that the one payload at `(p, j)` is the log-softmax of
row `p` of the linear layer; it decides the windows' block indices over the 20 grid points, turns them into the
position of a block's entry in its array, and shows that the written blocks cover the result. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

/-! ## Layout operations the body uses, read at an entry -/

/-- A column `[a, 1]` repeated along the second axis reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The matrix product: rows of a [5000, 32] block against the columns of a [32, 2] matrix -/

abbrev D4 : DotDims S5000x32 S32x2 S5000x2 := dot_S5000x32_S32x2_S5000x2_1_0_0_1_n_n

theorem lhs4_0 (i : S5000x2.Idx) (q : D4.contr.Idx) : (D4.lhsIdx i q 0).val = (i 0).val := by
  unfold DotDims.lhsIdx
  rw [dif_neg (show ¬(0 : Fin S5000x32.rank) ∈ D4.lhsBatch by decide), dif_pos (show (0 : Fin S5000x32.rank) ∈ D4.lhsNonContracting by decide)]
  rfl
theorem lhs4_1 (i : S5000x2.Idx) (q : D4.contr.Idx) : (D4.lhsIdx i q 1).val = (q ⟨0, by decide⟩).val :=
  D4.lhsIdx_val_of_single rfl i q
theorem rhs4_0 (i : S5000x2.Idx) (q : D4.contr.Idx) : (D4.rhsIdx i q 0).val = (q ⟨0, by decide⟩).val :=
  D4.rhsIdx_val_of_single rfl i q
theorem rhs4_1 (i : S5000x2.Idx) (q : D4.contr.Idx) : (D4.rhsIdx i q 1).val = (i 1).val := by
  unfold DotDims.rhsIdx
  rw [dif_neg (show ¬(1 : Fin S32x2.rank) ∈ D4.rhsBatch by decide), dif_pos (show (1 : Fin S32x2.rank) ∈ D4.rhsNonContracting by decide)]
  rfl

/-- Into a zero accumulator the product at `(p, j)` is the sum over the 32 shared coordinates. -/
theorem matmul4_apply (A : FVec Ideal S5000x32 .f32) (B : FVec Ideal S32x2 .f32) (p : Fin 5000) (j : Fin 2) :
    matmul D4 none A B (constant S5000x2 .f32 0x00000000#32) (ix2 p j) = ∑ k : Fin 32, A (ix2 p k) * B (ix2 k j) := by
  simp only [matmul]
  rw [Ideal.matmul_constant_zero_apply, ← Equiv.sum_comp (contrEquiv1 D4 32 rfl rfl).symm]
  refine Finset.sum_congr rfl fun k _ => ?_
  have hk := contrEquiv1_symm_val D4 32 rfl rfl k
  have el : D4.lhsIdx (ix2 p j) ((contrEquiv1 D4 32 rfl rfl).symm k) = ix2 p k := funext fun a => Fin.ext (by
    match a with
    | ⟨0, _⟩ => exact lhs4_0 _ _
    | ⟨1, _⟩ => exact (lhs4_1 _ _).trans hk)
  have er : D4.rhsIdx (ix2 p j) ((contrEquiv1 D4 32 rfl rfl).symm k) = ix2 k j := funext fun a => Fin.ext (by
    match a with
    | ⟨0, _⟩ => exact (rhs4_0 _ _).trans hk
    | ⟨1, _⟩ => exact rhs4_1 _ _)
  rw [el, er]

/-! ## The two reductions along a row of two entries -/

/-- The row maximum from −∞. -/
theorem rowMax4_apply (src : FVec Ideal S5000x2 .f32) (hφ : FKind.Formats .f32)
    (hacc : (0xFF800000#32 : BitVec 32) = 0xFF800000#32) (p : Fin 5000) :
    multiReduction .maximumf [1] S5000 src 0xFF800000#32 reduces_S5000x2_S5000 hφ hacc (ix1 p)
      = (Finset.univ : Finset (Fin 2)).fold max Cert.Sage.negInfW (fun j => src (ix2 p j)) := by
  refine (Ideal.multiReduction_maximumf_single src 0xFF800000#32 reduces_S5000x2_S5000 hφ hacc (ix1 p)).trans ?_
  have e : (src ∘ reduces_S5000x2_S5000.lift (ix1 p)) = fun j : Fin 2 => src (ix2 p j) :=
    funext fun j => congrArg src (funext fun a => Fin.ext (by
      match a with
      | ⟨0, _⟩ => rfl
      | ⟨1, _⟩ => rfl))
  rw [e]
  rfl

/-- The row sum. -/
theorem rowSum4_apply (src : FVec Ideal S5000x2 .f32) (hφ : FKind.Formats .f32)
    (hacc : (0x00000000#32 : BitVec 32) = 0x00000000#32) (p : Fin 5000) :
    multiReduction .add [1] S5000 src 0x00000000#32 reduces_S5000x2_S5000 hφ hacc (ix1 p)
      = ∑ j : Fin 2, src (ix2 p j) := by
  refine (Ideal.multiReduction_add_single src 0x00000000#32 reduces_S5000x2_S5000 hφ hacc (ix1 p)).trans ?_
  refine Finset.sum_congr rfl fun j _ => congrArg src (funext fun a => Fin.ext (by
    match a with
    | ⟨0, _⟩ => rfl
    | ⟨1, _⟩ => rfl))

/-! ## The payload at an entry -/

section Payload
variable (v0 : FVec Ideal S5000x32 .f32) (v2 : FVec Ideal S5000x1 .f32) (v6 : FVec Ideal S2x32 .f32)
  (v9 : FVec Ideal S1x2 .f32) (v13 : FVec Ideal S5000x32 .f32) (v15 : FVec Ideal S2x32 .f32)

/-- The block of the linear layer: `(v0 * v2) v6ᵀ + v9 + v13 v15ᵀ`. -/
def lin4v : FVec Ideal S5000x2 .f32 :=
  addf (addf (matmul D4 none (mulf v0 (broadcastTo S5000x32 v2 broadcasts_S5000x1_S5000x32))
      (transpose S32x2 [1, 0] v6 transposes_S2x32_p1_0_S32x2) (constant S5000x2 .f32 0x00000000#32))
    (broadcastTo S5000x2 v9 broadcasts_S1x2_S5000x2))
    (matmul D4 none v13 (transpose S32x2 [1, 0] v15 transposes_S2x32_p1_0_S32x2) (constant S5000x2 .f32 0x00000000#32))

/-- Its entry `(p, j)` is the layer's linear part at row `p`, column `j`. -/
theorem lin4v_apply (p : Fin 5000) (j : Fin 2) :
    lin4v v0 v2 v6 v9 v13 v15 (ix2 p j)
      = Cert.Sage.lin (fun p k => v13 (ix2 p k)) (fun p k => v0 (ix2 p k)) (fun p => v2 (ix2 p (0 : Fin 1)))
          (fun j k => v6 (ix2 j k)) (fun j => v9 (ix2 (0 : Fin 1) j)) (fun j k => v15 (ix2 j k)) p j := by
  show matmul D4 none _ _ _ (ix2 p j) + broadcastTo S5000x2 v9 _ (ix2 p j) + matmul D4 none _ _ _ (ix2 p j) = _
  rw [matmul4_apply, matmul4_apply, broadcastTo_1b_ab_apply]
  unfold Cert.Sage.lin
  congr 1
  · congr 1
    refine Finset.sum_congr rfl fun k _ => ?_
    show (v0 (ix2 p k) * broadcastTo S5000x32 v2 _ (ix2 p k)) * transpose S32x2 [1, 0] v6 _ (ix2 k j) = _
    rw [broadcastTo_a1_ab_apply, transpose_ix2_apply]
  · refine Finset.sum_congr rfl fun k _ => ?_
    rw [transpose_ix2_apply]

end Payload

/-- A block less its rows' maxima. -/
def shift4 (z : FVec Ideal S5000x2 .f32) : FVec Ideal S5000x2 .f32 :=
  subf z (broadcastTo S5000x2 (shapeCast S5000x1 (multiReduction .maximumf [1] S5000 z 0xFF800000#32 reduces_S5000x2_S5000 (.inl rfl) rfl)
    shapeCasts_S5000_S5000x1) broadcasts_S5000x1_S5000x2)

theorem shift4_apply (z : FVec Ideal S5000x2 .f32) (p : Fin 5000) (j : Fin 2) :
    shift4 z (ix2 p j) = z (ix2 p j) - (Finset.univ : Finset (Fin 2)).fold max Cert.Sage.negInfW (fun j' => z (ix2 p j')) := by
  show z (ix2 p j) - broadcastTo S5000x2 _ _ (ix2 p j) = _
  rw [broadcastTo_a1_ab_apply, shapeCast_a_a1_apply, rowMax4_apply]

/-- The logarithm of each row's sum of exponentials, repeated along the row. -/
def lse4 (y : FVec Ideal S5000x2 .f32) : FVec Ideal S5000x2 .f32 :=
  broadcastTo S5000x2 (log (shapeCast S5000x1 (multiReduction .add [1] S5000 (exp y) 0x00000000#32 reduces_S5000x2_S5000 (.inl rfl) rfl)
    shapeCasts_S5000_S5000x1)) broadcasts_S5000x1_S5000x2

theorem lse4_apply (y : FVec Ideal S5000x2 .f32) (p : Fin 5000) (j : Fin 2) :
    lse4 y (ix2 p j) = Ideal.log (∑ j' : Fin 2, Ideal.exp (y (ix2 p j'))) := by
  unfold lse4
  rw [broadcastTo_a1_ab_apply]
  show Ideal.log (shapeCast S5000x1 _ _ (ix2 p (0 : Fin 1))) = _
  rw [shapeCast_a_a1_apply, rowSum4_apply]
  rfl

section Payload
variable (v0 : FVec Ideal S5000x32 .f32) (v2 : FVec Ideal S5000x1 .f32) (v6 : FVec Ideal S2x32 .f32)
  (v9 : FVec Ideal S1x2 .f32) (v13 : FVec Ideal S5000x32 .f32) (v15 : FVec Ideal S2x32 .f32)

/-- The payload is the linear block, less its rows' maxima, less the logarithm of its rows' sums of exponentials. -/
theorem pay4_eq : k4_pay1 (F := Ideal) v0 v2 v6 v9 v13 v15
    = subf (shift4 (lin4v v0 v2 v6 v9 v13 v15)) (lse4 (shift4 (lin4v v0 v2 v6 v9 v13 v15))) := by
  unfold k4_pay1
  simp only [shapeCast_self]
  rfl

/-- Entry `(p, j)` of the payload: the log-softmax of row `p` of the linear layer, at column `j`. -/
theorem pay4_apply (p : Fin 5000) (j : Fin 2) :
    k4_pay1 (F := Ideal) v0 v2 v6 v9 v13 v15 (ix2 p j)
      = Cert.Sage.logSoftmax (Cert.Sage.lin (fun p k => v13 (ix2 p k)) (fun p k => v0 (ix2 p k)) (fun p => v2 (ix2 p (0 : Fin 1)))
          (fun j k => v6 (ix2 j k)) (fun j => v9 (ix2 (0 : Fin 1) j)) (fun j k => v15 (ix2 j k))) p j := by
  rw [pay4_eq]
  show shift4 _ (ix2 p j) - lse4 _ (ix2 p j) = _
  rw [lse4_apply]
  simp only [shift4_apply, lin4v_apply]
  rfl

end Payload

/-- The log-softmax of the linear layer at a row uses that row alone: two sets of arrays that agree on a row (and on
    the weights) give the same entries there. -/
theorem logSoftmax_lin_congr {N N' d : ℕ} (x agg : Fin N → Fin d → EReal) (invd : Fin N → EReal)
    (Wl : Fin 2 → Fin d → EReal) (b : Fin 2 → EReal) (Wr : Fin 2 → Fin d → EReal)
    (x' agg' : Fin N' → Fin d → EReal) (invd' : Fin N' → EReal)
    (Wl' : Fin 2 → Fin d → EReal) (b' : Fin 2 → EReal) (Wr' : Fin 2 → Fin d → EReal)
    (n : Fin N) (n' : Fin N') (hx : ∀ k, x n k = x' n' k) (hagg : ∀ k, agg n k = agg' n' k) (hinvd : invd n = invd' n')
    (hWl : ∀ j k, Wl j k = Wl' j k) (hb : ∀ j, b j = b' j) (hWr : ∀ j k, Wr j k = Wr' j k) (j : Fin 2) :
    Cert.Sage.logSoftmax (Cert.Sage.lin x agg invd Wl b Wr) n j
      = Cert.Sage.logSoftmax (Cert.Sage.lin x' agg' invd' Wl' b' Wr') n' j := by
  have hl : ∀ j, Cert.Sage.lin x agg invd Wl b Wr n j = Cert.Sage.lin x' agg' invd' Wl' b' Wr' n' j := fun j => by
    unfold Cert.Sage.lin
    simp only [hx, hagg, hinvd, hWl, hb, hWr]
  unfold Cert.Sage.logSoftmax Cert.Sage.rowMax
  simp only [hl]

/-! ## What the body leaves in the output buffer, at an entry -/

/-- The zero offsets of a whole-buffer access, as the constant function. -/
theorem hz4 : (![0, 0] : Fin 2 → Nat) = fun _ => 0 := funext fun a => by fin_cases a <;> rfl

/-- Entry `(p, j)` of the output buffer after the body, from the six input buffers' contents: the log-softmax over the
    two columns of row `p` of `(x1 * x2) x3ᵀ + x4 + x0 x5ᵀ`. -/
theorem out4_6_apply (x0 x1 : FVec Ideal S5000x32 .f32) (x2 : FVec Ideal S5000x1 .f32) (x3 : FVec Ideal S2x32 .f32)
    (x4 : FVec Ideal S1x2 .f32) (x5 : FVec Ideal S2x32 .f32) (p : Fin 5000) (j : Fin 2) :
    out4_6 (F := Ideal) x0 x1 x2 x3 x4 x5 (ix2 p j)
      = Cert.Sage.logSoftmax (Cert.Sage.lin (fun p k => x0 (ix2 p k)) (fun p k => x1 (ix2 p k)) (fun p => x2 (ix2 p (0 : Fin 1)))
          (fun j k => x3 (ix2 j k)) (fun j => x4 (ix2 (0 : Fin 1) j)) (fun j k => x5 (ix2 j k))) p j := by
  unfold out4_6
  rw [View.canon_unit_zero hz4]
  simp only [View.ld_unit_zero (S := S5000x32) hz4, View.ld_unit_zero (S := S5000x1) hz4, View.ld_unit_zero (S := S2x32) hz4,
    View.ld_unit_zero (S := S1x2) hz4]
  exact pay4_apply x1 x2 x3 x4 x0 x5 p j

/-! ## The block indices over the grid -/

/-- At point `t` the four tall windows take block `(t, 0)` and the three small ones block `(0, 0)`. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-! ## Where a block's entry sits in its array: block index times block size plus the entry's coordinate -/

theorem emb4_0 (t : Fin cfg4.N) (p : Fin 5000) (k : Fin 32) (n : Fin 100000) (hn : n.val = 5000 * t.val + p.val) :
    ((cfg4.win 0).blk t).view.emb (ix2 p k) = (ix2 n k : S100000x32.Idx) := by
  obtain ⟨e0, e1, -⟩ := idx_facts4 t
  funext a; apply Fin.ext
  match a with
  | ⟨0, _⟩ => show win4_0.index t (0 : Fin 2) * 5000 + 1 * p.val = n.val; rw [e0, hn]; omega
  | ⟨1, _⟩ => show win4_0.index t (1 : Fin 2) * 32 + 1 * k.val = k.val; rw [e1]; omega

theorem emb4_1 (t : Fin cfg4.N) (p : Fin 5000) (k : Fin 32) (n : Fin 100000) (hn : n.val = 5000 * t.val + p.val) :
    ((cfg4.win 1).blk t).view.emb (ix2 p k) = (ix2 n k : S100000x32.Idx) := by
  obtain ⟨-, -, e0, e1, -⟩ := idx_facts4 t
  funext a; apply Fin.ext
  match a with
  | ⟨0, _⟩ => show win4_1.index t (0 : Fin 2) * 5000 + 1 * p.val = n.val; rw [e0, hn]; omega
  | ⟨1, _⟩ => show win4_1.index t (1 : Fin 2) * 32 + 1 * k.val = k.val; rw [e1]; omega

theorem emb4_2 (t : Fin cfg4.N) (p : Fin 5000) (n : Fin 100000) (hn : n.val = 5000 * t.val + p.val) :
    ((cfg4.win 2).blk t).view.emb (ix2 p (0 : Fin 1)) = (ix2 n (0 : Fin 1) : S100000x1.Idx) := by
  obtain ⟨-, -, -, -, e0, e1, -⟩ := idx_facts4 t
  funext a; apply Fin.ext
  match a with
  | ⟨0, _⟩ => show win4_2.index t (0 : Fin 2) * 5000 + 1 * p.val = n.val; rw [e0, hn]; omega
  | ⟨1, _⟩ => show win4_2.index t (1 : Fin 2) * 1 + 1 * 0 = 0; rw [e1]

theorem emb4_3 (t : Fin cfg4.N) (j : Fin 2) (k : Fin 32) :
    ((cfg4.win 3).blk t).view.emb (ix2 j k) = (ix2 j k : S2x32.Idx) := by
  obtain ⟨-, -, -, -, -, -, e0, e1, -⟩ := idx_facts4 t
  funext a; apply Fin.ext
  match a with
  | ⟨0, _⟩ => show win4_3.index t (0 : Fin 2) * 2 + 1 * j.val = j.val; rw [e0]; omega
  | ⟨1, _⟩ => show win4_3.index t (1 : Fin 2) * 32 + 1 * k.val = k.val; rw [e1]; omega

theorem emb4_4 (t : Fin cfg4.N) (j : Fin 2) :
    ((cfg4.win 4).blk t).view.emb (ix2 (0 : Fin 1) j) = (ix2 (0 : Fin 1) j : S1x2.Idx) := by
  obtain ⟨-, -, -, -, -, -, -, -, e0, e1, -⟩ := idx_facts4 t
  funext a; apply Fin.ext
  match a with
  | ⟨0, _⟩ => show win4_4.index t (0 : Fin 2) * 1 + 1 * 0 = 0; rw [e0]
  | ⟨1, _⟩ => show win4_4.index t (1 : Fin 2) * 2 + 1 * j.val = j.val; rw [e1]; omega

theorem emb4_5 (t : Fin cfg4.N) (j : Fin 2) (k : Fin 32) :
    ((cfg4.win 5).blk t).view.emb (ix2 j k) = (ix2 j k : S2x32.Idx) := by
  obtain ⟨-, -, -, -, -, -, -, -, -, -, e0, e1, -⟩ := idx_facts4 t
  funext a; apply Fin.ext
  match a with
  | ⟨0, _⟩ => show win4_5.index t (0 : Fin 2) * 2 + 1 * j.val = j.val; rw [e0]; omega
  | ⟨1, _⟩ => show win4_5.index t (1 : Fin 2) * 32 + 1 * k.val = k.val; rw [e1]; omega

theorem emb4_6 (t : Fin cfg4.N) (p : Fin 5000) (k : Fin 2) (n : Fin 100000) (hn : n.val = 5000 * t.val + p.val) :
    ((cfg4.win 6).blk t).view.emb (ix2 p k) = (ix2 n k : S100000x2.Idx) := by
  obtain ⟨-, -, -, -, -, -, -, -, -, -, -, -, e0, e1⟩ := idx_facts4 t
  funext a; apply Fin.ext
  match a with
  | ⟨0, _⟩ => show win4_6.index t (0 : Fin 2) * 5000 + 1 * p.val = n.val; rw [e0, hn]; omega
  | ⟨1, _⟩ => show win4_6.index t (1 : Fin 2) * 2 + 1 * k.val = k.val; rw [e1]; omega

/-! ## The written blocks cover the result -/

/-- Row `r` of the result lies in the block written at point `r / 5000`. -/
theorem cover4 (i : S100000x2.Idx) :
    ∃ t : Fin cfg4.N, (cfg4.win 6).flush t = true ∧ i ∈ ((cfg4.win 6).blk t).view.set := by
  have hi0 : (i 0).val < 100000 := (i 0).isLt
  have hi1 : (i 1).val < 2 := (i 1).isLt
  obtain ⟨t, ht⟩ : ∃ t : Fin cfg4.N, t.val = (i 0).val / 5000 :=
    ⟨⟨(i 0).val / 5000, lt_of_lt_of_eq (by omega) N_4.symm⟩, rfl⟩
  obtain ⟨-, -, -, -, -, -, -, -, -, -, -, -, e0, e1⟩ := idx_facts4 t
  refine ⟨t, flush4_6 t, ?_⟩
  show i ∈ ((View.whole main_v66).slice (win4_6.rect t)).set
  rw [View.set_slice_whole, Rect.mem_set_unit]
  intro a
  match a with
  | ⟨0, _⟩ =>
    show win4_6.index t (0 : Fin 2) * 5000 ≤ (i 0).val ∧ (i 0).val < win4_6.index t (0 : Fin 2) * 5000 + 5000
    rw [e0, ht]; omega
  | ⟨1, _⟩ =>
    show win4_6.index t (1 : Fin 2) * 2 ≤ (i 1).val ∧ (i 1).val < win4_6.index t (1 : Fin 2) * 2 + 2
    rw [e1]; omega

end Cert.KernelIdeal.Vals

end
-- ==== Proof.Val4.lean ====
import proofs.«158263_j27642409517219_1_alg».proof.Proof.Val4Pay

/-! # Region 4 at the extended reals: the array it leaves

With `x`, `agg` the two [100000, 32] arrays the region finds in its first two operands, `d` the [100000, 1] column in
the third, `Wl`, `Wr` the two [2, 32] matrices in the fourth and sixth and `b` the [1, 2] row in the fifth, the region
leaves in its result, at row `n`, the log-softmax over the two columns of
`z n j = (Σ_k (agg n k * d n) * Wl j k) + b j + Σ_k x n k * Wr j k`: point `t` writes rows `5000 t … 5000 t + 4999` of
exactly that function — a row of the result uses the same row of the tall arrays alone — and the twenty blocks cover
the rows. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

section
-- the contents of every buffer of the core when the region is entered
variable (V : (c : Dev nD) → (b : Ref sig .tc) → Buf (Elt Ideal) ((c : Thread nD τ).loc b))

/-- The arrays the region finds in its six input operands, as functions of an index. -/
def in4_0 (c : Dev nD) : S100000x32.Idx → EReal := V c (Pipeline.arrRef spec4 0)
def in4_1 (c : Dev nD) : S100000x32.Idx → EReal := V c (Pipeline.arrRef spec4 1)
def in4_2 (c : Dev nD) : S100000x1.Idx → EReal := V c (Pipeline.arrRef spec4 2)
def in4_3 (c : Dev nD) : S2x32.Idx → EReal := V c (Pipeline.arrRef spec4 3)
def in4_4 (c : Dev nD) : S1x2.Idx → EReal := V c (Pipeline.arrRef spec4 4)
def in4_5 (c : Dev nD) : S2x32.Idx → EReal := V c (Pipeline.arrRef spec4 5)

/-- The result as one function of the index: the log-softmax of the linear layer's row. -/
def G4 (c : Dev nD) : S100000x2.Idx → EReal := fun i =>
  Cert.Sage.logSoftmax (Cert.Sage.lin (fun n k => in4_0 V c (ix2 n k)) (fun n k => in4_1 V c (ix2 n k))
    (fun n => in4_2 V c (ix2 n (0 : Fin 1))) (fun j k => in4_3 V c (ix2 j k)) (fun j => in4_4 V c (ix2 (0 : Fin 1) j))
    (fun j k => in4_5 V c (ix2 j k))) (i 0) (i 1)

/-- What point `t` writes back is block `t` of that function. -/
theorem flushed4_eq (c : Dev nD) (t : Fin cfg4.N) :
    (dat4 (F := Ideal) V c).flushed 6 t = ((cfg4.win 6).blk t).view.read (Elt Ideal) (G4 V c) := by
  show (cfg4.win 6).cut (grid4.coords t) ((dat4 (F := Ideal) V c).after 6 t) = _
  rw [after4_6]
  funext y
  obtain ⟨p, j, rfl⟩ : ∃ (p : Fin 5000) (j : Fin 2), y = ix2 p j := ⟨y 0, y 1, eq_ix2 y⟩
  have ht : t.val < 20 := lt_of_lt_of_eq t.isLt N_4
  have hn : 5000 * t.val + p.val < 100000 := by have := p.isLt; omega
  refine (out4_6_apply (iblk4 V c 0 t) (iblk4 V c 1 t) (iblk4 V c 2 t) (iblk4 V c 3 t) (iblk4 V c 4 t) (iblk4 V c 5 t) p j).trans ?_
  refine (logSoftmax_lin_congr _ _ _ _ _ _ (fun n k => in4_0 V c (ix2 n k)) (fun n k => in4_1 V c (ix2 n k))
    (fun n => in4_2 V c (ix2 n (0 : Fin 1))) (fun j k => in4_3 V c (ix2 j k)) (fun j => in4_4 V c (ix2 (0 : Fin 1) j))
    (fun j k => in4_5 V c (ix2 j k)) p ⟨5000 * t.val + p.val, hn⟩ ?_ ?_ ?_ ?_ ?_ ?_ j).trans ?_
  · intro k
    show in4_0 V c (((cfg4.win 0).blk t).view.emb (ix2 p k)) = _
    rw [emb4_0 t p k ⟨_, hn⟩ rfl]
  · intro k
    show in4_1 V c (((cfg4.win 1).blk t).view.emb (ix2 p k)) = _
    rw [emb4_1 t p k ⟨_, hn⟩ rfl]
  · show in4_2 V c (((cfg4.win 2).blk t).view.emb (ix2 p (0 : Fin 1))) = _
    rw [emb4_2 t p ⟨_, hn⟩ rfl]
  · intro j k
    show in4_3 V c (((cfg4.win 3).blk t).view.emb (ix2 j k)) = _
    rw [emb4_3]
  · intro j
    show in4_4 V c (((cfg4.win 4).blk t).view.emb (ix2 (0 : Fin 1) j)) = _
    rw [emb4_4]
  · intro j k
    show in4_5 V c (((cfg4.win 5).blk t).view.emb (ix2 j k)) = _
    rw [emb4_5]
  · show _ = G4 V c (((cfg4.win 6).blk t).view.emb (ix2 p j))
    rw [emb4_6 t p j ⟨_, hn⟩ rfl]
    rfl

/-- The array the region leaves: every row the log-softmax, over its two columns, of the linear layer's row. -/
theorem final4 (c : Dev nD) (n : Fin 100000) (j : Fin 2) :
    ((dat4 (F := Ideal) V c).arrAt 6 cfg4.N : S100000x2.Idx → EReal) (ix2 n j)
      = Cert.Sage.logSoftmax (Cert.Sage.lin
          (fun n k => (V c (Pipeline.arrRef spec4 0) : S100000x32.Idx → EReal) (ix2 n k))
          (fun n k => (V c (Pipeline.arrRef spec4 1) : S100000x32.Idx → EReal) (ix2 n k))
          (fun n => (V c (Pipeline.arrRef spec4 2) : S100000x1.Idx → EReal) (ix2 n (0 : Fin 1)))
          (fun j k => (V c (Pipeline.arrRef spec4 3) : S2x32.Idx → EReal) (ix2 j k))
          (fun j => (V c (Pipeline.arrRef spec4 4) : S1x2.Idx → EReal) (ix2 (0 : Fin 1) j))
          (fun j k => (V c (Pipeline.arrRef spec4 5) : S2x32.Idx → EReal) (ix2 j k))) n j := by
  rw [(dat4 (F := Ideal) V c).arrAt_eq_of_cover 6 (G4 V c) (fun t _ => flushed4_eq V c t) cover4]
  rfl

end

end Cert.KernelIdeal.Vals

end
-- ==== Proof.RefAtLin.lean ====
/- The linear part of a layer read at one entry: each of the two matrix products is the sum over the contracted
   coordinate of the left operand's row entry times the weight's entry (the weight enters transposed, so its row is the
   output column), and the bias is added between them, entry by entry. Also the normalisation with scale and shift
   followed by the rectifier, at one entry. All at the extended reals. -/
import proofs.«158263_j27642409517219_1_alg».proof.Proof.RefStages
import Idealize.ShloMosaic.PureOps.Ideal.Laws
import Idealize.ShloMosaic.Lib.ValueIdx
import Idealize.ShloMosaic.Lib.Pipeline.Value

noncomputable section

open scoped BigOperators

namespace Cert.ReferenceIdeal.RefAt

open Cert.ReferenceIdeal Cert.ReferenceIdeal.RefRun Idealize.ShloMosaic Idealize.ShloMosaic.ValueIdx Idealize.SL.Sem
open Cert.ReferenceIdeal.Facts₀ Cert.ReferenceIdeal.Facts

/-- A scalar constant broadcast to any shape reads as the constant's value at every index. -/
theorem bcastConst_apply {t : Shape} (fact : S_.BroadcastsInDim t (![] : Fin 0 → Fin t.rank)) (w : BitVec 32) (k : t.Idx) :
    broadcastInDim t ![] fact (constant (F := Ideal) S_ .f32 w) k = Ideal.ofBits .f32 w := rfl

/-! ## Layer 1: 15 features in, 64 out -/

/-- A vector over the 64 columns, made a row and repeated down the rows, reads at (n, j) as the vector at j. -/
theorem bcastRow64_apply {α : Type} (v : S64.Idx → α) (n : Fin 100000) (j : Fin 64) :
    broadcastInDim S100000x64 ![0, 1] bcast_S1x64_S100000x64_0_1 (broadcastInDim S1x64 ![1] bcast_S64_S1x64_1 v) (ix2 n j) = v (ix1 j) :=
  (broadcastInDim_apply _ _ _ (ix2 n j) (ix2 (0 : Fin 1) j) (fun a => by match a with | ⟨0, _⟩ => rfl | ⟨1, _⟩ => rfl)).trans
    (broadcastInDim_apply _ _ _ (ix2 (0 : Fin 1) j) (ix1 j) (fun a => by match a with | ⟨0, _⟩ => rfl))

/-- The transposed weight at (k, j) is the weight at (j, k). -/
theorem tr1_apply {α : Type} (W : S64x15.Idx → α) (k : Fin 15) (j : Fin 64) :
    transpose S15x64 [1, 0] W transposes_S64x15_S15x64_1_0 (ix2 k j) = W (ix2 j k) :=
  transpose_apply [1, 0] W _ (ix2 k j) (ix2 j k) (fun b => by match b with | ⟨0, _⟩ => rfl | ⟨1, _⟩ => rfl)

theorem lhs1_0 (i : S100000x64.Idx) (q : dot_S100000x15_S15x64_S100000x64_1_0_0_1_n_n.contr.Idx) : (dot_S100000x15_S15x64_S100000x64_1_0_0_1_n_n.lhsIdx i q 0).val = (i 0).val := by
  unfold DotDims.lhsIdx
  rw [dif_neg (show ¬(0 : Fin S100000x15.rank) ∈ dot_S100000x15_S15x64_S100000x64_1_0_0_1_n_n.lhsBatch by decide), dif_pos (show (0 : Fin S100000x15.rank) ∈ dot_S100000x15_S15x64_S100000x64_1_0_0_1_n_n.lhsNonContracting by decide)]
  rfl
theorem lhs1_1 (i : S100000x64.Idx) (q : dot_S100000x15_S15x64_S100000x64_1_0_0_1_n_n.contr.Idx) : (dot_S100000x15_S15x64_S100000x64_1_0_0_1_n_n.lhsIdx i q 1).val = (q ⟨0, by decide⟩).val :=
  dot_S100000x15_S15x64_S100000x64_1_0_0_1_n_n.lhsIdx_val_of_single rfl i q
theorem rhs1_0 (i : S100000x64.Idx) (q : dot_S100000x15_S15x64_S100000x64_1_0_0_1_n_n.contr.Idx) : (dot_S100000x15_S15x64_S100000x64_1_0_0_1_n_n.rhsIdx i q 0).val = (q ⟨0, by decide⟩).val :=
  dot_S100000x15_S15x64_S100000x64_1_0_0_1_n_n.rhsIdx_val_of_single rfl i q
theorem rhs1_1 (i : S100000x64.Idx) (q : dot_S100000x15_S15x64_S100000x64_1_0_0_1_n_n.contr.Idx) : (dot_S100000x15_S15x64_S100000x64_1_0_0_1_n_n.rhsIdx i q 1).val = (i 1).val := by
  unfold DotDims.rhsIdx
  rw [dif_neg (show ¬(1 : Fin S15x64.rank) ∈ dot_S100000x15_S15x64_S100000x64_1_0_0_1_n_n.rhsBatch by decide), dif_pos (show (1 : Fin S15x64.rank) ∈ dot_S100000x15_S15x64_S100000x64_1_0_0_1_n_n.rhsNonContracting by decide)]
  rfl

/-- The product of an [N, 15] array with a [15, 64] array at (n, j): the sum over k of the entries (n, k) times (k, j). -/
theorem dot1_apply (l : FVec Ideal S100000x15 .f32) (r : FVec Ideal S15x64 .f32) (n : Fin 100000) (j : Fin 64) :
    Host.dotGeneral (F := Ideal) dot_S100000x15_S15x64_S100000x64_1_0_0_1_n_n none l r (ix2 n j) = ∑ k : Fin 15, l (ix2 n k) * r (ix2 k j) := by
  simp only [Host.dotGeneral]
  rw [Ideal.dotGeneral_apply, ← Equiv.sum_comp (ValueIdx.contrEquiv1 dot_S100000x15_S15x64_S100000x64_1_0_0_1_n_n 15 rfl rfl).symm]
  refine Finset.sum_congr rfl fun k _ => ?_
  have hk := ValueIdx.contrEquiv1_symm_val dot_S100000x15_S15x64_S100000x64_1_0_0_1_n_n 15 rfl rfl k
  have el : dot_S100000x15_S15x64_S100000x64_1_0_0_1_n_n.lhsIdx (ix2 n j) ((ValueIdx.contrEquiv1 dot_S100000x15_S15x64_S100000x64_1_0_0_1_n_n 15 rfl rfl).symm k) = ix2 n k := funext fun a => Fin.ext (by
    match a with
    | ⟨0, _⟩ => exact lhs1_0 _ _
    | ⟨1, _⟩ => exact (lhs1_1 _ _).trans hk)
  have er : dot_S100000x15_S15x64_S100000x64_1_0_0_1_n_n.rhsIdx (ix2 n j) ((ValueIdx.contrEquiv1 dot_S100000x15_S15x64_S100000x64_1_0_0_1_n_n 15 rfl rfl).symm k) = ix2 k j := funext fun a => Fin.ext (by
    match a with
    | ⟨0, _⟩ => exact (rhs1_0 _ _).trans hk
    | ⟨1, _⟩ => exact rhs1_1 _ _)
  rw [el, er]

/-- Layer 1's linear part at (n, j): the averaged neighbourhood's row against the first weight's row j, plus the bias
    at j, plus the node's own row against the second weight's row j. -/
theorem lin1_apply (mn x : FVec Ideal S100000x15 .f32) (Wl Wr : FVec Ideal S64x15 .f32) (b : FVec Ideal S64 .f32)
    (n : Fin 100000) (j : Fin 64) :
    lin1 (F := Ideal) mn x Wl b Wr (ix2 n j)
      = ((∑ k : Fin 15, mn (ix2 n k) * Wl (ix2 j k)) + b (ix1 j)) + ∑ k : Fin 15, x (ix2 n k) * Wr (ix2 j k) := by
  unfold lin1
  simp only [ValueIdx.addf_apply, dot1_apply]
  rw [bcastRow64_apply b n j]
  refine congrArg₂ (· + ·) (congrArg (· + b (ix1 j)) (Finset.sum_congr rfl fun k _ => ?_)) (Finset.sum_congr rfl fun k _ => ?_)
  · rw [tr1_apply Wl k j]
  · rw [tr1_apply Wr k j]

/-- Layer 1's normalisation, scale, shift and rectifier at (n, j). -/
theorem bnRelu1_apply (h : FVec Ideal S100000x64 .f32) (mu vr g be : FVec Ideal S64 .f32) (n : Fin 100000) (j : Fin 64) :
    relu1 (F := Ideal) (bn1 (F := Ideal) h mu vr g be) (ix2 n j)
      = max ((h (ix2 n j) - mu (ix1 j)) * Ideal.rsqrt (vr (ix1 j) + Ideal.ofBits .f32 0x3727C5AC#32) * g (ix1 j) + be (ix1 j))
          (Ideal.ofBits .f32 0x00000000#32) := by
  unfold relu1 bn1
  simp only [ValueIdx.maximumf_apply, ValueIdx.addf_apply, ValueIdx.mulf_apply, ValueIdx.subf_apply]
  rw [bcastRow64_apply _ n j, bcastRow64_apply _ n j, bcastRow64_apply _ n j, bcastRow64_apply _ n j]
  rfl

/-! ## Layer 2: 64 features in, 32 out -/

/-- A vector over the 32 columns, made a row and repeated down the rows, reads at (n, j) as the vector at j. -/
theorem bcastRow32_apply {α : Type} (v : S32.Idx → α) (n : Fin 100000) (j : Fin 32) :
    broadcastInDim S100000x32 ![0, 1] bcast_S1x32_S100000x32_0_1 (broadcastInDim S1x32 ![1] bcast_S32_S1x32_1 v) (ix2 n j) = v (ix1 j) :=
  (broadcastInDim_apply _ _ _ (ix2 n j) (ix2 (0 : Fin 1) j) (fun a => by match a with | ⟨0, _⟩ => rfl | ⟨1, _⟩ => rfl)).trans
    (broadcastInDim_apply _ _ _ (ix2 (0 : Fin 1) j) (ix1 j) (fun a => by match a with | ⟨0, _⟩ => rfl))

/-- The transposed weight at (k, j) is the weight at (j, k). -/
theorem tr2_apply {α : Type} (W : S32x64.Idx → α) (k : Fin 64) (j : Fin 32) :
    transpose S64x32 [1, 0] W transposes_S32x64_S64x32_1_0 (ix2 k j) = W (ix2 j k) :=
  transpose_apply [1, 0] W _ (ix2 k j) (ix2 j k) (fun b => by match b with | ⟨0, _⟩ => rfl | ⟨1, _⟩ => rfl)

theorem lhs2_0 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs2_1 (i : S100000x32.Idx) (q : dot_S100000x64_S64x32_S100000x32_1_0_0_1_n_n.contr.Idx) : (dot_S100000x64_S64x32_S100000x32_1_0_0_1_n_n.lhsIdx i q 1).val = (q ⟨0, by decide⟩).val :=
  dot_S100000x64_S64x32_S100000x32_1_0_0_1_n_n.lhsIdx_val_of_single rfl i q
theorem rhs2_0 (i : S100000x32.Idx) (q : dot_S100000x64_S64x32_S100000x32_1_0_0_1_n_n.contr.Idx) : (dot_S100000x64_S64x32_S100000x32_1_0_0_1_n_n.rhsIdx i q 0).val = (q ⟨0, by decide⟩).val :=
  dot_S100000x64_S64x32_S100000x32_1_0_0_1_n_n.rhsIdx_val_of_single rfl i q
theorem rhs2_1 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The product of an [N, 64] array with a [64, 32] array at (n, j): the sum over k of the entries (n, k) times (k, j). -/
theorem dot2_apply (l : FVec Ideal S100000x64 .f32) (r : FVec Ideal S64x32 .f32) (n : Fin 100000) (j : Fin 32) :
    Host.dotGeneral (F := Ideal) dot_S100000x64_S64x32_S100000x32_1_0_0_1_n_n none l r (ix2 n j) = ∑ k : Fin 64, l (ix2 n k) * r (ix2 k j) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx (ix2 n j) ((ValueIdx.contrEquiv1 dot_S100000x64_S64x32_S100000x32_1_0_0_1_n_n 64 rfl rfl).symm k) = ix2 n k := funext fun a => Fin.ext (by
    match a with
    | ⟨0, _⟩ => exact lhs2_0 _ _
    | ⟨1, _⟩ => exact (lhs2_1 _ _).trans hk)
  have er : dot_S100000x64_S64x32_S100000x32_1_0_0_1_n_n.rhsIdx (ix2 n j) ((ValueIdx.contrEquiv1 dot_S100000x64_S64x32_S100000x32_1_0_0_1_n_n 64 rfl rfl).symm k) = ix2 k j := funext fun a => Fin.ext (by
    match a with
    | ⟨0, _⟩ => exact (rhs2_0 _ _).trans hk
    | ⟨1, _⟩ => exact rhs2_1 _ _)
  rw [el, er]

/-- Layer 2's linear part at (n, j): the averaged neighbourhood's row against the first weight's row j, plus the bias
    at j, plus the node's own row against the second weight's row j. -/
theorem lin2_apply (mn x : FVec Ideal S100000x64 .f32) (Wl Wr : FVec Ideal S32x64 .f32) (b : FVec Ideal S32 .f32)
    (n : Fin 100000) (j : Fin 32) :
    lin2 (F := Ideal) mn x Wl b Wr (ix2 n j)
      = ((∑ k : Fin 64, mn (ix2 n k) * Wl (ix2 j k)) + b (ix1 j)) + ∑ k : Fin 64, x (ix2 n k) * Wr (ix2 j k) := by
  unfold lin2
  simp only [ValueIdx.addf_apply, dot2_apply]
  rw [bcastRow32_apply b n j]
  refine congrArg₂ (· + ·) (congrArg (· + b (ix1 j)) (Finset.sum_congr rfl fun k _ => ?_)) (Finset.sum_congr rfl fun k _ => ?_)
  · rw [tr2_apply Wl k j]
  · rw [tr2_apply Wr k j]

/-- Layer 2's normalisation, scale, shift and rectifier at (n, j). -/
theorem bnRelu2_apply (h : FVec Ideal S100000x32 .f32) (mu vr g be : FVec Ideal S32 .f32) (n : Fin 100000) (j : Fin 32) :
    relu2 (F := Ideal) (bn2 (F := Ideal) h mu vr g be) (ix2 n j)
      = max ((h (ix2 n j) - mu (ix1 j)) * Ideal.rsqrt (vr (ix1 j) + Ideal.ofBits .f32 0x3727C5AC#32) * g (ix1 j) + be (ix1 j))
          (Ideal.ofBits .f32 0x00000000#32) := by
  unfold relu2 bn2
  simp only [ValueIdx.maximumf_apply, ValueIdx.addf_apply, ValueIdx.mulf_apply, ValueIdx.subf_apply]
  rw [bcastRow32_apply _ n j, bcastRow32_apply _ n j, bcastRow32_apply _ n j, bcastRow32_apply _ n j]
  rfl

/-! ## Layer 3: 32 features in, 2 out -/

/-- A vector over the 2 columns, made a row and repeated down the rows, reads at (n, j) as the vector at j. -/
theorem bcastRow2_apply {α : Type} (v : S2.Idx → α) (n : Fin 100000) (j : Fin 2) :
    broadcastInDim S100000x2 ![0, 1] bcast_S1x2_S100000x2_0_1 (broadcastInDim S1x2 ![1] bcast_S2_S1x2_1 v) (ix2 n j) = v (ix1 j) :=
  (broadcastInDim_apply _ _ _ (ix2 n j) (ix2 (0 : Fin 1) j) (fun a => by match a with | ⟨0, _⟩ => rfl | ⟨1, _⟩ => rfl)).trans
    (broadcastInDim_apply _ _ _ (ix2 (0 : Fin 1) j) (ix1 j) (fun a => by match a with | ⟨0, _⟩ => rfl))

/-- The transposed weight at (k, j) is the weight at (j, k). -/
theorem tr3_apply {α : Type} (W : S2x32.Idx → α) (k : Fin 32) (j : Fin 2) :
    transpose S32x2 [1, 0] W transposes_S2x32_S32x2_1_0 (ix2 k j) = W (ix2 j k) :=
  transpose_apply [1, 0] W _ (ix2 k j) (ix2 j k) (fun b => by match b with | ⟨0, _⟩ => rfl | ⟨1, _⟩ => rfl)

theorem lhs3_0 (i : S100000x2.Idx) (q : dot_S100000x32_S32x2_S100000x2_1_0_0_1_n_n.contr.Idx) : (dot_S100000x32_S32x2_S100000x2_1_0_0_1_n_n.lhsIdx i q 0).val = (i 0).val := by
  unfold DotDims.lhsIdx
  rw [dif_neg (show ¬(0 : Fin S100000x32.rank) ∈ dot_S100000x32_S32x2_S100000x2_1_0_0_1_n_n.lhsBatch by decide), dif_pos (show (0 : Fin S100000x32.rank) ∈ dot_S100000x32_S32x2_S100000x2_1_0_0_1_n_n.lhsNonContracting by decide)]
  rfl
theorem lhs3_1 (i : S100000x2.Idx) (q : dot_S100000x32_S32x2_S100000x2_1_0_0_1_n_n.contr.Idx) : (dot_S100000x32_S32x2_S100000x2_1_0_0_1_n_n.lhsIdx i q 1).val = (q ⟨0, by decide⟩).val :=
  dot_S100000x32_S32x2_S100000x2_1_0_0_1_n_n.lhsIdx_val_of_single rfl i q
theorem rhs3_0 (i : S100000x2.Idx) (q : dot_S100000x32_S32x2_S100000x2_1_0_0_1_n_n.contr.Idx) : (dot_S100000x32_S32x2_S100000x2_1_0_0_1_n_n.rhsIdx i q 0).val = (q ⟨0, by decide⟩).val :=
  dot_S100000x32_S32x2_S100000x2_1_0_0_1_n_n.rhsIdx_val_of_single rfl i q
theorem rhs3_1 (i : S100000x2.Idx) (q : dot_S100000x32_S32x2_S100000x2_1_0_0_1_n_n.contr.Idx) : (dot_S100000x32_S32x2_S100000x2_1_0_0_1_n_n.rhsIdx i q 1).val = (i 1).val := by
  unfold DotDims.rhsIdx
  rw [dif_neg (show ¬(1 : Fin S32x2.rank) ∈ dot_S100000x32_S32x2_S100000x2_1_0_0_1_n_n.rhsBatch by decide), dif_pos (show (1 : Fin S32x2.rank) ∈ dot_S100000x32_S32x2_S100000x2_1_0_0_1_n_n.rhsNonContracting by decide)]
  rfl

/-- The product of an [N, 32] array with a [32, 2] array at (n, j): the sum over k of the entries (n, k) times (k, j). -/
theorem dot3_apply (l : FVec Ideal S100000x32 .f32) (r : FVec Ideal S32x2 .f32) (n : Fin 100000) (j : Fin 2) :
    Host.dotGeneral (F := Ideal) dot_S100000x32_S32x2_S100000x2_1_0_0_1_n_n none l r (ix2 n j) = ∑ k : Fin 32, l (ix2 n k) * r (ix2 k j) := by
  simp only [Host.dotGeneral]
  rw [Ideal.dotGeneral_apply, ← Equiv.sum_comp (ValueIdx.contrEquiv1 dot_S100000x32_S32x2_S100000x2_1_0_0_1_n_n 32 rfl rfl).symm]
  refine Finset.sum_congr rfl fun k _ => ?_
  have hk := ValueIdx.contrEquiv1_symm_val dot_S100000x32_S32x2_S100000x2_1_0_0_1_n_n 32 rfl rfl k
  have el : dot_S100000x32_S32x2_S100000x2_1_0_0_1_n_n.lhsIdx (ix2 n j) ((ValueIdx.contrEquiv1 dot_S100000x32_S32x2_S100000x2_1_0_0_1_n_n 32 rfl rfl).symm k) = ix2 n k := funext fun a => Fin.ext (by
    match a with
    | ⟨0, _⟩ => exact lhs3_0 _ _
    | ⟨1, _⟩ => exact (lhs3_1 _ _).trans hk)
  have er : dot_S100000x32_S32x2_S100000x2_1_0_0_1_n_n.rhsIdx (ix2 n j) ((ValueIdx.contrEquiv1 dot_S100000x32_S32x2_S100000x2_1_0_0_1_n_n 32 rfl rfl).symm k) = ix2 k j := funext fun a => Fin.ext (by
    match a with
    | ⟨0, _⟩ => exact (rhs3_0 _ _).trans hk
    | ⟨1, _⟩ => exact rhs3_1 _ _)
  rw [el, er]

/-- Layer 3's linear part at (n, j): the averaged neighbourhood's row against the first weight's row j, plus the bias
    at j, plus the node's own row against the second weight's row j. -/
theorem lin3_apply (mn x : FVec Ideal S100000x32 .f32) (Wl Wr : FVec Ideal S2x32 .f32) (b : FVec Ideal S2 .f32)
    (n : Fin 100000) (j : Fin 2) :
    lin3 (F := Ideal) mn x Wl b Wr (ix2 n j)
      = ((∑ k : Fin 32, mn (ix2 n k) * Wl (ix2 j k)) + b (ix1 j)) + ∑ k : Fin 32, x (ix2 n k) * Wr (ix2 j k) := by
  unfold lin3
  simp only [ValueIdx.addf_apply, dot3_apply]
  rw [bcastRow2_apply b n j]
  refine congrArg₂ (· + ·) (congrArg (· + b (ix1 j)) (Finset.sum_congr rfl fun k _ => ?_)) (Finset.sum_congr rfl fun k _ => ?_)
  · rw [tr3_apply Wl k j]
  · rw [tr3_apply Wr k j]

end Cert.ReferenceIdeal.RefAt

end
-- ==== Proof.RefRead.lean ====
/- The literals of the variance stage evaluated at the extended reals: the row count `100000.0 - convert 0` is the
   real 100000, so the positivity test of the count selects the quotient branch — the column variance is the sum of
   squared deviations divided by the row count — and the not-a-number branch is never read. -/
import proofs.«158263_j27642409517219_1_alg».proof.Proof.RefStages
import proofs.«158263_j27642409517219_1_alg».proof.Proof.LibReal
import Idealize.ShloMosaic.PureOps.Ideal.Laws

noncomputable section

namespace Cert.ReferenceIdeal.RefRun

open Cert.ReferenceIdeal Idealize.ShloMosaic Idealize.SL.Sem
open Cert.ReferenceIdeal.Facts₀ Cert.ReferenceIdeal.Facts

/-- The integer zero converts to the real zero. -/
theorem sitofp_zero : FloatOps.sitofp (F := Ideal) .f32 (0#32 : BitVec 32) = 0 := by
  show (((0#32 : BitVec 32).toInt : ℝ) : EReal) = 0
  simp

/-- The row count less the converted zero is the row count's own constant. -/
theorem cnt_eq : cnt (F := Ideal) = constant (F := Ideal) S_ .f32 0x47C35000#32 := by
  funext i
  show FloatOps.subf (FloatOps.ofBits (F := Ideal) .f32 0x47C35000#32) (FloatOps.sitofp (F := Ideal) .f32 (0#32 : BitVec 32))
    = FloatOps.ofBits (F := Ideal) .f32 0x47C35000#32
  rw [sitofp_zero, Ideal.subf_def, sub_zero]

/-- The row count is the real 100000. -/
theorem cnt_apply (i : S_.Idx) : cnt (F := Ideal) i = ((100000 : ℝ) : EReal) := by
  rw [cnt_eq]; exact Cert.Gcn.ofBits_100000

/-- The row count is positive: the test `count > 0` holds. -/
theorem cntPos_eq : cntPos (F := Ideal) = fun _ => 1#1 := by
  funext i
  show FloatOps.cmpf .ogt (cnt (F := Ideal) i) (FloatOps.ofBits (F := Ideal) .f32 0x00000000#32) = 1#1
  have h : (0 : EReal) < ((100000 : ℝ) : EReal) := by exact_mod_cast (by norm_num : (0 : ℝ) < 100000)
  rw [cnt_apply, Ideal.cmpf_def, Ideal.ofBits_def, Ideal.ofBits_zero_f32]
  simp [Ideal.cmp, h]

/-- Layer 1's column variance is the quotient branch: the sum of squared deviations over the row count. -/
theorem var1_eq (h : (⟨S100000x64, .f32⟩ : BufTy).Contents (Elt Ideal)) :
    var1 (F := Ideal) h = Host.divf (F := Ideal) (φ := .f32) (sumSq1 (F := Ideal) h) (broadcastInDim S64 ![] bcast_S_S64 (cnt (F := Ideal))) := by
  funext i
  unfold var1
  simp only [select, Scalar.select, cntPos_eq, broadcastInDim]
  rfl

/-- Layer 2's column variance is the quotient branch: the sum of squared deviations over the row count. -/
theorem var2_eq (h : (⟨S100000x32, .f32⟩ : BufTy).Contents (Elt Ideal)) :
    var2 (F := Ideal) h = Host.divf (F := Ideal) (φ := .f32) (sumSq2 (F := Ideal) h) (broadcastInDim S32 ![] bcast_S_S32 (cnt (F := Ideal))) := by
  funext i
  unfold var2
  simp only [select, Scalar.select, cntPos_eq, broadcastInDim]
  rfl

end Cert.ReferenceIdeal.RefRun

end
-- ==== Proof.RefAtStat.lean ====
/- The batch statistics read at one column, and the neighbour mean at one entry, at the extended reals: the column
   mean is the column's sum over the nodes divided by the node count; the column variance is the sum over the nodes
   of the squared deviation from that mean, divided by the node count; the neighbour mean is the aggregated entry
   divided by the node's clamped degree, and the clamp is the maximum with one. -/
import proofs.«158263_j27642409517219_1_alg».proof.Proof.RefRead
import Idealize.ShloMosaic.PureOps.Ideal.Laws
import Idealize.ShloMosaic.Lib.ValueIdx
import Idealize.ShloMosaic.Lib.Pipeline.Value

noncomputable section

open scoped BigOperators

namespace Cert.ReferenceIdeal.RefAt

open Cert.ReferenceIdeal Cert.ReferenceIdeal.RefRun Idealize.ShloMosaic Idealize.ShloMosaic.ValueIdx Idealize.SL.Sem
open Cert.ReferenceIdeal.Facts₀ Cert.ReferenceIdeal.Facts

/-- The clamped degree at a node: the maximum of the degree and one. -/
theorem degMax_apply (dg : FVec Ideal S100000 .f32) (n : Fin 100000) :
    degMax (F := Ideal) dg (ix1 n) = max (dg (ix1 n)) (Ideal.ofBits .f32 0x3F800000#32) := rfl

/-- A vector over the nodes made a column reads at (n, 0) as the vector at n. -/
theorem bcastColA_apply {α : Type} (v : S100000.Idx → α) (n : Fin 100000) :
    broadcastInDim S100000x1 ![0] bcast_S100000_S100000x1_0 v (ix2 n (0 : Fin 1)) = v (ix1 n) :=
  broadcastInDim_apply _ _ _ (ix2 n (0 : Fin 1)) (ix1 n) (fun a => by match a with | ⟨0, _⟩ => rfl)

/-- A column repeated along 15 columns reads at (n, k) as the column at (n, 0). -/
theorem bcastColB15_apply {α : Type} (v : S100000x1.Idx → α) (n : Fin 100000) (k : Fin 15) :
    broadcastInDim S100000x15 ![0, 1] bcast_S100000x1_S100000x15_0_1 v (ix2 n k) = v (ix2 n (0 : Fin 1)) :=
  broadcastInDim_apply _ _ _ (ix2 n k) (ix2 n (0 : Fin 1)) (fun a => by match a with | ⟨0, _⟩ => rfl | ⟨1, _⟩ => rfl)

/-- A column repeated along 64 columns reads at (n, k) as the column at (n, 0). -/
theorem bcastColB64_apply {α : Type} (v : S100000x1.Idx → α) (n : Fin 100000) (k : Fin 64) :
    broadcastInDim S100000x64 ![0, 1] bcast_S100000x1_S100000x64_0_1 v (ix2 n k) = v (ix2 n (0 : Fin 1)) :=
  broadcastInDim_apply _ _ _ (ix2 n k) (ix2 n (0 : Fin 1)) (fun a => by match a with | ⟨0, _⟩ => rfl | ⟨1, _⟩ => rfl)

/-- A column repeated along 32 columns reads at (n, k) as the column at (n, 0). -/
theorem bcastColB32_apply {α : Type} (v : S100000x1.Idx → α) (n : Fin 100000) (k : Fin 32) :
    broadcastInDim S100000x32 ![0, 1] bcast_S100000x1_S100000x32_0_1 v (ix2 n k) = v (ix2 n (0 : Fin 1)) :=
  broadcastInDim_apply _ _ _ (ix2 n k) (ix2 n (0 : Fin 1)) (fun a => by match a with | ⟨0, _⟩ => rfl | ⟨1, _⟩ => rfl)

/-- A column repeated along 2 columns reads at (n, k) as the column at (n, 0). -/
theorem bcastColB2_apply {α : Type} (v : S100000x1.Idx → α) (n : Fin 100000) (k : Fin 2) :
    broadcastInDim S100000x2 ![0, 1] bcast_S100000x1_S100000x2_0_1 v (ix2 n k) = v (ix2 n (0 : Fin 1)) :=
  broadcastInDim_apply _ _ _ (ix2 n k) (ix2 n (0 : Fin 1)) (fun a => by match a with | ⟨0, _⟩ => rfl | ⟨1, _⟩ => rfl)

/-- Layer 1's neighbour mean at (n, k): the aggregated entry divided by the node's clamped degree. -/
theorem mean1_apply (ag : FVec Ideal S100000x15 .f32) (dm : FVec Ideal S100000 .f32) (n : Fin 100000) (k : Fin 15) :
    mean1 (F := Ideal) ag dm (ix2 n k) = Ideal.div (ag (ix2 n k)) (dm (ix1 n)) := by
  unfold mean1
  show Ideal.div (ag (ix2 n k)) (broadcastInDim S100000x15 ![0, 1] bcast_S100000x1_S100000x15_0_1
    (broadcastInDim S100000x1 ![0] bcast_S100000_S100000x1_0 dm) (ix2 n k)) = _
  rw [bcastColB15_apply, bcastColA_apply]

/-- Layer 2's neighbour mean at (n, k): the aggregated entry divided by the node's clamped degree. -/
theorem mean2_apply (ag : FVec Ideal S100000x64 .f32) (dm : FVec Ideal S100000 .f32) (n : Fin 100000) (k : Fin 64) :
    mean2 (F := Ideal) ag dm (ix2 n k) = Ideal.div (ag (ix2 n k)) (dm (ix1 n)) := by
  unfold mean2
  show Ideal.div (ag (ix2 n k)) (broadcastInDim S100000x64 ![0, 1] bcast_S100000x1_S100000x64_0_1
    (broadcastInDim S100000x1 ![0] bcast_S100000_S100000x1_0 dm) (ix2 n k)) = _
  rw [bcastColB64_apply, bcastColA_apply]

/-- Layer 3's neighbour mean at (n, k): the aggregated entry divided by the node's clamped degree. -/
theorem mean3_apply (ag : FVec Ideal S100000x32 .f32) (dm : FVec Ideal S100000 .f32) (n : Fin 100000) (k : Fin 32) :
    mean3 (F := Ideal) ag dm (ix2 n k) = Ideal.div (ag (ix2 n k)) (dm (ix1 n)) := by
  unfold mean3
  show Ideal.div (ag (ix2 n k)) (broadcastInDim S100000x32 ![0, 1] bcast_S100000x1_S100000x32_0_1
    (broadcastInDim S100000x1 ![0] bcast_S100000_S100000x1_0 dm) (ix2 n k)) = _
  rw [bcastColB32_apply, bcastColA_apply]

/-! ## Layer 1's statistics over the 64 columns -/

theorem bcastRowA64_apply {α : Type} (v : S64.Idx → α) (j : Fin 64) :
    broadcastInDim S1x64 ![1] bcast_S64_S1x64_1 v (ix2 (0 : Fin 1) j) = v (ix1 j) :=
  broadcastInDim_apply _ _ _ (ix2 (0 : Fin 1) j) (ix1 j) (fun a => by match a with | ⟨0, _⟩ => rfl)

theorem bcastRowB64_apply {α : Type} (v : S1x64.Idx → α) (n : Fin 100000) (j : Fin 64) :
    broadcastInDim S100000x64 ![0, 1] bcast_S1x64_S100000x64_0_1 v (ix2 n j) = v (ix2 (0 : Fin 1) j) :=
  broadcastInDim_apply _ _ _ (ix2 n j) (ix2 (0 : Fin 1) j) (fun a => by match a with | ⟨0, _⟩ => rfl | ⟨1, _⟩ => rfl)

/-- A sum down the node axis at column j: the initial value plus the sum over the nodes of the entries (n, j). -/
theorem redCol64_apply (x : FVec Ideal S100000x64 .f32) (v : FVec Ideal S_ .f32) (j : Fin 64) :
    Host.reduceAdd (F := Ideal) x v reducesTo_S100000x64_S64_d0 h_S_ (ix1 j)
      = v (Shape.Idx.first h_S_) + ∑ n : Fin 100000, x (ix2 n j) := by
  simp only [Host.reduceAdd, Ideal.hostReduceAdd_def]
  rw [Ideal.hostReduceAdd_single reducesTo_S100000x64_S64_d0 (by decide)]
  refine congrArg (_ + ·) (Finset.sum_congr rfl fun k _ => ?_)
  exact congrArg x (funext fun a => Fin.ext (by match a with | ⟨0, _⟩ => rfl | ⟨1, _⟩ => rfl))

/-- The column mean at j. -/
theorem mu1_apply (h : FVec Ideal S100000x64 .f32) (j : Fin 64) :
    mu1 (F := Ideal) h (ix1 j) = Ideal.div (∑ n : Fin 100000, h (ix2 n j)) (Ideal.ofBits .f32 0x47C35000#32) := by
  unfold mu1
  show Ideal.div (Host.reduceAdd (F := Ideal) h (constant (F := Ideal) S_ .f32 0x00000000#32) reducesTo_S100000x64_S64_d0 h_S_ (ix1 j))
    (Ideal.ofBits .f32 0x47C35000#32) = _
  rw [redCol64_apply]
  show Ideal.div (Ideal.ofBits .f32 0x00000000#32 + _) _ = _
  rw [Ideal.ofBits_zero_f32, zero_add]

/-- The column mean the variance subtracts, kept as a one-row array, at (0, j): the same quotient. -/
theorem colMean1_apply (h : FVec Ideal S100000x64 .f32) (j : Fin 64) :
    colMean1 (F := Ideal) h (ix2 (0 : Fin 1) j) = Ideal.div (∑ n : Fin 100000, h (ix2 n j)) (Ideal.ofBits .f32 0x47C35000#32) := by
  unfold colMean1
  show Ideal.div (broadcastInDim S1x64 ![1] bcast_S64_S1x64_1
      (Host.reduceAdd (F := Ideal) h (constant (F := Ideal) S_ .f32 0x00000000#32) reducesTo_S100000x64_S64_d0 h_S_) (ix2 (0 : Fin 1) j))
    (Ideal.ofBits .f32 0x47C35000#32) = _
  rw [bcastRowA64_apply, redCol64_apply]
  show Ideal.div (Ideal.ofBits .f32 0x00000000#32 + _) _ = _
  rw [Ideal.ofBits_zero_f32, zero_add]

/-- The sum of squared deviations from the column mean at j. -/
theorem sumSq1_apply (h : FVec Ideal S100000x64 .f32) (j : Fin 64) :
    sumSq1 (F := Ideal) h (ix1 j)
      = ∑ n : Fin 100000, (h (ix2 n j) - Ideal.div (∑ n' : Fin 100000, h (ix2 n' j)) (Ideal.ofBits .f32 0x47C35000#32))
          * (h (ix2 n j) - Ideal.div (∑ n' : Fin 100000, h (ix2 n' j)) (Ideal.ofBits .f32 0x47C35000#32)) := by
  unfold sumSq1
  beta_reduce
  rw [redCol64_apply]
  show Ideal.ofBits .f32 0x00000000#32 + _ = _
  rw [Ideal.ofBits_zero_f32, zero_add]
  refine Finset.sum_congr rfl fun n _ => ?_
  show (h (ix2 n j) - broadcastInDim S100000x64 ![0, 1] bcast_S1x64_S100000x64_0_1 (colMean1 (F := Ideal) h) (ix2 n j))
    * (h (ix2 n j) - broadcastInDim S100000x64 ![0, 1] bcast_S1x64_S100000x64_0_1 (colMean1 (F := Ideal) h) (ix2 n j)) = _
  rw [bcastRowB64_apply, colMean1_apply]

/-- The column variance at j: the sum of squared deviations divided by the node count. -/
theorem var1_apply (h : FVec Ideal S100000x64 .f32) (j : Fin 64) :
    var1 (F := Ideal) h (ix1 j)
      = Ideal.div (∑ n : Fin 100000, (h (ix2 n j) - Ideal.div (∑ n' : Fin 100000, h (ix2 n' j)) (Ideal.ofBits .f32 0x47C35000#32))
          * (h (ix2 n j) - Ideal.div (∑ n' : Fin 100000, h (ix2 n' j)) (Ideal.ofBits .f32 0x47C35000#32))) (Ideal.ofBits .f32 0x47C35000#32) := by
  rw [var1_eq]
  show Ideal.div (sumSq1 (F := Ideal) h (ix1 j)) (cnt (F := Ideal) _) = _
  rw [sumSq1_apply, cnt_eq]
  rfl

/-! ## Layer 2's statistics over the 32 columns -/

theorem bcastRowA32_apply {α : Type} (v : S32.Idx → α) (j : Fin 32) :
    broadcastInDim S1x32 ![1] bcast_S32_S1x32_1 v (ix2 (0 : Fin 1) j) = v (ix1 j) :=
  broadcastInDim_apply _ _ _ (ix2 (0 : Fin 1) j) (ix1 j) (fun a => by match a with | ⟨0, _⟩ => rfl)

theorem bcastRowB32_apply {α : Type} (v : S1x32.Idx → α) (n : Fin 100000) (j : Fin 32) :
    broadcastInDim S100000x32 ![0, 1] bcast_S1x32_S100000x32_0_1 v (ix2 n j) = v (ix2 (0 : Fin 1) j) :=
  broadcastInDim_apply _ _ _ (ix2 n j) (ix2 (0 : Fin 1) j) (fun a => by match a with | ⟨0, _⟩ => rfl | ⟨1, _⟩ => rfl)

/-- A sum down the node axis at column j: the initial value plus the sum over the nodes of the entries (n, j). -/
theorem redCol32_apply (x : FVec Ideal S100000x32 .f32) (v : FVec Ideal S_ .f32) (j : Fin 32) :
    Host.reduceAdd (F := Ideal) x v reducesTo_S100000x32_S32_d0 h_S_ (ix1 j)
      = v (Shape.Idx.first h_S_) + ∑ n : Fin 100000, x (ix2 n j) := by
  simp only [Host.reduceAdd, Ideal.hostReduceAdd_def]
  rw [Ideal.hostReduceAdd_single reducesTo_S100000x32_S32_d0 (by decide)]
  refine congrArg (_ + ·) (Finset.sum_congr rfl fun k _ => ?_)
  exact congrArg x (funext fun a => Fin.ext (by match a with | ⟨0, _⟩ => rfl | ⟨1, _⟩ => rfl))

/-- The column mean at j. -/
theorem mu2_apply (h : FVec Ideal S100000x32 .f32) (j : Fin 32) :
    mu2 (F := Ideal) h (ix1 j) = Ideal.div (∑ n : Fin 100000, h (ix2 n j)) (Ideal.ofBits .f32 0x47C35000#32) := by
  unfold mu2
  show Ideal.div (Host.reduceAdd (F := Ideal) h (constant (F := Ideal) S_ .f32 0x00000000#32) reducesTo_S100000x32_S32_d0 h_S_ (ix1 j))
    (Ideal.ofBits .f32 0x47C35000#32) = _
  rw [redCol32_apply]
  show Ideal.div (Ideal.ofBits .f32 0x00000000#32 + _) _ = _
  rw [Ideal.ofBits_zero_f32, zero_add]

/-- The column mean the variance subtracts, kept as a one-row array, at (0, j): the same quotient. -/
theorem colMean2_apply (h : FVec Ideal S100000x32 .f32) (j : Fin 32) :
    colMean2 (F := Ideal) h (ix2 (0 : Fin 1) j) = Ideal.div (∑ n : Fin 100000, h (ix2 n j)) (Ideal.ofBits .f32 0x47C35000#32) := by
  unfold colMean2
  show Ideal.div (broadcastInDim S1x32 ![1] bcast_S32_S1x32_1
      (Host.reduceAdd (F := Ideal) h (constant (F := Ideal) S_ .f32 0x00000000#32) reducesTo_S100000x32_S32_d0 h_S_) (ix2 (0 : Fin 1) j))
    (Ideal.ofBits .f32 0x47C35000#32) = _
  rw [bcastRowA32_apply, redCol32_apply]
  show Ideal.div (Ideal.ofBits .f32 0x00000000#32 + _) _ = _
  rw [Ideal.ofBits_zero_f32, zero_add]

/-- The sum of squared deviations from the column mean at j. -/
theorem sumSq2_apply (h : FVec Ideal S100000x32 .f32) (j : Fin 32) :
    sumSq2 (F := Ideal) h (ix1 j)
      = ∑ n : Fin 100000, (h (ix2 n j) - Ideal.div (∑ n' : Fin 100000, h (ix2 n' j)) (Ideal.ofBits .f32 0x47C35000#32))
          * (h (ix2 n j) - Ideal.div (∑ n' : Fin 100000, h (ix2 n' j)) (Ideal.ofBits .f32 0x47C35000#32)) := by
  unfold sumSq2
  beta_reduce
  rw [redCol32_apply]
  show Ideal.ofBits .f32 0x00000000#32 + _ = _
  rw [Ideal.ofBits_zero_f32, zero_add]
  refine Finset.sum_congr rfl fun n _ => ?_
  show (h (ix2 n j) - broadcastInDim S100000x32 ![0, 1] bcast_S1x32_S100000x32_0_1 (colMean2 (F := Ideal) h) (ix2 n j))
    * (h (ix2 n j) - broadcastInDim S100000x32 ![0, 1] bcast_S1x32_S100000x32_0_1 (colMean2 (F := Ideal) h) (ix2 n j)) = _
  rw [bcastRowB32_apply, colMean2_apply]

/-- The column variance at j: the sum of squared deviations divided by the node count. -/
theorem var2_apply (h : FVec Ideal S100000x32 .f32) (j : Fin 32) :
    var2 (F := Ideal) h (ix1 j)
      = Ideal.div (∑ n : Fin 100000, (h (ix2 n j) - Ideal.div (∑ n' : Fin 100000, h (ix2 n' j)) (Ideal.ofBits .f32 0x47C35000#32))
          * (h (ix2 n j) - Ideal.div (∑ n' : Fin 100000, h (ix2 n' j)) (Ideal.ofBits .f32 0x47C35000#32))) (Ideal.ofBits .f32 0x47C35000#32) := by
  rw [var2_eq]
  show Ideal.div (sumSq2 (F := Ideal) h (ix1 j)) (cnt (F := Ideal) _) = _
  rw [sumSq2_apply, cnt_eq]
  rfl

end Cert.ReferenceIdeal.RefAt

end
-- ==== Proof.RefAtLsm.lean ====
/- The row-wise log-softmax over the two output columns at one entry, at the extended reals: the row's maximum is the
   fold of max from minus infinity over the row's two entries (taking the maximum with minus infinity once more
   changes nothing), each entry is shifted by it, and the logarithm of the sum of the two exponentials of the shifted
   entries is subtracted. -/
import proofs.«158263_j27642409517219_1_alg».proof.Proof.RefStages
import Idealize.ShloMosaic.PureOps.Ideal.Laws
import Idealize.ShloMosaic.Lib.ValueIdx
import Idealize.ShloMosaic.Lib.Pipeline.Value

noncomputable section

open scoped BigOperators

namespace Cert.ReferenceIdeal.RefAt

open Cert.ReferenceIdeal Cert.ReferenceIdeal.RefRun Idealize.ShloMosaic Idealize.ShloMosaic.ValueIdx Idealize.SL.Sem
open Cert.ReferenceIdeal.Facts₀ Cert.ReferenceIdeal.Facts

theorem colA_apply {α : Type} (v : S100000.Idx → α) (n : Fin 100000) :
    broadcastInDim S100000x1 ![0] bcast_S100000_S100000x1_0 v (ix2 n (0 : Fin 1)) = v (ix1 n) :=
  broadcastInDim_apply _ _ _ (ix2 n (0 : Fin 1)) (ix1 n) (fun a => by match a with | ⟨0, _⟩ => rfl)

theorem colB_apply {α : Type} (v : S100000x1.Idx → α) (n : Fin 100000) (k : Fin 2) :
    broadcastInDim S100000x2 ![0, 1] bcast_S100000x1_S100000x2_0_1 v (ix2 n k) = v (ix2 n (0 : Fin 1)) :=
  broadcastInDim_apply _ _ _ (ix2 n k) (ix2 n (0 : Fin 1)) (fun a => by match a with | ⟨0, _⟩ => rfl | ⟨1, _⟩ => rfl)

/-- A sum along a row at node n: the initial value plus the sum of the row's two entries. -/
theorem redRow_apply (x : FVec Ideal S100000x2 .f32) (v : FVec Ideal S_ .f32) (n : Fin 100000) :
    Host.reduceAdd (F := Ideal) x v reducesTo_S100000x2_S100000_d1 h_S_ (ix1 n)
      = v (Shape.Idx.first h_S_) + ∑ j : Fin 2, x (ix2 n j) := by
  simp only [Host.reduceAdd, Ideal.hostReduceAdd_def]
  rw [Ideal.hostReduceAdd_single reducesTo_S100000x2_S100000_d1 (by decide)]
  refine congrArg (_ + ·) (Finset.sum_congr rfl fun k _ => ?_)
  exact congrArg x (funext fun a => Fin.ext (by match a with | ⟨0, _⟩ => rfl | ⟨1, _⟩ => rfl))

/-- The row maximum at node n. -/
theorem lsmMax_apply (h : FVec Ideal S100000x2 .f32) (n : Fin 100000) :
    lsmMax (F := Ideal) h (ix1 n) = (Finset.univ : Finset (Fin 2)).fold max (Ideal.ofBits .f32 0xFF800000#32) (fun j' => h (ix2 n j')) := by
  have hred : S100000x2.Reduces [1] S100000 := by decide
  unfold lsmMax
  show max (Ideal.ofBits .f32 0xFF800000#32) (Host.reduce FloatOps.maximumf h (constant (F := Ideal) S_ .f32 0xFF800000#32)
    reducesTo_S100000x2_S100000_d1 h_S_ (ix1 n)) = _
  rw [Host.reduce_eq_fold_single FloatOps.maximumf h _ reducesTo_S100000x2_S100000_d1 hred h_S_]
  have e : (h ∘ hred.lift (ix1 n)) = fun j' : Fin 2 => h (ix2 n j') :=
    funext fun k => congrArg h (funext fun a => Fin.ext (by match a with | ⟨0, _⟩ => rfl | ⟨1, _⟩ => rfl))
  rw [e]
  exact max_eq_right ((Finset.le_fold_max _).mpr (Or.inl le_rfl))

/-- The shifted entry. -/
theorem lsmShift_apply (h : FVec Ideal S100000x2 .f32) (mx : FVec Ideal S100000 .f32) (n : Fin 100000) (j : Fin 2) :
    lsmShift (F := Ideal) h mx (ix2 n j) = h (ix2 n j) - mx (ix1 n) := by
  unfold lsmShift
  show h (ix2 n j) - broadcastInDim S100000x2 ![0, 1] bcast_S100000x1_S100000x2_0_1
    (broadcastInDim S100000x1 ![0] bcast_S100000_S100000x1_0 mx) (ix2 n j) = _
  rw [colB_apply, colA_apply]

/-- The sum of the exponentials of a row. -/
theorem lsmSumExp_apply (sh : FVec Ideal S100000x2 .f32) (n : Fin 100000) :
    lsmSumExp (F := Ideal) sh (ix1 n) = ∑ j : Fin 2, Ideal.exp (sh (ix2 n j)) := by
  unfold lsmSumExp
  beta_reduce
  rw [redRow_apply]
  show Ideal.ofBits .f32 0x00000000#32 + _ = _
  rw [Ideal.ofBits_zero_f32, zero_add]
  rfl

/-- The shifted entry less the logarithm of the row's sum. -/
theorem lsmOut_apply (sh : FVec Ideal S100000x2 .f32) (se : FVec Ideal S100000 .f32) (n : Fin 100000) (j : Fin 2) :
    lsmOut (F := Ideal) sh se (ix2 n j) = sh (ix2 n j) - Ideal.log (se (ix1 n)) := by
  unfold lsmOut
  show sh (ix2 n j) - broadcastInDim S100000x2 ![0, 1] bcast_S100000x1_S100000x2_0_1
    (Host.log (F := Ideal) (broadcastInDim S100000x1 ![0] bcast_S100000_S100000x1_0 se)) (ix2 n j) = _
  rw [colB_apply]
  show _ - Ideal.log (broadcastInDim S100000x1 ![0] bcast_S100000_S100000x1_0 se (ix2 n (0 : Fin 1))) = _
  rw [colA_apply]

/-- The log-softmax at (n, j). -/
theorem logSoftmax_apply (h : FVec Ideal S100000x2 .f32) (n : Fin 100000) (j : Fin 2) :
    logSoftmax (F := Ideal) h (ix2 n j)
      = (h (ix2 n j) - (Finset.univ : Finset (Fin 2)).fold max (Ideal.ofBits .f32 0xFF800000#32) (fun j' => h (ix2 n j')))
        - Ideal.log (∑ j2 : Fin 2, Ideal.exp (h (ix2 n j2) - (Finset.univ : Finset (Fin 2)).fold max (Ideal.ofBits .f32 0xFF800000#32) (fun j' => h (ix2 n j')))) := by
  unfold logSoftmax
  rw [lsmOut_apply, lsmShift_apply, lsmSumExp_apply, lsmMax_apply]
  refine congrArg (fun t => _ - Ideal.log t) (Finset.sum_congr rfl fun j2 _ => ?_)
  rw [lsmShift_apply, lsmMax_apply]

end Cert.ReferenceIdeal.RefAt

end
-- ==== Proof.RefAtReal.lean ====
/- Real entries pass through the gather and the scatter-add, for any dimension numbers: a gathered entry is an entry of
   the operand; a scatter-add gives, at each entry, the operand's entry plus a finite sum of update entries. So the
   gathered messages and the aggregated rows of real features are real, and every in-degree (ones added into zeros)
   is real. -/
import proofs.«158263_j27642409517219_1_alg».proof.Proof.RefStages
import proofs.«158263_j27642409517219_1_alg».proof.Proof.LibReal
import Idealize.ShloMosaic.PureOps.Ideal
import Idealize.ShloMosaic.Lib.ValueIdx

noncomputable section

open scoped BigOperators

namespace Cert.ReferenceIdeal.RefAt

open Cert.ReferenceIdeal Cert.ReferenceIdeal.RefRun Idealize.ShloMosaic Idealize.ShloMosaic.ValueIdx Idealize.SL.Sem
open Cert.ReferenceIdeal.Facts₀ Cert.ReferenceIdeal.Facts

open Cert.Gcn

/-- A gathered entry is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A scatter-add's entry is the operand's entry plus a finite sum of update entries. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  show IsReal (Ideal.hostScatterAdd d x idx upd i)
  unfold Ideal.hostScatterAdd
  exact (hx i).add (IsReal.sum _ _ fun j _ => hu j)

/-- The zero word broadcast to any shape is real at every index. -/
theorem isReal_zeros {t : Shape} (fact : S_.BroadcastsInDim t (![] : Fin 0 → Fin t.rank)) (i : t.Idx) :
    IsReal (broadcastInDim t ![] fact (constant (F := Ideal) S_ .f32 0x00000000#32) i) := by
  show IsReal (Ideal.ofBits .f32 0x00000000#32)
  rw [ofBits_zero]; exact IsReal.zero

/-- The one word broadcast to any shape is real at every index. -/
theorem isReal_ones {t : Shape} (fact : S_.BroadcastsInDim t (![] : Fin 0 → Fin t.rank)) (i : t.Idx) :
    IsReal (broadcastInDim t ![] fact (constant (F := Ideal) S_ .f32 0x3F800000#32) i) :=
  isReal_ofBits_one

/-- Every in-degree is a real number. -/
theorem deg_isReal (di : IVec S1600000x1 32) (i : S100000.Idx) : IsReal (deg (F := Ideal) di i) := by
  unfold deg
  exact isReal_scatterAdd _ _ _ _ (isReal_zeros _) (isReal_ones _) _

/-- Layer 1: gathered rows of an array of reals are reals. -/
theorem msg1_isReal (x : FVec Ideal S100000x15 .f32) (si : IVec S1600000x1 32) (hx : ∀ i, IsReal (x i))
    (j : S1600000x15.Idx) : IsReal (msg1 (F := Ideal) x si j) := by
  unfold msg1
  exact isReal_gather _ _ _ hx _

/-- Layer 1: rows of reals added into zeros give reals. -/
theorem agg1_isReal (ms : FVec Ideal S1600000x15 .f32) (di : IVec S1600000x1 32) (hm : ∀ j, IsReal (ms j))
    (i : S100000x15.Idx) : IsReal (agg1 (F := Ideal) ms di i) := by
  unfold agg1
  exact isReal_scatterAdd _ _ _ _ (isReal_zeros _) hm _

/-- Layer 2: gathered rows of an array of reals are reals. -/
theorem msg2_isReal (x : FVec Ideal S100000x64 .f32) (si : IVec S1600000x1 32) (hx : ∀ i, IsReal (x i))
    (j : S1600000x64.Idx) : IsReal (msg2 (F := Ideal) x si j) := by
  unfold msg2
  exact isReal_gather _ _ _ hx _

/-- Layer 2: rows of reals added into zeros give reals. -/
theorem agg2_isReal (ms : FVec Ideal S1600000x64 .f32) (di : IVec S1600000x1 32) (hm : ∀ j, IsReal (ms j))
    (i : S100000x64.Idx) : IsReal (agg2 (F := Ideal) ms di i) := by
  unfold agg2
  exact isReal_scatterAdd _ _ _ _ (isReal_zeros _) hm _

/-- Layer 3: gathered rows of an array of reals are reals. -/
theorem msg3_isReal (x : FVec Ideal S100000x32 .f32) (si : IVec S1600000x1 32) (hx : ∀ i, IsReal (x i))
    (j : S1600000x32.Idx) : IsReal (msg3 (F := Ideal) x si j) := by
  unfold msg3
  exact isReal_gather _ _ _ hx _

/-- Layer 3: rows of reals added into zeros give reals. -/
theorem agg3_isReal (ms : FVec Ideal S1600000x32 .f32) (di : IVec S1600000x1 32) (hm : ∀ j, IsReal (ms j))
    (i : S100000x32.Idx) : IsReal (agg3 (F := Ideal) ms di i) := by
  unfold agg3
  exact isReal_scatterAdd _ _ _ _ (isReal_zeros _) hm _

end Cert.ReferenceIdeal.RefAt

end
-- ==== Proof.RefNet.lean ====
/- The reference network layer by layer in the specification's forms, at the extended reals: each layer's linear part
   is the specification's linear form over the neighbour mean (the aggregated rows divided by the clamped in-degree),
   the first two layers are normalised with the column mean and the mean squared deviation and rectified, and the
   result is the row-wise log-softmax of the third layer's linear part. Real inputs give real in-degrees and real
   aggregated rows. -/
import proofs.«158263_j27642409517219_1_alg».proof.Proof.RefRun
import proofs.«158263_j27642409517219_1_alg».proof.Proof.RefAtLin
import proofs.«158263_j27642409517219_1_alg».proof.Proof.RefAtStat
import proofs.«158263_j27642409517219_1_alg».proof.Proof.RefAtLsm
import proofs.«158263_j27642409517219_1_alg».proof.Proof.RefAtReal
import proofs.«158263_j27642409517219_1_alg».proof.Proof.Arr

noncomputable section

open scoped BigOperators

namespace Cert.ReferenceIdeal.RefAt

open Cert.ReferenceIdeal Cert.ReferenceIdeal.RefRun Idealize.ShloMosaic Idealize.ShloMosaic.ValueIdx Idealize.SL.Sem
open Cert.ReferenceIdeal.Facts₀ Cert.ReferenceIdeal.Facts

open Cert.Sage (mat vec)
open Cert.Gcn (IsReal)

variable (x : S100000x15.Idx → EReal) (e : S2x1600000.Idx → BitVec 32) (W1l : S64x15.Idx → EReal) (b1l : S64.Idx → EReal) (W1r : S64x15.Idx → EReal) (g1 : S64.Idx → EReal) (be1 : S64.Idx → EReal) (W2l : S32x64.Idx → EReal) (b2l : S32.Idx → EReal) (W2r : S32x64.Idx → EReal) (g2 : S32.Idx → EReal) (be2 : S32.Idx → EReal) (W3l : S2x32.Idx → EReal) (b3l : S2.Idx → EReal) (W3r : S2x32.Idx → EReal)

/-- Layer 1's neighbour mean at an entry, in the specification's form. -/
theorem m1_at (n : Fin 100000) (k : Fin 15) :
    m1 (F := Ideal) x e (ix2 n k)
      = Cert.Sage.meanR (mat (agg1 (F := Ideal) (msg1 (F := Ideal) x (src (F := Ideal) e)) (dst (F := Ideal) e))) (vec (deg (F := Ideal) (dst (F := Ideal) e))) n k := by
  unfold m1 dmax
  rw [mean1_apply, degMax_apply]
  rfl

/-- Layer 1's linear part at an entry, in the specification's form. -/
theorem h1_at (n : Fin 100000) (j : Fin 64) :
    (h1 (F := Ideal) x e W1l b1l W1r) (ix2 n j) = Cert.Sage.linR (mat x) (Cert.Sage.meanR (mat (agg1 (F := Ideal) (msg1 (F := Ideal) x (src (F := Ideal) e)) (dst (F := Ideal) e))) (vec (deg (F := Ideal) (dst (F := Ideal) e)))) (mat W1l) (vec b1l) (mat W1r) n j := by
  unfold h1
  rw [lin1_apply]
  simp only [m1_at]
  rfl

theorem rh1 : mat (h1 (F := Ideal) x e W1l b1l W1r) = Cert.Sage.linR (mat x) (Cert.Sage.meanR (mat (agg1 (F := Ideal) (msg1 (F := Ideal) x (src (F := Ideal) e)) (dst (F := Ideal) e))) (vec (deg (F := Ideal) (dst (F := Ideal) e)))) (mat W1l) (vec b1l) (mat W1r) :=
  funext fun n => funext fun j => h1_at x e W1l b1l W1r n j

theorem ra1 : mat (a1 (F := Ideal) x e W1l b1l W1r g1 be1) = Cert.Sage.bnRelu (mat (h1 (F := Ideal) x e W1l b1l W1r)) (Cert.Sage.muR (mat (h1 (F := Ideal) x e W1l b1l W1r))) (Cert.Sage.varR (mat (h1 (F := Ideal) x e W1l b1l W1r))) (vec g1) (vec be1) := by
  funext n j
  show (a1 (F := Ideal) x e W1l b1l W1r g1 be1) (ix2 n j) = _
  unfold a1
  rw [bnRelu1_apply, mu1_apply, var1_apply]
  rfl

/-- Layer 2's neighbour mean at an entry, in the specification's form. -/
theorem m2_at (n : Fin 100000) (k : Fin 64) :
    m2 (F := Ideal) x e W1l b1l W1r g1 be1 (ix2 n k)
      = Cert.Sage.meanR (mat (agg2 (F := Ideal) (msg2 (F := Ideal) (a1 (F := Ideal) x e W1l b1l W1r g1 be1) (src (F := Ideal) e)) (dst (F := Ideal) e))) (vec (deg (F := Ideal) (dst (F := Ideal) e))) n k := by
  unfold m2 dmax
  rw [mean2_apply, degMax_apply]
  rfl

/-- Layer 2's linear part at an entry, in the specification's form. -/
theorem h2_at (n : Fin 100000) (j : Fin 32) :
    (h2 (F := Ideal) x e W1l b1l W1r g1 be1 W2l b2l W2r) (ix2 n j) = Cert.Sage.linR (mat (a1 (F := Ideal) x e W1l b1l W1r g1 be1)) (Cert.Sage.meanR (mat (agg2 (F := Ideal) (msg2 (F := Ideal) (a1 (F := Ideal) x e W1l b1l W1r g1 be1) (src (F := Ideal) e)) (dst (F := Ideal) e))) (vec (deg (F := Ideal) (dst (F := Ideal) e)))) (mat W2l) (vec b2l) (mat W2r) n j := by
  unfold h2
  rw [lin2_apply]
  simp only [m2_at]
  rfl

theorem rh2 : mat (h2 (F := Ideal) x e W1l b1l W1r g1 be1 W2l b2l W2r) = Cert.Sage.linR (mat (a1 (F := Ideal) x e W1l b1l W1r g1 be1)) (Cert.Sage.meanR (mat (agg2 (F := Ideal) (msg2 (F := Ideal) (a1 (F := Ideal) x e W1l b1l W1r g1 be1) (src (F := Ideal) e)) (dst (F := Ideal) e))) (vec (deg (F := Ideal) (dst (F := Ideal) e)))) (mat W2l) (vec b2l) (mat W2r) :=
  funext fun n => funext fun j => h2_at x e W1l b1l W1r g1 be1 W2l b2l W2r n j

theorem ra2 : mat (a2 (F := Ideal) x e W1l b1l W1r g1 be1 W2l b2l W2r g2 be2) = Cert.Sage.bnRelu (mat (h2 (F := Ideal) x e W1l b1l W1r g1 be1 W2l b2l W2r)) (Cert.Sage.muR (mat (h2 (F := Ideal) x e W1l b1l W1r g1 be1 W2l b2l W2r))) (Cert.Sage.varR (mat (h2 (F := Ideal) x e W1l b1l W1r g1 be1 W2l b2l W2r))) (vec g2) (vec be2) := by
  funext n j
  show (a2 (F := Ideal) x e W1l b1l W1r g1 be1 W2l b2l W2r g2 be2) (ix2 n j) = _
  unfold a2
  rw [bnRelu2_apply, mu2_apply, var2_apply]
  rfl

/-- Layer 3's neighbour mean at an entry, in the specification's form. -/
theorem m3_at (n : Fin 100000) (k : Fin 32) :
    m3 (F := Ideal) x e W1l b1l W1r g1 be1 W2l b2l W2r g2 be2 (ix2 n k)
      = Cert.Sage.meanR (mat (agg3 (F := Ideal) (msg3 (F := Ideal) (a2 (F := Ideal) x e W1l b1l W1r g1 be1 W2l b2l W2r g2 be2) (src (F := Ideal) e)) (dst (F := Ideal) e))) (vec (deg (F := Ideal) (dst (F := Ideal) e))) n k := by
  unfold m3 dmax
  rw [mean3_apply, degMax_apply]
  rfl

/-- Layer 3's linear part at an entry, in the specification's form. -/
theorem h3_at (n : Fin 100000) (j : Fin 2) :
    (h3 (F := Ideal) x e W1l b1l W1r g1 be1 W2l b2l W2r g2 be2 W3l b3l W3r) (ix2 n j) = Cert.Sage.linR (mat (a2 (F := Ideal) x e W1l b1l W1r g1 be1 W2l b2l W2r g2 be2)) (Cert.Sage.meanR (mat (agg3 (F := Ideal) (msg3 (F := Ideal) (a2 (F := Ideal) x e W1l b1l W1r g1 be1 W2l b2l W2r g2 be2) (src (F := Ideal) e)) (dst (F := Ideal) e))) (vec (deg (F := Ideal) (dst (F := Ideal) e)))) (mat W3l) (vec b3l) (mat W3r) n j := by
  unfold h3
  rw [lin3_apply]
  simp only [m3_at]
  rfl

theorem rh3 : mat (h3 (F := Ideal) x e W1l b1l W1r g1 be1 W2l b2l W2r g2 be2 W3l b3l W3r) = Cert.Sage.linR (mat (a2 (F := Ideal) x e W1l b1l W1r g1 be1 W2l b2l W2r g2 be2)) (Cert.Sage.meanR (mat (agg3 (F := Ideal) (msg3 (F := Ideal) (a2 (F := Ideal) x e W1l b1l W1r g1 be1 W2l b2l W2r g2 be2) (src (F := Ideal) e)) (dst (F := Ideal) e))) (vec (deg (F := Ideal) (dst (F := Ideal) e)))) (mat W3l) (vec b3l) (mat W3r) :=
  funext fun n => funext fun j => h3_at x e W1l b1l W1r g1 be1 W2l b2l W2r g2 be2 W3l b3l W3r n j

theorem rout : mat (out (F := Ideal) x e W1l b1l W1r g1 be1 W2l b2l W2r g2 be2 W3l b3l W3r) = Cert.Sage.logSoftmax (Cert.Sage.linR (mat (a2 (F := Ideal) x e W1l b1l W1r g1 be1 W2l b2l W2r g2 be2)) (Cert.Sage.meanR (mat (agg3 (F := Ideal) (msg3 (F := Ideal) (a2 (F := Ideal) x e W1l b1l W1r g1 be1 W2l b2l W2r g2 be2) (src (F := Ideal) e)) (dst (F := Ideal) e))) (vec (deg (F := Ideal) (dst (F := Ideal) e)))) (mat W3l) (vec b3l) (mat W3r)) := by
  funext n j
  show (out (F := Ideal) x e W1l b1l W1r g1 be1 W2l b2l W2r g2 be2 W3l b3l W3r) (ix2 n j) = _
  unfold out
  rw [logSoftmax_apply]
  simp only [h3_at]
  rfl

/-- Every in-degree is real. -/
theorem real_deg (n : Fin 100000) : IsReal (vec (deg (F := Ideal) (dst (F := Ideal) e)) n) := deg_isReal _ _

/-- Real features give real aggregated rows, in each layer. -/
theorem real_agg1 (hx : ∀ n k, IsReal (mat x n k)) (n : Fin 100000) (k : Fin 15) :
    IsReal (mat (agg1 (F := Ideal) (msg1 (F := Ideal) x (src (F := Ideal) e)) (dst (F := Ideal) e)) n k) :=
  agg1_isReal _ _ (fun j => msg1_isReal x _ (fun i => by rw [ValueIdx.eq_ix2 i]; exact hx _ _) j) _
theorem real_agg2 (y : S100000x64.Idx → EReal) (hy : ∀ n k, IsReal (mat y n k)) (n : Fin 100000) (k : Fin 64) :
    IsReal (mat (agg2 (F := Ideal) (msg2 (F := Ideal) y (src (F := Ideal) e)) (dst (F := Ideal) e)) n k) :=
  agg2_isReal _ _ (fun j => msg2_isReal y _ (fun i => by rw [ValueIdx.eq_ix2 i]; exact hy _ _) j) _
theorem real_agg3 (y : S100000x32.Idx → EReal) (hy : ∀ n k, IsReal (mat y n k)) (n : Fin 100000) (k : Fin 32) :
    IsReal (mat (agg3 (F := Ideal) (msg3 (F := Ideal) y (src (F := Ideal) e)) (dst (F := Ideal) e)) n k) :=
  agg3_isReal _ _ (fun j => msg3_isReal y _ (fun i => by rw [ValueIdx.eq_ix2 i]; exact hy _ _) j) _

end Cert.ReferenceIdeal.RefAt

end
-- ==== Proof.Finite.lean ====
/-
  What the precondition says: each of the fourteen float argument arrays passes "every entry's absolute value is below
  +∞", and the conjunction of the fourteen tests is true. An extended real whose absolute value is below +∞ is neither
  infinity, hence a real number. So under the precondition every entry of every float argument is a real number.
-/
import proofs.«158263_j27642409517219_1_alg».proof.Pre_finite_inputs
import proofs.«158263_j27642409517219_1_alg».proof.Proof.Gen.Pre_finite_inputs
import proofs.«158263_j27642409517219_1_alg».proof.Proof.LibReal
import Idealize.ShloMosaic.PureOps.Ideal.Laws
import Idealize.ShloMosaic.Lib.ReduceAll
import Idealize.ShloMosaic.Lib.ValueIdx

noncomputable section

namespace Cert.Finite

open Idealize.ShloMosaic Cert.Gcn Cert.Pre_finite_inputs

/-- An extended real whose absolute value is below +∞ is a real number. -/
theorem isReal_of_abs_lt_top (x : EReal) (h : Ideal.cmp .olt (max x (-x)) (Ideal.ofBits .f32 0x7F800000#32) = 1#1) : IsReal x := by
  rw [ofBits_pos_inf] at h
  have hlt : max x (-x) < ⊤ := by
    by_contra hn
    simp [Ideal.cmp, hn] at h
  refine isReal_of_ne ?_ ?_
  · rintro rfl; simp at hlt
  · rintro rfl; simp at hlt

instance : Subsingleton S_.Idx := ⟨fun a b => funext fun d => d.elim0⟩

theorem andi_apply {s : Shape} (x y : IVec s 1) (i : s.Idx) : andi x y i = IntOp.andi (x i) (y i) := rfl

/-- Under the precondition every entry of every float argument is a real number. -/
theorem real_of_pre [hF : Cert.Pre_finite_inputs.Facts] (a0 : FVec Ideal S100000x15 .f32) (a1 : IVec S2x1600000 32) (a2 : FVec Ideal S64x15 .f32) (a3 : FVec Ideal S64 .f32) (a4 : FVec Ideal S64x15 .f32) (a5 : FVec Ideal S64 .f32) (a6 : FVec Ideal S64 .f32) (a7 : FVec Ideal S32x64 .f32) (a8 : FVec Ideal S32 .f32) (a9 : FVec Ideal S32x64 .f32) (a10 : FVec Ideal S32 .f32) (a11 : FVec Ideal S32 .f32) (a12 : FVec Ideal S2x32 .f32) (a13 : FVec Ideal S2 .f32) (a14 : FVec Ideal S2x32 .f32)
    (h : Cert.Pre_finite_inputs.fn (F := Ideal) a0 a1 a2 a3 a4 a5 a6 a7 a8 a9 a10 a11 a12 a13 a14 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) := by
  have h0 := congrFun h ValueIdx.ix0
  dsimp only [fn, fn_part1, fn_part2, fn_part3, fn_part4] at h0
  simp only [andi_apply, IntOp.andi_eq_one] at h0
  obtain ⟨⟨⟨⟨⟨⟨⟨⟨⟨⟨⟨⟨⟨h0, h2⟩, h3⟩, h4⟩, h5⟩, h6⟩, h7⟩, h8⟩, h9⟩, h10⟩, h11⟩, h12⟩, h13⟩, h14⟩ := h0
  exact ⟨fun i => isReal_of_abs_lt_top _ (Host.reduce_andi_all _ _ _ _ ValueIdx.ix0 h0 i),
    fun i => isReal_of_abs_lt_top _ (Host.reduce_andi_all _ _ _ _ ValueIdx.ix0 h2 i),
    fun i => isReal_of_abs_lt_top _ (Host.reduce_andi_all _ _ _ _ ValueIdx.ix0 h3 i),
    fun i => isReal_of_abs_lt_top _ (Host.reduce_andi_all _ _ _ _ ValueIdx.ix0 h4 i),
    fun i => isReal_of_abs_lt_top _ (Host.reduce_andi_all _ _ _ _ ValueIdx.ix0 h5 i),
    fun i => isReal_of_abs_lt_top _ (Host.reduce_andi_all _ _ _ _ ValueIdx.ix0 h6 i),
    fun i => isReal_of_abs_lt_top _ (Host.reduce_andi_all _ _ _ _ ValueIdx.ix0 h7 i),
    fun i => isReal_of_abs_lt_top _ (Host.reduce_andi_all _ _ _ _ ValueIdx.ix0 h8 i),
    fun i => isReal_of_abs_lt_top _ (Host.reduce_andi_all _ _ _ _ ValueIdx.ix0 h9 i),
    fun i => isReal_of_abs_lt_top _ (Host.reduce_andi_all _ _ _ _ ValueIdx.ix0 h10 i),
    fun i => isReal_of_abs_lt_top _ (Host.reduce_andi_all _ _ _ _ ValueIdx.ix0 h11 i),
    fun i => isReal_of_abs_lt_top _ (Host.reduce_andi_all _ _ _ _ ValueIdx.ix0 h12 i),
    fun i => isReal_of_abs_lt_top _ (Host.reduce_andi_all _ _ _ _ ValueIdx.ix0 h13 i),
    fun i => isReal_of_abs_lt_top _ (Host.reduce_andi_all _ _ _ _ ValueIdx.ix0 h14 i)⟩

end Cert.Finite

end
-- ==== Proof.Chains.lean ====
/-
  The two programs aggregate through the same chain of operations: the edge list's two rows, the sending index counted
  from the end when negative, the rows taken at the sending nodes and added at the receiving nodes from zero, and the
  in-degree as ones added at the receiving nodes. Spelled once per program, the two spellings are one function.
-/
import proofs.«158263_j27642409517219_1_alg».proof.Proof.RunHost
import proofs.«158263_j27642409517219_1_alg».proof.Proof.RefRun
import Idealize.ShloMosaic.PureOps.Ideal

noncomputable section

namespace Cert.Join

open Idealize.ShloMosaic

abbrev Edges : Type := (⟨Cert.KernelIdeal.S2x1600000, .i32⟩ : BufTy).Contents (Elt Ideal)

theorem degK_eq (e : Edges) :
    Cert.KernelIdeal.Vals.degK (F := Ideal) e = Cert.ReferenceIdeal.RefRun.deg (F := Ideal) (Cert.ReferenceIdeal.RefRun.dst (F := Ideal) e) := rfl

theorem aggK15_eq (a : Cert.KernelIdeal.S100000x15.Idx → EReal) (e : Edges) :
    Cert.KernelIdeal.Vals.aggK15 (F := Ideal) a e = Cert.ReferenceIdeal.RefRun.agg1 (F := Ideal) (Cert.ReferenceIdeal.RefRun.msg1 (F := Ideal) a (Cert.ReferenceIdeal.RefRun.src (F := Ideal) e)) (Cert.ReferenceIdeal.RefRun.dst (F := Ideal) e) := rfl

theorem aggK64_eq (a : Cert.KernelIdeal.S100000x64.Idx → EReal) (e : Edges) :
    Cert.KernelIdeal.Vals.aggK64 (F := Ideal) a e = Cert.ReferenceIdeal.RefRun.agg2 (F := Ideal) (Cert.ReferenceIdeal.RefRun.msg2 (F := Ideal) a (Cert.ReferenceIdeal.RefRun.src (F := Ideal) e)) (Cert.ReferenceIdeal.RefRun.dst (F := Ideal) e) := rfl

theorem aggK32_eq (a : Cert.KernelIdeal.S100000x32.Idx → EReal) (e : Edges) :
    Cert.KernelIdeal.Vals.aggK32 (F := Ideal) a e = Cert.ReferenceIdeal.RefRun.agg3 (F := Ideal) (Cert.ReferenceIdeal.RefRun.msg3 (F := Ideal) a (Cert.ReferenceIdeal.RefRun.src (F := Ideal) e)) (Cert.ReferenceIdeal.RefRun.dst (F := Ideal) e) := rfl

end Cert.Join

end
-- ==== Proof.JoinCore.lean ====
/-
  The join, stated over arrays alone. Two computations of the same three-layer network are given layer by layer: one
  multiplies neighbour sums by the reciprocal clamped degree and takes the batch variance as mean square less squared
  mean; the other divides by the clamped degree and takes the variance as the mean squared deviation. Both aggregate
  through the same maps. If the features, the weights and the degrees are real numbers and aggregation keeps real entries
  real, the two computations agree layer by layer: equal linear parts by the reciprocal law, hence real entries, hence
  equal statistics by the variance identity, hence equal normalised layers, which feed the same aggregation next.
-/
import proofs.«158263_j27642409517219_1_alg».proof.Proof.Arr

noncomputable section

namespace Cert.Sage

open Idealize.ShloMosaic Cert.Gcn

abbrev Arr2 (A B : ℕ) : Type := (⟨2, ![A, B]⟩ : Shape).Idx → EReal
abbrev Arr1 (A : ℕ) : Type := (⟨1, ![A]⟩ : Shape).Idx → EReal

theorem join_core
    (x : Arr2 100000 15) (W1l W1r : Arr2 64 15) (b1l g1 be1 : Arr1 64)
    (W2l W2r : Arr2 32 64) (b2l g2 be2 : Arr1 32) (W3l W3r : Arr2 2 32) (b3l : Arr1 2)
    (DEG : Fin 100000 → EReal)
    (A15 : Arr2 100000 15 → Arr2 100000 15) (A64 : Arr2 100000 64 → Arr2 100000 64) (A32 : Arr2 100000 32 → Arr2 100000 32)
    (hx : ∀ n k, IsReal (mat x n k))
    (hW1l : ∀ j k, IsReal (mat W1l j k)) (hb1l : ∀ j, IsReal (vec b1l j)) (hW1r : ∀ j k, IsReal (mat W1r j k))
    (hg1 : ∀ j, IsReal (vec g1 j)) (hbe1 : ∀ j, IsReal (vec be1 j))
    (hW2l : ∀ j k, IsReal (mat W2l j k)) (hb2l : ∀ j, IsReal (vec b2l j)) (hW2r : ∀ j k, IsReal (mat W2r j k))
    (hg2 : ∀ j, IsReal (vec g2 j)) (hbe2 : ∀ j, IsReal (vec be2 j))
    (hD : ∀ n, IsReal (DEG n))
    (hA15 : ∀ a, (∀ n k, IsReal (mat a n k)) → ∀ n k, IsReal (mat (A15 a) n k))
    (hA64 : ∀ a, (∀ n k, IsReal (mat a n k)) → ∀ n k, IsReal (mat (A64 a) n k))
    (Kh1 Ka1 Rh1 Ra1 : Arr2 100000 64) (Kh2 Ka2 Rh2 Ra2 : Arr2 100000 32) (Kout Rout : Arr2 100000 2)
    (kh1 : mat Kh1 = lin (mat x) (mat (A15 x)) (invDeg DEG) (mat W1l) (vec b1l) (mat W1r))
    (ka1 : mat Ka1 = bnRelu (mat Kh1) (meanOf (colSum (mat Kh1))) (varOf (colSum (mat Kh1)) (colSumSq (mat Kh1))) (vec g1) (vec be1))
    (kh2 : mat Kh2 = lin (mat Ka1) (mat (A64 Ka1)) (invDeg DEG) (mat W2l) (vec b2l) (mat W2r))
    (ka2 : mat Ka2 = bnRelu (mat Kh2) (meanOf (colSum (mat Kh2))) (varOf (colSum (mat Kh2)) (colSumSq (mat Kh2))) (vec g2) (vec be2))
    (kout : mat Kout = logSoftmax (lin (mat Ka2) (mat (A32 Ka2)) (invDeg DEG) (mat W3l) (vec b3l) (mat W3r)))
    (rh1 : mat Rh1 = linR (mat x) (meanR (mat (A15 x)) DEG) (mat W1l) (vec b1l) (mat W1r))
    (ra1 : mat Ra1 = bnRelu (mat Rh1) (muR (mat Rh1)) (varR (mat Rh1)) (vec g1) (vec be1))
    (rh2 : mat Rh2 = linR (mat Ra1) (meanR (mat (A64 Ra1)) DEG) (mat W2l) (vec b2l) (mat W2r))
    (ra2 : mat Ra2 = bnRelu (mat Rh2) (muR (mat Rh2)) (varR (mat Rh2)) (vec g2) (vec be2))
    (rout : mat Rout = logSoftmax (linR (mat Ra2) (meanR (mat (A32 Ra2)) DEG) (mat W3l) (vec b3l) (mat W3r))) :
    Kout = Rout := by
  -- layer 1: the linear parts agree, and are real
  have e1 : Kh1 = Rh1 := mat_inj (by rw [kh1, rh1, linR_meanR_eq_lin _ _ _ hD])
  have real1 : ∀ n j, IsReal (mat Kh1 n j) := by
    rw [kh1]; exact isReal_lin hx (hA15 x hx) (isReal_invDeg DEG hD) hW1l hb1l hW1r
  -- layer 1: the statistics agree on real entries, so the normalised layers agree, and are real
  have e2 : Ka1 = Ra1 := mat_inj (by rw [ka1, ra1, ← e1, muR_eq_meanOf, varR_eq_varOf _ real1])
  have real2 : ∀ n j, IsReal (mat Ka1 n j) := by
    rw [ka1]
    exact isReal_bnRelu real1 (isReal_meanOf (isReal_colSum real1)) (fun j => varOf_nonneg_real _ real1 j) hg1 hbe1
  -- layer 2
  have e3 : Kh2 = Rh2 := mat_inj (by rw [kh2, rh2, ← e2, linR_meanR_eq_lin _ _ _ hD])
  have real3 : ∀ n j, IsReal (mat Kh2 n j) := by
    rw [kh2]; exact isReal_lin real2 (hA64 Ka1 real2) (isReal_invDeg DEG hD) hW2l hb2l hW2r
  have e4 : Ka2 = Ra2 := mat_inj (by rw [ka2, ra2, ← e3, muR_eq_meanOf, varR_eq_varOf _ real3])
  -- layer 3: only the reciprocal law is needed
  exact mat_inj (by rw [kout, rout, ← e4, linR_meanR_eq_lin _ _ _ hD])

end Cert.Sage

end
-- ==== Proof.Join.lean ====
/-
  The two idealized programs end with equal results. Run from memories that agree on the arguments, the kernel's five
  regions leave the specification's layers (the network read off its run), the reference's stages are the reference's
  forms of the same layers, both aggregate through one chain, the precondition makes every float argument real, and
  the layer-by-layer join then identifies the two result arrays.
-/
import proofs.«158263_j27642409517219_1_alg».proof.Defs
import proofs.«158263_j27642409517219_1_alg».proof.Proof.Run5
import proofs.«158263_j27642409517219_1_alg».proof.Proof.KernelNet
import proofs.«158263_j27642409517219_1_alg».proof.Proof.Val4
import proofs.«158263_j27642409517219_1_alg».proof.Proof.RefNet
import proofs.«158263_j27642409517219_1_alg».proof.Proof.Finite
import proofs.«158263_j27642409517219_1_alg».proof.Proof.Chains
import proofs.«158263_j27642409517219_1_alg».proof.Proof.JoinCore

set_option maxRecDepth 16384

noncomputable section

namespace Cert.Join

open Idealize.ShloMosaic Idealize.ShloMosaic.TcCoe Idealize.ShloMosaic.ValueIdx Idealize.SL.Sem
open Cert.Sage Cert.Gcn
open Cert.KernelIdeal Cert.KernelIdeal.Regs Cert.KernelIdeal.Vals

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel's result array is the reference's result term of the same arguments, given what the two accumulating
    regions leave (their three value theorems each) and real arguments. -/
theorem out_eq_of
    (h06 : ∀ (n : Fin 100000) (j : Fin 64), ((dat0 (F := Ideal) (V1 m ρ) c).arrAt 6 cfg0.N : S100000x64.Idx → EReal) (ix2 n j) = linAt0 m ρ c n j)
    (h07 : ∀ j : Fin 64, ((dat0 (F := Ideal) (V1 m ρ) c).arrAt 7 cfg0.N : S1x64.Idx → EReal) (ix2 (0 : Fin 1) j) = colSum (linAt0 m ρ c) j)
    (h08 : ∀ j : Fin 64, ((dat0 (F := Ideal) (V1 m ρ) c).arrAt 8 cfg0.N : S1x64.Idx → EReal) (ix2 (0 : Fin 1) j) = colSumSq (linAt0 m ρ c) j)
    (h26 : ∀ (n : Fin 100000) (j : Fin 32), ((dat2 (F := Ideal) (V5 m ρ) c).arrAt 6 cfg2.N : S100000x32.Idx → EReal) (ix2 n j) = linAt2 m ρ c n j)
    (h27 : ∀ j : Fin 32, ((dat2 (F := Ideal) (V5 m ρ) c).arrAt 7 cfg2.N : S1x32.Idx → EReal) (ix2 (0 : Fin 1) j) = colSum (linAt2 m ρ c) j)
    (h28 : ∀ j : Fin 32, ((dat2 (F := Ideal) (V5 m ρ) c).arrAt 8 cfg2.N : S1x32.Idx → EReal) (ix2 (0 : Fin 1) j) = colSumSq (linAt2 m ρ c) j)
    (hx : ∀ i, IsReal (Kx m c i)) (hW1l : ∀ i, IsReal (W1l m c i)) (hb1l : ∀ i, IsReal (b1l m c i)) (hW1r : ∀ i, IsReal (W1r m c i))
    (hg1 : ∀ i, IsReal (g1 m c i)) (hbe1 : ∀ i, IsReal (beta1 m c i))
    (hW2l : ∀ i, IsReal (W2l m c i)) (hb2l : ∀ i, IsReal (b2l m c i)) (hW2r : ∀ i, IsReal (W2r m c i))
    (hg2 : ∀ i, IsReal (g2 m c i)) (hbe2 : ∀ i, IsReal (beta2 m c i)) :
    K_out m ρ c = Cert.ReferenceIdeal.RefRun.out (F := Ideal) (Kx m c) (Ke m c) (W1l m c) (b1l m c) (W1r m c) (g1 m c) (beta1 m c) (W2l m c) (b2l m c) (W2r m c) (g2 m c) (beta2 m c) (W3l m c) (b3l m c) (W3r m c) := by
  refine join_core (Kx m c) (W1l m c) (W1r m c) (b1l m c) (g1 m c) (beta1 m c) (W2l m c) (W2r m c) (b2l m c) (g2 m c) (beta2 m c)
    (W3l m c) (W3r m c) (b3l m c)
    (vec (Cert.ReferenceIdeal.RefRun.deg (F := Ideal) (Cert.ReferenceIdeal.RefRun.dst (F := Ideal) (Ke m c))))
    (fun a => Cert.ReferenceIdeal.RefRun.agg1 (F := Ideal) (Cert.ReferenceIdeal.RefRun.msg1 (F := Ideal) a (Cert.ReferenceIdeal.RefRun.src (F := Ideal) (Ke m c))) (Cert.ReferenceIdeal.RefRun.dst (F := Ideal) (Ke m c)))
    (fun a => Cert.ReferenceIdeal.RefRun.agg2 (F := Ideal) (Cert.ReferenceIdeal.RefRun.msg2 (F := Ideal) a (Cert.ReferenceIdeal.RefRun.src (F := Ideal) (Ke m c))) (Cert.ReferenceIdeal.RefRun.dst (F := Ideal) (Ke m c)))
    (fun a => Cert.ReferenceIdeal.RefRun.agg3 (F := Ideal) (Cert.ReferenceIdeal.RefRun.msg3 (F := Ideal) a (Cert.ReferenceIdeal.RefRun.src (F := Ideal) (Ke m c))) (Cert.ReferenceIdeal.RefRun.dst (F := Ideal) (Ke m c)))
    (fun n k => hx _) (fun j k => hW1l _) (fun j => hb1l _) (fun j k => hW1r _) (fun j => hg1 _) (fun j => hbe1 _)
    (fun j k => hW2l _) (fun j => hb2l _) (fun j k => hW2r _) (fun j => hg2 _) (fun j => hbe2 _)
    (fun n => Cert.ReferenceIdeal.RefAt.real_deg (Ke m c) n)
    (fun a ha n k => Cert.ReferenceIdeal.RefAt.real_agg1 a (Ke m c) ha n k)
    (fun a ha n k => Cert.ReferenceIdeal.RefAt.real_agg2 (Ke m c) a ha n k)
    (K_h1 m ρ c) (K_a1 m ρ c)
    (Cert.ReferenceIdeal.RefRun.h1 (F := Ideal) (Kx m c) (Ke m c) (W1l m c) (b1l m c) (W1r m c))
    (Cert.ReferenceIdeal.RefRun.a1 (F := Ideal) (Kx m c) (Ke m c) (W1l m c) (b1l m c) (W1r m c) (g1 m c) (beta1 m c))
    (K_h2 m ρ c) (K_a2 m ρ c)
    (Cert.ReferenceIdeal.RefRun.h2 (F := Ideal) (Kx m c) (Ke m c) (W1l m c) (b1l m c) (W1r m c) (g1 m c) (beta1 m c) (W2l m c) (b2l m c) (W2r m c))
    (Cert.ReferenceIdeal.RefRun.a2 (F := Ideal) (Kx m c) (Ke m c) (W1l m c) (b1l m c) (W1r m c) (g1 m c) (beta1 m c) (W2l m c) (b2l m c) (W2r m c) (g2 m c) (beta2 m c))
    (K_out m ρ c) (Cert.ReferenceIdeal.RefRun.out (F := Ideal) (Kx m c) (Ke m c) (W1l m c) (b1l m c) (W1r m c) (g1 m c) (beta1 m c) (W2l m c) (b2l m c) (W2r m c) (g2 m c) (beta2 m c) (W3l m c) (b3l m c) (W3r m c))
    ?kh1 ?ka1 ?kh2 ?ka2 ?kout ?rh1 ?ra1 ?rh2 ?ra2 ?rout
  case kh1 => beta_reduce; rw [← degK_eq, ← aggK15_eq]; exact kh1 m ρ c h06
  case ka1 => exact ka1 m ρ c (ksum0 m ρ c h06 h07) (ksq0 m ρ c h06 h08)
  case kh2 => beta_reduce; rw [← degK_eq, ← aggK64_eq]; exact kh2 m ρ c h26
  case ka2 => exact ka2 m ρ c (ksum2 m ρ c h26 h27) (ksq2 m ρ c h26 h28)
  case kout => beta_reduce; rw [← degK_eq, ← aggK32_eq]; exact kout m ρ c (fun n j => final4 (V9 m ρ) c n j)
  case rh1 => beta_reduce; exact Cert.ReferenceIdeal.RefAt.rh1 _ _ _ _ _
  case ra1 => exact Cert.ReferenceIdeal.RefAt.ra1 _ _ _ _ _ _ _
  case rh2 => beta_reduce; exact Cert.ReferenceIdeal.RefAt.rh2 _ _ _ _ _ _ _ _ _ _
  case ra2 => exact Cert.ReferenceIdeal.RefAt.ra2 _ _ _ _ _ _ _ _ _ _ _ _
  case rout => beta_reduce; exact Cert.ReferenceIdeal.RefAt.rout _ _ _ _ _ _ _ _ _ _ _ _ _ _ _

end Cert.Join

end
-- ==== Proof.Val0Piece.lean ====
import proofs.«158263_j27642409517219_1_alg».proof.Proof.Reg0
import Idealize.ShloMosaic.Lib.Pipeline.Value
import Idealize.ShloMosaic.Lib.ValueIdx
import Idealize.ShloMosaic.Lib.Tactic

/-! # What each control case of the node-linear body leaves, as payloads of the blocks it read

Running the body found, per control case, the list of pieces each store left. Here each list is read back: the tall
output's buffer holds the tile's linear part `h` of the six input blocks; the first scratch row holds the row it held
before (the zero row at the first tile) plus the column sums of `h`; the second likewise with the column sums of `h · h`;
at the last tile each resident row receives what its scratch row then holds. Stated for any float instance. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.Tactic
open Idealize.SL.Sem
open Idealize.ShloMosaic.Pipeline (Dat)

variable {F : FTy → Type} [FloatOps F]

/-- The zero offsets of a whole-buffer access, as the constant function. -/
theorem hz0 : (![0, 0] : Fin 2 → Nat) = fun _ => 0 := funext fun a => by fin_cases a <;> rfl

/-! ## The first tile -/

/-- The first tile's output block is the linear part of its six input blocks. -/
theorem piece0_A_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay4 x1 x2 x3 x4 x0 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  try dsimp only
  rw [View.canon_unit_zero (S := S5000x64) hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- The first tile leaves, in the first scratch row, the zero row plus the column sums of the linear part. -/
theorem piece0_A_s0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x1 x2 x3 x4 x0 x5 k0_pay2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  try dsimp only
  rw [View.canon_cons_unit_zero (S := S1x64) hz0, View.readCov_unit_zero (S := S1x64) _ hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- The first tile leaves, in the second scratch row, the zero row plus the column sums of the squares. -/
theorem piece0_A_s1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 k0_pay3 (k0_pay6 x1 x2 x3 x4 x0 x5) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  try dsimp only
  rw [View.canon_cons_unit_zero (S := S1x64) hz0, View.readCov_unit_zero (S := S1x64) _ hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-! ## A middle tile -/

/-- A middle tile's output block is the linear part of its six input blocks. -/
theorem piece0_B_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x1 x2 x3 x4 x0 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  try dsimp only
  rw [View.canon_unit_zero (S := S5000x64) hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- A middle tile adds the column sums of the linear part onto the first scratch row. -/
theorem piece0_B_s0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x1 x2 x3 x4 x0 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  try dsimp only
  rw [View.canon_unit_zero (S := S1x64) hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- A middle tile adds the column sums of the squares onto the second scratch row. -/
theorem piece0_B_s1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 xs1 (k0_pay6 x1 x2 x3 x4 x0 x5) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  try dsimp only
  rw [View.canon_unit_zero (S := S1x64) hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-! ## The last tile -/

/-- The last tile's output block is the linear part of its six input blocks. -/
theorem piece0_C_6 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x1 x2 x3 x4 x0 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  try dsimp only
  rw [View.canon_unit_zero (S := S5000x64) hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- The last tile adds the column sums of the linear part onto the first scratch row. -/
theorem piece0_C_s0 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x1 x2 x3 x4 x0 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  try dsimp only
  rw [View.canon_unit_zero (S := S1x64) hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- The last tile adds the column sums of the squares onto the second scratch row. -/
theorem piece0_C_s1 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 xs1 (k0_pay6 x1 x2 x3 x4 x0 x5) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  try dsimp only
  rw [View.canon_unit_zero (S := S1x64) hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- The last tile copies the finished first scratch row into the first resident row. -/
theorem piece0_C_7 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x1 x2 x3 x4 x0 x5 xs0 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  try dsimp only
  rw [View.canon_unit_zero (S := S1x64) hz0, View.readCov_unit_zero (S := S1x64) _ hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

/-- The last tile copies the finished second scratch row into the second resident row. -/
theorem piece0_C_8 (c : Dev nD) (i : grid0.Coords) (arg1 : Memref sig .tc .vmem S5000x15 .f32) (harg1 : arg1.IsWhole) (arg2 : Memref sig .tc .vmem S5000x15 .f32) (harg2 : arg2.IsWhole) (arg3 : Memref sig .tc .vmem S5000x1 .f32) (harg3 : arg3.IsWhole) (arg4 : Memref sig .tc .vmem S64x15 .f32) (harg4 : arg4.IsWhole) (arg5 : Memref sig .tc .vmem S1x64 .f32) (harg5 : arg5.IsWhole) (arg6 : Memref sig .tc .vmem S64x15 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x15 .f32) (x1 : Vec F S5000x15 .f32) (x2 : Vec F S5000x1 .f32) (x3 : Vec F S64x15 .f32) (x4 : Vec F S1x64 .f32) (x5 : Vec F S64x15 .f32) (xs0 xs1 : Vec F S1x64 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 xs1 (k0_pay6 x1 x2 x3 x4 x0 x5) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  try dsimp only
  rw [View.canon_unit_zero (S := S1x64) hz0, View.readCov_unit_zero (S := S1x64) _ hz0]
  simp only [View.readAt_eq_ld, harg1.read_unread, harg2.read_unread, harg3.read_unread, harg4.read_unread, harg5.read_unread, harg6.read_unread, harg10.read_unread, harg11.read_unread, View.ld_unit_zero (S := S5000x15) hz0, View.ld_unit_zero (S := S5000x1) hz0, View.ld_unit_zero (S := S64x15) hz0, View.ld_unit_zero (S := S1x64) hz0]

end Cert.KernelIdeal.Vals

end
-- ==== Proof.Val0Pay.lean ====
import proofs.«158263_j27642409517219_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! # The node-linear body's values at an entry, over the extended reals

A tile holds 5000 nodes. The body forms, for node `p` of the tile and output feature `q`,
`h p q = (Σ_k (agg p k · invdeg p) · Wl q k) + b q + Σ_k x p k · Wr q k` (two matrix products into zero accumulators, the
weights transposed first, the reciprocal degree laid along the features, the bias laid down the rows), and two rows of
column sums: a carried row plus `Σ_p h p q`, and a carried row plus `Σ_p h p q · h p q`. This module reads each of these
payloads at an entry, one small lemma per operation that is not entrywise. -/

set_option maxRecDepth 16384

noncomputable section

namespace Cert.KernelIdeal.Vals

open Cert.KernelIdeal Cert.KernelIdeal.Gen
open Idealize.ShloMosaic Idealize.ShloMosaic.ValueIdx

/-! ## The operations that are not entrywise -/

/-- A column `[a, 1]` laid along `b` features reads, at `(p, c)`, the column's entry `p`. -/
theorem broadcastTo_a1_ab_apply0 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile's matrix product into the zero accumulator, at `(p, q)`: the sum over the 15 input features. -/
theorem matmul0_apply (v : FVec Ideal S5000x15 .f32) (w : FVec Ideal S15x64 .f32) (p : Fin 5000) (q : Fin 64) :
    matmul dot_S5000x15_S15x64_S5000x64_1_0_0_1_n_n none v w (constant (F := Ideal) S5000x64 .f32 0x00000000#32) (ix2 p q)
      = ∑ k : Fin 15, v (ix2 p k) * w (ix2 k q) := by
  refine (Ideal.matmul_constant_zero_apply dot_S5000x15_S15x64_S5000x64_1_0_0_1_n_n none v w (ix2 p q)).trans ?_
  rw [← Equiv.sum_comp (contrEquiv1 dot_S5000x15_S15x64_S5000x64_1_0_0_1_n_n 15 rfl rfl).symm]
  refine Finset.sum_congr rfl fun k _ => ?_
  have hl : dot_S5000x15_S15x64_S5000x64_1_0_0_1_n_n.lhsIdx (ix2 p q) ((contrEquiv1 dot_S5000x15_S15x64_S5000x64_1_0_0_1_n_n 15 rfl rfl).symm k) = ix2 p k := by
    funext a; apply Fin.ext
    match a with
    | ⟨0, _⟩ => rfl
    | ⟨1, _⟩ => exact (dot_S5000x15_S15x64_S5000x64_1_0_0_1_n_n.lhsIdx_val_of_single (cl := 1) rfl _ _).trans (contrEquiv1_symm_val _ 15 rfl rfl k)
  have hr : dot_S5000x15_S15x64_S5000x64_1_0_0_1_n_n.rhsIdx (ix2 p q) ((contrEquiv1 dot_S5000x15_S15x64_S5000x64_1_0_0_1_n_n 15 rfl rfl).symm k) = ix2 k q := by
    funext a; apply Fin.ext
    match a with
    | ⟨0, _⟩ => exact (dot_S5000x15_S15x64_S5000x64_1_0_0_1_n_n.rhsIdx_val_of_single (cr := 0) rfl _ _).trans (contrEquiv1_symm_val _ 15 rfl rfl k)
    | ⟨1, _⟩ => rfl
  rw [hl, hr]

/-- The sum over the tile's rows of a `[5000, 64]` block, at feature `q`. -/
theorem colsum0_apply (src : FVec Ideal S5000x64 .f32) (hφ : FKind.Formats .f32)
    (hacc : (0x00000000#32 : BitVec (FTy.bits .f32)) = FKind.add.neutral .f32 hφ) (q : Fin 64) :
    multiReduction .add [0] S64 src 0x00000000#32 reduces_S5000x64_S64 hφ hacc (ix1 q) = ∑ p : Fin 5000, src (ix2 p q) := by
  refine (Ideal.multiReduction_add_single src 0x00000000#32 reduces_S5000x64_S64 hφ hacc (ix1 q)).trans ?_
  refine Finset.sum_congr rfl fun k _ => congrArg src ?_
  funext a; apply Fin.ext
  match a with
  | ⟨0, _⟩ => rfl
  | ⟨1, _⟩ => rfl

/-! ## The payloads -/

/-- Entry `(p, q)` of the layer's linear part of a tile: `v3` the neighbour sums, `v5` the reciprocal degrees, `v9` and
    `v17` the two weight matrices, `v12` the bias row, `v16` the node features. -/
theorem pay0_4_apply (v3 : FVec Ideal S5000x15 .f32) (v5 : FVec Ideal S5000x1 .f32) (v9 : FVec Ideal S64x15 .f32)
    (v12 : FVec Ideal S1x64 .f32) (v16 : FVec Ideal S5000x15 .f32) (v17 : FVec Ideal S64x15 .f32) (p : Fin 5000) (q : Fin 64) :
    k0_pay4 (F := Ideal) v3 v5 v9 v12 v16 v17 (ix2 p q)
      = ((∑ k : Fin 15, (v3 (ix2 p k) * v5 (ix2 p (0 : Fin 1))) * v9 (ix2 q k)) + v12 (ix2 (0 : Fin 1) q))
        + ∑ k : Fin 15, v16 (ix2 p k) * v17 (ix2 q k) := by
  unfold k0_pay4
  simp only [shapeCast_self]
  show (matmul dot_S5000x15_S15x64_S5000x64_1_0_0_1_n_n none (mulf v3 (broadcastTo S5000x15 v5 _)) (transpose S15x64 [1, 0] v9 _) (constant (F := Ideal) S5000x64 .f32 0x00000000#32) (ix2 p q)
        + broadcastTo S5000x64 v12 _ (ix2 p q))
      + matmul dot_S5000x15_S15x64_S5000x64_1_0_0_1_n_n none v16 (transpose S15x64 [1, 0] v17 _) (constant (F := Ideal) S5000x64 .f32 0x00000000#32) (ix2 p q) = _
  refine congrArg₂ (· + ·) (congrArg₂ (· + ·) ?_ (broadcastTo_1b_ab_apply v12 _ p q)) ?_
  · refine (matmul0_apply _ _ p q).trans (Finset.sum_congr rfl fun k _ => ?_)
    refine congrArg₂ (· * ·) ?_ (transpose_ix2_apply v9 _ k q)
    show v3 (ix2 p k) * broadcastTo S5000x15 v5 _ (ix2 p k) = _
    exact congrArg (v3 (ix2 p k) * ·) (broadcastTo_a1_ab_apply0 v5 _ p k)
  · refine (matmul0_apply _ _ p q).trans (Finset.sum_congr rfl fun k _ => ?_)
    exact congrArg (v16 (ix2 p k) * ·) (transpose_ix2_apply v17 _ k q)

/-- The square of the layer's linear part, entry by entry. -/
theorem pay0_6_apply (v3 : FVec Ideal S5000x15 .f32) (v5 : FVec Ideal S5000x1 .f32) (v9 : FVec Ideal S64x15 .f32)
    (v12 : FVec Ideal S1x64 .f32) (v16 : FVec Ideal S5000x15 .f32) (v17 : FVec Ideal S64x15 .f32) (p : Fin 5000) (q : Fin 64) :
    k0_pay6 (F := Ideal) v3 v5 v9 v12 v16 v17 (ix2 p q)
      = k0_pay4 (F := Ideal) v3 v5 v9 v12 v16 v17 (ix2 p q) * k0_pay4 (F := Ideal) v3 v5 v9 v12 v16 v17 (ix2 p q) := rfl

/-- The carried row `v22` plus the column sums of the tile's linear part, at feature `q`. -/
theorem pay0_5_apply (v3 : FVec Ideal S5000x15 .f32) (v5 : FVec Ideal S5000x1 .f32) (v9 : FVec Ideal S64x15 .f32)
    (v12 : FVec Ideal S1x64 .f32) (v16 : FVec Ideal S5000x15 .f32) (v17 : FVec Ideal S64x15 .f32) (v22 : FVec Ideal S1x64 .f32) (q : Fin 64) :
    k0_pay5 (F := Ideal) v3 v5 v9 v12 v16 v17 v22 (ix2 (0 : Fin 1) q)
      = v22 (ix2 (0 : Fin 1) q) + ∑ p : Fin 5000, k0_pay4 (F := Ideal) v3 v5 v9 v12 v16 v17 (ix2 p q) := by
  unfold k0_pay5
  simp only [shapeCast_self]
  show v22 (ix2 (0 : Fin 1) q) + shapeCast S1x64 (multiReduction .add [0] S64 (k0_pay4 (F := Ideal) v3 v5 v9 v12 v16 v17) 0x00000000#32 reduces_S5000x64_S64 _ _) _ (ix2 (0 : Fin 1) q) = _
  refine congrArg (v22 (ix2 (0 : Fin 1) q) + ·) ?_
  exact (shapeCast_a_1a_apply _ _ (0 : Fin 1) q).trans (colsum0_apply _ _ _ q)

/-- The carried row `v29` plus the column sums of a block `v30`, at feature `q`. -/
theorem pay0_1_apply (v29 : FVec Ideal S1x64 .f32) (v30 : FVec Ideal S5000x64 .f32) (q : Fin 64) :
    k0_pay1 (F := Ideal) v29 v30 (ix2 (0 : Fin 1) q) = v29 (ix2 (0 : Fin 1) q) + ∑ p : Fin 5000, v30 (ix2 p q) := by
  unfold k0_pay1
  simp only [shapeCast_self]
  show v29 (ix2 (0 : Fin 1) q) + shapeCast S1x64 (multiReduction .add [0] S64 v30 0x00000000#32 reduces_S5000x64_S64 _ _) _ (ix2 (0 : Fin 1) q) = _
  refine congrArg (v29 (ix2 (0 : Fin 1) q) + ·) ?_
  exact (shapeCast_a_1a_apply _ _ (0 : Fin 1) q).trans (colsum0_apply _ _ _ q)

/-- The two rows the first tile resets the running sums to are zero. -/
theorem pay0_2_apply (j : S1x64.Idx) : k0_pay2 (F := Ideal) j = 0 := by
  unfold k0_pay2
  simp only [shapeCast_self]
  exact Ideal.ofBits_zero_f32
theorem pay0_3_apply (j : S1x64.Idx) : k0_pay3 (F := Ideal) j = 0 := by
  unfold k0_pay3
  simp only [shapeCast_self]
  exact Ideal.ofBits_zero_f32

end Cert.KernelIdeal.Vals

end
-- ==== Proof.Val0Blk.lean ====
import proofs.«158263_j27642409517219_1_alg».proof.Proof.Gen.KernelIdeal.Launch
import proofs.«158263_j27642409517219_1_alg».proof.Proof.Gen.KernelIdeal.Points
import Idealize.ShloMosaic.Lib.Pipeline.Value
import Idealize.ShloMosaic.Lib.ValueIdx

/-! # Where the node-linear call's blocks sit in their arrays

Tile `t` of the 20 takes rows `5000 t … 5000 t + 4999` of the three tall inputs (node features, neighbour sums,
reciprocal degrees) and of the tall output, and the whole of the two weight matrices, the bias row and the two resident
one-row outputs. This module decides the windows' block indices over the grid, turns them into the position of a block's
entry in its array (block index times block size plus the entry's coordinate), and shows that the tall output's 20 blocks
cover it and that the last tile's block covers each resident row. -/

set_option maxRecDepth 16384

noncomputable section

namespace Cert.KernelIdeal.Vals

open Cert.KernelIdeal Cert.KernelIdeal.Gen
open Idealize.ShloMosaic Idealize.ShloMosaic.TcCoe Idealize.ShloMosaic.ValueIdx
open Idealize.SL.Sem
open Idealize.ShloMosaic.Pipeline (Dat)

/-- At tile `t` the four tall windows take block `(t, 0)`, every other window block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## A block's entry in its array -/

theorem emb0_0 (t : Fin cfg0.N) (p : Fin 5000) (k : Fin 15) (n : Fin 100000) (hn : n.val = 5000 * t.val + p.val) :
    ((cfg0.win 0).blk t).view.emb (ix2 p k) = (ix2 n k : S100000x15.Idx) := by
  obtain ⟨e0, e1, -⟩ := idx_facts0 t
  funext a; apply Fin.ext
  match a with
  | ⟨0, _⟩ => show win0_0.index t (0 : Fin 2) * 5000 + 1 * p.val = n.val; rw [e0, hn]; omega
  | ⟨1, _⟩ => show win0_0.index t (1 : Fin 2) * 15 + 1 * k.val = k.val; rw [e1]; omega

theorem emb0_1 (t : Fin cfg0.N) (p : Fin 5000) (k : Fin 15) (n : Fin 100000) (hn : n.val = 5000 * t.val + p.val) :
    ((cfg0.win 1).blk t).view.emb (ix2 p k) = (ix2 n k : S100000x15.Idx) := by
  obtain ⟨-, -, e0, e1, -⟩ := idx_facts0 t
  funext a; apply Fin.ext
  match a with
  | ⟨0, _⟩ => show win0_1.index t (0 : Fin 2) * 5000 + 1 * p.val = n.val; rw [e0, hn]; omega
  | ⟨1, _⟩ => show win0_1.index t (1 : Fin 2) * 15 + 1 * k.val = k.val; rw [e1]; omega

theorem emb0_2 (t : Fin cfg0.N) (p : Fin 5000) (n : Fin 100000) (hn : n.val = 5000 * t.val + p.val) :
    ((cfg0.win 2).blk t).view.emb (ix2 p (0 : Fin 1)) = (ix2 n (0 : Fin 1) : S100000x1.Idx) := by
  obtain ⟨-, -, -, -, e0, e1, -⟩ := idx_facts0 t
  funext a; apply Fin.ext
  match a with
  | ⟨0, _⟩ => show win0_2.index t (0 : Fin 2) * 5000 + 1 * p.val = n.val; rw [e0, hn]; omega
  | ⟨1, _⟩ => show win0_2.index t (1 : Fin 2) * 1 + 1 * 0 = 0; rw [e1]

theorem emb0_3 (t : Fin cfg0.N) (a' : Fin 64) (k : Fin 15) :
    ((cfg0.win 3).blk t).view.emb (ix2 a' k) = (ix2 a' k : S64x15.Idx) := by
  obtain ⟨-, -, -, -, -, -, e0, e1, -⟩ := idx_facts0 t
  funext a; apply Fin.ext
  match a with
  | ⟨0, _⟩ => show win0_3.index t (0 : Fin 2) * 64 + 1 * a'.val = a'.val; rw [e0]; omega
  | ⟨1, _⟩ => show win0_3.index t (1 : Fin 2) * 15 + 1 * k.val = k.val; rw [e1]; omega

theorem emb0_4 (t : Fin cfg0.N) (a' : Fin 1) (k : Fin 64) :
    ((cfg0.win 4).blk t).view.emb (ix2 a' k) = (ix2 a' k : S1x64.Idx) := by
  obtain ⟨-, -, -, -, -, -, -, -, e0, e1, -⟩ := idx_facts0 t
  funext a; apply Fin.ext
  match a with
  | ⟨0, _⟩ => show win0_4.index t (0 : Fin 2) * 1 + 1 * a'.val = a'.val; rw [e0]; omega
  | ⟨1, _⟩ => show win0_4.index t (1 : Fin 2) * 64 + 1 * k.val = k.val; rw [e1]; omega

theorem emb0_5 (t : Fin cfg0.N) (a' : Fin 64) (k : Fin 15) :
    ((cfg0.win 5).blk t).view.emb (ix2 a' k) = (ix2 a' k : S64x15.Idx) := by
  obtain ⟨-, -, -, -, -, -, -, -, -, -, e0, e1, -⟩ := idx_facts0 t
  funext a; apply Fin.ext
  match a with
  | ⟨0, _⟩ => show win0_5.index t (0 : Fin 2) * 64 + 1 * a'.val = a'.val; rw [e0]; omega
  | ⟨1, _⟩ => show win0_5.index t (1 : Fin 2) * 15 + 1 * k.val = k.val; rw [e1]; omega

theorem emb0_6 (t : Fin cfg0.N) (p : Fin 5000) (k : Fin 64) (n : Fin 100000) (hn : n.val = 5000 * t.val + p.val) :
    ((cfg0.win 6).blk t).view.emb (ix2 p k) = (ix2 n k : S100000x64.Idx) := by
  obtain ⟨-, -, -, -, -, -, -, -, -, -, -, -, e0, e1, -⟩ := idx_facts0 t
  funext a; apply Fin.ext
  match a with
  | ⟨0, _⟩ => show win0_6.index t (0 : Fin 2) * 5000 + 1 * p.val = n.val; rw [e0, hn]; omega
  | ⟨1, _⟩ => show win0_6.index t (1 : Fin 2) * 64 + 1 * k.val = k.val; rw [e1]; omega

theorem emb0_7 (t : Fin cfg0.N) (a' : Fin 1) (k : Fin 64) :
    ((cfg0.win 7).blk t).view.emb (ix2 a' k) = (ix2 a' k : S1x64.Idx) := by
  obtain ⟨-, -, -, -, -, -, -, -, -, -, -, -, -, -, e0, e1, -⟩ := idx_facts0 t
  funext a; apply Fin.ext
  match a with
  | ⟨0, _⟩ => show win0_7.index t (0 : Fin 2) * 1 + 1 * a'.val = a'.val; rw [e0]; omega
  | ⟨1, _⟩ => show win0_7.index t (1 : Fin 2) * 64 + 1 * k.val = k.val; rw [e1]; omega

theorem emb0_8 (t : Fin cfg0.N) (a' : Fin 1) (k : Fin 64) :
    ((cfg0.win 8).blk t).view.emb (ix2 a' k) = (ix2 a' k : S1x64.Idx) := by
  obtain ⟨-, -, -, -, -, -, -, -, -, -, -, -, -, -, -, -, e0, e1⟩ := idx_facts0 t
  funext a; apply Fin.ext
  match a with
  | ⟨0, _⟩ => show win0_8.index t (0 : Fin 2) * 1 + 1 * a'.val = a'.val; rw [e0]; omega
  | ⟨1, _⟩ => show win0_8.index t (1 : Fin 2) * 64 + 1 * k.val = k.val; rw [e1]; omega

/-! ## The written blocks cover the outputs -/

/-- Row `r` of the tall output lies in the block written at tile `r / 5000`. -/
theorem cover0_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, -, -, -, -, -, -, e0, e1, -⟩ := idx_facts0 t
  refine ⟨t, flush0_6 t, ?_⟩
  show i ∈ ((View.whole main_v24_0).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 64 ≤ (i 1).val ∧ (i 1).val < win0_6.index t (1 : Fin 2) * 64 + 64
    rw [e1]; omega

/-- The one resident row 7 is written back at the last tile, whose block is the whole row. -/
theorem cover0_7 (i : S1x64.Idx) :
    ∃ t : Fin cfg0.N, (cfg0.win 7).flush t = true ∧ i ∈ ((cfg0.win 7).blk t).view.set := by
  have hi0 : (i 0).val < 1 := (i 0).isLt
  have hi1 : (i 1).val < 64 := (i 1).isLt
  obtain ⟨t, ht⟩ : ∃ t : Fin cfg0.N, t.val = 19 := ⟨⟨19, lt_of_lt_of_eq (by omega) N_0.symm⟩, rfl⟩
  obtain ⟨-, -, -, -, -, -, -, -, -, -, -, -, -, -, e0, e1, -⟩ := idx_facts0 t
  refine ⟨t, (flush0_7 t).mpr (by rw [ht]), ?_⟩
  show i ∈ ((View.whole main_v24_1).slice (win0_7.rect t)).set
  rw [View.set_slice_whole, Rect.mem_set_unit]
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 64 ≤ (i 1).val ∧ (i 1).val < win0_7.index t (1 : Fin 2) * 64 + 64
    rw [e1]; omega

/-- The one resident row 8 is written back at the last tile, whose block is the whole row. -/
theorem cover0_8 (i : S1x64.Idx) :
    ∃ t : Fin cfg0.N, (cfg0.win 8).flush t = true ∧ i ∈ ((cfg0.win 8).blk t).view.set := by
  have hi0 : (i 0).val < 1 := (i 0).isLt
  have hi1 : (i 1).val < 64 := (i 1).isLt
  obtain ⟨t, ht⟩ : ∃ t : Fin cfg0.N, t.val = 19 := ⟨⟨19, lt_of_lt_of_eq (by omega) N_0.symm⟩, rfl⟩
  obtain ⟨-, -, -, -, -, -, -, -, -, -, -, -, -, -, -, -, e0, e1⟩ := idx_facts0 t
  refine ⟨t, (flush0_8 t).mpr (by rw [ht]), ?_⟩
  show i ∈ ((View.whole main_v24_2).slice (win0_8.rect t)).set
  rw [View.set_slice_whole, Rect.mem_set_unit]
  intro a
  match a with
  | ⟨0, _⟩ =>
    show win0_8.index t (0 : Fin 2) * 1 ≤ (i 0).val ∧ (i 0).val < win0_8.index t (0 : Fin 2) * 1 + 1
    rw [e0]; omega
  | ⟨1, _⟩ =>
    show win0_8.index t (1 : Fin 2) * 64 ≤ (i 1).val ∧ (i 1).val < win0_8.index t (1 : Fin 2) * 64 + 64
    rw [e1]; omega

end Cert.KernelIdeal.Vals

end
-- ==== Proof.Val0Acc.lean ====
import proofs.«158263_j27642409517219_1_alg».proof.Proof.Reg0
import proofs.«158263_j27642409517219_1_alg».proof.Proof.Val0Piece
import proofs.«158263_j27642409517219_1_alg».proof.Proof.Val0Pay
import proofs.«158263_j27642409517219_1_alg».proof.Proof.Val0Blk
import proofs.«158263_j27642409517219_1_alg».proof.Proof.Spec
import Idealize.ShloMosaic.Lib.Pipeline.Value
import Idealize.ShloMosaic.Lib.ValueIdx

/-! # The node-linear call, tile by tile, over the extended reals

The arrays the call finds are read entry by entry: node features `X`, neighbour sums `AGG`, reciprocal degrees `INVD`,
the two weight matrices `WL`, `WR` and the bias `B`; `L` is the layer's linear part of them, one row per node. A tile's
input blocks are rows `5000 t … 5000 t + 4999` of the tall arrays and the whole of the small ones, so the block the body
stores at tile `t` is rows `5000 t …` of `L`. By induction on the tile, after tile `n` the first scratch row holds the
column sums of `L` over the rows of tiles `0 … n`, the second those of `L · L`, and at the last tile each resident row
holds what its scratch row holds. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The arrays as the call finds them -/

abbrev X0 (c : Dev nD) : Fin 100000 → Fin 15 → EReal := fun n k => (V c (Pipeline.arrRef spec0 0) : S100000x15.Idx → EReal) (ix2 n k)
abbrev AGG0 (c : Dev nD) : Fin 100000 → Fin 15 → EReal := fun n k => (V c (Pipeline.arrRef spec0 1) : S100000x15.Idx → EReal) (ix2 n k)
abbrev INVD0 (c : Dev nD) : Fin 100000 → EReal := fun n => (V c (Pipeline.arrRef spec0 2) : S100000x1.Idx → EReal) (ix2 n (0 : Fin 1))
abbrev WL0 (c : Dev nD) : Fin 64 → Fin 15 → EReal := fun j k => (V c (Pipeline.arrRef spec0 3) : S64x15.Idx → EReal) (ix2 j k)
abbrev B0 (c : Dev nD) : Fin 64 → EReal := fun j => (V c (Pipeline.arrRef spec0 4) : S1x64.Idx → EReal) (ix2 (0 : Fin 1) j)
abbrev WR0 (c : Dev nD) : Fin 64 → Fin 15 → EReal := fun j k => (V c (Pipeline.arrRef spec0 5) : S64x15.Idx → EReal) (ix2 j k)

/-- The layer's linear part of the arrays the call finds, one row per node. -/
abbrev L0 (c : Dev nD) : Fin 100000 → Fin 64 → EReal :=
  Cert.Sage.lin (X0 V c) (AGG0 V c) (INVD0 V c) (WL0 V c) (B0 V c) (WR0 V c)

/-- Node `p` of tile `t`. -/
def node0 (t : Fin cfg0.N) (p : Fin 5000) : Fin 100000 :=
  ⟨t.val * 5000 + p.val, by have := lt_of_lt_of_eq t.isLt (show cfg0.N = 20 from N_0); have := p.isLt; omega⟩

theorem node0_val (t : Fin cfg0.N) (p : Fin 5000) : (node0 t p).val = 5000 * t.val + p.val := by
  show t.val * 5000 + p.val = _; omega

/-! ## The input blocks, entry by entry -/

theorem iblk0_0_apply (c : Dev nD) (t : Fin cfg0.N) (p : Fin 5000) (k : Fin 15) :
    (iblk0 V c 0 t : FVec Ideal S5000x15 .f32) (ix2 p k) = X0 V c (node0 t p) k := by
  unfold iblk0
  rw [View.read_apply]
  exact congrArg (V c (Pipeline.arrRef spec0 0) : S100000x15.Idx → EReal) (emb0_0 t p k (node0 t p) (node0_val t p))

theorem iblk0_1_apply (c : Dev nD) (t : Fin cfg0.N) (p : Fin 5000) (k : Fin 15) :
    (iblk0 V c 1 t : FVec Ideal S5000x15 .f32) (ix2 p k) = AGG0 V c (node0 t p) k := by
  unfold iblk0
  rw [View.read_apply]
  exact congrArg (V c (Pipeline.arrRef spec0 1) : S100000x15.Idx → EReal) (emb0_1 t p k (node0 t p) (node0_val t p))

theorem iblk0_2_apply (c : Dev nD) (t : Fin cfg0.N) (p : Fin 5000) :
    (iblk0 V c 2 t : FVec Ideal S5000x1 .f32) (ix2 p (0 : Fin 1)) = INVD0 V c (node0 t p) := by
  unfold iblk0
  rw [View.read_apply]
  exact congrArg (V c (Pipeline.arrRef spec0 2) : S100000x1.Idx → EReal) (emb0_2 t p (node0 t p) (node0_val t p))

theorem iblk0_3_apply (c : Dev nD) (t : Fin cfg0.N) (q : Fin 64) (k : Fin 15) :
    (iblk0 V c 3 t : FVec Ideal S64x15 .f32) (ix2 q k) = WL0 V c q k := by
  unfold iblk0
  rw [View.read_apply]
  exact congrArg (V c (Pipeline.arrRef spec0 3) : S64x15.Idx → EReal) (emb0_3 t q k)

theorem iblk0_4_apply (c : Dev nD) (t : Fin cfg0.N) (q : Fin 64) :
    (iblk0 V c 4 t : FVec Ideal S1x64 .f32) (ix2 (0 : Fin 1) q) = B0 V c q := by
  unfold iblk0
  rw [View.read_apply]
  exact congrArg (V c (Pipeline.arrRef spec0 4) : S1x64.Idx → EReal) (emb0_4 t (0 : Fin 1) q)

theorem iblk0_5_apply (c : Dev nD) (t : Fin cfg0.N) (q : Fin 64) (k : Fin 15) :
    (iblk0 V c 5 t : FVec Ideal S64x15 .f32) (ix2 q k) = WR0 V c q k := by
  unfold iblk0
  rw [View.read_apply]
  exact congrArg (V c (Pipeline.arrRef spec0 5) : S64x15.Idx → EReal) (emb0_5 t q k)

/-- The block the body stores at tile `t` is rows `5000 t …` of the layer's linear part. -/
theorem tile0_apply (c : Dev nD) (t : Fin cfg0.N) (p : Fin 5000) (q : Fin 64) :
    k0_pay4 (F := Ideal) (iblk0 V c 1 t) (iblk0 V c 2 t) (iblk0 V c 3 t) (iblk0 V c 4 t) (iblk0 V c 0 t) (iblk0 V c 5 t) (ix2 p q) = L0 V c (node0 t p) q := by
  refine (pay0_4_apply (iblk0 V c 1 t) (iblk0 V c 2 t) (iblk0 V c 3 t) (iblk0 V c 4 t) (iblk0 V c 0 t) (iblk0 V c 5 t) p q).trans ?_
  show _ = ((∑ k : Fin 15, (AGG0 V c (node0 t p) k * INVD0 V c (node0 t p)) * WL0 V c q k) + B0 V c q)
      + ∑ k : Fin 15, X0 V c (node0 t p) k * WR0 V c q k
  refine congrArg₂ (· + ·) (congrArg₂ (· + ·) (Finset.sum_congr rfl fun k _ => ?_) (iblk0_4_apply V c t q)) (Finset.sum_congr rfl fun k _ => ?_)
  · exact congrArg₂ (· * ·) (congrArg₂ (· * ·) (iblk0_1_apply V c t p k) (iblk0_2_apply V c t p)) (iblk0_3_apply V c t q k)
  · exact congrArg₂ (· * ·) (iblk0_0_apply V c t p k) (iblk0_5_apply V c t q k)

/-! ## One tile's contribution, for any tile number -/

/-- Row `p` of tile number `s` of the linear part (zero past the 20 tiles, which no sum below reaches). -/
def LT0 (c : Dev nD) (s : ℕ) (p : Fin 5000) (q : Fin 64) : EReal :=
  if h : s < cfg0.N then L0 V c (node0 ⟨s, h⟩ p) q else 0

theorem LT0_of_lt (c : Dev nD) (t : Fin cfg0.N) (p : Fin 5000) (q : Fin 64) :
    LT0 V c t.val p q = L0 V c (node0 t p) q := by
  unfold LT0; rw [dif_pos t.isLt]

theorem tile0_LT (c : Dev nD) (t : Fin cfg0.N) (p : Fin 5000) (q : Fin 64) :
    k0_pay4 (F := Ideal) (iblk0 V c 1 t) (iblk0 V c 2 t) (iblk0 V c 3 t) (iblk0 V c 4 t) (iblk0 V c 0 t) (iblk0 V c 5 t) (ix2 p q) = LT0 V c t.val p q :=
  (tile0_apply V c t p q).trans (LT0_of_lt V c t p q).symm

/-! ## What each case leaves, at an entry -/

theorem caseA0_6 (c : Dev nD) (t : Fin cfg0.N) (h0 : cond0_0 (grid0.coords t)) (h1 : ¬cond0_1 (grid0.coords t)) (p : Fin 5000) (q : Fin 64) :
    (caseA0 V c t h0 h1).1.1 (ix2 p q) = LT0 V c t.val p q := by
  unfold caseA0
  dsimp only
  exact (congrFun (piece0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t)) (ix2 p q)).trans (tile0_LT V c t p q)

theorem caseA0_s0 (c : Dev nD) (t : Fin cfg0.N) (h0 : cond0_0 (grid0.coords t)) (h1 : ¬cond0_1 (grid0.coords t)) (q : Fin 64) :
    (caseA0 V c t h0 h1).2.1 (ix2 (0 : Fin 1) q) = ∑ p : Fin 5000, LT0 V c t.val p q := by
  unfold caseA0
  dsimp only
  refine (congrFun (piece0_A_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t)) (ix2 (0 : Fin 1) q)).trans ?_
  refine (pay0_5_apply (iblk0 V c 1 t) (iblk0 V c 2 t) (iblk0 V c 3 t) (iblk0 V c 4 t) (iblk0 V c 0 t) (iblk0 V c 5 t) (k0_pay2 (F := Ideal)) q).trans ?_
  rw [pay0_2_apply, zero_add]
  exact Finset.sum_congr rfl fun p _ => tile0_LT V c t p q

theorem caseA0_s1 (c : Dev nD) (t : Fin cfg0.N) (h0 : cond0_0 (grid0.coords t)) (h1 : ¬cond0_1 (grid0.coords t)) (q : Fin 64) :
    (caseA0 V c t h0 h1).2.2 (ix2 (0 : Fin 1) q) = ∑ p : Fin 5000, LT0 V c t.val p q * LT0 V c t.val p q := by
  unfold caseA0
  dsimp only
  refine (congrFun (piece0_A_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t)) (ix2 (0 : Fin 1) q)).trans ?_
  refine (pay0_1_apply (k0_pay3 (F := Ideal)) (k0_pay6 (F := Ideal) (iblk0 V c 1 t) (iblk0 V c 2 t) (iblk0 V c 3 t) (iblk0 V c 4 t) (iblk0 V c 0 t) (iblk0 V c 5 t)) q).trans ?_
  rw [pay0_3_apply, zero_add]
  exact Finset.sum_congr rfl fun p _ => (pay0_6_apply (iblk0 V c 1 t) (iblk0 V c 2 t) (iblk0 V c 3 t) (iblk0 V c 4 t) (iblk0 V c 0 t) (iblk0 V c 5 t) p q).trans (congrArg₂ (· * ·) (tile0_LT V c t p q) (tile0_LT V c t p q))

theorem caseB0_6 (c : Dev nD) (t : Fin cfg0.N) (h0 : ¬cond0_0 (grid0.coords t)) (h1 : ¬cond0_1 (grid0.coords t)) (prev : Vec Ideal S1x64 .f32 × Vec Ideal S1x64 .f32) (p : Fin 5000) (q : Fin 64) :
    (caseB0 V c t h0 h1 prev).1.1 (ix2 p q) = LT0 V c t.val p q := by
  unfold caseB0
  dsimp only
  exact (congrFun (piece0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2) (ix2 p q)).trans (tile0_LT V c t p q)

theorem caseB0_s0 (c : Dev nD) (t : Fin cfg0.N) (h0 : ¬cond0_0 (grid0.coords t)) (h1 : ¬cond0_1 (grid0.coords t)) (prev : Vec Ideal S1x64 .f32 × Vec Ideal S1x64 .f32) (q : Fin 64) :
    (caseB0 V c t h0 h1 prev).2.1 (ix2 (0 : Fin 1) q) = prev.1 (ix2 (0 : Fin 1) q) + ∑ p : Fin 5000, LT0 V c t.val p q := by
  unfold caseB0
  dsimp only
  refine (congrFun (piece0_B_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2) (ix2 (0 : Fin 1) q)).trans ?_
  refine (pay0_5_apply (iblk0 V c 1 t) (iblk0 V c 2 t) (iblk0 V c 3 t) (iblk0 V c 4 t) (iblk0 V c 0 t) (iblk0 V c 5 t) prev.1 q).trans ?_
  exact congrArg (prev.1 (ix2 (0 : Fin 1) q) + ·) (Finset.sum_congr rfl fun p _ => tile0_LT V c t p q)

theorem caseB0_s1 (c : Dev nD) (t : Fin cfg0.N) (h0 : ¬cond0_0 (grid0.coords t)) (h1 : ¬cond0_1 (grid0.coords t)) (prev : Vec Ideal S1x64 .f32 × Vec Ideal S1x64 .f32) (q : Fin 64) :
    (caseB0 V c t h0 h1 prev).2.2 (ix2 (0 : Fin 1) q) = prev.2 (ix2 (0 : Fin 1) q) + ∑ p : Fin 5000, LT0 V c t.val p q * LT0 V c t.val p q := by
  unfold caseB0
  dsimp only
  refine (congrFun (piece0_B_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2) (ix2 (0 : Fin 1) q)).trans ?_
  refine (pay0_1_apply prev.2 (k0_pay6 (F := Ideal) (iblk0 V c 1 t) (iblk0 V c 2 t) (iblk0 V c 3 t) (iblk0 V c 4 t) (iblk0 V c 0 t) (iblk0 V c 5 t)) q).trans ?_
  exact congrArg (prev.2 (ix2 (0 : Fin 1) q) + ·) (Finset.sum_congr rfl fun p _ => (pay0_6_apply (iblk0 V c 1 t) (iblk0 V c 2 t) (iblk0 V c 3 t) (iblk0 V c 4 t) (iblk0 V c 0 t) (iblk0 V c 5 t) p q).trans (congrArg₂ (· * ·) (tile0_LT V c t p q) (tile0_LT V c t p q)))

theorem caseC0_6 (c : Dev nD) (t : Fin cfg0.N) (h0 : ¬cond0_0 (grid0.coords t)) (h1 : cond0_1 (grid0.coords t)) (prev : Vec Ideal S1x64 .f32 × Vec Ideal S1x64 .f32) (p : Fin 5000) (q : Fin 64) :
    (caseC0 V c t h0 h1 prev).1.1 (ix2 p q) = LT0 V c t.val p q := by
  unfold caseC0
  dsimp only
  exact (congrFun (piece0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2) (ix2 p q)).trans (tile0_LT V c t p q)

theorem caseC0_s0 (c : Dev nD) (t : Fin cfg0.N) (h0 : ¬cond0_0 (grid0.coords t)) (h1 : cond0_1 (grid0.coords t)) (prev : Vec Ideal S1x64 .f32 × Vec Ideal S1x64 .f32) (q : Fin 64) :
    (caseC0 V c t h0 h1 prev).2.1 (ix2 (0 : Fin 1) q) = prev.1 (ix2 (0 : Fin 1) q) + ∑ p : Fin 5000, LT0 V c t.val p q := by
  unfold caseC0
  dsimp only
  refine (congrFun (piece0_C_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2) (ix2 (0 : Fin 1) q)).trans ?_
  refine (pay0_5_apply (iblk0 V c 1 t) (iblk0 V c 2 t) (iblk0 V c 3 t) (iblk0 V c 4 t) (iblk0 V c 0 t) (iblk0 V c 5 t) prev.1 q).trans ?_
  exact congrArg (prev.1 (ix2 (0 : Fin 1) q) + ·) (Finset.sum_congr rfl fun p _ => tile0_LT V c t p q)

theorem caseC0_s1 (c : Dev nD) (t : Fin cfg0.N) (h0 : ¬cond0_0 (grid0.coords t)) (h1 : cond0_1 (grid0.coords t)) (prev : Vec Ideal S1x64 .f32 × Vec Ideal S1x64 .f32) (q : Fin 64) :
    (caseC0 V c t h0 h1 prev).2.2 (ix2 (0 : Fin 1) q) = prev.2 (ix2 (0 : Fin 1) q) + ∑ p : Fin 5000, LT0 V c t.val p q * LT0 V c t.val p q := by
  unfold caseC0
  dsimp only
  refine (congrFun (piece0_C_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2) (ix2 (0 : Fin 1) q)).trans ?_
  refine (pay0_1_apply prev.2 (k0_pay6 (F := Ideal) (iblk0 V c 1 t) (iblk0 V c 2 t) (iblk0 V c 3 t) (iblk0 V c 4 t) (iblk0 V c 0 t) (iblk0 V c 5 t)) q).trans ?_
  exact congrArg (prev.2 (ix2 (0 : Fin 1) q) + ·) (Finset.sum_congr rfl fun p _ => (pay0_6_apply (iblk0 V c 1 t) (iblk0 V c 2 t) (iblk0 V c 3 t) (iblk0 V c 4 t) (iblk0 V c 0 t) (iblk0 V c 5 t) p q).trans (congrArg₂ (· * ·) (tile0_LT V c t p q) (tile0_LT V c t p q)))

/-- At the last tile each resident row receives what its scratch row holds. -/
theorem caseC0_7 (c : Dev nD) (t : Fin cfg0.N) (h0 : ¬cond0_0 (grid0.coords t)) (h1 : cond0_1 (grid0.coords t)) (prev : Vec Ideal S1x64 .f32 × Vec Ideal S1x64 .f32) :
    (caseC0 V c t h0 h1 prev).1.2.1 = (caseC0 V c t h0 h1 prev).2.1 := by
  unfold caseC0
  dsimp only
  exact (piece0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2).trans (piece0_C_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2).symm
theorem caseC0_8 (c : Dev nD) (t : Fin cfg0.N) (h0 : ¬cond0_0 (grid0.coords t)) (h1 : cond0_1 (grid0.coords t)) (prev : Vec Ideal S1x64 .f32 × Vec Ideal S1x64 .f32) :
    (caseC0 V c t h0 h1 prev).1.2.2 = (caseC0 V c t h0 h1 prev).2.2 := by
  unfold caseC0
  dsimp only
  exact (piece0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2).trans (piece0_C_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) prev.1 prev.2).symm

/-! ## The accumulation -/

/-- After tile `n`: the output block is tile `n`'s rows of the linear part; the scratch rows hold the column sums over
    tiles `0 … n` of the linear part and of its squares; at the last tile the resident rows hold the same. -/
theorem acc0 (c : Dev nD) : ∀ (n : ℕ) (hn : n < cfg0.N),
    (∀ (p : Fin 5000) (q : Fin 64), (outsAt0 V c n hn).1.1 (ix2 p q) = LT0 V c n p q)
    ∧ (∀ q : Fin 64, (outsAt0 V c n hn).2.1 (ix2 (0 : Fin 1) q) = ∑ s ∈ Finset.range (n + 1), ∑ p : Fin 5000, LT0 V c s p q)
    ∧ (∀ q : Fin 64, (outsAt0 V c n hn).2.2 (ix2 (0 : Fin 1) q) = ∑ s ∈ Finset.range (n + 1), ∑ p : Fin 5000, LT0 V c s p q * LT0 V c s p q)
    ∧ (n % 20 = 19 → (outsAt0 V c n hn).1.2.1 = (outsAt0 V c n hn).2.1 ∧ (outsAt0 V c n hn).1.2.2 = (outsAt0 V c n hn).2.2)
  | 0, hn => by
    rw [outsAt0_A V c ⟨0, hn⟩ rfl]
    refine ⟨fun p q => caseA0_6 V c ⟨0, hn⟩ _ _ p q, fun q => ?_, fun q => ?_, fun h => absurd h (by decide)⟩
    · rw [Finset.sum_range_one]; exact caseA0_s0 V c ⟨0, hn⟩ _ _ q
    · rw [Finset.sum_range_one]; exact caseA0_s1 V c ⟨0, hn⟩ _ _ q
  | n + 1, hn => by
    obtain ⟨-, ih0, ih1, -⟩ := acc0 c n (Nat.lt_of_succ_lt hn)
    by_cases h1 : (n + 1) % 20 = 19
    · rw [outsAt0_C V c ⟨n + 1, hn⟩ (Nat.succ_ne_zero n) h1]
      refine ⟨fun p q => caseC0_6 V c ⟨n + 1, hn⟩ _ _ _ p q, fun q => ?_, fun q => ?_, fun _ => ⟨caseC0_7 V c ⟨n + 1, hn⟩ _ _ _, caseC0_8 V c ⟨n + 1, hn⟩ _ _ _⟩⟩
      · refine (caseC0_s0 V c ⟨n + 1, hn⟩ _ _ _ q).trans ?_
        rw [Finset.sum_range_succ]
        exact congrArg (· + ∑ p : Fin 5000, LT0 V c (n + 1) p q) (ih0 q)
      · refine (caseC0_s1 V c ⟨n + 1, hn⟩ _ _ _ q).trans ?_
        rw [Finset.sum_range_succ]
        exact congrArg (· + ∑ p : Fin 5000, LT0 V c (n + 1) p q * LT0 V c (n + 1) p q) (ih1 q)
    · rw [outsAt0_B V c ⟨n + 1, hn⟩ (Nat.succ_ne_zero n) h1]
      refine ⟨fun p q => caseB0_6 V c ⟨n + 1, hn⟩ _ _ _ p q, fun q => ?_, fun q => ?_, fun h => absurd h h1⟩
      · refine (caseB0_s0 V c ⟨n + 1, hn⟩ _ _ _ q).trans ?_
        rw [Finset.sum_range_succ]
        exact congrArg (· + ∑ p : Fin 5000, LT0 V c (n + 1) p q) (ih0 q)
      · refine (caseB0_s1 V c ⟨n + 1, hn⟩ _ _ _ q).trans ?_
        rw [Finset.sum_range_succ]
        exact congrArg (· + ∑ p : Fin 5000, LT0 V c (n + 1) p q * LT0 V c (n + 1) p q) (ih1 q)

end Cert.KernelIdeal.Vals

end
-- ==== Proof.Val0Final.lean ====
import proofs.«158263_j27642409517219_1_alg».proof.Proof.Val0Acc
import proofs.«158263_j27642409517219_1_alg».proof.Proof.Algebra
import Idealize.ShloMosaic.Lib.Pipeline.Value
import Idealize.ShloMosaic.Lib.ValueIdx

/-! # The node-linear call: the three arrays it leaves

With `L` the layer's linear part of the arrays the call finds (one row per node), the call leaves `L` in its tall
output, and in its two resident rows the column sums over the 100000 nodes of `L` and of `L · L`. Tile `t` writes rows
`5000 t … 5000 t + 4999` of `L` back, and the 20 blocks cover the rows; each resident row is written back once, after
the last tile, when its scratch row holds the sums over all 20 tiles, and a sum over the nodes is the sum over the tiles
of the sums over a tile's rows. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three results, each as one function of the index. -/
def G0_6 (c : Dev nD) : S100000x64.Idx → EReal := fun i => L0 V c (i 0) (i 1)
def G0_7 (c : Dev nD) : S1x64.Idx → EReal := fun i => Cert.Sage.colSum (L0 V c) (i 1)
def G0_8 (c : Dev nD) : S1x64.Idx → EReal := fun i => Cert.Sage.colSumSq (L0 V c) (i 1)

/-- Resident row 7's one block is the whole row: reading a row through it reads the row. -/
theorem read0_7_apply (G : S1x64.Idx → EReal) (t : Fin cfg0.N) (q : Fin 64) :
    ((cfg0.win 7).blk t).view.read (Elt Ideal) G (ix2 (0 : Fin 1) q) = G (ix2 (0 : Fin 1) q) := by
  show G (((cfg0.win 7).blk t).view.emb (ix2 (0 : Fin 1) q)) = _
  rw [emb0_7 t (0 : Fin 1) q]

/-- Resident row 8's one block is the whole row: reading a row through it reads the row. -/
theorem read0_8_apply (G : S1x64.Idx → EReal) (t : Fin cfg0.N) (q : Fin 64) :
    ((cfg0.win 8).blk t).view.read (Elt Ideal) G (ix2 (0 : Fin 1) q) = G (ix2 (0 : Fin 1) q) := by
  show G (((cfg0.win 8).blk t).view.emb (ix2 (0 : Fin 1) q)) = _
  rw [emb0_8 t (0 : Fin 1) q]

/-- What tile `t` writes back to the tall output is block `t` of the linear part. -/
theorem flushed0_6 (c : Dev nD) (t : Fin cfg0.N) :
    (dat0 (F := Ideal) V c).flushed 6 t = ((cfg0.win 6).blk t).view.read (Elt Ideal) (G0_6 V c) := by
  show (cfg0.win 6).cut (grid0.coords t) ((dat0 (F := Ideal) V c).after 6 t) = _
  rw [after0_6]
  funext y
  obtain ⟨p, q, rfl⟩ : ∃ (p : Fin 5000) (q : Fin 64), y = ix2 p q := ⟨y 0, y 1, eq_ix2 y⟩
  refine ((acc0 V c t.val t.isLt).1 p q).trans ((LT0_of_lt V c t p q).trans ?_)
  show _ = G0_6 V c (((cfg0.win 6).blk t).view.emb (ix2 p q))
  rw [emb0_6 t p q (node0 t p) (node0_val t p)]
  rfl

/-- The one write-back of resident row 7, at the last tile, writes the column sums over all 100000 nodes. -/
theorem flushed0_7 (c : Dev nD) (t : Fin cfg0.N) (hf : (cfg0.win 7).flush t = true) :
    (dat0 (F := Ideal) V c).flushed 7 t = ((cfg0.win 7).blk t).view.read (Elt Ideal) (G0_7 V c) := by
  have h19 : t.val % 20 = 19 := (flush0_7 t).mp hf
  have ht : t.val < 20 := lt_of_lt_of_eq t.isLt N_0
  have e20 : t.val + 1 = 20 := by omega
  show (cfg0.win 7).cut (grid0.coords t) ((dat0 (F := Ideal) V c).after 7 t) = _
  rw [after0_7]
  funext y
  obtain ⟨u, q, rfl⟩ : ∃ (u : Fin 1) (q : Fin 64), y = ix2 u q := ⟨y 0, y 1, eq_ix2 y⟩
  obtain rfl : u = 0 := Subsingleton.elim _ _
  obtain ⟨-, hs0, hs1, hres⟩ := acc0 V c t.val t.isLt
  refine (congrFun (hres h19).1 (ix2 (0 : Fin 1) q)).trans ((hs0 q).trans (Eq.trans ?_ (read0_7_apply (G0_7 V c) t q).symm))
  unfold G0_7
  rw [e20, Finset.sum_range]
  unfold Cert.Sage.colSum
  refine Eq.trans ?_ (Cert.Sage.sum_nodes_tiles (fun n => L0 V c n q)).symm
  refine Finset.sum_congr rfl fun s _ => Finset.sum_congr rfl fun p _ => ?_
  have hs : s.val < cfg0.N := lt_of_lt_of_eq s.isLt N_0.symm
  unfold LT0
  rw [dif_pos hs]
  rfl

/-- The one write-back of resident row 8, at the last tile, writes the column sums over all 100000 nodes. -/
theorem flushed0_8 (c : Dev nD) (t : Fin cfg0.N) (hf : (cfg0.win 8).flush t = true) :
    (dat0 (F := Ideal) V c).flushed 8 t = ((cfg0.win 8).blk t).view.read (Elt Ideal) (G0_8 V c) := by
  have h19 : t.val % 20 = 19 := (flush0_8 t).mp hf
  have ht : t.val < 20 := lt_of_lt_of_eq t.isLt N_0
  have e20 : t.val + 1 = 20 := by omega
  show (cfg0.win 8).cut (grid0.coords t) ((dat0 (F := Ideal) V c).after 8 t) = _
  rw [after0_8]
  funext y
  obtain ⟨u, q, rfl⟩ : ∃ (u : Fin 1) (q : Fin 64), y = ix2 u q := ⟨y 0, y 1, eq_ix2 y⟩
  obtain rfl : u = 0 := Subsingleton.elim _ _
  obtain ⟨-, hs0, hs1, hres⟩ := acc0 V c t.val t.isLt
  refine (congrFun (hres h19).2 (ix2 (0 : Fin 1) q)).trans ((hs1 q).trans (Eq.trans ?_ (read0_8_apply (G0_8 V c) t q).symm))
  unfold G0_8
  rw [e20, Finset.sum_range]
  unfold Cert.Sage.colSumSq
  refine Eq.trans ?_ (Cert.Sage.sum_nodes_tiles (fun n => L0 V c n q * L0 V c n q)).symm
  refine Finset.sum_congr rfl fun s _ => Finset.sum_congr rfl fun p _ => ?_
  have hs : s.val < cfg0.N := lt_of_lt_of_eq s.isLt N_0.symm
  unfold LT0
  rw [dif_pos hs]
  rfl

/-! ## The arrays after the call -/

/-- The tall output: the layer's linear part, row by row. -/
theorem final0_6 (c : Dev nD) (n : Fin 100000) (j : Fin 64) :
    ((dat0 (F := Ideal) V c).arrAt 6 cfg0.N : S100000x64.Idx → EReal) (ix2 n j)
      = Cert.Sage.lin (X0 V c) (AGG0 V c) (INVD0 V c) (WL0 V c) (B0 V c) (WR0 V c) n j := by
  rw [(dat0 (F := Ideal) V c).arrAt_eq_of_cover 6 (G0_6 V c) (fun t _ => flushed0_6 V c t) cover0_6]
  rfl

/-- The first resident row: the column sums of the linear part over the nodes. -/
theorem final0_7 (c : Dev nD) (j : Fin 64) :
    ((dat0 (F := Ideal) V c).arrAt 7 cfg0.N : S1x64.Idx → EReal) (ix2 (0 : Fin 1) j)
      = Cert.Sage.colSum (Cert.Sage.lin (X0 V c) (AGG0 V c) (INVD0 V c) (WL0 V c) (B0 V c) (WR0 V c)) j := by
  rw [(dat0 (F := Ideal) V c).arrAt_eq_of_cover 7 (G0_7 V c) (fun t hf => flushed0_7 V c t hf) cover0_7]
  rfl

/-- The second resident row: the column sums of the squares of the linear part over the nodes. -/
theorem final0_8 (c : Dev nD) (j : Fin 64) :
    ((dat0 (F := Ideal) V c).arrAt 8 cfg0.N : S1x64.Idx → EReal) (ix2 (0 : Fin 1) j)
      = Cert.Sage.colSumSq (Cert.Sage.lin (X0 V c) (AGG0 V c) (INVD0 V c) (WL0 V c) (B0 V c) (WR0 V c)) j := by
  rw [(dat0 (F := Ideal) V c).arrAt_eq_of_cover 8 (G0_8 V c) (fun t hf => flushed0_8 V c t hf) cover0_8]
  rfl

end Cert.KernelIdeal.Vals

end
-- ==== Proof.Val2Pay.lean ====
import proofs.«158263_j27642409517219_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! # The node-linear body's values at an entry, over the extended reals

A tile holds 5000 nodes. The body forms, for node `p` of the tile and output feature `q`,
`h p q = (Σ_k (agg p k · invdeg p) · Wl q k) + b q + Σ_k x p k · Wr q k` (two matrix products into zero accumulators, the
weights transposed first, the reciprocal degree laid along the features, the bias laid down the rows), and two rows of
column sums: a carried row plus `Σ_p h p q`, and a carried row plus `Σ_p h p q · h p q`. This module reads each of these
payloads at an entry, one small lemma per operation that is not entrywise. -/

set_option maxRecDepth 16384

noncomputable section

namespace Cert.KernelIdeal.Vals

open Cert.KernelIdeal Cert.KernelIdeal.Gen
open Idealize.ShloMosaic Idealize.ShloMosaic.ValueIdx

/-! ## The operations that are not entrywise -/

/-- A column `[a, 1]` laid along `b` features reads, at `(p, c)`, the column's entry `p`. -/
theorem broadcastTo_a1_ab_apply2 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile's matrix product into the zero accumulator, at `(p, q)`: the sum over the 64 input features. -/
theorem matmul2_apply (v : FVec Ideal S5000x64 .f32) (w : FVec Ideal S64x32 .f32) (p : Fin 5000) (q : Fin 32) :
    matmul dot_S5000x64_S64x32_S5000x32_1_0_0_1_n_n none v w (constant (F := Ideal) S5000x32 .f32 0x00000000#32) (ix2 p q)
      = ∑ k : Fin 64, v (ix2 p k) * w (ix2 k q) := by
  refine (Ideal.matmul_constant_zero_apply dot_S5000x64_S64x32_S5000x32_1_0_0_1_n_n none v w (ix2 p q)).trans ?_
  rw [← Equiv.sum_comp (contrEquiv1 dot_S5000x64_S64x32_S5000x32_1_0_0_1_n_n 64 rfl rfl).symm]
  refine Finset.sum_congr rfl fun k _ => ?_
  have hl : dot_S5000x64_S64x32_S5000x32_1_0_0_1_n_n.lhsIdx (ix2 p q) ((contrEquiv1 dot_S5000x64_S64x32_S5000x32_1_0_0_1_n_n 64 rfl rfl).symm k) = ix2 p k := by
    funext a; apply Fin.ext
    match a with
    | ⟨0, _⟩ => rfl
    | ⟨1, _⟩ => exact (dot_S5000x64_S64x32_S5000x32_1_0_0_1_n_n.lhsIdx_val_of_single (cl := 1) rfl _ _).trans (contrEquiv1_symm_val _ 64 rfl rfl k)
  have hr : dot_S5000x64_S64x32_S5000x32_1_0_0_1_n_n.rhsIdx (ix2 p q) ((contrEquiv1 dot_S5000x64_S64x32_S5000x32_1_0_0_1_n_n 64 rfl rfl).symm k) = ix2 k q := by
    funext a; apply Fin.ext
    match a with
    | ⟨0, _⟩ => exact (dot_S5000x64_S64x32_S5000x32_1_0_0_1_n_n.rhsIdx_val_of_single (cr := 0) rfl _ _).trans (contrEquiv1_symm_val _ 64 rfl rfl k)
    | ⟨1, _⟩ => rfl
  rw [hl, hr]

/-- The sum over the tile's rows of a `[5000, 32]` block, at feature `q`. -/
theorem colsum2_apply (src : FVec Ideal S5000x32 .f32) (hφ : FKind.Formats .f32)
    (hacc : (0x00000000#32 : BitVec (FTy.bits .f32)) = FKind.add.neutral .f32 hφ) (q : Fin 32) :
    multiReduction .add [0] S32 src 0x00000000#32 reduces_S5000x32_S32 hφ hacc (ix1 q) = ∑ p : Fin 5000, src (ix2 p q) := by
  refine (Ideal.multiReduction_add_single src 0x00000000#32 reduces_S5000x32_S32 hφ hacc (ix1 q)).trans ?_
  refine Finset.sum_congr rfl fun k _ => congrArg src ?_
  funext a; apply Fin.ext
  match a with
  | ⟨0, _⟩ => rfl
  | ⟨1, _⟩ => rfl

/-! ## The payloads -/

/-- Entry `(p, q)` of the layer's linear part of a tile: `v3` the neighbour sums, `v5` the reciprocal degrees, `v9` and
    `v17` the two weight matrices, `v12` the bias row, `v16` the node features. -/
theorem pay2_4_apply (v3 : FVec Ideal S5000x64 .f32) (v5 : FVec Ideal S5000x1 .f32) (v9 : FVec Ideal S32x64 .f32)
    (v12 : FVec Ideal S1x32 .f32) (v16 : FVec Ideal S5000x64 .f32) (v17 : FVec Ideal S32x64 .f32) (p : Fin 5000) (q : Fin 32) :
    k2_pay4 (F := Ideal) v3 v5 v9 v12 v16 v17 (ix2 p q)
      = ((∑ k : Fin 64, (v3 (ix2 p k) * v5 (ix2 p (0 : Fin 1))) * v9 (ix2 q k)) + v12 (ix2 (0 : Fin 1) q))
        + ∑ k : Fin 64, v16 (ix2 p k) * v17 (ix2 q k) := by
  unfold k2_pay4
  simp only [shapeCast_self]
  show (matmul dot_S5000x64_S64x32_S5000x32_1_0_0_1_n_n none (mulf v3 (broadcastTo S5000x64 v5 _)) (transpose S64x32 [1, 0] v9 _) (constant (F := Ideal) S5000x32 .f32 0x00000000#32) (ix2 p q)
        + broadcastTo S5000x32 v12 _ (ix2 p q))
      + matmul dot_S5000x64_S64x32_S5000x32_1_0_0_1_n_n none v16 (transpose S64x32 [1, 0] v17 _) (constant (F := Ideal) S5000x32 .f32 0x00000000#32) (ix2 p q) = _
  refine congrArg₂ (· + ·) (congrArg₂ (· + ·) ?_ (broadcastTo_1b_ab_apply v12 _ p q)) ?_
  · refine (matmul2_apply _ _ p q).trans (Finset.sum_congr rfl fun k _ => ?_)
    refine congrArg₂ (· * ·) ?_ (transpose_ix2_apply v9 _ k q)
    show v3 (ix2 p k) * broadcastTo S5000x64 v5 _ (ix2 p k) = _
    exact congrArg (v3 (ix2 p k) * ·) (broadcastTo_a1_ab_apply2 v5 _ p k)
  · refine (matmul2_apply _ _ p q).trans (Finset.sum_congr rfl fun k _ => ?_)
    exact congrArg (v16 (ix2 p k) * ·) (transpose_ix2_apply v17 _ k q)

/-- The carried row `v22` plus the column sums of the tile's linear part, at feature `q`. -/
theorem pay2_5_apply (v3 : FVec Ideal S5000x64 .f32) (v5 : FVec Ideal S5000x1 .f32) (v9 : FVec Ideal S32x64 .f32)
    (v12 : FVec Ideal S1x32 .f32) (v16 : FVec Ideal S5000x64 .f32) (v17 : FVec Ideal S32x64 .f32) (v22 : FVec Ideal S1x32 .f32) (q : Fin 32) :
    k2_pay5 (F := Ideal) v3 v5 v9 v12 v16 v17 v22 (ix2 (0 : Fin 1) q)
      = v22 (ix2 (0 : Fin 1) q) + ∑ p : Fin 5000, k2_pay4 (F := Ideal) v3 v5 v9 v12 v16 v17 (ix2 p q) := by
  unfold k2_pay5
  simp only [shapeCast_self]
  show v22 (ix2 (0 : Fin 1) q) + shapeCast S1x32 (multiReduction .add [0] S32 (k2_pay4 (F := Ideal) v3 v5 v9 v12 v16 v17) 0x00000000#32 reduces_S5000x32_S32 _ _) _ (ix2 (0 : Fin 1) q) = _
  refine congrArg (v22 (ix2 (0 : Fin 1) q) + ·) ?_
  exact (shapeCast_a_1a_apply _ _ (0 : Fin 1) q).trans (colsum2_apply _ _ _ q)

/-- The carried row `v30` plus the column sums of the squares of a block `v21`, at feature `q`. -/
theorem pay2_1_apply (v21 : FVec Ideal S5000x32 .f32) (v30 : FVec Ideal S1x32 .f32) (q : Fin 32) :
    k2_pay1 (F := Ideal) v21 v30 (ix2 (0 : Fin 1) q) = v30 (ix2 (0 : Fin 1) q) + ∑ p : Fin 5000, v21 (ix2 p q) * v21 (ix2 p q) := by
  unfold k2_pay1
  simp only [shapeCast_self]
  show v30 (ix2 (0 : Fin 1) q) + shapeCast S1x32 (multiReduction .add [0] S32 (mulf v21 v21) 0x00000000#32 reduces_S5000x32_S32 _ _) _ (ix2 (0 : Fin 1) q) = _
  refine congrArg (v30 (ix2 (0 : Fin 1) q) + ·) ?_
  exact (shapeCast_a_1a_apply _ _ (0 : Fin 1) q).trans (colsum2_apply _ _ _ q)

/-- The two rows the first tile resets the running sums to are zero. -/
theorem pay2_2_apply (j : S1x32.Idx) : k2_pay2 (F := Ideal) j = 0 := by
  unfold k2_pay2
  simp only [shapeCast_self]
  exact Ideal.ofBits_zero_f32
theorem pay2_3_apply (j : S1x32.Idx) : k2_pay3 (F := Ideal) j = 0 := by
  unfold k2_pay3
  simp only [shapeCast_self]
  exact Ideal.ofBits_zero_f32

end Cert.KernelIdeal.Vals

end
-- ==== Proof.Val2Blk.lean ====
import proofs.«158263_j27642409517219_1_alg».proof.Proof.Gen.KernelIdeal.Launch
import proofs.«158263_j27642409517219_1_alg».proof.Proof.Gen.KernelIdeal.Points
import Idealize.ShloMosaic.Lib.Pipeline.Value
import Idealize.ShloMosaic.Lib.ValueIdx

/-! # Where the node-linear call's blocks sit in their arrays

Tile `t` of the 20 takes rows `5000 t … 5000 t + 4999` of the three tall inputs (node features, neighbour sums,
reciprocal degrees) and of the tall output, and the whole of the two weight matrices, the bias row and the two resident
one-row outputs. This module decides the windows' block indices over the grid, turns them into the position of a block's
entry in its array (block index times block size plus the entry's coordinate), and shows that the tall output's 20 blocks
cover it and that the last tile's block covers each resident row. -/

set_option maxRecDepth 16384

noncomputable section

namespace Cert.KernelIdeal.Vals

open Cert.KernelIdeal Cert.KernelIdeal.Gen
open Idealize.ShloMosaic Idealize.ShloMosaic.TcCoe Idealize.ShloMosaic.ValueIdx
open Idealize.SL.Sem
open Idealize.ShloMosaic.Pipeline (Dat)

/-- At tile `t` the four tall windows take block `(t, 0)`, every other window block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-! ## A block's entry in its array -/

theorem emb2_0 (t : Fin cfg2.N) (p : Fin 5000) (k : Fin 64) (n : Fin 100000) (hn : n.val = 5000 * t.val + p.val) :
    ((cfg2.win 0).blk t).view.emb (ix2 p k) = (ix2 n k : S100000x64.Idx) := by
  obtain ⟨e0, e1, -⟩ := idx_facts2 t
  funext a; apply Fin.ext
  match a with
  | ⟨0, _⟩ => show win2_0.index t (0 : Fin 2) * 5000 + 1 * p.val = n.val; rw [e0, hn]; omega
  | ⟨1, _⟩ => show win2_0.index t (1 : Fin 2) * 64 + 1 * k.val = k.val; rw [e1]; omega

theorem emb2_1 (t : Fin cfg2.N) (p : Fin 5000) (k : Fin 64) (n : Fin 100000) (hn : n.val = 5000 * t.val + p.val) :
    ((cfg2.win 1).blk t).view.emb (ix2 p k) = (ix2 n k : S100000x64.Idx) := by
  obtain ⟨-, -, e0, e1, -⟩ := idx_facts2 t
  funext a; apply Fin.ext
  match a with
  | ⟨0, _⟩ => show win2_1.index t (0 : Fin 2) * 5000 + 1 * p.val = n.val; rw [e0, hn]; omega
  | ⟨1, _⟩ => show win2_1.index t (1 : Fin 2) * 64 + 1 * k.val = k.val; rw [e1]; omega

theorem emb2_2 (t : Fin cfg2.N) (p : Fin 5000) (n : Fin 100000) (hn : n.val = 5000 * t.val + p.val) :
    ((cfg2.win 2).blk t).view.emb (ix2 p (0 : Fin 1)) = (ix2 n (0 : Fin 1) : S100000x1.Idx) := by
  obtain ⟨-, -, -, -, e0, e1, -⟩ := idx_facts2 t
  funext a; apply Fin.ext
  match a with
  | ⟨0, _⟩ => show win2_2.index t (0 : Fin 2) * 5000 + 1 * p.val = n.val; rw [e0, hn]; omega
  | ⟨1, _⟩ => show win2_2.index t (1 : Fin 2) * 1 + 1 * 0 = 0; rw [e1]

theorem emb2_3 (t : Fin cfg2.N) (a' : Fin 32) (k : Fin 64) :
    ((cfg2.win 3).blk t).view.emb (ix2 a' k) = (ix2 a' k : S32x64.Idx) := by
  obtain ⟨-, -, -, -, -, -, e0, e1, -⟩ := idx_facts2 t
  funext a; apply Fin.ext
  match a with
  | ⟨0, _⟩ => show win2_3.index t (0 : Fin 2) * 32 + 1 * a'.val = a'.val; rw [e0]; omega
  | ⟨1, _⟩ => show win2_3.index t (1 : Fin 2) * 64 + 1 * k.val = k.val; rw [e1]; omega

theorem emb2_4 (t : Fin cfg2.N) (a' : Fin 1) (k : Fin 32) :
    ((cfg2.win 4).blk t).view.emb (ix2 a' k) = (ix2 a' k : S1x32.Idx) := by
  obtain ⟨-, -, -, -, -, -, -, -, e0, e1, -⟩ := idx_facts2 t
  funext a; apply Fin.ext
  match a with
  | ⟨0, _⟩ => show win2_4.index t (0 : Fin 2) * 1 + 1 * a'.val = a'.val; rw [e0]; omega
  | ⟨1, _⟩ => show win2_4.index t (1 : Fin 2) * 32 + 1 * k.val = k.val; rw [e1]; omega

theorem emb2_5 (t : Fin cfg2.N) (a' : Fin 32) (k : Fin 64) :
    ((cfg2.win 5).blk t).view.emb (ix2 a' k) = (ix2 a' k : S32x64.Idx) := by
  obtain ⟨-, -, -, -, -, -, -, -, -, -, e0, e1, -⟩ := idx_facts2 t
  funext a; apply Fin.ext
  match a with
  | ⟨0, _⟩ => show win2_5.index t (0 : Fin 2) * 32 + 1 * a'.val = a'.val; rw [e0]; omega
  | ⟨1, _⟩ => show win2_5.index t (1 : Fin 2) * 64 + 1 * k.val = k.val; rw [e1]; omega

theorem emb2_6 (t : Fin cfg2.N) (p : Fin 5000) (k : Fin 32) (n : Fin 100000) (hn : n.val = 5000 * t.val + p.val) :
    ((cfg2.win 6).blk t).view.emb (ix2 p k) = (ix2 n k : S100000x32.Idx) := by
  obtain ⟨-, -, -, -, -, -, -, -, -, -, -, -, e0, e1, -⟩ := idx_facts2 t
  funext a; apply Fin.ext
  match a with
  | ⟨0, _⟩ => show win2_6.index t (0 : Fin 2) * 5000 + 1 * p.val = n.val; rw [e0, hn]; omega
  | ⟨1, _⟩ => show win2_6.index t (1 : Fin 2) * 32 + 1 * k.val = k.val; rw [e1]; omega

theorem emb2_7 (t : Fin cfg2.N) (a' : Fin 1) (k : Fin 32) :
    ((cfg2.win 7).blk t).view.emb (ix2 a' k) = (ix2 a' k : S1x32.Idx) := by
  obtain ⟨-, -, -, -, -, -, -, -, -, -, -, -, -, -, e0, e1, -⟩ := idx_facts2 t
  funext a; apply Fin.ext
  match a with
  | ⟨0, _⟩ => show win2_7.index t (0 : Fin 2) * 1 + 1 * a'.val = a'.val; rw [e0]; omega
  | ⟨1, _⟩ => show win2_7.index t (1 : Fin 2) * 32 + 1 * k.val = k.val; rw [e1]; omega

theorem emb2_8 (t : Fin cfg2.N) (a' : Fin 1) (k : Fin 32) :
    ((cfg2.win 8).blk t).view.emb (ix2 a' k) = (ix2 a' k : S1x32.Idx) := by
  obtain ⟨-, -, -, -, -, -, -, -, -, -, -, -, -, -, -, -, e0, e1⟩ := idx_facts2 t
  funext a; apply Fin.ext
  match a with
  | ⟨0, _⟩ => show win2_8.index t (0 : Fin 2) * 1 + 1 * a'.val = a'.val; rw [e0]; omega
  | ⟨1, _⟩ => show win2_8.index t (1 : Fin 2) * 32 + 1 * k.val = k.val; rw [e1]; omega

/-! ## The written blocks cover the outputs -/

/-- Row `r` of the tall output lies in the block written at tile `r / 5000`. -/
theorem cover2_6 (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, -, -, -, -, -, -, -, -, e0, e1, -⟩ := idx_facts2 t
  refine ⟨t, flush2_6 t, ?_⟩
  show i ∈ ((View.whole main_v45_0).slice (win2_6.rect t)).set
  rw [View.set_slice_whole, Rect.mem_set_unit]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 32 ≤ (i 1).val ∧ (i 1).val < win2_6.index t (1 : Fin 2) * 32 + 32
    rw [e1]; omega

/-- The one resident row 7 is written back at the last tile, whose block is the whole row. -/
theorem cover2_7 (i : S1x32.Idx) :
    ∃ t : Fin cfg2.N, (cfg2.win 7).flush t = true ∧ i ∈ ((cfg2.win 7).blk t).view.set := by
  have hi0 : (i 0).val < 1 := (i 0).isLt
  have hi1 : (i 1).val < 32 := (i 1).isLt
  obtain ⟨t, ht⟩ : ∃ t : Fin cfg2.N, t.val = 19 := ⟨⟨19, lt_of_lt_of_eq (by omega) N_2.symm⟩, rfl⟩
  obtain ⟨-, -, -, -, -, -, -, -, -, -, -, -, -, -, e0, e1, -⟩ := idx_facts2 t
  refine ⟨t, (flush2_7 t).mpr (by rw [ht]), ?_⟩
  show i ∈ ((View.whole main_v45_1).slice (win2_7.rect t)).set
  rw [View.set_slice_whole, Rect.mem_set_unit]
  intro a
  match a with
  | ⟨0, _⟩ =>
    show win2_7.index t (0 : Fin 2) * 1 ≤ (i 0).val ∧ (i 0).val < win2_7.index t (0 : Fin 2) * 1 + 1
    rw [e0]; omega
  | ⟨1, _⟩ =>
    show win2_7.index t (1 : Fin 2) * 32 ≤ (i 1).val ∧ (i 1).val < win2_7.index t (1 : Fin 2) * 32 + 32
    rw [e1]; omega

/-- The one resident row 8 is written back at the last tile, whose block is the whole row. -/
theorem cover2_8 (i : S1x32.Idx) :
    ∃ t : Fin cfg2.N, (cfg2.win 8).flush t = true ∧ i ∈ ((cfg2.win 8).blk t).view.set := by
  have hi0 : (i 0).val < 1 := (i 0).isLt
  have hi1 : (i 1).val < 32 := (i 1).isLt
  obtain ⟨t, ht⟩ : ∃ t : Fin cfg2.N, t.val = 19 := ⟨⟨19, lt_of_lt_of_eq (by omega) N_2.symm⟩, rfl⟩
  obtain ⟨-, -, -, -, -, -, -, -, -, -, -, -, -, -, -, -, e0, e1⟩ := idx_facts2 t
  refine ⟨t, (flush2_8 t).mpr (by rw [ht]), ?_⟩
  show i ∈ ((View.whole main_v45_2).slice (win2_8.rect t)).set
  rw [View.set_slice_whole, Rect.mem_set_unit]
  intro a
  match a with
  | ⟨0, _⟩ =>
    show win2_8.index t (0 : Fin 2) * 1 ≤ (i 0).val ∧ (i 0).val < win2_8.index t (0 : Fin 2) * 1 + 1
    rw [e0]; omega
  | ⟨1, _⟩ =>
    show win2_8.index t (1 : Fin 2) * 32 ≤ (i 1).val ∧ (i 1).val < win2_8.index t (1 : Fin 2) * 32 + 32
    rw [e1]; omega

end Cert.KernelIdeal.Vals

end
-- ==== Proof.Val2Piece6.lean ====
import proofs.«158263_j27642409517219_1_alg».proof.Proof.Reg2
import Idealize.ShloMosaic.Lib.Pipeline.Value
import Idealize.ShloMosaic.Lib.ValueIdx
import Idealize.ShloMosaic.Lib.Tactic

/-! # What each control case of the second node-linear body leaves in the layer-output tile

Running the body found, per control case (first, middle, last tile), the list of pieces its stores left in the tile of
the layer output. Each list is one whole-buffer store; read back, the buffer holds the tile's linear part of the six
input blocks, whatever the case and whatever the running sums were. Stated for any float instance. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.Tactic
open Idealize.SL.Sem
open Idealize.ShloMosaic.Pipeline (Dat)

variable {F : FTy → Type} [FloatOps F]

/-- The zero offsets of a whole-buffer access, as the constant function. -/
theorem hz2 : (![0, 0] : Fin 2 → Nat) = fun _ => 0 := funext fun a => by fin_cases a <;> rfl

/-- The first tile's output block is the linear part of its six input blocks. -/
theorem piece2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) :
    out2_A_6 c i arg1 harg1 arg2 harg2 arg3 harg3 arg4 harg4 arg5 harg5 arg6 harg6 arg7 harg7 arg8 harg8 arg9 harg9 arg10 harg10 arg11 harg11 hc0 hc1 x0 x1 x2 x3 x4 x5 = k2_pay4 x1 x2 x3 x4 x0 x5 := by
  unfold out2_A_6
  rw [View.read_writes_eq_canon _ _ _ (cover2_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  try sl_unfold_words
  try dsimp only
  rw [View.canon_unit_zero (S := S5000x32) hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- A middle tile's output block is the linear part of its six input blocks. -/
theorem piece2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    out2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay4 x1 x2 x3 x4 x0 x5 := by
  unfold out2_B_6
  rw [View.read_writes_eq_canon _ _ _ (cover2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  try sl_unfold_words
  try dsimp only
  rw [View.canon_unit_zero (S := S5000x32) hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- The last tile's output block is the linear part of its six input blocks. -/
theorem piece2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    out2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay4 x1 x2 x3 x4 x0 x5 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  try sl_unfold_words
  try dsimp only
  rw [View.canon_unit_zero (S := S5000x32) hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

end Cert.KernelIdeal.Vals

end
-- ==== Proof.Val2.lean ====
import proofs.«158263_j27642409517219_1_alg».proof.Proof.Val2Pay
import proofs.«158263_j27642409517219_1_alg».proof.Proof.Val2Blk
import proofs.«158263_j27642409517219_1_alg».proof.Proof.Val2Piece6
import proofs.«158263_j27642409517219_1_alg».proof.Proof.Spec

/-! # The second node-linear call at the extended reals: the layer output it leaves

With `x`, `agg` the two [100000, 64] arrays the region finds in its first two operands, `d` the [100000, 1] column in
the third, `Wl`, `Wr` the two [32, 64] matrices in the fourth and sixth and `b` the [1, 32] row in the fifth, the region
leaves in its tall output, at row `n` and column `j`,
`(Σ_k (agg n k * d n) * Wl j k) + b j + Σ_k x n k * Wr j k`: whatever the control case, tile `t` writes rows
`5000 t … 5000 t + 4999` of exactly that function, and the twenty blocks cover the rows. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

/-- The linear part at a row uses that row and the weights alone. -/
theorem lin_congr {N N' d H : ℕ} (x agg : Fin N → Fin d → EReal) (invd : Fin N → EReal)
    (Wl : Fin H → Fin d → EReal) (b : Fin H → EReal) (Wr : Fin H → Fin d → EReal)
    (x' agg' : Fin N' → Fin d → EReal) (invd' : Fin N' → EReal)
    (Wl' : Fin H → Fin d → EReal) (b' : Fin H → EReal) (Wr' : Fin H → Fin d → EReal)
    (n : Fin N) (n' : Fin N') (hx : ∀ k, x n k = x' n' k) (hagg : ∀ k, agg n k = agg' n' k) (hinvd : invd n = invd' n')
    (hWl : ∀ j k, Wl j k = Wl' j k) (hb : ∀ j, b j = b' j) (hWr : ∀ j k, Wr j k = Wr' j k) (j : Fin H) :
    Cert.Sage.lin x agg invd Wl b Wr n j = Cert.Sage.lin x' agg' invd' Wl' b' Wr' n' j := by
  unfold Cert.Sage.lin
  simp only [hx, hagg, hinvd, hWl, hb, hWr]

section
-- the contents of every buffer of the core when the region is entered
variable (V : (c : Dev nD) → (b : Ref sig .tc) → Buf (Elt Ideal) ((c : Thread nD τ).loc b))

/-- Whatever the control case, the tile of the layer output holds, after tile `t`, the linear part of tile `t`'s
    six input blocks. -/
theorem after2_6_eq (c : Dev nD) (t : Fin cfg2.N) :
    (dat2 (F := Ideal) V c).after 6 t
      = k2_pay4 (F := Ideal) (iblk2 V c 1 t) (iblk2 V c 2 t) (iblk2 V c 3 t) (iblk2 V c 4 t) (iblk2 V c 0 t) (iblk2 V c 5 t) := by
  rw [after2_6]
  by_cases hz : t.val = 0
  · rw [outsAt2_A V c t hz]
    dsimp only [caseA2]
    exact piece2_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (cond2_0_of_eq t hz) (not_cond2_1_of_eq t hz) (iblk2 V c 0 t) (iblk2 V c 1 t) (iblk2 V c 2 t) (iblk2 V c 3 t) (iblk2 V c 4 t) (iblk2 V c 5 t)
  · by_cases h1 : t.val % 20 = 19
    · rw [outsAt2_C V c t hz h1]
      dsimp only [caseC2]
      exact piece2_C_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (not_cond2_0_of_ne t hz) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2
    · rw [outsAt2_B V c t hz h1]
      dsimp only [caseB2]
      exact piece2_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (not_cond2_0_of_ne t hz) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- The arrays the region finds in its six input operands, as functions of an index. -/
def in2_0 (c : Dev nD) : S100000x64.Idx → EReal := V c (Pipeline.arrRef spec2 0)
def in2_1 (c : Dev nD) : S100000x64.Idx → EReal := V c (Pipeline.arrRef spec2 1)
def in2_2 (c : Dev nD) : S100000x1.Idx → EReal := V c (Pipeline.arrRef spec2 2)
def in2_3 (c : Dev nD) : S32x64.Idx → EReal := V c (Pipeline.arrRef spec2 3)
def in2_4 (c : Dev nD) : S1x32.Idx → EReal := V c (Pipeline.arrRef spec2 4)
def in2_5 (c : Dev nD) : S32x64.Idx → EReal := V c (Pipeline.arrRef spec2 5)

/-- The layer's linear part of the arrays found, as a function of row and column. -/
def lin2 (c : Dev nD) : Fin 100000 → Fin 32 → EReal :=
  Cert.Sage.lin (fun n k => in2_0 V c (ix2 n k)) (fun n k => in2_1 V c (ix2 n k))
    (fun n => in2_2 V c (ix2 n (0 : Fin 1))) (fun j k => in2_3 V c (ix2 j k)) (fun j => in2_4 V c (ix2 (0 : Fin 1) j))
    (fun j k => in2_5 V c (ix2 j k))

/-- The tall output as one function of the index. -/
def G2_6 (c : Dev nD) : S100000x32.Idx → EReal := fun i => lin2 V c (i 0) (i 1)

/-- Entry `(p, q)` of the linear part of tile `t`'s blocks is the linear part of the arrays at row `5000 t + p`. -/
theorem blk2_lin (c : Dev nD) (t : Fin cfg2.N) (p : Fin 5000) (q : Fin 32) (n : Fin 100000) (hn : n.val = 5000 * t.val + p.val) :
    k2_pay4 (F := Ideal) (iblk2 V c 1 t) (iblk2 V c 2 t) (iblk2 V c 3 t) (iblk2 V c 4 t) (iblk2 V c 0 t) (iblk2 V c 5 t) (ix2 p q)
      = lin2 V c n q := by
  refine (pay2_4_apply (iblk2 V c 1 t) (iblk2 V c 2 t) (iblk2 V c 3 t) (iblk2 V c 4 t) (iblk2 V c 0 t) (iblk2 V c 5 t) p q).trans ?_
  refine lin_congr (fun p k => iblk2 V c 0 t (ix2 p k)) (fun p k => iblk2 V c 1 t (ix2 p k)) (fun p => iblk2 V c 2 t (ix2 p (0 : Fin 1)))
    (fun j k => iblk2 V c 3 t (ix2 j k)) (fun j => iblk2 V c 4 t (ix2 (0 : Fin 1) j)) (fun j k => iblk2 V c 5 t (ix2 j k))
    (fun n k => in2_0 V c (ix2 n k)) (fun n k => in2_1 V c (ix2 n k))
    (fun n => in2_2 V c (ix2 n (0 : Fin 1))) (fun j k => in2_3 V c (ix2 j k)) (fun j => in2_4 V c (ix2 (0 : Fin 1) j))
    (fun j k => in2_5 V c (ix2 j k)) p n ?_ ?_ ?_ ?_ ?_ ?_ q
  · intro k
    show in2_0 V c (((cfg2.win 0).blk t).view.emb (ix2 p k)) = _
    rw [emb2_0 t p k n hn]
  · intro k
    show in2_1 V c (((cfg2.win 1).blk t).view.emb (ix2 p k)) = _
    rw [emb2_1 t p k n hn]
  · show in2_2 V c (((cfg2.win 2).blk t).view.emb (ix2 p (0 : Fin 1))) = _
    rw [emb2_2 t p n hn]
  · intro j k
    show in2_3 V c (((cfg2.win 3).blk t).view.emb (ix2 j k)) = _
    rw [emb2_3]
  · intro j
    show in2_4 V c (((cfg2.win 4).blk t).view.emb (ix2 (0 : Fin 1) j)) = _
    rw [emb2_4]
  · intro j k
    show in2_5 V c (((cfg2.win 5).blk t).view.emb (ix2 j k)) = _
    rw [emb2_5]

/-- What tile `t` writes back to the tall output is block `t` of that function. -/
theorem flushed2_6_eq (c : Dev nD) (t : Fin cfg2.N) :
    (dat2 (F := Ideal) V c).flushed 6 t = ((cfg2.win 6).blk t).view.read (Elt Ideal) (G2_6 V c) := by
  show (cfg2.win 6).cut (grid2.coords t) ((dat2 (F := Ideal) V c).after 6 t) = _
  rw [after2_6_eq]
  funext y
  obtain ⟨p, q, rfl⟩ : ∃ (p : Fin 5000) (q : Fin 32), y = ix2 p q := ⟨y 0, y 1, eq_ix2 y⟩
  have ht : t.val < 20 := lt_of_lt_of_eq t.isLt N_2
  have hn : 5000 * t.val + p.val < 100000 := by have := p.isLt; omega
  refine (blk2_lin V c t p q ⟨_, hn⟩ rfl).trans ?_
  show _ = G2_6 V c (((cfg2.win 6).blk t).view.emb (ix2 p q))
  rw [emb2_6 t p q ⟨_, hn⟩ rfl]
  rfl

/-- The tall output the region leaves: every entry the layer's linear part of the arrays found. -/
theorem final2_6 (c : Dev nD) (n : Fin 100000) (j : Fin 32) :
    ((dat2 (F := Ideal) V c).arrAt 6 cfg2.N : S100000x32.Idx → EReal) (ix2 n j)
      = Cert.Sage.lin
          (fun n k => (V c (Pipeline.arrRef spec2 0) : S100000x64.Idx → EReal) (ix2 n k))
          (fun n k => (V c (Pipeline.arrRef spec2 1) : S100000x64.Idx → EReal) (ix2 n k))
          (fun n => (V c (Pipeline.arrRef spec2 2) : S100000x1.Idx → EReal) (ix2 n (0 : Fin 1)))
          (fun j k => (V c (Pipeline.arrRef spec2 3) : S32x64.Idx → EReal) (ix2 j k))
          (fun j => (V c (Pipeline.arrRef spec2 4) : S1x32.Idx → EReal) (ix2 (0 : Fin 1) j))
          (fun j k => (V c (Pipeline.arrRef spec2 5) : S32x64.Idx → EReal) (ix2 j k)) n j := by
  rw [(dat2 (F := Ideal) V c).arrAt_eq_of_cover 6 (G2_6 V c) (fun t _ => flushed2_6_eq V c t) cover2_6]
  rfl

end

end Cert.KernelIdeal.Vals

end
-- ==== Proof.Val2PieceS.lean ====
import proofs.«158263_j27642409517219_1_alg».proof.Proof.Val2Piece6
import Idealize.ShloMosaic.Lib.Pipeline.Value
import Idealize.ShloMosaic.Lib.ValueIdx
import Idealize.ShloMosaic.Lib.Tactic

/-! # What each control case of the second node-linear body leaves in its running sums

Running the body found, per control case (first, middle, last tile), the list of pieces its stores left in the two
scratch rows and, at the last tile, in the two resident rows. Read back: the first scratch row holds the row it held
before (the zero row at the first tile) plus the column sums of the tile's linear part; the second likewise with the
column sums of the squares; at the last tile each resident row receives what its scratch row then holds. Stated for
any float instance. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.Tactic
open Idealize.SL.Sem
open Idealize.ShloMosaic.Pipeline (Dat)

variable {F : FTy → Type} [FloatOps F]

/-- The first tile leaves, in the first scratch row, the zero row plus the column sums of the linear part. -/
theorem piece2_A_s0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) :
    sout2_A_0 c i arg1 harg1 arg2 harg2 arg3 harg3 arg4 harg4 arg5 harg5 arg6 harg6 arg7 harg7 arg8 harg8 arg9 harg9 arg10 harg10 arg11 harg11 hc0 hc1 x0 x1 x2 x3 x4 x5 = k2_pay5 x1 x2 x3 x4 x0 x5 k2_pay2 := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  try sl_unfold_words
  try dsimp only
  rw [View.canon_cons_unit_zero (S := S1x32) hz2, View.readCov_unit_zero (S := S1x32) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- The first tile leaves, in the second scratch row, the zero row plus the column sums of the squares. -/
theorem piece2_A_s1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) :
    sout2_A_1 c i arg1 harg1 arg2 harg2 arg3 harg3 arg4 harg4 arg5 harg5 arg6 harg6 arg7 harg7 arg8 harg8 arg9 harg9 arg10 harg10 arg11 harg11 hc0 hc1 x0 x1 x2 x3 x4 x5 = k2_pay1 (k2_pay4 x1 x2 x3 x4 x0 x5) k2_pay3 := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  try sl_unfold_words
  try dsimp only
  rw [View.canon_cons_unit_zero (S := S1x32) hz2, View.readCov_unit_zero (S := S1x32) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- A middle tile adds the column sums of the linear part onto the first scratch row. -/
theorem piece2_B_s0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    sout2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x1 x2 x3 x4 x0 x5 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  try sl_unfold_words
  try dsimp only
  rw [View.canon_unit_zero (S := S1x32) hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- A middle tile adds the column sums of the squares onto the second scratch row. -/
theorem piece2_B_s1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : ¬cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    sout2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay4 x1 x2 x3 x4 x0 x5) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  try sl_unfold_words
  try dsimp only
  rw [View.canon_unit_zero (S := S1x32) hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- The last tile adds the column sums of the linear part onto the first scratch row. -/
theorem piece2_C_s0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    sout2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x1 x2 x3 x4 x0 x5 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  try sl_unfold_words
  try dsimp only
  rw [View.canon_unit_zero (S := S1x32) hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- The last tile adds the column sums of the squares onto the second scratch row. -/
theorem piece2_C_s1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    sout2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay4 x1 x2 x3 x4 x0 x5) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  try sl_unfold_words
  try dsimp only
  rw [View.canon_unit_zero (S := S1x32) hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- The last tile copies the finished first scratch row into the first resident row. -/
theorem piece2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    out2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x1 x2 x3 x4 x0 x5 xs0 := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  try sl_unfold_words
  try dsimp only
  rw [View.canon_unit_zero (S := S1x32) hz2, View.readCov_unit_zero (S := S1x32) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

/-- The last tile copies the finished second scratch row into the second resident row. -/
theorem piece2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S32x64 .f32) (harg4 : arg4.IsWhole) (arg5 : Memref sig .tc .vmem S1x32 .f32) (harg5 : arg5.IsWhole) (arg6 : Memref sig .tc .vmem S32x64 .f32) (harg6 : arg6.IsWhole) (arg7 : Memref sig .tc .vmem S5000x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (hc0 : ¬cond2_0 i) (hc1 : cond2_1 i)
    (x0 : Vec F S5000x64 .f32) (x1 : Vec F S5000x64 .f32) (x2 : Vec F S5000x1 .f32) (x3 : Vec F S32x64 .f32) (x4 : Vec F S1x32 .f32) (x5 : Vec F S32x64 .f32) (xs0 xs1 : Vec F S1x32 .f32) :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay4 x1 x2 x3 x4 x0 x5) xs1 := by
  unfold out2_C_8
  rw [View.read_writes_eq_canon _ _ _ (cover2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  try sl_unfold_words
  try dsimp only
  rw [View.canon_unit_zero (S := S1x32) hz2, View.readCov_unit_zero (S := S1x32) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S5000x1) hz2, View.ld_unit_zero (S := S32x64) hz2, View.ld_unit_zero (S := S1x32) hz2]

end Cert.KernelIdeal.Vals

end
-- ==== Proof.Val2Final.lean ====
import proofs.«158263_j27642409517219_1_alg».proof.Proof.Val2
import proofs.«158263_j27642409517219_1_alg».proof.Proof.Val2PieceS
import proofs.«158263_j27642409517219_1_alg».proof.Proof.Algebra

/-! # The second node-linear call at the extended reals: the two rows of column sums it leaves

The body keeps two running rows. The first tile sets them to the column sums of its tile of the layer output `h` and of
`h · h` (zero plus the tile's sums); every later tile adds its own tile's sums; the last tile copies the finished rows to
the two resident outputs. So after tile `t` the rows hold the sums over the rows of tiles `0 … t`, by induction on the
tile, and after the last tile the sums over all 100000 rows: a sum over the nodes is the sum over the 20 tiles of the
sums over a tile's 5000 rows. -/

set_option maxRecDepth 16384

noncomputable section

namespace Cert.KernelIdeal.Vals

open Cert.KernelIdeal Cert.KernelIdeal.Gen Cert.KernelIdeal.Regs
open Idealize.ShloMosaic Idealize.ShloMosaic.TcCoe Idealize.ShloMosaic.ValueIdx
open Idealize.SL.Sem
open Idealize.ShloMosaic.Pipeline (Dat)

/-- The sum of `f` over the 5000 rows of tile `s` (zero past the last tile). -/
def tileSum (f : Fin 100000 → EReal) (s : ℕ) : EReal :=
  if h : s < 20 then ∑ p : Fin 5000, f ⟨5000 * s + p.val, by omega⟩ else 0

/-- The 20 tiles' sums add up to the sum over the nodes. -/
theorem tileSum_total (f : Fin 100000 → EReal) : ∑ s ∈ Finset.range 20, tileSum f s = ∑ n, f n := by
  rw [Finset.sum_range, Cert.Sage.sum_nodes_tiles]
  refine Finset.sum_congr rfl fun s _ => ?_
  unfold tileSum
  rw [dif_pos s.isLt]
  exact Finset.sum_congr rfl fun p _ => congrArg f (Fin.ext (by show 5000 * s.val + p.val = s.val * 5000 + p.val; omega))

section
-- the contents of every buffer of the core when the region is entered
variable (V : (c : Dev nD) → (b : Ref sig .tc) → Buf (Elt Ideal) ((c : Thread nD τ).loc b))

/-- The tile of the layer output computed at tile `t`. -/
abbrev tile2 (c : Dev nD) (t : Fin cfg2.N) : FVec Ideal S5000x32 .f32 :=
  k2_pay4 (F := Ideal) (iblk2 V c 1 t) (iblk2 V c 2 t) (iblk2 V c 3 t) (iblk2 V c 4 t) (iblk2 V c 0 t) (iblk2 V c 5 t)

/-- An entry of that tile is the layer's linear part at the tile's row. -/
theorem tile2_apply (c : Dev nD) (t : Fin cfg2.N) (ht : t.val < 20) (p : Fin 5000) (q : Fin 32) :
    tile2 V c t (ix2 p q) = lin2 V c ⟨5000 * t.val + p.val, by have := p.isLt; omega⟩ q :=
  blk2_lin V c t p q _ rfl

/-- Its column sums are the sums of the layer's linear part over the tile's rows, -/
theorem tile2_colsum (c : Dev nD) (t : Fin cfg2.N) (q : Fin 32) :
    ∑ p : Fin 5000, tile2 V c t (ix2 p q) = tileSum (fun m => lin2 V c m q) t.val := by
  have ht : t.val < 20 := lt_of_lt_of_eq t.isLt N_2
  unfold tileSum
  rw [dif_pos ht]
  exact Finset.sum_congr rfl fun p _ => tile2_apply V c t ht p q
/-- and the column sums of its squares the sums of the squares. -/
theorem tile2_colsumsq (c : Dev nD) (t : Fin cfg2.N) (q : Fin 32) :
    ∑ p : Fin 5000, tile2 V c t (ix2 p q) * tile2 V c t (ix2 p q) = tileSum (fun m => lin2 V c m q * lin2 V c m q) t.val := by
  have ht : t.val < 20 := lt_of_lt_of_eq t.isLt N_2
  unfold tileSum
  rw [dif_pos ht]
  exact Finset.sum_congr rfl fun p _ => by rw [tile2_apply V c t ht p q]

/-! ## The running rows, tile by tile -/

/-- After the first tile: zero plus the tile's sums. -/
theorem scr2_first (c : Dev nD) (hn : 0 < cfg2.N) :
    (outsAt2 V c 0 hn).2 = (k2_pay5 (F := Ideal) (iblk2 V c 1 ⟨0, hn⟩) (iblk2 V c 2 ⟨0, hn⟩) (iblk2 V c 3 ⟨0, hn⟩) (iblk2 V c 4 ⟨0, hn⟩) (iblk2 V c 0 ⟨0, hn⟩) (iblk2 V c 5 ⟨0, hn⟩) (k2_pay2 (F := Ideal)), k2_pay1 (F := Ideal) (tile2 V c ⟨0, hn⟩) (k2_pay3 (F := Ideal))) := by
  rw [show outsAt2 V c 0 hn = outsAt2 V c (⟨0, hn⟩ : Fin cfg2.N).val (⟨0, hn⟩ : Fin cfg2.N).isLt from rfl, outsAt2_A V c ⟨0, hn⟩ rfl]
  dsimp only [caseA2]
  exact congrArg₂ Prod.mk
    (piece2_A_s0 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) (cond2_0_of_eq ⟨0, hn⟩ rfl) (not_cond2_1_of_eq ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
    (piece2_A_s1 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) (cond2_0_of_eq ⟨0, hn⟩ rfl) (not_cond2_1_of_eq ⟨0, hn⟩ rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))

/-- After a later tile: what the tile before left plus the tile's sums, in both later cases. -/
theorem scr2_next (c : Dev nD) (n : ℕ) (hn : n + 1 < cfg2.N) :
    (outsAt2 V c (n + 1) hn).2 = (k2_pay5 (F := Ideal) (iblk2 V c 1 ⟨n + 1, hn⟩) (iblk2 V c 2 ⟨n + 1, hn⟩) (iblk2 V c 3 ⟨n + 1, hn⟩) (iblk2 V c 4 ⟨n + 1, hn⟩) (iblk2 V c 0 ⟨n + 1, hn⟩) (iblk2 V c 5 ⟨n + 1, hn⟩) (outsAt2 V c n (Nat.lt_of_succ_lt hn)).2.1, k2_pay1 (F := Ideal) (tile2 V c ⟨n + 1, hn⟩) (outsAt2 V c n (Nat.lt_of_succ_lt hn)).2.2) := by
  rw [show outsAt2 V c (n + 1) hn = outsAt2 V c (⟨n + 1, hn⟩ : Fin cfg2.N).val (⟨n + 1, hn⟩ : Fin cfg2.N).isLt from rfl]
  by_cases h1 : (n + 1) % 20 = 19
  · rw [outsAt2_C V c ⟨n + 1, hn⟩ (Nat.succ_ne_zero n) h1]
    dsimp only [caseC2]
    exact congrArg₂ Prod.mk
      (piece2_C_s0 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (not_cond2_0_of_ne ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2)
      (piece2_C_s1 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (not_cond2_0_of_ne ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2)
  · rw [outsAt2_B V c ⟨n + 1, hn⟩ (Nat.succ_ne_zero n) h1]
    dsimp only [caseB2]
    exact congrArg₂ Prod.mk
      (piece2_B_s0 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (not_cond2_0_of_ne ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2)
      (piece2_B_s1 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (not_cond2_0_of_ne ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2)

/-- At the last tile the two resident rows receive the finished running rows. -/
theorem res2_last (c : Dev nD) (n : ℕ) (hn : n + 1 < cfg2.N) (h1 : (n + 1) % 20 = 19) :
    (outsAt2 V c (n + 1) hn).1.2 = (k2_pay5 (F := Ideal) (iblk2 V c 1 ⟨n + 1, hn⟩) (iblk2 V c 2 ⟨n + 1, hn⟩) (iblk2 V c 3 ⟨n + 1, hn⟩) (iblk2 V c 4 ⟨n + 1, hn⟩) (iblk2 V c 0 ⟨n + 1, hn⟩) (iblk2 V c 5 ⟨n + 1, hn⟩) (outsAt2 V c n (Nat.lt_of_succ_lt hn)).2.1, k2_pay1 (F := Ideal) (tile2 V c ⟨n + 1, hn⟩) (outsAt2 V c n (Nat.lt_of_succ_lt hn)).2.2) := by
  rw [show outsAt2 V c (n + 1) hn = outsAt2 V c (⟨n + 1, hn⟩ : Fin cfg2.N).val (⟨n + 1, hn⟩ : Fin cfg2.N).isLt from rfl, outsAt2_C V c ⟨n + 1, hn⟩ (Nat.succ_ne_zero n) h1]
  dsimp only [caseC2]
  exact congrArg₂ Prod.mk
    (piece2_C_7 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (not_cond2_0_of_ne ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2)
    (piece2_C_8 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (not_cond2_0_of_ne ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2)

/-- One step of each running row at feature `q`: the carried entry plus the tile's column sum. -/
theorem step2_sum (c : Dev nD) (t : Fin cfg2.N) (r : FVec Ideal S1x32 .f32) (q : Fin 32) :
    k2_pay5 (F := Ideal) (iblk2 V c 1 t) (iblk2 V c 2 t) (iblk2 V c 3 t) (iblk2 V c 4 t) (iblk2 V c 0 t) (iblk2 V c 5 t) r (ix2 (0 : Fin 1) q)
      = r (ix2 (0 : Fin 1) q) + tileSum (fun m => lin2 V c m q) t.val :=
  (pay2_5_apply (iblk2 V c 1 t) (iblk2 V c 2 t) (iblk2 V c 3 t) (iblk2 V c 4 t) (iblk2 V c 0 t) (iblk2 V c 5 t) r q).trans (congrArg (r (ix2 (0 : Fin 1) q) + ·) (tile2_colsum V c t q))
theorem step2_sumsq (c : Dev nD) (t : Fin cfg2.N) (r : FVec Ideal S1x32 .f32) (q : Fin 32) :
    k2_pay1 (F := Ideal) (tile2 V c t) r (ix2 (0 : Fin 1) q)
      = r (ix2 (0 : Fin 1) q) + tileSum (fun m => lin2 V c m q * lin2 V c m q) t.val :=
  (pay2_1_apply (tile2 V c t) r q).trans (congrArg (r (ix2 (0 : Fin 1) q) + ·) (tile2_colsumsq V c t q))

/-- THE INVARIANT: after tile `n` the running rows hold the sums over tiles `0 … n`. -/
theorem sums2_inv (c : Dev nD) (q : Fin 32) : ∀ (n : ℕ) (hn : n < cfg2.N),
    (outsAt2 V c n hn).2.1 (ix2 (0 : Fin 1) q) = ∑ s ∈ Finset.range (n + 1), tileSum (fun m => lin2 V c m q) s
    ∧ (outsAt2 V c n hn).2.2 (ix2 (0 : Fin 1) q) = ∑ s ∈ Finset.range (n + 1), tileSum (fun m => lin2 V c m q * lin2 V c m q) s
  | 0, hn => by
    have e := scr2_first V c hn
    refine ⟨(congrFun (congrArg Prod.fst e) _).trans ?_, (congrFun (congrArg Prod.snd e) _).trans ?_⟩
    · refine (step2_sum V c ⟨0, hn⟩ (k2_pay2 (F := Ideal)) q).trans ?_
      rw [pay2_2_apply, Finset.sum_range_succ, Finset.sum_range_zero]
    · refine (step2_sumsq V c ⟨0, hn⟩ (k2_pay3 (F := Ideal)) q).trans ?_
      rw [pay2_3_apply, Finset.sum_range_succ, Finset.sum_range_zero]
  | n + 1, hn => by
    obtain ⟨ih1, ih2⟩ := sums2_inv c q n (Nat.lt_of_succ_lt hn)
    have e := scr2_next V c n hn
    refine ⟨(congrFun (congrArg Prod.fst e) _).trans ?_, (congrFun (congrArg Prod.snd e) _).trans ?_⟩
    · refine (step2_sum V c ⟨n + 1, hn⟩ _ q).trans ?_
      rw [ih1, Finset.sum_range_succ _ (n + 1)]
    · refine (step2_sumsq V c ⟨n + 1, hn⟩ _ q).trans ?_
      rw [ih2, Finset.sum_range_succ _ (n + 1)]

/-! ## The two resident rows -/

/-- The two resident rows as functions of the index: the column sums of the layer's linear part, and of its square. -/
def G2_7 (c : Dev nD) : S1x32.Idx → EReal := fun i => Cert.Sage.colSum (lin2 V c) (i 1)
def G2_8 (c : Dev nD) : S1x32.Idx → EReal := fun i => Cert.Sage.colSumSq (lin2 V c) (i 1)

/-- Each resident row at feature `q`, by definition. -/
theorem G2_7_apply (c : Dev nD) (q : Fin 32) : G2_7 V c (ix2 (0 : Fin 1) q) = Cert.Sage.colSum (lin2 V c) q := rfl
theorem G2_8_apply (c : Dev nD) (q : Fin 32) : G2_8 V c (ix2 (0 : Fin 1) q) = Cert.Sage.colSumSq (lin2 V c) q := rfl

/-- What the resident rows receive at the last tile, at feature `q`: the sums over all twenty tiles. -/
theorem last2 (c : Dev nD) (n : ℕ) (hn : n + 1 < cfg2.N) (h19 : (n + 1) % 20 = 19) (q : Fin 32) :
    (outsAt2 V c (n + 1) hn).1.2.1 (ix2 (0 : Fin 1) q) = Cert.Sage.colSum (lin2 V c) q
    ∧ (outsAt2 V c (n + 1) hn).1.2.2 (ix2 (0 : Fin 1) q) = Cert.Sage.colSumSq (lin2 V c) q := by
  have hN : n + 1 < 20 := lt_of_lt_of_eq hn N_2
  have h20 : n + 1 + 1 = 20 := by omega
  have e := res2_last V c n hn h19
  obtain ⟨ih1, ih2⟩ := sums2_inv V c q n (Nat.lt_of_succ_lt hn)
  refine ⟨(congrFun (congrArg Prod.fst e) _).trans ?_, (congrFun (congrArg Prod.snd e) _).trans ?_⟩
  · refine (step2_sum V c ⟨n + 1, hn⟩ _ q).trans ?_
    rw [ih1, ← Finset.sum_range_succ _ (n + 1), h20]
    exact tileSum_total _
  · refine (step2_sumsq V c ⟨n + 1, hn⟩ _ q).trans ?_
    rw [ih2, ← Finset.sum_range_succ _ (n + 1), h20]
    exact tileSum_total _

/-- The same with the tile named as a grid point. -/
theorem last2_at (c : Dev nD) (t : Fin cfg2.N) (h19 : t.val % 20 = 19) (q : Fin 32) :
    (outsAt2 V c t.val t.isLt).1.2.1 (ix2 (0 : Fin 1) q) = Cert.Sage.colSum (lin2 V c) q
    ∧ (outsAt2 V c t.val t.isLt).1.2.2 (ix2 (0 : Fin 1) q) = Cert.Sage.colSumSq (lin2 V c) q := by
  obtain ⟨tv, htv⟩ := t
  have h19' : tv % 20 = 19 := h19
  obtain ⟨n, rfl⟩ : ∃ n, tv = n + 1 := ⟨tv - 1, by omega⟩
  exact last2 V c n htv h19' q

/-- A resident row's block is the whole row: read through it, any contents of the row are themselves. -/
theorem read2_7 (G : S1x32.Idx → EReal) (t : Fin cfg2.N) (q : Fin 32) :
    ((cfg2.win 7).blk t).view.read (Elt Ideal) G (ix2 (0 : Fin 1) q) = G (ix2 (0 : Fin 1) q) := by
  show G (((cfg2.win 7).blk t).view.emb (ix2 (0 : Fin 1) q)) = _
  rw [emb2_7]
theorem read2_8 (G : S1x32.Idx → EReal) (t : Fin cfg2.N) (q : Fin 32) :
    ((cfg2.win 8).blk t).view.read (Elt Ideal) G (ix2 (0 : Fin 1) q) = G (ix2 (0 : Fin 1) q) := by
  show G (((cfg2.win 8).blk t).view.emb (ix2 (0 : Fin 1) q)) = _
  rw [emb2_8]

theorem flushed2_7_eq (c : Dev nD) (t : Fin cfg2.N) (hf : (cfg2.win 7).flush t = true) :
    (dat2 (F := Ideal) V c).flushed 7 t = ((cfg2.win 7).blk t).view.read (Elt Ideal) (G2_7 V c) := by
  have h19 : t.val % 20 = 19 := (flush2_7 t).mp hf
  show (cfg2.win 7).cut (grid2.coords t) ((dat2 (F := Ideal) V c).after 7 t) = _
  rw [after2_7]
  funext y
  obtain ⟨a', q, rfl⟩ : ∃ (a' : Fin 1) (q : Fin 32), y = ix2 a' q := ⟨y 0, y 1, eq_ix2 y⟩
  obtain rfl : a' = 0 := Subsingleton.elim _ _
  refine ((last2_at V c t h19 q).1).trans ?_
  rw [read2_7 (G2_7 V c) t q]
  exact (G2_7_apply V c q).symm

theorem flushed2_8_eq (c : Dev nD) (t : Fin cfg2.N) (hf : (cfg2.win 8).flush t = true) :
    (dat2 (F := Ideal) V c).flushed 8 t = ((cfg2.win 8).blk t).view.read (Elt Ideal) (G2_8 V c) := by
  have h19 : t.val % 20 = 19 := (flush2_8 t).mp hf
  show (cfg2.win 8).cut (grid2.coords t) ((dat2 (F := Ideal) V c).after 8 t) = _
  rw [after2_8]
  funext y
  obtain ⟨a', q, rfl⟩ : ∃ (a' : Fin 1) (q : Fin 32), y = ix2 a' q := ⟨y 0, y 1, eq_ix2 y⟩
  obtain rfl : a' = 0 := Subsingleton.elim _ _
  refine ((last2_at V c t h19 q).2).trans ?_
  rw [read2_8 (G2_8 V c) t q]
  exact (G2_8_apply V c q).symm

theorem final2_7_lin2 (c : Dev nD) (j : Fin 32) :
    ((dat2 (F := Ideal) V c).arrAt 7 cfg2.N : S1x32.Idx → EReal) (ix2 (0 : Fin 1) j) = Cert.Sage.colSum (lin2 V c) j := by
  rw [(dat2 (F := Ideal) V c).arrAt_eq_of_cover 7 (G2_7 V c) (flushed2_7_eq V c) cover2_7]
  exact G2_7_apply V c j
theorem final2_8_lin2 (c : Dev nD) (j : Fin 32) :
    ((dat2 (F := Ideal) V c).arrAt 8 cfg2.N : S1x32.Idx → EReal) (ix2 (0 : Fin 1) j) = Cert.Sage.colSumSq (lin2 V c) j := by
  rw [(dat2 (F := Ideal) V c).arrAt_eq_of_cover 8 (G2_8 V c) (flushed2_8_eq V c) cover2_8]
  exact G2_8_apply V c j

/-- The first resident row the region leaves: the column sums, over the 100000 nodes, of the layer's linear part of the
    arrays found. -/
theorem final2_7 (c : Dev nD) (j : Fin 32) :
    ((dat2 (F := Ideal) V c).arrAt 7 cfg2.N : S1x32.Idx → EReal) (ix2 (0 : Fin 1) j)
      = Cert.Sage.colSum (Cert.Sage.lin
          (fun n k => (V c (Pipeline.arrRef spec2 0) : S100000x64.Idx → EReal) (ix2 n k))
          (fun n k => (V c (Pipeline.arrRef spec2 1) : S100000x64.Idx → EReal) (ix2 n k))
          (fun n => (V c (Pipeline.arrRef spec2 2) : S100000x1.Idx → EReal) (ix2 n (0 : Fin 1)))
          (fun j k => (V c (Pipeline.arrRef spec2 3) : S32x64.Idx → EReal) (ix2 j k))
          (fun j => (V c (Pipeline.arrRef spec2 4) : S1x32.Idx → EReal) (ix2 (0 : Fin 1) j))
          (fun j k => (V c (Pipeline.arrRef spec2 5) : S32x64.Idx → EReal) (ix2 j k))) j :=
  final2_7_lin2 V c j

/-- The second resident row: the column sums of its squares. -/
theorem final2_8 (c : Dev nD) (j : Fin 32) :
    ((dat2 (F := Ideal) V c).arrAt 8 cfg2.N : S1x32.Idx → EReal) (ix2 (0 : Fin 1) j)
      = Cert.Sage.colSumSq (Cert.Sage.lin
          (fun n k => (V c (Pipeline.arrRef spec2 0) : S100000x64.Idx → EReal) (ix2 n k))
          (fun n k => (V c (Pipeline.arrRef spec2 1) : S100000x64.Idx → EReal) (ix2 n k))
          (fun n => (V c (Pipeline.arrRef spec2 2) : S100000x1.Idx → EReal) (ix2 n (0 : Fin 1)))
          (fun j k => (V c (Pipeline.arrRef spec2 3) : S32x64.Idx → EReal) (ix2 j k))
          (fun j => (V c (Pipeline.arrRef spec2 4) : S1x32.Idx → EReal) (ix2 (0 : Fin 1) j))
          (fun j k => (V c (Pipeline.arrRef spec2 5) : S32x64.Idx → EReal) (ix2 j k))) j :=
  final2_8_lin2 V c j

end

end Cert.KernelIdeal.Vals

end
-- ==== Proof.JoinTop.lean ====
/-
  The algebraic claim. The kernel's run names its result array; the reference's run ends at its result term of its own
  arguments, which agree with the kernel's; under the precondition every float argument is real; so the two result
  arrays are equal, element by element.
-/
import proofs.«158263_j27642409517219_1_alg».proof.Proof.Join
import proofs.«158263_j27642409517219_1_alg».proof.Proof.Val0Final
import proofs.«158263_j27642409517219_1_alg».proof.Proof.Val2Final

set_option maxRecDepth 16384

noncomputable section

namespace Cert.Join

open Idealize.ShloMosaic Idealize.ShloMosaic.TcCoe Idealize.ShloMosaic.ValueIdx Idealize.SL.Sem
open Cert.Sage Cert.Gcn
open Cert.KernelIdeal Cert.KernelIdeal.Regs Cert.KernelIdeal.Vals

theorem algebraic : Cert.algebraic_KernelIdeal_ReferenceIdeal := by
  intro m ρ m' ρ' hpre hagree
  refine ⟨fun c => K_out m ρ c, run_out (F := Ideal) m ρ, ?_⟩
  refine (θ_run (Cert.ReferenceIdeal.defs (F := Ideal)) _ _).mono (fun _ h c => ⟨(h c).1.trans ?_, (h c).2⟩)
    (Cert.ReferenceIdeal.RefRun.run (F := Ideal) m' ρ')
  obtain ⟨a0, a1, a2, a3, a4, a5, a6, a7, a8, a9, a10, a11, a12, a13, a14⟩ := hagree c
  obtain ⟨r0, r2, r3, r4, r5, r6, r7, r8, r9, r10, r11, r12, r13, r14⟩ := Cert.Finite.real_of_pre _ _ _ _ _ _ _ _ _ _ _ _ _ _ _ (hpre c)
  have hres : Cert.ReferenceIdeal.RefRun.res (F := Ideal) m' c
      = Cert.ReferenceIdeal.RefRun.out (F := Ideal) (Kx m c) (Ke m c) (W1l m c) (b1l m c) (W1r m c) (g1 m c) (beta1 m c) (W2l m c) (b2l m c) (W2r m c) (g2 m c) (beta2 m c) (W3l m c) (b3l m c) (W3r m c) := by
    unfold Cert.ReferenceIdeal.RefRun.res
    rw [a0, a1, a2, a3, a4, a5, a6, a7, a8, a9, a10, a11, a12, a13, a14]
  rw [hres]
  exact (out_eq_of m ρ c
    (fun n j => final0_6 (V1 m ρ) c n j) (fun j => final0_7 (V1 m ρ) c j) (fun j => final0_8 (V1 m ρ) c j)
    (fun n j => final2_6 (V5 m ρ) c n j) (fun j => final2_7 (V5 m ρ) c j) (fun j => final2_8 (V5 m ρ) c j)
    r0 r2 r3 r4 r5 r6 r7 r8 r9 r10 r11).symm

end Cert.Join

end
-- ==== Proof.lean ====
/- The certificate's claim: the word-level kernel, its idealization and the idealized reference each run to the end without
   fault and leave their fifteen argument arrays unchanged; the idealization rewrote nothing; and the two idealized
   programs, from memories agreeing on the arguments, end with equal results.
   The kernel is three mean-aggregating graph layers over 100000 nodes and 1600000 edges in five tiled calls: two calls that
   compute a layer's linear part tile by tile while accumulating its column sums and sums of squares in two scratch rows,
   each followed by a call that normalises by the batch statistics taken from those sums, scales, shifts and rectifies,
   and a last call that computes the third linear part and its row-wise log-softmax. The frames are the five calls' proof
   data under the several-region launch theorem, once at each instance. The equality of results is read layer by layer:
   the kernel multiplies by the reciprocal clamped degree where the reference divides by the clamped degree, and takes
   the variance as mean square less squared mean where the reference takes the mean squared deviation; both agree on
   real entries, which the precondition provides. -/
import proofs.«158263_j27642409517219_1_alg».proof.Defs
import proofs.«158263_j27642409517219_1_alg».proof.Proof.KRun5
import proofs.«158263_j27642409517219_1_alg».proof.Proof.Run5
import proofs.«158263_j27642409517219_1_alg».proof.Proof.RefRun
import proofs.«158263_j27642409517219_1_alg».proof.Proof.JoinTop
import proofs.«158263_j27642409517219_1_alg».proof.Proof.Gen.Kernel
import proofs.«158263_j27642409517219_1_alg».proof.Proof.Gen.KernelIdeal
import proofs.«158263_j27642409517219_1_alg».proof.Proof.Gen.ReferenceIdeal
import proofs.«158263_j27642409517219_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Regs.frame (F := Bits) m ρ,
    fun m ρ _ => Cert.KernelIdeal.Regs.frame (F := Ideal) m ρ,
    fun m ρ _ => (θ_run (Cert.ReferenceIdeal.defs (F := Ideal)) _ _).mono (fun _ h c => (h c).2)
      (Cert.ReferenceIdeal.RefRun.run (F := Ideal) m ρ),
    trivial,
    Cert.Join.algebraic⟩

end Cert.Proof

end
